-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg15 : FVec F S128 .f32) (main_arg16 : FVec F S128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x1 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S256 .f32) (main_arg13 : FVec F S256 .f32) (main_arg14 : FVec F S256x128 .f32) (main_arg15 : FVec F S128 .f32) (main_arg16 : FVec F S128 .f32) (main_arg17 : FVec F S128 .f32) (main_arg18 : FVec F S128x1 .f32) (main_arg19 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg15 main_arg16 main_arg17 main_arg18 main_arg19 main_v63 main_v67

def fn_part2 {F : FTy → Type} [FloatOps F] (main_arg8 : FVec F S128 .f32) (main_arg9 : FVec F S128 .f32) (main_arg10 : FVec F S128x256 .f32) (main_arg11 : FVec F S256 .f32) (main_arg12 : FVec F S256 .f32) (main_arg13 : FVec F S256 .f32) (main_arg14 : FVec F S256x128 .f32) (main_arg15 : FVec F S128 .f32) (main_arg16 : FVec F S128 .f32) (main_arg17 : FVec F S128 .f32) (main_arg18 : FVec F S128x1 .f32) (main_arg19 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x256 .f32) (main_arg11 : FVec F S256 .f32) (main_arg12 : FVec F S256 .f32) (main_arg13 : FVec F S256 .f32) (main_arg14 : FVec F S256x128 .f32) (main_arg15 : FVec F S128 .f32) (main_arg16 : FVec F S128 .f32) (main_arg17 : FVec F S128 .f32) (main_arg18 : FVec F S128x1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x256 .f32) (main_arg11 : FVec F S256 .f32) (main_arg12 : FVec F S256 .f32) (main_arg13 : FVec F S256 .f32) (main_arg14 : FVec F S256x128 .f32) (main_arg15 : FVec F S128 .f32) (main_arg16 : FVec F S128 .f32) (main_arg17 : FVec F S128 .f32) (main_arg18 : FVec F S128x1 .f32) (main_arg19 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S1x256 : Shape := ⟨2, ![1, 256]⟩
abbrev S100000x256 : Shape := ⟨2, ![100000, 256]⟩
abbrev S5000x256 : Shape := ⟨2, ![5000, 256]⟩
abbrev S1x1 : Shape := ⟨2, ![1, 1]⟩

abbrev nBuf : Space → Nat
  | .hbm => 157
  | .vmem => 86
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x256, .f32⟩
  | 11 => ⟨S256, .f32⟩
  | 12 => ⟨S256, .f32⟩
  | 13 => ⟨S256, .f32⟩
  | 14 => ⟨S256x128, .f32⟩
  | 15 => ⟨S128, .f32⟩
  | 16 => ⟨S128, .f32⟩
  | 17 => ⟨S128, .f32⟩
  | 18 => ⟨S128x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S_, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S_, .f32⟩
  | 35 => ⟨S1600000, .f32⟩
  | 36 => ⟨S100000, .f32⟩
  | 37 => ⟨S_, .f32⟩
  | 38 => ⟨S100000, .f32⟩
  | 39 => ⟨S100000, .f32⟩
  | 40 => ⟨S100000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S1600000x1, .f32⟩
  | 61 => ⟨S100000, .f32⟩
  | 62 => ⟨S100000x1, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S1600000x128, .f32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S1x128, .f32⟩
  | 80 => ⟨S100000x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S100000x128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S1600000x128, .f32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S1x128, .f32⟩
  | 111 => ⟨S100000x128, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S1x128, .f32⟩
  | 124 => ⟨S100000x128, .f32⟩
  | 125 => ⟨S1x256, .f32⟩
  | 126 => ⟨S100000x256, .f32⟩
  | 127 => ⟨S1x256, .f32⟩
  | _ => ⟨S100000x128, .f32⟩

abbrev hbmTy0_1 (i : Nat) : BufTy := match i % 128 with
  | 0 => ⟨S1x256, .f32⟩
  | 1 => ⟨S_, .f32⟩
  | 2 => ⟨S1x256, .f32⟩
  | 3 => ⟨S1x256, .f32⟩
  | 4 => ⟨S_, .f32⟩
  | 5 => ⟨S1x256, .f32⟩
  | 6 => ⟨S1x256, .f32⟩
  | 7 => ⟨S1x256, .f32⟩
  | 8 => ⟨S1x256, .f32⟩
  | 9 => ⟨S1x256, .f32⟩
  | 10 => ⟨S1x256, .f32⟩
  | 11 => ⟨S100000x256, .f32⟩
  | 12 => ⟨S1x128, .f32⟩
  | 13 => ⟨S100000x128, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S100000x128, .f32⟩
  | 27 => ⟨S1x1, .f32⟩
  | 28 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x256, .f32⟩
  | .local _ .vmem, ⟨51, _⟩ => ⟨S1x256, .f32⟩
  | .local _ .vmem, ⟨52, _⟩ => ⟨S5000x256, .f32⟩
  | .local _ .vmem, ⟨53, _⟩ => ⟨S5000x256, .f32⟩
  | .local _ .vmem, ⟨54, _⟩ => ⟨S1x256, .f32⟩
  | .local _ .vmem, ⟨55, _⟩ => ⟨S1x256, .f32⟩
  | .local _ .vmem, ⟨56, _⟩ => ⟨S5000x256, .f32⟩
  | .local _ .vmem, ⟨57, _⟩ => ⟨S5000x256, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S1x256, .f32⟩
  | .local _ .vmem, ⟨62, _⟩ => ⟨S5000x256, .f32⟩
  | .local _ .vmem, ⟨63, _⟩ => ⟨S5000x256, .f32⟩
  | .local _ .vmem, ⟨64, _⟩ => ⟨S5000x256, .f32⟩
  | .local _ .vmem, ⟨65, _⟩ => ⟨S5000x256, .f32⟩
  | .local _ .vmem, ⟨66, _⟩ => ⟨S256x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S1x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S128x1, .f32⟩
  | .local _ .vmem, ⟨83, _⟩ => ⟨S1x1, .f32⟩
  | .local _ .vmem, ⟨84, _⟩ => ⟨S5000x1, .f32⟩
  | .local _ .vmem, ⟨85, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_3 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48_0 : Ref sig .tc := ⟨.hbm, 80, rfl⟩
abbrev main_v48_1 : Ref sig .tc := ⟨.hbm, 81, rfl⟩
abbrev main_v48_2 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_cst_11 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_12 : Ref sig .tc := ⟨.hbm, 95, rfl⟩
abbrev main_v59 : Ref sig .tc := ⟨.hbm, 96, rfl⟩
abbrev main_v60 : Ref sig .tc := ⟨.hbm, 97, rfl⟩
abbrev main_c_13 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72_0 : Ref sig .tc := ⟨.hbm, 111, rfl⟩
abbrev main_v72_1 : Ref sig .tc := ⟨.hbm, 112, rfl⟩
abbrev main_v72_2 : Ref sig .tc := ⟨.hbm, 113, rfl⟩
abbrev main_cst_15 : Ref sig .tc := ⟨.hbm, 114, rfl⟩
abbrev main_v73 : Ref sig .tc := ⟨.hbm, 115, rfl⟩
abbrev main_v74 : Ref sig .tc := ⟨.hbm, 116, rfl⟩
abbrev main_cst_16 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83_0 : Ref sig .tc := ⟨.hbm, 126, rfl⟩
abbrev main_v83_1 : Ref sig .tc := ⟨.hbm, 127, rfl⟩
abbrev main_v83_2 : Ref sig .tc := ⟨.hbm, 128, rfl⟩
abbrev main_cst_17 : Ref sig .tc := ⟨.hbm, 129, rfl⟩
abbrev main_v84 : Ref sig .tc := ⟨.hbm, 130, rfl⟩
abbrev main_v85 : Ref sig .tc := ⟨.hbm, 131, rfl⟩
abbrev main_cst_18 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94_0 : Ref sig .tc := ⟨.hbm, 141, rfl⟩
abbrev main_v94_1 : Ref sig .tc := ⟨.hbm, 142, rfl⟩
abbrev main_v94_2 : Ref sig .tc := ⟨.hbm, 143, rfl⟩
abbrev main_cst_19 : Ref sig .tc := ⟨.hbm, 144, rfl⟩
abbrev main_v95 : Ref sig .tc := ⟨.hbm, 145, rfl⟩
abbrev main_v96 : Ref sig .tc := ⟨.hbm, 146, rfl⟩
abbrev main_cst_20 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg5_0 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg3_1 : Ref sig .tc := ⟨.vmem, 69, rfl⟩
abbrev cc8_stg4_0 : Ref sig .tc := ⟨.vmem, 70, rfl⟩
abbrev cc8_stg5_0 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc9_stg5_0 : Ref sig .tc := ⟨.vmem, 78, rfl⟩
abbrev cc9_stg5_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg3_0 : Ref sig .tc := ⟨.vmem, 84, rfl⟩
abbrev cc10_stg3_1 : Ref sig .tc := ⟨.vmem, 85, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc6_sem4_0 : DmaSem sig := 54
abbrev cc6_sem5_0 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem3_1 : DmaSem sig := 69
abbrev cc8_sem4_0 : DmaSem sig := 70
abbrev cc8_sem5_0 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem4_0 : DmaSem sig := 77
abbrev cc9_sem5_0 : DmaSem sig := 78
abbrev cc9_sem5_1 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem3_0 : DmaSem sig := 84
abbrev cc10_sem3_1 : DmaSem sig := 85

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x1 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x1 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S128x256_S128x256_0_0 : ∀ a, (![0, 0] : Fin 2 → Nat) a + S128x256.size a ≤ S128x256.size a
  h_S128x256 : 0 < S128x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  reduces_S5000x256_S256 : S5000x256.Reduces [0] S256
  bcast_S_S1x256 : S_.BroadcastsInDim S1x256 (![] : Fin 0 → Fin S1x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x256.size a ≤ S100000x256.size a
  hwx6_3 : ∀ i : grid6.Coords, EltTy.bits .f32 = 32 ∨ (Rect.block (s := S100000x256) S5000x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x256.size a ≤ S100000x256.size a
  hwx7_0 : ∀ i : grid7.Coords, EltTy.bits .f32 = 32 ∨ (Rect.block (s := S100000x256) S5000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x256.size a ≤ S100000x256.size a
  hwx7_5 : ∀ i : grid7.Coords, EltTy.bits .f32 = 32 ∨ (Rect.block (s := S100000x256) S5000x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x256.size a ≤ S100000x256.size a
  hwx8_0 : ∀ i : grid8.Coords, EltTy.bits .f32 = 32 ∨ (Rect.block (s := S100000x256) S5000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x128.size a ≤ S256x128.size a
  hwx8_1 : ∀ i : grid8.Coords, EltTy.bits .f32 = 32 ∨ (Rect.block (s := S256x128) S256x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S100000x128.size a
  hwx8_3 : ∀ i : grid8.Coords, EltTy.bits .f32 = 32 ∨ (Rect.block (s := S100000x128) S5000x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S100000x128.size a
  hwx9_5 : ∀ i : grid9.Coords, EltTy.bits .f32 = 32 ∨ (Rect.block (s := S100000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x1.size a ≤ S128x1.size a
  hwx10_1 : ∀ i : grid10.Coords, EltTy.bits .f32 = 32 ∨ (Rect.block (s := S128x1) S128x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x1.size a ≤ S100000x1.size a
  hwx10_3 : ∀ i : grid10.Coords, EltTy.bits .f32 = 32 ∨ (Rect.block (s := S100000x1) S5000x1.size (cc10_transform_3 i) (hinb10_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v48_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v71) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v72_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v72_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v81) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83_0) S5000x256.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v83_1) S1x256.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v83_2) S1x256.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v83_0) S5000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v85) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v89) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v90) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v91) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v92) S5000x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v92) S5000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg14) S256x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v93) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v94_0) S5000x128.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v94_1) S1x128.size cc8_transform_4 reads8_4 true true 1 stage8_4 sem8_4
    hrank8 hreads8_4 hinb8_4 nbuf8_4 (Memref.isWhole_whole _) hwx8_4 hstage8_4

abbrev win8_5 : Pipeline.Window sig grid8 :=
  Pipeline.Window.ofSpec (Memref.whole main_v94_2) S1x128.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v94_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v96) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v100) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v101) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v102) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v103) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v103) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg18) S128x1.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v104) S1x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v105) S5000x1.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x256 : Shape := ⟨2, ![100000, 256]⟩
abbrev S1x256 : Shape := ⟨2, ![1, 256]⟩
abbrev S1x1 : Shape := ⟨2, ![1, 1]⟩

abbrev nBuf : Space → Nat
  | .hbm => 298
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x256, .f32⟩
  | 11 => ⟨S256, .f32⟩
  | 12 => ⟨S256, .f32⟩
  | 13 => ⟨S256, .f32⟩
  | 14 => ⟨S256x128, .f32⟩
  | 15 => ⟨S128, .f32⟩
  | 16 => ⟨S128, .f32⟩
  | 17 => ⟨S128, .f32⟩
  | 18 => ⟨S128x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S100000x128, .f32⟩
  | 25 => ⟨S_, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S_, .f32⟩
  | 36 => ⟨S1600000, .f32⟩
  | 37 => ⟨S100000, .f32⟩
  | 38 => ⟨S_, .f32⟩
  | 39 => ⟨S100000, .f32⟩
  | 40 => ⟨S100000, .f32⟩
  | 41 => ⟨S100000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000, .f32⟩
  | 60 => ⟨S1600000, .f32⟩
  | 61 => ⟨S1600000x1, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S1600000x128, .f32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000, .f32⟩
  | 78 => ⟨S100000x1, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S128, .f32⟩
  | 87 => ⟨S_, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S100000x128, .f32⟩
  | 94 => ⟨S_, .f32⟩
  | 95 => ⟨S128, .f32⟩
  | 96 => ⟨S_, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S_, .f32⟩
  | 120 => ⟨S100000, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_1 (i : Nat) : BufTy := match i % 128 with
  | 0 => ⟨S1600000x1, .i32⟩
  | 1 => ⟨S_, .f32⟩
  | 2 => ⟨S1600000, .f32⟩
  | 3 => ⟨S100000, .f32⟩
  | 4 => ⟨S_, .f32⟩
  | 5 => ⟨S100000, .f32⟩
  | 6 => ⟨S100000, .f32⟩
  | 7 => ⟨S100000, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000, .f32⟩
  | 26 => ⟨S1600000, .f32⟩
  | 27 => ⟨S1600000x1, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S1600000x128, .f32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000, .f32⟩
  | 44 => ⟨S100000x1, .f32⟩
  | 45 => ⟨S100000x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x256, .f32⟩
  | 85 => ⟨S1x256, .f32⟩
  | 86 => ⟨S100000x256, .f32⟩
  | 87 => ⟨S100000x256, .f32⟩
  | 88 => ⟨S_, .f32⟩
  | 89 => ⟨S256, .f32⟩
  | 90 => ⟨S_, .f32⟩
  | 91 => ⟨S256, .f32⟩
  | 92 => ⟨S256, .f32⟩
  | 93 => ⟨S1x256, .f32⟩
  | 94 => ⟨S100000x256, .f32⟩
  | 95 => ⟨S100000x256, .f32⟩
  | 96 => ⟨S100000x256, .f32⟩
  | 97 => ⟨S_, .f32⟩
  | 98 => ⟨S256, .f32⟩
  | 99 => ⟨S_, .f32⟩
  | 100 => ⟨S256, .f32⟩
  | 101 => ⟨S256, .f32⟩
  | 102 => ⟨S1x256, .f32⟩
  | 103 => ⟨S100000x256, .f32⟩
  | 104 => ⟨S100000x256, .f32⟩
  | 105 => ⟨S_, .f32⟩
  | 106 => ⟨S256, .f32⟩
  | 107 => ⟨S256, .f32⟩
  | 108 => ⟨S256, .f32⟩
  | 109 => ⟨S1x256, .f32⟩
  | 110 => ⟨S100000x256, .f32⟩
  | 111 => ⟨S100000x256, .f32⟩
  | 112 => ⟨S1x256, .f32⟩
  | 113 => ⟨S100000x256, .f32⟩
  | 114 => ⟨S100000x256, .f32⟩
  | 115 => ⟨S1x256, .f32⟩
  | 116 => ⟨S100000x256, .f32⟩
  | 117 => ⟨S100000x256, .f32⟩
  | 118 => ⟨S_, .f32⟩
  | 119 => ⟨S100000x256, .f32⟩
  | 120 => ⟨S100000x256, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S128, .f32⟩
  | 127 => ⟨S_, .f32⟩
  | _ => ⟨S100000x128, .f32⟩

abbrev hbmTy0_2 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S100000x128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x1, .f32⟩
  | 31 => ⟨S1x1, .f32⟩
  | 32 => ⟨S100000x1, .f32⟩
  | 33 => ⟨S100000x1, .f32⟩
  | 34 => ⟨S100000x1, .f32⟩
  | 35 => ⟨S100000x1, .f32⟩
  | 36 => ⟨S_, .f32⟩
  | 37 => ⟨S100000x1, .f32⟩
  | 38 => ⟨S100000x1, .f32⟩
  | 39 => ⟨S_, .f32⟩
  | 40 => ⟨S100000x1, .f32⟩
  | 41 => ⟨S100000x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_c_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_c_8 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_call0_cst : Ref sig .tc := ⟨.hbm, 115, rfl⟩
abbrev main_call0_v0 : Ref sig .tc := ⟨.hbm, 116, rfl⟩
abbrev main_v78 : Ref sig .tc := ⟨.hbm, 117, rfl⟩
abbrev main_v79 : Ref sig .tc := ⟨.hbm, 118, rfl⟩
abbrev main_cst_15 : Ref sig .tc := ⟨.hbm, 119, rfl⟩
abbrev main_v80 : Ref sig .tc := ⟨.hbm, 120, rfl⟩
abbrev main_c_16 : Ref sig .tc := ⟨.hbm, 121, rfl⟩
abbrev main_v81 : Ref sig .tc := ⟨.hbm, 122, rfl⟩
abbrev main_v82 : Ref sig .tc := ⟨.hbm, 123, rfl⟩
abbrev main_c_17 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_18 : Ref sig .tc := ⟨.hbm, 129, rfl⟩
abbrev main_v87 : Ref sig .tc := ⟨.hbm, 130, rfl⟩
abbrev main_v88 : Ref sig .tc := ⟨.hbm, 131, rfl⟩
abbrev main_cst_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_20 : Ref sig .tc := ⟨.hbm, 136, rfl⟩
abbrev main_v92 : Ref sig .tc := ⟨.hbm, 137, rfl⟩
abbrev main_v93 : Ref sig .tc := ⟨.hbm, 138, rfl⟩
abbrev main_c_21 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_22 : Ref sig .tc := ⟨.hbm, 145, rfl⟩
abbrev main_v99 : Ref sig .tc := ⟨.hbm, 146, rfl⟩
abbrev main_v100 : Ref sig .tc := ⟨.hbm, 147, rfl⟩
abbrev main_c_23 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_c_24 : Ref sig .tc := ⟨.hbm, 156, rfl⟩
abbrev main_v108 : Ref sig .tc := ⟨.hbm, 157, rfl⟩
abbrev main_v109 : Ref sig .tc := ⟨.hbm, 158, rfl⟩
abbrev main_c_25 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_26 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_27 : Ref sig .tc := ⟨.hbm, 179, rfl⟩
abbrev main_v128 : Ref sig .tc := ⟨.hbm, 180, rfl⟩
abbrev main_cst_28 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_29 : Ref sig .tc := ⟨.hbm, 188, rfl⟩
abbrev main_v135 : Ref sig .tc := ⟨.hbm, 189, rfl⟩
abbrev main_cst_30 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_31 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_call1_cst : Ref sig .tc := ⟨.hbm, 209, rfl⟩
abbrev main_call1_v0 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_cst_32 : Ref sig .tc := ⟨.hbm, 216, rfl⟩
abbrev main_v158 : Ref sig .tc := ⟨.hbm, 217, rfl⟩
abbrev main_cst_33 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_34 : Ref sig .tc := ⟨.hbm, 225, rfl⟩
abbrev main_v165 : Ref sig .tc := ⟨.hbm, 226, rfl⟩
abbrev main_cst_35 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_cst_36 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_call2_cst : Ref sig .tc := ⟨.hbm, 246, rfl⟩
abbrev main_call2_v0 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_cst_37 : Ref sig .tc := ⟨.hbm, 253, rfl⟩
abbrev main_v188 : Ref sig .tc := ⟨.hbm, 254, rfl⟩
abbrev main_cst_38 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_cst_39 : Ref sig .tc := ⟨.hbm, 262, rfl⟩
abbrev main_v195 : Ref sig .tc := ⟨.hbm, 263, rfl⟩
abbrev main_cst_40 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_cst_41 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_call3_cst : Ref sig .tc := ⟨.hbm, 283, rfl⟩
abbrev main_call3_v0 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_cst_42 : Ref sig .tc := ⟨.hbm, 292, rfl⟩
abbrev main_v220 : Ref sig .tc := ⟨.hbm, 293, rfl⟩
abbrev main_v221 : Ref sig .tc := ⟨.hbm, 294, rfl⟩
abbrev main_cst_43 : Ref sig .tc := ⟨.hbm, 295, rfl⟩
abbrev main_v222 : Ref sig .tc := ⟨.hbm, 296, rfl⟩
abbrev main_v223 : Ref sig .tc := ⟨.hbm, 297, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  bcast_S_S256 : S_.BroadcastsInDim S256 (![] : Fin 0 → Fin S256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  dot_S100000x128_S128x1_S100000x1_1_0_0_1_n_n_wf : DotDims.WF S100000x128 S128x1 S100000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's run with its result named.

  Every weakly fair execution of the program from a memory with zero counters terminates without a fault; in the final
  state each argument array is as launched, and the result buffer holds what the fold of the program's segments
  leaves there: the contents after the eleventh region's write-backs, read at the result's reference.  This is the
  frame run's own last step with one more buffer read back from the final thread state.
-/
import proofs.«134670_j14499809591810_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel: termination, no fault, the arguments unchanged, and the result buffer at the
    contents the segments' fold leaves at its reference. -/
theorem run_named : θ_run defs (onTc (τ := τ) (main (F := F))) ⟨m, fun _ => 0, ρ⟩ (fun r => ∀ c : Dev nD,
      r.2.mem ((c.tc : Thread nD τ).loc main_v105) = W21 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v105 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c),
       (h c _ (mem_uc main_arg16 (by decide))).trans (W21_main_arg16 m ρ c),
       (h c _ (mem_uc main_arg17 (by decide))).trans (W21_main_arg17 m ρ c),
       (h c _ (mem_uc main_arg18 (by decide))).trans (W21_main_arg18 m ρ c),
       (h c _ (mem_uc main_arg19 (by decide))).trans (W21_main_arg19 m ρ c)⟩)

end Cert.KernelIdeal.RunNamed

end
-- ==== Proof.KernelFold.lean ====
/-
  Buffers read back through the program's segments.

  The program is a fold of segments over the launch memory: a stretch of host operations changes only the buffers its
  operations write; a region changes only its output arrays (an input array leaves a region as it entered).  So a
  buffer read at a segment boundary holds what the last segment that wrote it left there, or, for an argument, what
  the launch memory holds.  Each lemma here walks one buffer back from the boundary where a later segment reads it
  to the boundary where it was written.
-/
import proofs.«134670_j14499809591810_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer that no operation of a stretch writes holds after the stretch what it held before it. -/
macro "untouched_by " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem back1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by untouched_by hostOps0 main_arg0
    _ = m ((c : Thread nD τ).loc main_arg0) := rfl

theorem back1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by untouched_by hostOps0 main_arg2
    _ = m ((c : Thread nD τ).loc main_arg2) := rfl

theorem back2_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem back2_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem back2_v31 (c : Dev nD) : W2 m ρ c (Proc.devRef .tc main_v31) = W1 m ρ c (Proc.devRef .tc main_v31) :=
  calc W2 m ρ c (Proc.devRef .tc main_v31)
    _ = W1 m ρ c (Proc.devRef .tc main_v31) := W2_of_ne m ρ c main_v31 (by decide)

theorem back2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by untouched_by hostOps0 main_arg3
    _ = m ((c : Thread nD τ).loc main_arg3) := rfl

theorem back3_v34 (c : Dev nD) : W3 m ρ c (Proc.devRef .tc main_v34) = W2 m ρ c (Proc.devRef .tc main_v34) :=
  calc W3 m ρ c (Proc.devRef .tc main_v34)
    _ = W2 m ρ c (Proc.devRef .tc main_v34) := by untouched_by hostOps1 main_v34

theorem back3_v33 (c : Dev nD) : W3 m ρ c (Proc.devRef .tc main_v33) = W1 m ρ c (Proc.devRef .tc main_v33) :=
  calc W3 m ρ c (Proc.devRef .tc main_v33)
    _ = W2 m ρ c (Proc.devRef .tc main_v33) := by untouched_by hostOps1 main_v33
    _ = W1 m ρ c (Proc.devRef .tc main_v33) := W2_of_ne m ρ c main_v33 (by decide)

theorem back4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by untouched_by hostOps1 main_arg4
    _ = W1 m ρ c (Proc.devRef .tc main_arg4) := W2_of_ne m ρ c main_arg4 (by decide)
    _ = W0 m ρ c (Proc.devRef .tc main_arg4) := by untouched_by hostOps0 main_arg4
    _ = m ((c : Thread nD τ).loc main_arg4) := rfl

theorem back4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by untouched_by hostOps1 main_arg5
    _ = W1 m ρ c (Proc.devRef .tc main_arg5) := W2_of_ne m ρ c main_arg5 (by decide)
    _ = W0 m ρ c (Proc.devRef .tc main_arg5) := by untouched_by hostOps0 main_arg5
    _ = m ((c : Thread nD τ).loc main_arg5) := rfl

theorem back5_v48_0 (c : Dev nD) : W5 m ρ c (Proc.devRef .tc main_v48_0) = W4 m ρ c (Proc.devRef .tc main_v48_0) :=
  calc W5 m ρ c (Proc.devRef .tc main_v48_0)
    _ = W4 m ρ c (Proc.devRef .tc main_v48_0) := by untouched_by hostOps2 main_v48_0

theorem back6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by untouched_by hostOps2 main_arg6
    _ = W3 m ρ c (Proc.devRef .tc main_arg6) := W4_of_ne m ρ c main_arg6 (by decide)
    _ = W2 m ρ c (Proc.devRef .tc main_arg6) := by untouched_by hostOps1 main_arg6
    _ = W1 m ρ c (Proc.devRef .tc main_arg6) := W2_of_ne m ρ c main_arg6 (by decide)
    _ = W0 m ρ c (Proc.devRef .tc main_arg6) := by untouched_by hostOps0 main_arg6
    _ = m ((c : Thread nD τ).loc main_arg6) := rfl

theorem back7_v1 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := by untouched_by hostOps2 main_v1
    _ = W3 m ρ c (Proc.devRef .tc main_v1) := W4_of_ne m ρ c main_v1 (by decide)
    _ = W2 m ρ c (Proc.devRef .tc main_v1) := by untouched_by hostOps1 main_v1
    _ = W1 m ρ c (Proc.devRef .tc main_v1) := W2_of_ne m ρ c main_v1 (by decide)

theorem back7_v3 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by untouched_by hostOps2 main_v3
    _ = W3 m ρ c (Proc.devRef .tc main_v3) := W4_of_ne m ρ c main_v3 (by decide)
    _ = W2 m ρ c (Proc.devRef .tc main_v3) := by untouched_by hostOps1 main_v3
    _ = W1 m ρ c (Proc.devRef .tc main_v3) := W2_of_ne m ρ c main_v3 (by decide)

theorem back7_v31 (c : Dev nD) : W7 m ρ c (Proc.devRef .tc main_v31) = W1 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by untouched_by hostOps2 main_v31
    _ = W3 m ρ c (Proc.devRef .tc main_v31) := W4_of_ne m ρ c main_v31 (by decide)
    _ = W2 m ρ c (Proc.devRef .tc main_v31) := by untouched_by hostOps1 main_v31
    _ = W1 m ρ c (Proc.devRef .tc main_v31) := W2_of_ne m ρ c main_v31 (by decide)

theorem back7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by untouched_by hostOps2 main_arg7
    _ = W3 m ρ c (Proc.devRef .tc main_arg7) := W4_of_ne m ρ c main_arg7 (by decide)
    _ = W2 m ρ c (Proc.devRef .tc main_arg7) := by untouched_by hostOps1 main_arg7
    _ = W1 m ρ c (Proc.devRef .tc main_arg7) := W2_of_ne m ρ c main_arg7 (by decide)
    _ = W0 m ρ c (Proc.devRef .tc main_arg7) := by untouched_by hostOps0 main_arg7
    _ = m ((c : Thread nD τ).loc main_arg7) := rfl

theorem back8_v58 (c : Dev nD) : W8 m ρ c (Proc.devRef .tc main_v58) = W7 m ρ c (Proc.devRef .tc main_v58) :=
  calc W8 m ρ c (Proc.devRef .tc main_v58)
    _ = W7 m ρ c (Proc.devRef .tc main_v58) := by untouched_by hostOps4 main_v58

theorem back8_v33 (c : Dev nD) : W8 m ρ c (Proc.devRef .tc main_v33) = W1 m ρ c (Proc.devRef .tc main_v33) :=
  calc W8 m ρ c (Proc.devRef .tc main_v33)
    _ = W7 m ρ c (Proc.devRef .tc main_v33) := by untouched_by hostOps4 main_v33
    _ = W6 m ρ c (Proc.devRef .tc main_v33) := W7_of_ne m ρ c main_v33 (by decide)
    _ = W5 m ρ c (Proc.devRef .tc main_v33) := W6_of_ne m ρ c main_v33 (by decide)
    _ = W4 m ρ c (Proc.devRef .tc main_v33) := by untouched_by hostOps2 main_v33
    _ = W3 m ρ c (Proc.devRef .tc main_v33) := (W4_arr m ρ c 2).trans (((dat1 (V3 m ρ) c).arrAt_in 2 rfl _).trans (A_eq1 (V3 m ρ) c 2))
    _ = W2 m ρ c (Proc.devRef .tc main_v33) := by untouched_by hostOps1 main_v33
    _ = W1 m ρ c (Proc.devRef .tc main_v33) := W2_of_ne m ρ c main_v33 (by decide)

theorem back9_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := by untouched_by hostOps4 main_arg8
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by untouched_by hostOps2 main_arg8
    _ = W3 m ρ c (Proc.devRef .tc main_arg8) := W4_of_ne m ρ c main_arg8 (by decide)
    _ = W2 m ρ c (Proc.devRef .tc main_arg8) := by untouched_by hostOps1 main_arg8
    _ = W1 m ρ c (Proc.devRef .tc main_arg8) := W2_of_ne m ρ c main_arg8 (by decide)
    _ = W0 m ρ c (Proc.devRef .tc main_arg8) := by untouched_by hostOps0 main_arg8
    _ = m ((c : Thread nD τ).loc main_arg8) := rfl

theorem back9_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := by untouched_by hostOps4 main_arg9
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by untouched_by hostOps2 main_arg9
    _ = W3 m ρ c (Proc.devRef .tc main_arg9) := W4_of_ne m ρ c main_arg9 (by decide)
    _ = W2 m ρ c (Proc.devRef .tc main_arg9) := by untouched_by hostOps1 main_arg9
    _ = W1 m ρ c (Proc.devRef .tc main_arg9) := W2_of_ne m ρ c main_arg9 (by decide)
    _ = W0 m ρ c (Proc.devRef .tc main_arg9) := by untouched_by hostOps0 main_arg9
    _ = m ((c : Thread nD τ).loc main_arg9) := rfl

theorem back10_v72_0 (c : Dev nD) : W10 m ρ c (Proc.devRef .tc main_v72_0) = W9 m ρ c (Proc.devRef .tc main_v72_0) :=
  calc W10 m ρ c (Proc.devRef .tc main_v72_0)
    _ = W9 m ρ c (Proc.devRef .tc main_v72_0) := by untouched_by hostOps5 main_v72_0

theorem back11_arg11 (c : Dev nD) : W11 m ρ c (Proc.devRef .tc main_arg11) = m ((c : Thread nD τ).loc main_arg11) :=
  calc W11 m ρ c (Proc.devRef .tc main_arg11)
    _ = W10 m ρ c (Proc.devRef .tc main_arg11) := W11_of_ne m ρ c main_arg11 (by decide)
    _ = W9 m ρ c (Proc.devRef .tc main_arg11) := by untouched_by hostOps5 main_arg11
    _ = W8 m ρ c (Proc.devRef .tc main_arg11) := W9_of_ne m ρ c main_arg11 (by decide)
    _ = W7 m ρ c (Proc.devRef .tc main_arg11) := by untouched_by hostOps4 main_arg11
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by untouched_by hostOps2 main_arg11
    _ = W3 m ρ c (Proc.devRef .tc main_arg11) := W4_of_ne m ρ c main_arg11 (by decide)
    _ = W2 m ρ c (Proc.devRef .tc main_arg11) := by untouched_by hostOps1 main_arg11
    _ = W1 m ρ c (Proc.devRef .tc main_arg11) := W2_of_ne m ρ c main_arg11 (by decide)
    _ = W0 m ρ c (Proc.devRef .tc main_arg11) := by untouched_by hostOps0 main_arg11
    _ = m ((c : Thread nD τ).loc main_arg11) := rfl

theorem back12_v81 (c : Dev nD) : W12 m ρ c (Proc.devRef .tc main_v81) = W11 m ρ c (Proc.devRef .tc main_v81) :=
  calc W12 m ρ c (Proc.devRef .tc main_v81)
    _ = W11 m ρ c (Proc.devRef .tc main_v81) := by untouched_by hostOps6 main_v81

theorem back12_arg10 (c : Dev nD) : W12 m ρ c (Proc.devRef .tc main_arg10) = m ((c : Thread nD τ).loc main_arg10) :=
  calc W12 m ρ c (Proc.devRef .tc main_arg10)
    _ = W11 m ρ c (Proc.devRef .tc main_arg10) := by untouched_by hostOps6 main_arg10
    _ = W10 m ρ c (Proc.devRef .tc main_arg10) := W11_of_ne m ρ c main_arg10 (by decide)
    _ = W9 m ρ c (Proc.devRef .tc main_arg10) := by untouched_by hostOps5 main_arg10
    _ = W8 m ρ c (Proc.devRef .tc main_arg10) := W9_of_ne m ρ c main_arg10 (by decide)
    _ = W7 m ρ c (Proc.devRef .tc main_arg10) := by untouched_by hostOps4 main_arg10
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by untouched_by hostOps2 main_arg10
    _ = W3 m ρ c (Proc.devRef .tc main_arg10) := W4_of_ne m ρ c main_arg10 (by decide)
    _ = W2 m ρ c (Proc.devRef .tc main_arg10) := by untouched_by hostOps1 main_arg10
    _ = W1 m ρ c (Proc.devRef .tc main_arg10) := W2_of_ne m ρ c main_arg10 (by decide)
    _ = W0 m ρ c (Proc.devRef .tc main_arg10) := by untouched_by hostOps0 main_arg10
    _ = m ((c : Thread nD τ).loc main_arg10) := rfl

theorem back13_arg12 (c : Dev nD) : W13 m ρ c (Proc.devRef .tc main_arg12) = m ((c : Thread nD τ).loc main_arg12) :=
  calc W13 m ρ c (Proc.devRef .tc main_arg12)
    _ = W12 m ρ c (Proc.devRef .tc main_arg12) := W13_of_ne m ρ c main_arg12 (by decide)
    _ = W11 m ρ c (Proc.devRef .tc main_arg12) := by untouched_by hostOps6 main_arg12
    _ = W10 m ρ c (Proc.devRef .tc main_arg12) := W11_of_ne m ρ c main_arg12 (by decide)
    _ = W9 m ρ c (Proc.devRef .tc main_arg12) := by untouched_by hostOps5 main_arg12
    _ = W8 m ρ c (Proc.devRef .tc main_arg12) := W9_of_ne m ρ c main_arg12 (by decide)
    _ = W7 m ρ c (Proc.devRef .tc main_arg12) := by untouched_by hostOps4 main_arg12
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := by untouched_by hostOps2 main_arg12
    _ = W3 m ρ c (Proc.devRef .tc main_arg12) := W4_of_ne m ρ c main_arg12 (by decide)
    _ = W2 m ρ c (Proc.devRef .tc main_arg12) := by untouched_by hostOps1 main_arg12
    _ = W1 m ρ c (Proc.devRef .tc main_arg12) := W2_of_ne m ρ c main_arg12 (by decide)
    _ = W0 m ρ c (Proc.devRef .tc main_arg12) := by untouched_by hostOps0 main_arg12
    _ = m ((c : Thread nD τ).loc main_arg12) := rfl

theorem back13_arg13 (c : Dev nD) : W13 m ρ c (Proc.devRef .tc main_arg13) = m ((c : Thread nD τ).loc main_arg13) :=
  calc W13 m ρ c (Proc.devRef .tc main_arg13)
    _ = W12 m ρ c (Proc.devRef .tc main_arg13) := W13_of_ne m ρ c main_arg13 (by decide)
    _ = W11 m ρ c (Proc.devRef .tc main_arg13) := by untouched_by hostOps6 main_arg13
    _ = W10 m ρ c (Proc.devRef .tc main_arg13) := W11_of_ne m ρ c main_arg13 (by decide)
    _ = W9 m ρ c (Proc.devRef .tc main_arg13) := by untouched_by hostOps5 main_arg13
    _ = W8 m ρ c (Proc.devRef .tc main_arg13) := W9_of_ne m ρ c main_arg13 (by decide)
    _ = W7 m ρ c (Proc.devRef .tc main_arg13) := by untouched_by hostOps4 main_arg13
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := by untouched_by hostOps2 main_arg13
    _ = W3 m ρ c (Proc.devRef .tc main_arg13) := W4_of_ne m ρ c main_arg13 (by decide)
    _ = W2 m ρ c (Proc.devRef .tc main_arg13) := by untouched_by hostOps1 main_arg13
    _ = W1 m ρ c (Proc.devRef .tc main_arg13) := W2_of_ne m ρ c main_arg13 (by decide)
    _ = W0 m ρ c (Proc.devRef .tc main_arg13) := by untouched_by hostOps0 main_arg13
    _ = m ((c : Thread nD τ).loc main_arg13) := rfl

theorem back14_v83_0 (c : Dev nD) : W14 m ρ c (Proc.devRef .tc main_v83_0) = W13 m ρ c (Proc.devRef .tc main_v83_0) :=
  calc W14 m ρ c (Proc.devRef .tc main_v83_0)
    _ = W13 m ρ c (Proc.devRef .tc main_v83_0) := by untouched_by hostOps7 main_v83_0

theorem back15_arg15 (c : Dev nD) : W15 m ρ c (Proc.devRef .tc main_arg15) = m ((c : Thread nD τ).loc main_arg15) :=
  calc W15 m ρ c (Proc.devRef .tc main_arg15)
    _ = W14 m ρ c (Proc.devRef .tc main_arg15) := W15_of_ne m ρ c main_arg15 (by decide)
    _ = W13 m ρ c (Proc.devRef .tc main_arg15) := by untouched_by hostOps7 main_arg15
    _ = W12 m ρ c (Proc.devRef .tc main_arg15) := W13_of_ne m ρ c main_arg15 (by decide)
    _ = W11 m ρ c (Proc.devRef .tc main_arg15) := by untouched_by hostOps6 main_arg15
    _ = W10 m ρ c (Proc.devRef .tc main_arg15) := W11_of_ne m ρ c main_arg15 (by decide)
    _ = W9 m ρ c (Proc.devRef .tc main_arg15) := by untouched_by hostOps5 main_arg15
    _ = W8 m ρ c (Proc.devRef .tc main_arg15) := W9_of_ne m ρ c main_arg15 (by decide)
    _ = W7 m ρ c (Proc.devRef .tc main_arg15) := by untouched_by hostOps4 main_arg15
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := by untouched_by hostOps2 main_arg15
    _ = W3 m ρ c (Proc.devRef .tc main_arg15) := W4_of_ne m ρ c main_arg15 (by decide)
    _ = W2 m ρ c (Proc.devRef .tc main_arg15) := by untouched_by hostOps1 main_arg15
    _ = W1 m ρ c (Proc.devRef .tc main_arg15) := W2_of_ne m ρ c main_arg15 (by decide)
    _ = W0 m ρ c (Proc.devRef .tc main_arg15) := by untouched_by hostOps0 main_arg15
    _ = m ((c : Thread nD τ).loc main_arg15) := rfl

theorem back16_v92 (c : Dev nD) : W16 m ρ c (Proc.devRef .tc main_v92) = W15 m ρ c (Proc.devRef .tc main_v92) :=
  calc W16 m ρ c (Proc.devRef .tc main_v92)
    _ = W15 m ρ c (Proc.devRef .tc main_v92) := by untouched_by hostOps8 main_v92

theorem back16_arg14 (c : Dev nD) : W16 m ρ c (Proc.devRef .tc main_arg14) = m ((c : Thread nD τ).loc main_arg14) :=
  calc W16 m ρ c (Proc.devRef .tc main_arg14)
    _ = W15 m ρ c (Proc.devRef .tc main_arg14) := by untouched_by hostOps8 main_arg14
    _ = W14 m ρ c (Proc.devRef .tc main_arg14) := W15_of_ne m ρ c main_arg14 (by decide)
    _ = W13 m ρ c (Proc.devRef .tc main_arg14) := by untouched_by hostOps7 main_arg14
    _ = W12 m ρ c (Proc.devRef .tc main_arg14) := W13_of_ne m ρ c main_arg14 (by decide)
    _ = W11 m ρ c (Proc.devRef .tc main_arg14) := by untouched_by hostOps6 main_arg14
    _ = W10 m ρ c (Proc.devRef .tc main_arg14) := W11_of_ne m ρ c main_arg14 (by decide)
    _ = W9 m ρ c (Proc.devRef .tc main_arg14) := by untouched_by hostOps5 main_arg14
    _ = W8 m ρ c (Proc.devRef .tc main_arg14) := W9_of_ne m ρ c main_arg14 (by decide)
    _ = W7 m ρ c (Proc.devRef .tc main_arg14) := by untouched_by hostOps4 main_arg14
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := by untouched_by hostOps2 main_arg14
    _ = W3 m ρ c (Proc.devRef .tc main_arg14) := W4_of_ne m ρ c main_arg14 (by decide)
    _ = W2 m ρ c (Proc.devRef .tc main_arg14) := by untouched_by hostOps1 main_arg14
    _ = W1 m ρ c (Proc.devRef .tc main_arg14) := W2_of_ne m ρ c main_arg14 (by decide)
    _ = W0 m ρ c (Proc.devRef .tc main_arg14) := by untouched_by hostOps0 main_arg14
    _ = m ((c : Thread nD τ).loc main_arg14) := rfl

theorem back17_arg16 (c : Dev nD) : W17 m ρ c (Proc.devRef .tc main_arg16) = m ((c : Thread nD τ).loc main_arg16) :=
  calc W17 m ρ c (Proc.devRef .tc main_arg16)
    _ = W16 m ρ c (Proc.devRef .tc main_arg16) := W17_of_ne m ρ c main_arg16 (by decide)
    _ = W15 m ρ c (Proc.devRef .tc main_arg16) := by untouched_by hostOps8 main_arg16
    _ = W14 m ρ c (Proc.devRef .tc main_arg16) := W15_of_ne m ρ c main_arg16 (by decide)
    _ = W13 m ρ c (Proc.devRef .tc main_arg16) := by untouched_by hostOps7 main_arg16
    _ = W12 m ρ c (Proc.devRef .tc main_arg16) := W13_of_ne m ρ c main_arg16 (by decide)
    _ = W11 m ρ c (Proc.devRef .tc main_arg16) := by untouched_by hostOps6 main_arg16
    _ = W10 m ρ c (Proc.devRef .tc main_arg16) := W11_of_ne m ρ c main_arg16 (by decide)
    _ = W9 m ρ c (Proc.devRef .tc main_arg16) := by untouched_by hostOps5 main_arg16
    _ = W8 m ρ c (Proc.devRef .tc main_arg16) := W9_of_ne m ρ c main_arg16 (by decide)
    _ = W7 m ρ c (Proc.devRef .tc main_arg16) := by untouched_by hostOps4 main_arg16
    _ = W6 m ρ c (Proc.devRef .tc main_arg16) := W7_of_ne m ρ c main_arg16 (by decide)
    _ = W5 m ρ c (Proc.devRef .tc main_arg16) := W6_of_ne m ρ c main_arg16 (by decide)
    _ = W4 m ρ c (Proc.devRef .tc main_arg16) := by untouched_by hostOps2 main_arg16
    _ = W3 m ρ c (Proc.devRef .tc main_arg16) := W4_of_ne m ρ c main_arg16 (by decide)
    _ = W2 m ρ c (Proc.devRef .tc main_arg16) := by untouched_by hostOps1 main_arg16
    _ = W1 m ρ c (Proc.devRef .tc main_arg16) := W2_of_ne m ρ c main_arg16 (by decide)
    _ = W0 m ρ c (Proc.devRef .tc main_arg16) := by untouched_by hostOps0 main_arg16
    _ = m ((c : Thread nD τ).loc main_arg16) := rfl

theorem back17_arg17 (c : Dev nD) : W17 m ρ c (Proc.devRef .tc main_arg17) = m ((c : Thread nD τ).loc main_arg17) :=
  calc W17 m ρ c (Proc.devRef .tc main_arg17)
    _ = W16 m ρ c (Proc.devRef .tc main_arg17) := W17_of_ne m ρ c main_arg17 (by decide)
    _ = W15 m ρ c (Proc.devRef .tc main_arg17) := by untouched_by hostOps8 main_arg17
    _ = W14 m ρ c (Proc.devRef .tc main_arg17) := W15_of_ne m ρ c main_arg17 (by decide)
    _ = W13 m ρ c (Proc.devRef .tc main_arg17) := by untouched_by hostOps7 main_arg17
    _ = W12 m ρ c (Proc.devRef .tc main_arg17) := W13_of_ne m ρ c main_arg17 (by decide)
    _ = W11 m ρ c (Proc.devRef .tc main_arg17) := by untouched_by hostOps6 main_arg17
    _ = W10 m ρ c (Proc.devRef .tc main_arg17) := W11_of_ne m ρ c main_arg17 (by decide)
    _ = W9 m ρ c (Proc.devRef .tc main_arg17) := by untouched_by hostOps5 main_arg17
    _ = W8 m ρ c (Proc.devRef .tc main_arg17) := W9_of_ne m ρ c main_arg17 (by decide)
    _ = W7 m ρ c (Proc.devRef .tc main_arg17) := by untouched_by hostOps4 main_arg17
    _ = W6 m ρ c (Proc.devRef .tc main_arg17) := W7_of_ne m ρ c main_arg17 (by decide)
    _ = W5 m ρ c (Proc.devRef .tc main_arg17) := W6_of_ne m ρ c main_arg17 (by decide)
    _ = W4 m ρ c (Proc.devRef .tc main_arg17) := by untouched_by hostOps2 main_arg17
    _ = W3 m ρ c (Proc.devRef .tc main_arg17) := W4_of_ne m ρ c main_arg17 (by decide)
    _ = W2 m ρ c (Proc.devRef .tc main_arg17) := by untouched_by hostOps1 main_arg17
    _ = W1 m ρ c (Proc.devRef .tc main_arg17) := W2_of_ne m ρ c main_arg17 (by decide)
    _ = W0 m ρ c (Proc.devRef .tc main_arg17) := by untouched_by hostOps0 main_arg17
    _ = m ((c : Thread nD τ).loc main_arg17) := rfl

theorem back18_v94_0 (c : Dev nD) : W18 m ρ c (Proc.devRef .tc main_v94_0) = W17 m ρ c (Proc.devRef .tc main_v94_0) :=
  calc W18 m ρ c (Proc.devRef .tc main_v94_0)
    _ = W17 m ρ c (Proc.devRef .tc main_v94_0) := by untouched_by hostOps9 main_v94_0

theorem back19_arg19 (c : Dev nD) : W19 m ρ c (Proc.devRef .tc main_arg19) = m ((c : Thread nD τ).loc main_arg19) :=
  calc W19 m ρ c (Proc.devRef .tc main_arg19)
    _ = W18 m ρ c (Proc.devRef .tc main_arg19) := W19_of_ne m ρ c main_arg19 (by decide)
    _ = W17 m ρ c (Proc.devRef .tc main_arg19) := by untouched_by hostOps9 main_arg19
    _ = W16 m ρ c (Proc.devRef .tc main_arg19) := W17_of_ne m ρ c main_arg19 (by decide)
    _ = W15 m ρ c (Proc.devRef .tc main_arg19) := by untouched_by hostOps8 main_arg19
    _ = W14 m ρ c (Proc.devRef .tc main_arg19) := W15_of_ne m ρ c main_arg19 (by decide)
    _ = W13 m ρ c (Proc.devRef .tc main_arg19) := by untouched_by hostOps7 main_arg19
    _ = W12 m ρ c (Proc.devRef .tc main_arg19) := W13_of_ne m ρ c main_arg19 (by decide)
    _ = W11 m ρ c (Proc.devRef .tc main_arg19) := by untouched_by hostOps6 main_arg19
    _ = W10 m ρ c (Proc.devRef .tc main_arg19) := W11_of_ne m ρ c main_arg19 (by decide)
    _ = W9 m ρ c (Proc.devRef .tc main_arg19) := by untouched_by hostOps5 main_arg19
    _ = W8 m ρ c (Proc.devRef .tc main_arg19) := W9_of_ne m ρ c main_arg19 (by decide)
    _ = W7 m ρ c (Proc.devRef .tc main_arg19) := by untouched_by hostOps4 main_arg19
    _ = W6 m ρ c (Proc.devRef .tc main_arg19) := W7_of_ne m ρ c main_arg19 (by decide)
    _ = W5 m ρ c (Proc.devRef .tc main_arg19) := W6_of_ne m ρ c main_arg19 (by decide)
    _ = W4 m ρ c (Proc.devRef .tc main_arg19) := by untouched_by hostOps2 main_arg19
    _ = W3 m ρ c (Proc.devRef .tc main_arg19) := W4_of_ne m ρ c main_arg19 (by decide)
    _ = W2 m ρ c (Proc.devRef .tc main_arg19) := by untouched_by hostOps1 main_arg19
    _ = W1 m ρ c (Proc.devRef .tc main_arg19) := W2_of_ne m ρ c main_arg19 (by decide)
    _ = W0 m ρ c (Proc.devRef .tc main_arg19) := by untouched_by hostOps0 main_arg19
    _ = m ((c : Thread nD τ).loc main_arg19) := rfl

theorem back20_v103 (c : Dev nD) : W20 m ρ c (Proc.devRef .tc main_v103) = W19 m ρ c (Proc.devRef .tc main_v103) :=
  calc W20 m ρ c (Proc.devRef .tc main_v103)
    _ = W19 m ρ c (Proc.devRef .tc main_v103) := by untouched_by hostOps10 main_v103

theorem back20_arg18 (c : Dev nD) : W20 m ρ c (Proc.devRef .tc main_arg18) = m ((c : Thread nD τ).loc main_arg18) :=
  calc W20 m ρ c (Proc.devRef .tc main_arg18)
    _ = W19 m ρ c (Proc.devRef .tc main_arg18) := by untouched_by hostOps10 main_arg18
    _ = W18 m ρ c (Proc.devRef .tc main_arg18) := W19_of_ne m ρ c main_arg18 (by decide)
    _ = W17 m ρ c (Proc.devRef .tc main_arg18) := by untouched_by hostOps9 main_arg18
    _ = W16 m ρ c (Proc.devRef .tc main_arg18) := W17_of_ne m ρ c main_arg18 (by decide)
    _ = W15 m ρ c (Proc.devRef .tc main_arg18) := by untouched_by hostOps8 main_arg18
    _ = W14 m ρ c (Proc.devRef .tc main_arg18) := W15_of_ne m ρ c main_arg18 (by decide)
    _ = W13 m ρ c (Proc.devRef .tc main_arg18) := by untouched_by hostOps7 main_arg18
    _ = W12 m ρ c (Proc.devRef .tc main_arg18) := W13_of_ne m ρ c main_arg18 (by decide)
    _ = W11 m ρ c (Proc.devRef .tc main_arg18) := by untouched_by hostOps6 main_arg18
    _ = W10 m ρ c (Proc.devRef .tc main_arg18) := W11_of_ne m ρ c main_arg18 (by decide)
    _ = W9 m ρ c (Proc.devRef .tc main_arg18) := by untouched_by hostOps5 main_arg18
    _ = W8 m ρ c (Proc.devRef .tc main_arg18) := W9_of_ne m ρ c main_arg18 (by decide)
    _ = W7 m ρ c (Proc.devRef .tc main_arg18) := by untouched_by hostOps4 main_arg18
    _ = W6 m ρ c (Proc.devRef .tc main_arg18) := W7_of_ne m ρ c main_arg18 (by decide)
    _ = W5 m ρ c (Proc.devRef .tc main_arg18) := W6_of_ne m ρ c main_arg18 (by decide)
    _ = W4 m ρ c (Proc.devRef .tc main_arg18) := by untouched_by hostOps2 main_arg18
    _ = W3 m ρ c (Proc.devRef .tc main_arg18) := W4_of_ne m ρ c main_arg18 (by decide)
    _ = W2 m ρ c (Proc.devRef .tc main_arg18) := by untouched_by hostOps1 main_arg18
    _ = W1 m ρ c (Proc.devRef .tc main_arg18) := W2_of_ne m ρ c main_arg18 (by decide)
    _ = W0 m ρ c (Proc.devRef .tc main_arg18) := by untouched_by hostOps0 main_arg18
    _ = m ((c : Thread nD τ).loc main_arg18) := rfl

end Cert.KernelIdeal.Fold

end
-- ==== Proof.GcnSpec.lean ====
/-
  The network that both programs compute, written once over the extended reals and free of any program.

  Rows are the 100000 nodes; a matrix of C columns is a function of a row and a column.  A layer first forms a
  pre-activation y (a graph convolution: the neighbourhood sums plus the node's own row scaled by its squared inverse
  root degree plus a bias; or a dense layer: a matrix product plus a bias), then normalises every column of y by that
  column's mean and variance over all rows, scales, shifts and clamps below at zero.  The head is one more dense layer
  of a single column through the logistic function.

  The variance of a column is written in two ways: from one pass of moments, (Σ y²)/n − ((Σ y)/n)², and centred,
  (Σ (y − mean)²)/n.  Everything else is shared.  The two ways agree when every entry of y is a real number.
-/
import Idealize.ShloMosaic.PureOps.Ideal
import Idealize.ShloMosaic.Lib.ValueIdx

noncomputable section

open scoped BigOperators

namespace Cert.GcnSpec

open Idealize.ShloMosaic

/-- The number of nodes: the rows of every activation matrix. -/
abbrev Rows : Nat := 100000

/-- The float word 100000.0 by which a column sum is divided. -/
abbrev nodesWord : EReal := Ideal.ofBits .f32 0x47C35000#32

/-- The float word added to a variance before the reciprocal square root. -/
abbrev epsWord : EReal := Ideal.ofBits .f32 0x3727C5AC#32

/-- A matrix of `C` columns over the nodes. -/
abbrev Mat (C : Nat) := Fin Rows → Fin C → EReal

variable {K C : Nat}

/-- The matrix product: entry (p, q) is the sum over k of x (p, k) · w (k, q). -/
def mm (x : Mat K) (w : Fin K → Fin C → EReal) : Mat C := fun p q => ∑ k : Fin K, x p k * w k q

/-- A graph convolution's pre-activation: neighbourhood sum, plus the node's own row times its squared inverse root
    degree, plus the bias. -/
def convPre (agg h : Mat C) (d2 : Fin Rows → EReal) (b : Fin C → EReal) : Mat C :=
  fun p q => agg p q + h p q * d2 p + b q

/-- A dense layer's pre-activation: the product plus the bias. -/
def linPre (x : Mat K) (w : Fin K → Fin C → EReal) (b : Fin C → EReal) : Mat C := fun p q => mm x w p q + b q

/-- The mean of a column over all rows. -/
def colMean (y : Mat C) : Fin C → EReal := fun q => Ideal.div (∑ p, y p q) nodesWord

/-- The variance of a column from one pass of moments: mean of squares minus squared mean. -/
def varOnePass (y : Mat C) : Fin C → EReal :=
  fun q => Ideal.div (∑ p, y p q * y p q) nodesWord - colMean y q * colMean y q

/-- The variance of a column, centred: mean of the squared deviations from the mean. -/
def varCentred (y : Mat C) : Fin C → EReal :=
  fun q => Ideal.div (∑ p, (y p q - colMean y q) * (y p q - colMean y q)) nodesWord

/-- Normalise every column by its mean and a given variance, scale, shift, clamp below at zero. -/
def normRelu (var : Fin C → EReal) (y : Mat C) (g be : Fin C → EReal) : Mat C :=
  fun p q => max ((y p q - colMean y q) * Ideal.rsqrt (var q + epsWord) * g q + be q) 0

/-- One graph-convolution layer, for a given way `var` of taking a column's variance, a given neighbourhood-sum
    operator `aggOf` and squared inverse root degrees `d2`. -/
def convLayer (var : Mat C → Fin C → EReal) (aggOf : Mat C → Mat C) (d2 : Fin Rows → EReal)
    (x : Mat K) (w : Fin K → Fin C → EReal) (b g be : Fin C → EReal) : Mat C :=
  normRelu (var (convPre (aggOf (mm x w)) (mm x w) d2 b)) (convPre (aggOf (mm x w)) (mm x w) d2 b) g be

/-- One dense layer with column normalisation, for a given way of taking a column's variance. -/
def denseLayer (var : Mat C → Fin C → EReal) (x : Mat K) (w : Fin K → Fin C → EReal) (b g be : Fin C → EReal) : Mat C :=
  normRelu (var (linPre x w b)) (linPre x w b) g be

/-- The head: a dense layer of one column through the logistic function. -/
def head (x : Mat K) (w : Fin K → Fin 1 → EReal) (b : Fin 1 → EReal) : Fin Rows → EReal :=
  fun p => Ideal.logistic (mm x w p 0 + b 0)

/-- The whole network for a given way of taking a column's variance. -/
def net (var : {C : Nat} → Mat C → Fin C → EReal) (aggOf : Mat 128 → Mat 128) (d2 : Fin Rows → EReal)
    (x : Mat 128)
    (wg1 : Fin 128 → Fin 128 → EReal) (bg1 g1 be1 : Fin 128 → EReal)
    (wg2 : Fin 128 → Fin 128 → EReal) (bg2 g2 be2 : Fin 128 → EReal)
    (wm1 : Fin 128 → Fin 256 → EReal) (bm1 g3 be3 : Fin 256 → EReal)
    (wm2 : Fin 256 → Fin 128 → EReal) (bm2 g4 be4 : Fin 128 → EReal)
    (wo : Fin 128 → Fin 1 → EReal) (bo : Fin 1 → EReal) : Fin Rows → EReal :=
  head (denseLayer var (denseLayer var (convLayer var aggOf d2 (convLayer var aggOf d2 x wg1 bg1 g1 be1) wg2 bg2 g2 be2)
    wm1 bm1 g3 be3) wm2 bm2 g4 be4) wo bo

end Cert.GcnSpec

end
-- ==== Proof.StageForms.lean ====
/-
  Stages of the network as whole-array functions, and their reading as the specification's matrices.

  An array of shape [R, C] is read as the matrix (p, q) ↦ a (p, q); an array of shape [1, C] as the row q ↦ a (0, q).
  The normalised form of a pre-activation array with given mean, variance, scale and shift rows is the
  specification's normalise-and-clamp when the mean row is the column sums divided by the node count and the
  variance row is the mean of squares minus the squared mean.  A scalar constant broadcast to any shape reads the
  constant everywhere; a vector recast as a one-column matrix reads the vector down the column.
-/
import proofs.«134670_j14499809591810_1_alg».proof.Proof.GcnSpec
import Idealize.ShloMosaic.Lib.Pipeline.Value
import Idealize.ShloMosaic.Lib.ValueIdx
import Idealize.ShloMosaic.Lib.ValueLayout

noncomputable section

open scoped BigOperators

namespace Cert.StageForms

open Idealize.ShloMosaic Idealize.ShloMosaic.ValueIdx Cert.GcnSpec

variable {R C K : Nat}

/-- An [R, C] array as a matrix. -/
abbrev matOf (a : (⟨2, ![R, C]⟩ : Shape).Idx → EReal) : Fin R → Fin C → EReal := fun p q => a (ix2 p q)

/-- A [1, C] array as a row. -/
abbrev rowOf (a : (⟨2, ![1, C]⟩ : Shape).Idx → EReal) : Fin C → EReal := fun q => a (ix2 (0 : Fin 1) q)

/-- A [C] array as a row. -/
abbrev vecOf (a : (⟨1, ![C]⟩ : Shape).Idx → EReal) : Fin C → EReal := fun q => a (ix1 q)

/-- The normalised array: entry i is the pre-activation's entry less its column's mean, times the reciprocal square
    root of the column's variance plus ε, times the column's scale, plus the column's shift, clamped below at zero. -/
def normalized (y : (⟨2, ![100000, C]⟩ : Shape).Idx → EReal) (mean var g be : (⟨2, ![1, C]⟩ : Shape).Idx → EReal) :
    (⟨2, ![100000, C]⟩ : Shape).Idx → EReal :=
  fun i => max ((y i - mean (ix2 (0 : Fin 1) (i 1))) * Ideal.rsqrt (var (ix2 (0 : Fin 1) (i 1)) + Ideal.ofBits .f32 0x3727C5AC#32)
      * g (ix2 (0 : Fin 1) (i 1)) + be (ix2 (0 : Fin 1) (i 1))) 0

/-- The normalised array read as a matrix. -/
theorem matOf_normalized (y : (⟨2, ![100000, C]⟩ : Shape).Idx → EReal) (mean var g be : (⟨2, ![1, C]⟩ : Shape).Idx → EReal)
    (p : Fin 100000) (q : Fin C) :
    normalized y mean var g be (ix2 p q)
      = max ((y (ix2 p q) - rowOf mean q) * Ideal.rsqrt (rowOf var q + epsWord) * rowOf g q + rowOf be q) 0 := rfl

/-- A normalise stage whose mean row is the column sums over the node count and whose variance row is the mean of
    squares less the squared mean is the specification's normalise-and-clamp with the one-pass variance. -/
theorem normalized_onePass (y : (⟨2, ![100000, C]⟩ : Shape).Idx → EReal) (s ss mean var g be : (⟨2, ![1, C]⟩ : Shape).Idx → EReal)
    (Y : Mat C) (gs bs : Fin C → EReal)
    (hY : ∀ p q, y (ix2 p q) = Y p q)
    (hs : ∀ q, rowOf s q = ∑ p, Y p q) (hss : ∀ q, rowOf ss q = ∑ p, Y p q * Y p q)
    (hmean : ∀ q, rowOf mean q = Ideal.div (rowOf s q) nodesWord)
    (hvar : ∀ q, rowOf var q = Ideal.div (rowOf ss q) nodesWord - rowOf mean q * rowOf mean q)
    (hg : ∀ q, rowOf g q = gs q) (hb : ∀ q, rowOf be q = bs q) (p : Fin 100000) (q : Fin C) :
    normalized y mean var g be (ix2 p q) = normRelu (varOnePass Y) Y gs bs p q := by
  rw [matOf_normalized, hY, hvar, hmean, hss, hs, hg, hb]
  rfl

/-- A scalar float constant broadcast to any shape reads the constant at every index. -/
theorem scalarBroadcast_apply {t : Shape} (dims : Fin (⟨0, ![]⟩ : Shape).rank → Fin t.rank)
    (h : (⟨0, ![]⟩ : Shape).BroadcastsInDim t dims) (w : BitVec 32) (j : t.Idx) :
    broadcastInDim t dims h (constant (F := Ideal) ⟨0, ![]⟩ .f32 w) j = Ideal.ofBits .f32 w :=
  (broadcastInDim_apply dims h _ j (fun a => a.elim0) (fun a => a.elim0)).trans rfl

/-- An [a] array cast to [a, 1] reads, at (i, u), the operand at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.StageForms

end
-- ==== Proof.KernelGraph.lean ====
/-
  The graph quantities of the kernel, as its host operations compute them from the edge list.

  From the 2 × E edge list: the source and destination node of every edge; a node index below zero is wrapped by adding
  the node count; the degree of a node is the number of edges that land on it plus one; its inverse root is the
  reciprocal square root of the degree; an edge's weight is the product of the inverse roots at its two ends.  The
  neighbourhood sum of a feature matrix adds, into each destination node's row, the source node's row times the
  edge's weight.  Both convolution layers use the same operator and the same squared inverse roots.
-/
import proofs.«134670_j14499809591810_1_alg».proof.Proof.Gen.KernelIdeal.Frame
import proofs.«134670_j14499809591810_1_alg».proof.Proof.KernelFold
import proofs.«134670_j14499809591810_1_alg».proof.Proof.StageForms
import Idealize.ShloMosaic.Lib.ValueIdx
import Idealize.ShloMosaic.Lib.ValueLayout

set_option maxRecDepth 16384

noncomputable section

open scoped BigOperators

namespace Cert.KernelIdeal.Stages

open Cert.KernelIdeal Cert.KernelIdeal.Gen Cert.KernelIdeal.Fold
open Idealize.ShloMosaic Idealize.ShloMosaic.TcCoe Idealize.ShloMosaic.ValueIdx Idealize.SL.Sem Idealize.ShloMosaic.StableHlo
open Cert.StageForms Cert.GcnSpec

variable (m : (ℓ : Loc nD τ sig) → Buf (Elt Ideal) ℓ) (ρ : Dev nD → PrngReg)

/-- The destination node of every edge: row 1 of the edge list. -/
def dstOf (ei : S2x1600000.Idx → BitVec 32) : S1600000.Idx → BitVec 32 :=
  shapeCast S1600000 (extractStridedSlice S1x1600000 ![1, 0] ei slices_S2x1600000_S1x1600000_1_0) shapeCasts_S1x1600000_S1600000

/-- The source node of every edge: row 0 of the edge list. -/
def srcOf (ei : S2x1600000.Idx → BitVec 32) : S1600000.Idx → BitVec 32 :=
  shapeCast S1600000 (extractStridedSlice S1x1600000 ![0, 0] ei slices_S2x1600000_S1x1600000_0_0) shapeCasts_S1x1600000_S1600000

/-- Node indices as a column of start indices, an index below zero wrapped by the node count. -/
def wrapped (v : S1600000.Idx → BitVec 32) : S1600000x1.Idx → BitVec 32 :=
  broadcastInDim S1600000x1 ![0] bcast_S1600000_S1600000x1_0
    (select (cmpi CmpIPredicate.slt v (broadcastInDim S1600000 ![] bcast_S_S1600000 (constantI S_ 32 0#32)))
      (addi v (broadcastInDim S1600000 ![] bcast_S_S1600000 (constantI S_ 32 100000#32))) v)

/-- The inverse root degree of every node. -/
def invRootDegree (ei : S2x1600000.Idx → BitVec 32) : S100000.Idx → EReal :=
  Host.rsqrt (F := Ideal) (φ := .f32) (addf
    (Host.scatterAdd (F := Ideal) scatter_S100000_S1600000x1_S1600000_n_0_0_1
      (broadcastInDim S100000 ![] bcast_S_S100000 (constant (F := Ideal) S_ .f32 0x00000000#32))
      (wrapped (dstOf ei))
      (broadcastInDim S1600000 ![] bcast_S_S1600000 (constant (F := Ideal) S_ .f32 0x3F800000#32)))
    (broadcastInDim S100000 ![] bcast_S_S100000 (constant (F := Ideal) S_ .f32 0x3F800000#32)))

/-- The squared inverse root degree of every node, as a one-column matrix. -/
def sqInvRootColumn (ei : S2x1600000.Idx → BitVec 32) : S100000x1.Idx → EReal :=
  shapeCast S100000x1 (mulf (F := Ideal) (φ := .f32) (invRootDegree ei) (invRootDegree ei)) shapeCasts_S100000_S100000x1

/-- The weight of every edge, as a one-column matrix: the product of the inverse root degrees at its two ends. -/
def edgeWeightColumn (ei : S2x1600000.Idx → BitVec 32) : S1600000x1.Idx → EReal :=
  broadcastInDim S1600000x1 ![0] bcast_S1600000_S1600000x1_0
    (mulf (F := Ideal) (φ := .f32) (Host.gather gather_S100000_S1600000x1_S1600000_n_0_n_n_0_1_1 (invRootDegree ei) (wrapped (srcOf ei)))
      (Host.gather gather_S100000_S1600000x1_S1600000_n_0_n_n_0_1_1 (invRootDegree ei) (wrapped (dstOf ei))))

/-- The neighbourhood sum of a feature matrix for given edge ends and edge weights: into each destination node's row,
    the source node's row times the edge's weight. -/
def neighbourSumOf (dst src : S1600000.Idx → BitVec 32) (wt : S1600000x1.Idx → EReal) (h : S100000x128.Idx → EReal) :
    S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal) (φ := .f32) (Host.gather gather_S100000x128_S1600000x1_S1600000x128_1_0_n_n_0_1_1128 h (wrapped src))
      (broadcastInDim S1600000x128 ![0, 1] bcast_S1600000x1_S1600000x128_0_1 wt))

/-- The neighbourhood sum of a feature matrix over the edge list. -/
def neighbourSum (ei : S2x1600000.Idx → BitVec 32) (h : S100000x128.Idx → EReal) : S100000x128.Idx → EReal :=
  neighbourSumOf (dstOf ei) (srcOf ei) (edgeWeightColumn ei) h

/-- The first stretch leaves the destination nodes, … -/
theorem dst_read (c : Dev nD) :
    (W1 m ρ c (Proc.devRef .tc main_v3) : S1600000.Idx → BitVec 32) = dstOf (m ((c : Thread nD τ).loc main_arg1)) := by
  show StableHlo.after hostOps0 _ (Proc.devRef .tc main_v3) = _
  after_results_simp
  rfl

/-- … the source nodes, … -/
theorem src_read (c : Dev nD) :
    (W1 m ρ c (Proc.devRef .tc main_v1) : S1600000.Idx → BitVec 32) = srcOf (m ((c : Thread nD τ).loc main_arg1)) := by
  show StableHlo.after hostOps0 _ (Proc.devRef .tc main_v1) = _
  after_results_simp
  rfl

/-- … the squared inverse root degrees, … -/
theorem sqInvRoot_read (c : Dev nD) :
    (W1 m ρ c (Proc.devRef .tc main_v33) : S100000x1.Idx → EReal) = sqInvRootColumn (m ((c : Thread nD τ).loc main_arg1)) := by
  show StableHlo.after hostOps0 _ (Proc.devRef .tc main_v33) = _
  after_results_simp
  rfl

/-- … and the edge weights. -/
theorem edgeWeight_read (c : Dev nD) :
    (W1 m ρ c (Proc.devRef .tc main_v31) : S1600000x1.Idx → EReal) = edgeWeightColumn (m ((c : Thread nD τ).loc main_arg1)) := by
  show StableHlo.after hostOps0 _ (Proc.devRef .tc main_v31) = _
  after_results_simp
  rfl

end Cert.KernelIdeal.Stages

end
-- ==== Proof.LibPlainDot.lean ====
/-
  A plain matrix product read at an index, at the ideal instance (floats are extended reals, every operation exact),
  free of any program.

  For the dimension numbers of an `M×K` by `K×N` product with no batch axis (`DotDims.plain M K N`: the left operand
  contracted on its second axis, the right on its first), both a kernel's matrix-unit product into a zero accumulator
  and a host `dot_general` hold, at `(p, q)`, the sum over `k` of `l (p, k) · r (k, q)`: no rounding, no order of
  accumulation, no tile shape is left in either.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat}

/-- The left operand's row is the output's row … -/
theorem lhs_row (p : Fin M) (q : Fin N) (k : (DotDims.plain M K N).contr.Idx) :
    ((DotDims.plain M K N).lhsIdx (ix2 p q) k ⟨0, Nat.zero_lt_two⟩).val = p.val := by
  unfold DotDims.lhsIdx
  rw [dif_neg (show ¬(⟨0, Nat.zero_lt_two⟩ : Fin 2) ∈ (DotDims.plain M K N).lhsBatch by simp [DotDims.plain]),
    dif_pos (show (⟨0, Nat.zero_lt_two⟩ : Fin 2) ∈ (DotDims.plain M K N).lhsNonContracting by simp [DotDims.plain])]
  rfl

/-- … its column the contraction index … -/
theorem lhs_col (p : Fin M) (q : Fin N) (k : (DotDims.plain M K N).contr.Idx) :
    ((DotDims.plain M K N).lhsIdx (ix2 p q) k ⟨1, Nat.one_lt_two⟩).val = (k ⟨0, Nat.one_pos⟩).val :=
  (DotDims.plain M K N).lhsIdx_val_of_single rfl (ix2 p q) k

/-- … the right operand's row the contraction index … -/
theorem rhs_row (p : Fin M) (q : Fin N) (k : (DotDims.plain M K N).contr.Idx) :
    ((DotDims.plain M K N).rhsIdx (ix2 p q) k ⟨0, Nat.zero_lt_two⟩).val = (k ⟨0, Nat.one_pos⟩).val :=
  (DotDims.plain M K N).rhsIdx_val_of_single rfl (ix2 p q) k

/-- … and its column the output's column. -/
theorem rhs_col (p : Fin M) (q : Fin N) (k : (DotDims.plain M K N).contr.Idx) :
    ((DotDims.plain M K N).rhsIdx (ix2 p q) k ⟨1, Nat.one_lt_two⟩).val = q.val := by
  unfold DotDims.rhsIdx
  rw [dif_neg (show ¬(⟨1, Nat.one_lt_two⟩ : Fin 2) ∈ (DotDims.plain M K N).rhsBatch by simp [DotDims.plain]),
    dif_pos (show (⟨1, Nat.one_lt_two⟩ : Fin 2) ∈ (DotDims.plain M K N).rhsNonContracting by simp [DotDims.plain])]
  rfl

/-- The sum over the one-axis contraction index is the sum over `k : Fin K` of `l (p, k) · r (k, q)`. -/
theorem plain_sum (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row p q _
      | ⟨1, _⟩ => exact (lhs_col p q _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row p q _).trans hk
      | ⟨1, _⟩ => exact rhs_col p q _)
  rw [el, er]

/-- A matrix-unit product into the zero splat, at `(p, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ k : Fin K, l (ix2 p k) * r (ix2 k q) := by
  rw [Ideal.matmul_constant_zero_apply]
  exact plain_sum l r p q

/-- A host `dot_general`, at `(p, q)`, whatever its schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end Cert.LibPlainDot

end
-- ==== Proof.ProductRegions.lean ====
/-
  The two matrix-product regions of the kernel.

  Each runs over 20 grid points; point t loads rows 5000·t … 5000·t + 4999 of the left operand and the whole right
  operand, multiplies them (the change of float format before the product is the identity on the extended reals, the
  accumulator starts at zero) and writes the 5000 × 128 block of products back to rows 5000·t … of the output.  The
  blocks tile the output, so after the grid the output array holds the whole product: entry (p, q) is the sum over k
  of left (p, k) · right (k, q).
-/
import proofs.«134670_j14499809591810_1_alg».proof.Proof.Gen.KernelIdeal.Frame
import proofs.«134670_j14499809591810_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The origin of a two-axis buffer, as the constant function. -/
theorem origin2 : (![0, 0] : Fin 2 → Nat) = fun _ => 0 := funext fun a => by fin_cases a <;> rfl

/-! ## Region 0: rows 5000·t … 5000·t + 4999 of the product, point by point -/

/-- The dimension numbers of this product are the plain ones of a 5000×128 by 128×128 product. -/
theorem dims0_plain : dot_S5000x128_S128x128_S5000x128_1_0_0_1_n_n = DotDims.plain 5000 128 128 := rfl

/-- The product of a block of 5000 rows with the whole right operand, at (r, q): the sum over k. The changes of float
    format before the product are the identity on the extended reals. -/
theorem blockProduct0_apply (x0 : Vec Ideal S5000x128 .f32) (x1 : Vec Ideal S128x128 .f32) (r : Fin 5000) (q : Fin 128) :
    k0_pay1 x0 x1 (ix2 r q) = ∑ k : Fin 128, x0 (ix2 r k) * x1 (ix2 k q) := by
  unfold k0_pay1
  rw [dims0_plain]
  exact Cert.LibPlainDot.matmul_plain_apply (M := 5000) (K := 128) (N := 128) none
    (truncf .bf16 x0 bitsLt_bf16_f32) (truncf .bf16 x1 bitsLt_bf16_f32) r q

/-- The whole product: entry i is the sum over k of the left operand's (row of i, k) times the right operand's
    (k, column of i). -/
def product0 (a : S100000x128.Idx → EReal) (w : S128x128.Idx → EReal) : S100000x128.Idx → EReal :=
  fun i => ∑ k : Fin 128, a (ix2 (i 0) k) * w (ix2 k (i 1))

/-- The printed index maps over the grid: the left operand's and the output's blocks move together down the rows,
    the right operand's block stays. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block product of the operands' blocks at point t, at (r, q), is the whole product at the array index of the
    output block's (r, q). -/
theorem productBlockRead0 (a : S100000x128.Idx → EReal) (w : S128x128.Idx → EReal) (t : Fin cfg0.N) (r : Fin 5000) (q : Fin 128) :
    ∑ k : Fin 128, a (((cfg0.win 0).blk t).view.emb (ix2 r k)) * w (((cfg0.win 1).blk t).view.emb (ix2 k q))
      = product0 a w (((cfg0.win 2).blk t).view.emb (ix2 r q)) := by
  obtain ⟨e0, e1, e2, e3, e4, e5⟩ := blockIndex0 t
  unfold product0
  refine Finset.sum_congr rfl fun k _ => ?_
  have hl : ((cfg0.win 0).blk t).view.emb (ix2 r k) = ix2 ((((cfg0.win 2).blk t).view.emb (ix2 r q)) 0) k := by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  have hr : ((cfg0.win 1).blk t).view.emb (ix2 k q) = ix2 k ((((cfg0.win 2).blk t).view.emb (ix2 r q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hl, hr]
  rfl

/-- What point t writes back is block t of the whole product of the arrays as the region finds them. -/
theorem productFlushed0 (c : Dev nD) (t : Fin cfg0.N) :
    (dat0 V c).flushed 2 t = ((cfg0.win 2).blk t).view.read (Elt Ideal)
      (product0 (V c (Pipeline.arrRef spec0 0)) (V c (Pipeline.arrRef spec0 1))) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  funext j
  obtain ⟨r, q, rfl⟩ : ∃ (r : Fin 5000) (q : Fin 128), j = ix2 r q := ⟨j 0, j 1, eq_ix2 j⟩
  refine (blockProduct0_apply (iblk0 V c 0 t) (iblk0 V c 1 t) r q).trans ?_
  exact productBlockRead0 (V c (Pipeline.arrRef spec0 0)) (V c (Pipeline.arrRef spec0 1)) t r q

/-- An index of the output array is in point t's block iff its row is among the block's 5000 rows. -/
theorem productBlockMem0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Every index of the output array is in the block of the point that handles its row. -/
theorem productCover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show (i 0).val / 5000 < 20; omega⟩, flush0_2 _, ?_⟩
  rw [productBlockMem0]
  obtain ⟨e0, e1, e2, e3, e4, e5⟩ := blockIndex0 ⟨(i 0).val / 5000, by show (i 0).val / 5000 < 20; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- After the grid the output array holds the whole product. -/
theorem productFinal0 (c : Dev nD) :
    (dat0 V c).arrAt 2 cfg0.N = product0 (V c (Pipeline.arrRef spec0 0)) (V c (Pipeline.arrRef spec0 1)) :=
  (dat0 V c).arrAt_eq_of_cover 2 _ (fun t _ => productFlushed0 V c t) (productCover0)

/-! ## Region 3: rows 5000·t … 5000·t + 4999 of the product, point by point -/

/-- The dimension numbers of this product are the plain ones of a 5000×128 by 128×128 product. -/
theorem dims3_plain : dot_S5000x128_S128x128_S5000x128_1_0_0_1_n_n = DotDims.plain 5000 128 128 := rfl

/-- The product of a block of 5000 rows with the whole right operand, at (r, q): the sum over k. The changes of float
    format before the product are the identity on the extended reals. -/
theorem blockProduct3_apply (x0 : Vec Ideal S5000x128 .f32) (x1 : Vec Ideal S128x128 .f32) (r : Fin 5000) (q : Fin 128) :
    k3_pay1 x0 x1 (ix2 r q) = ∑ k : Fin 128, x0 (ix2 r k) * x1 (ix2 k q) := by
  unfold k3_pay1
  simp only [shapeCast_self]
  rw [dims3_plain]
  exact Cert.LibPlainDot.matmul_plain_apply (M := 5000) (K := 128) (N := 128) none
    (truncf .bf16 x0 bitsLt_bf16_f32) (truncf .bf16 x1 bitsLt_bf16_f32) r q

/-- The whole product: entry i is the sum over k of the left operand's (row of i, k) times the right operand's
    (k, column of i). -/
def product3 (a : S100000x128.Idx → EReal) (w : S128x128.Idx → EReal) : S100000x128.Idx → EReal :=
  fun i => ∑ k : Fin 128, a (ix2 (i 0) k) * w (ix2 k (i 1))

/-- The printed index maps over the grid: the left operand's and the output's blocks move together down the rows,
    the right operand's block stays. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The block product of the operands' blocks at point t, at (r, q), is the whole product at the array index of the
    output block's (r, q). -/
theorem productBlockRead3 (a : S100000x128.Idx → EReal) (w : S128x128.Idx → EReal) (t : Fin cfg3.N) (r : Fin 5000) (q : Fin 128) :
    ∑ k : Fin 128, a (((cfg3.win 0).blk t).view.emb (ix2 r k)) * w (((cfg3.win 1).blk t).view.emb (ix2 k q))
      = product3 a w (((cfg3.win 2).blk t).view.emb (ix2 r q)) := by
  obtain ⟨e0, e1, e2, e3, e4, e5⟩ := blockIndex3 t
  unfold product3
  refine Finset.sum_congr rfl fun k _ => ?_
  have hl : ((cfg3.win 0).blk t).view.emb (ix2 r k) = ix2 ((((cfg3.win 2).blk t).view.emb (ix2 r q)) 0) k := by
    funext a; apply Fin.ext
    match a with
    | ⟨0, _⟩ => show win3_0.index t (0 : Fin 2) * 5000 + 1 * r.val = win3_2.index t (0 : Fin 2) * 5000 + 1 * r.val; omega
    | ⟨1, _⟩ => show win3_0.index t (1 : Fin 2) * 128 + 1 * k.val = k.val; omega
  have hr : ((cfg3.win 1).blk t).view.emb (ix2 k q) = ix2 k ((((cfg3.win 2).blk t).view.emb (ix2 r q)) 1) := by
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  rw [hl, hr]
  rfl

/-- What point t writes back is block t of the whole product of the arrays as the region finds them. -/
theorem productFlushed3 (c : Dev nD) (t : Fin cfg3.N) :
    (dat3 V c).flushed 2 t = ((cfg3.win 2).blk t).view.read (Elt Ideal)
      (product3 (V c (Pipeline.arrRef spec3 0)) (V c (Pipeline.arrRef spec3 1))) := by
  show (cfg3.win 2).cut (grid3.coords t) ((dat3 V c).after 2 t) = _
  rw [after3_2]
  unfold out3_2
  rw [View.canon_unit_zero origin2]
  simp only [View.ld_unit_zero (S := S5000x128) origin2, View.ld_unit_zero (S := S128x128) origin2]
  funext j
  obtain ⟨r, q, rfl⟩ : ∃ (r : Fin 5000) (q : Fin 128), j = ix2 r q := ⟨j 0, j 1, eq_ix2 j⟩
  refine (blockProduct3_apply (iblk3 V c 0 t) (iblk3 V c 1 t) r q).trans ?_
  exact productBlockRead3 (V c (Pipeline.arrRef spec3 0)) (V c (Pipeline.arrRef spec3 1)) t r q

/-- An index of the output array is in point t's block iff its row is among the block's 5000 rows. -/
theorem productBlockMem3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v58).slice (win3_2.rect t)).set ↔ _
  rw [View.set_slice_whole, Rect.mem_set_unit]
  exact Iff.rfl

/-- Every index of the output array is in the block of the point that handles its row. -/
theorem productCover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  refine ⟨⟨(i 0).val / 5000, by show (i 0).val / 5000 < 20; omega⟩, flush3_2 _, ?_⟩
  rw [productBlockMem3]
  obtain ⟨e0, e1, e2, e3, e4, e5⟩ := blockIndex3 ⟨(i 0).val / 5000, by show (i 0).val / 5000 < 20; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e5]; omega

/-- After the grid the output array holds the whole product. -/
theorem productFinal3 (c : Dev nD) :
    (dat3 V c).arrAt 2 cfg3.N = product3 (V c (Pipeline.arrRef spec3 0)) (V c (Pipeline.arrRef spec3 1)) :=
  (dat3 V c).arrAt_eq_of_cover 2 _ (fun t _ => productFlushed3 V c t) (productCover3)

end Cert.KernelIdeal.RegionValue

end
-- ==== Proof.HeadRegion.lean ====
/-
  The head region of the kernel: one column through the logistic function.

  It runs over 20 grid points; point t loads rows 5000·t … 5000·t + 4999 of the last activation, the whole 128 × 1
  weight column and the 1 × 1 bias, and writes back to the same rows of the 100000 × 1 output

      logistic (Σ_k x (p, k) · w (k, 0) + b (0, 0)).

  The blocks tile the output, so after the grid the output array holds that function of the whole arrays.
-/
import proofs.«134670_j14499809591810_1_alg».proof.Proof.Gen.KernelIdeal.Frame
import proofs.«134670_j14499809591810_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The origin of a two-axis buffer, as the constant function. -/
theorem origin2'' : (![0, 0] : Fin 2 → Nat) = fun _ => 0 := funext fun a => by fin_cases a <;> rfl

/-- The dimension numbers of the head's product are the plain ones of a 5000×128 by 128×1 product. -/
theorem dimsHead_plain : dot_S5000x128_S128x1_S5000x1_1_0_0_1_n_n = DotDims.plain 5000 128 1 := rfl

/-- The head's entry at row r of a block, from the loaded blocks. -/
theorem headBlock_apply (x : Vec Ideal S5000x128 .f32) (w : Vec Ideal S128x1 .f32) (b : Vec Ideal S1x1 .f32) (r : Fin 5000) (q : Fin 1) :
    k10_pay1 x w b (ix2 r q) = Ideal.logistic ((∑ k : Fin 128, x (ix2 r k) * w (ix2 k q)) + b (ix2 (0 : Fin 1) q)) := by
  unfold k10_pay1
  simp only [shapeCast_self]
  rw [dimsHead_plain]
  show Ideal.logistic (FloatOps.matmul (DotDims.plain 5000 128 1) none (truncf .bf16 x bitsLt_bf16_f32) (truncf .bf16 w bitsLt_bf16_f32)
        (constant (F := Ideal) ⟨2, ![5000, 1]⟩ .f32 0x00000000#32) (ix2 r q)
      + broadcastTo S5000x1 b broadcasts_S1x1_S5000x1 (ix2 r q)) = _
  rw [Cert.LibPlainDot.matmul_plain_apply, broadcastTo_1b_ab_apply]
  rfl

/-- The head of the whole arrays: entry i is the logistic function of the row's product with the weight column plus
    the bias. -/
def headOut (x : S100000x128.Idx → EReal) (w : S128x1.Idx → EReal) (b : S1x1.Idx → EReal) : S100000x1.Idx → EReal :=
  fun i => Ideal.logistic ((∑ k : Fin 128, x (ix2 (i 0) k) * w (ix2 k (i 1))) + b (ix2 (0 : Fin 1) (i 1)))

/-- The printed index maps over the grid: the activation's and the output's blocks move together down the rows, the
    weight's and the bias's blocks stay. -/
theorem headIndex : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- The head's entry at row r of point t's block, read off the arrays, is the head of the whole arrays at the array
    index of the output block's (r, q). -/
theorem headBlockRead (x : S100000x128.Idx → EReal) (w : S128x1.Idx → EReal) (b : S1x1.Idx → EReal) (t : Fin cfg10.N)
    (r : Fin 5000) (q : Fin 1) :
    Ideal.logistic ((∑ k : Fin 128, x (((cfg10.win 0).blk t).view.emb (ix2 r k)) * w (((cfg10.win 1).blk t).view.emb (ix2 k q)))
        + b (((cfg10.win 2).blk t).view.emb (ix2 (0 : Fin 1) q)))
      = headOut x w b (((cfg10.win 3).blk t).view.emb (ix2 r q)) := by
  obtain ⟨a0, a1, b0, b1, c0, c1, d0, d1⟩ := headIndex t
  have hq : q.val = 0 := by have := q.isLt; omega
  have hb : ((cfg10.win 2).blk t).view.emb (ix2 (0 : Fin 1) q) = ix2 (0 : Fin 1) ((((cfg10.win 3).blk t).view.emb (ix2 r q)) 1) := by
    funext a; apply Fin.ext
    match a with
    | ⟨0, _⟩ => show win10_2.index t (0 : Fin 2) * 1 + 1 * 0 = 0; omega
    | ⟨1, _⟩ => show win10_2.index t (1 : Fin 2) * 1 + 1 * q.val = win10_3.index t (1 : Fin 2) * 1 + 1 * q.val; omega
  have hx : ∀ k : Fin 128, ((cfg10.win 0).blk t).view.emb (ix2 r k) = ix2 ((((cfg10.win 3).blk t).view.emb (ix2 r q)) 0) k := by
    intro k; funext a; apply Fin.ext
    match a with
    | ⟨0, _⟩ => show win10_0.index t (0 : Fin 2) * 5000 + 1 * r.val = win10_3.index t (0 : Fin 2) * 5000 + 1 * r.val; omega
    | ⟨1, _⟩ => show win10_0.index t (1 : Fin 2) * 128 + 1 * k.val = k.val; omega
  have hw : ∀ k : Fin 128, ((cfg10.win 1).blk t).view.emb (ix2 k q) = ix2 k ((((cfg10.win 3).blk t).view.emb (ix2 r q)) 1) := by
    intro k; funext a; apply Fin.ext
    match a with
    | ⟨0, _⟩ => show win10_1.index t (0 : Fin 2) * 128 + 1 * k.val = k.val; omega
    | ⟨1, _⟩ => show win10_1.index t (1 : Fin 2) * 1 + 1 * q.val = win10_3.index t (1 : Fin 2) * 1 + 1 * q.val; omega
  rw [hb]
  simp only [hx, hw]
  rfl

/-- What point t writes back is block t of the head of the arrays as the region finds them. -/
theorem headFlushed (c : Dev nD) (t : Fin cfg10.N) :
    (dat10 V c).flushed 3 t = ((cfg10.win 3).blk t).view.read (Elt Ideal)
      (headOut (V c (Pipeline.arrRef spec10 0)) (V c (Pipeline.arrRef spec10 1)) (V c (Pipeline.arrRef spec10 2))) := by
  show (cfg10.win 3).cut (grid10.coords t) ((dat10 V c).after 3 t) = _
  rw [after10_3]
  unfold out10_3
  rw [View.canon_unit_zero origin2'']
  simp only [View.ld_unit_zero (S := S5000x128) origin2'', View.ld_unit_zero (S := S128x1) origin2'', View.ld_unit_zero (S := S1x1) origin2'']
  funext j
  obtain ⟨r, q, rfl⟩ : ∃ (r : Fin 5000) (q : Fin 1), j = ix2 r q := ⟨j 0, j 1, eq_ix2 j⟩
  refine (headBlock_apply (iblk10 V c 0 t) (iblk10 V c 1 t) (iblk10 V c 2 t) r q).trans ?_
  exact headBlockRead (V c (Pipeline.arrRef spec10 0)) (V c (Pipeline.arrRef spec10 1)) (V c (Pipeline.arrRef spec10 2)) t r q

/-- An index of the output array is in point t's block iff its row is among the block's 5000 rows. -/
theorem headBlockMem (t : Fin cfg10.N) (i : S100000x1.Idx) :
    i ∈ ((cfg10.win 3).blk t).view.set ↔ ∀ a : Fin 2, win10_3.index t a * S5000x1.size a ≤ (i a).val ∧ (i a).val < win10_3.index t a * S5000x1.size a + S5000x1.size a := by
  show i ∈ ((View.whole main_v105).slice (win10_3.rect t)).set ↔ _
  rw [View.set_slice_whole, Rect.mem_set_unit]
  exact Iff.rfl

/-- Every index of the output array is in the block of the point that handles its row. -/
theorem headCover (i : S100000x1.Idx) :
    ∃ t : Fin cfg10.N, (cfg10.win 3).flush t = true ∧ i ∈ ((cfg10.win 3).blk t).view.set := by
  have hi0 : (i 0).val < 100000 := (i 0).isLt
  have hi1 : (i 1).val < 1 := (i 1).isLt
  refine ⟨⟨(i 0).val / 5000, by show (i 0).val / 5000 < 20; omega⟩, flush10_3 _, ?_⟩
  rw [headBlockMem]
  obtain ⟨a0, a1, b0, b1, c0, c1, d0, d1⟩ := headIndex ⟨(i 0).val / 5000, by show (i 0).val / 5000 < 20; omega⟩
  intro a
  match a with
  | ⟨0, _⟩ =>
    show win10_3.index _ (0 : Fin 2) * 5000 ≤ (i 0).val ∧ (i 0).val < win10_3.index _ (0 : Fin 2) * 5000 + 5000
    rw [d0]; show (i 0).val / 5000 * 5000 ≤ (i 0).val ∧ (i 0).val < (i 0).val / 5000 * 5000 + 5000; omega
  | ⟨1, _⟩ =>
    show win10_3.index _ (1 : Fin 2) * 1 ≤ (i 1).val ∧ (i 1).val < win10_3.index _ (1 : Fin 2) * 1 + 1
    rw [d1]; omega

/-- After the grid the output array holds the head of the whole arrays. -/
theorem headFinal (c : Dev nD) :
    (dat10 V c).arrAt 3 cfg10.N = headOut (V c (Pipeline.arrRef spec10 0)) (V c (Pipeline.arrRef spec10 1)) (V c (Pipeline.arrRef spec10 2)) :=
  (dat10 V c).arrAt_eq_of_cover 3 _ (fun t _ => headFlushed V c t) headCover

end Cert.KernelIdeal.RegionValue

end
-- ==== Proof.Stats1_____4Spec.lean ====
/-
  The three results of a combine-and-moments region, as whole-array functions of its four input arrays.

  The inputs are the neighbourhood sums and the projected rows (100000 rows of 128 lanes), the squared inverse root
  degrees (one per row) and the bias (one per lane).  The first result is the pre-activation
      y (p, q) = agg (p, q) + h (p, q) · d2 (p, 0) + b (0, q);
  the other two are one row each: on lane q the sum over all 100000 rows of y (p, q), and of y (p, q) · y (p, q).
  The same two rows are stated for any matrix y of 100000 rows (a dense layer's pre-activation has the same moments).
-/
import Idealize.ShloMosaic.PureOps.Ideal
import Idealize.ShloMosaic.Lib.ValueIdx

noncomputable section

open scoped BigOperators

namespace Cert.KernelStats

open Idealize.ShloMosaic Idealize.ShloMosaic.ValueIdx

/-- The pre-activation of a graph convolution at row `i 0`, lane `i 1`: the neighbourhood sum, plus the node's own row
    times its squared inverse root degree, plus the bias. -/
def combinePre (agg h : (⟨2, ![100000, 128]⟩ : Shape).Idx → EReal) (d2 : (⟨2, ![100000, 1]⟩ : Shape).Idx → EReal)
    (b : (⟨2, ![1, 128]⟩ : Shape).Idx → EReal) : (⟨2, ![100000, 128]⟩ : Shape).Idx → EReal :=
  fun i => agg i + h i * d2 (ix2 (i 0 : Fin 100000) (0 : Fin 1)) + b (ix2 (0 : Fin 1) (i 1 : Fin 128))

/-- The pre-activation at explicit coordinates. -/
theorem combinePre_ix2 (agg h : (⟨2, ![100000, 128]⟩ : Shape).Idx → EReal) (d2 : (⟨2, ![100000, 1]⟩ : Shape).Idx → EReal)
    (b : (⟨2, ![1, 128]⟩ : Shape).Idx → EReal) (p : Fin 100000) (q : Fin 128) :
    combinePre agg h d2 b (ix2 p q) = agg (ix2 p q) + h (ix2 p q) * d2 (ix2 p (0 : Fin 1)) + b (ix2 (0 : Fin 1) q) := rfl

/-- The row of column sums of a matrix of 100000 rows and `C` lanes. -/
def colSums {C : Nat} (y : (⟨2, ![100000, C]⟩ : Shape).Idx → EReal) : (⟨2, ![1, C]⟩ : Shape).Idx → EReal :=
  fun j => ∑ p : Fin 100000, y (ix2 p (j 1 : Fin C))

/-- The row of column sums of squares of a matrix of 100000 rows and `C` lanes. -/
def colSumSqs {C : Nat} (y : (⟨2, ![100000, C]⟩ : Shape).Idx → EReal) : (⟨2, ![1, C]⟩ : Shape).Idx → EReal :=
  fun j => ∑ p : Fin 100000, y (ix2 p (j 1 : Fin C)) * y (ix2 p (j 1 : Fin C))

/-- The row of column sums read on a lane named by an equation. -/
theorem colSums_eq_of_lane {C : Nat} (y : (⟨2, ![100000, C]⟩ : Shape).Idx → EReal) (j : (⟨2, ![1, C]⟩ : Shape).Idx) (q : Fin C)
    (hq : (j 1 : Fin C) = q) : colSums y j = ∑ p : Fin 100000, y (ix2 p q) := by
  subst hq; rfl

/-- The row of column sums of squares read on a lane named by an equation. -/
theorem colSumSqs_eq_of_lane {C : Nat} (y : (⟨2, ![100000, C]⟩ : Shape).Idx → EReal) (j : (⟨2, ![1, C]⟩ : Shape).Idx) (q : Fin C)
    (hq : (j 1 : Fin C) = q) : colSumSqs y j = ∑ p : Fin 100000, y (ix2 p q) * y (ix2 p q) := by
  subst hq; rfl

end Cert.KernelStats

end
-- ==== Proof.Stats1_____4Sums.lean ====
/-
  Sums over the rows of a tall matrix, taken a block of rows at a time.

  A column of a matrix of N rows is summed in the order in which a grid visits it: the rows are cut into consecutive
  blocks of B rows, each block is summed on its own, and the block sums are added to a running total, block after
  block.  Addition in a commutative monoid is commutative and associative, so the running total after the first n
  blocks is the sum over the first B·n rows, and after the last block it is the sum over all the rows.  Nothing about
  the values is used: no entry has to be finite.

  The rows below a bound are written as a sum over `Finset.range` of a function of a natural number that is the
  column on the rows that exist and zero past them (`padded`), so that "the first B·n rows and then the next B rows"
  is `Finset.sum_range_add`.
-/
import Mathlib.Algebra.BigOperators.Fin
import Mathlib.Algebra.BigOperators.Intervals

open scoped BigOperators

namespace Cert.KernelStats

variable {M : Type*} [AddCommMonoid M]

/-- A column `f` of `N` rows, continued by zero past the last row. -/
def padded {N : Nat} (f : Fin N → M) (i : Nat) : M := if h : i < N then f ⟨i, h⟩ else 0

/-- On a row that exists the continued column is the column. -/
theorem padded_of_lt {N : Nat} (f : Fin N → M) (i : Nat) (h : i < N) : padded f i = f ⟨i, h⟩ := dif_pos h

/-- The sum of the continued column over all the rows is the sum of the column. -/
theorem sum_range_padded {N : Nat} (f : Fin N → M) : ∑ i ∈ Finset.range N, padded f i = ∑ p : Fin N, f p := by
  rw [← Fin.sum_univ_eq_sum_range (fun i => padded f i) N]
  exact Finset.sum_congr rfl fun p _ => padded_of_lt f p.val p.isLt

/-- The sum of one block of `B` rows starting at row `a`, the block lying inside the matrix, is the sum of the
    continued column over the next `B` naturals after `a`. -/
theorem sum_block_eq_range {N B : Nat} (f : Fin N → M) (a : Nat) (hab : a + B ≤ N) (g : Fin B → M)
    (hg : ∀ r : Fin B, g r = f ⟨a + r.val, by have := r.isLt; omega⟩) :
    ∑ r : Fin B, g r = ∑ r ∈ Finset.range B, padded f (a + r) := by
  rw [← Fin.sum_univ_eq_sum_range (fun r => padded f (a + r)) B]
  exact Finset.sum_congr rfl fun r _ => (hg r).trans (padded_of_lt f _ _).symm

/-- The running total: the first `a` rows and then a block of `B` more are the first `a + B` rows. -/
theorem sum_range_add_block {N B : Nat} (f : Fin N → M) (a : Nat) (hab : a + B ≤ N) (g : Fin B → M)
    (hg : ∀ r : Fin B, g r = f ⟨a + r.val, by have := r.isLt; omega⟩) :
    ∑ i ∈ Finset.range a, padded f i + ∑ r : Fin B, g r = ∑ i ∈ Finset.range (a + B), padded f i := by
  rw [sum_block_eq_range f a hab g hg, Finset.sum_range_add]

end Cert.KernelStats
-- ==== Proof.Stats1_____4Ops.lean ====
/-
  Three layout and reduction steps read at an index, over the extended reals.

  A column [a, 1] broadcast along the lanes to [a, b] reads, at (p, c), the column's entry of row p.  The sum of an
  [a, b] block over its rows (a reduction over axis 0 into [b]) reads, at lane q, the sum over the rows r of the
  block's entry (r, q); put back as one row [1, b] it reads the same at (0, q).
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelStats

open Idealize.ShloMosaic Idealize.ShloMosaic.ValueIdx

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` block over its rows reads, at lane `q`, the sum over the rows `r` of the entry `(r, q)`. -/
theorem rowReduce_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (q : Fin b) :
    multiReduction (F := Ideal) .add [0] ⟨1, ![b]⟩ src acc h hφ hacc (ix1 q) = ∑ r : Fin a, src (ix2 r q) := by
  refine (Ideal.multiReduction_add_single src acc h hφ hacc (ix1 q)).trans ?_
  refine Finset.sum_congr rfl fun r _ => congrArg src ?_
  funext c
  match c with
  | ⟨0, _⟩ => rfl
  | ⟨1, _⟩ => rfl

/-- The row sums put back as one row: at `(u, q)` of `[1, b]`, the sum over the rows `r` of the entry `(r, q)`. -/
theorem rowReduce_keepdims_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (hc : (⟨1, ![b]⟩ : Shape).ShapeCasts ⟨2, ![1, b]⟩) (u : Fin 1) (q : Fin b) :
    shapeCast ⟨2, ![1, b]⟩ (multiReduction (F := Ideal) .add [0] ⟨1, ![b]⟩ src acc h hφ hacc) hc (ix2 u q)
      = ∑ r : Fin a, src (ix2 r q) :=
  (shapeCast_a_1a_apply _ hc u q).trans (rowReduce_apply src acc h hφ hacc q)

end Cert.KernelStats

end
-- ==== Proof.Stats1_____4Pay1.lean ====
/-
  The arithmetic of one grid point of the first combine-and-moments region, read entry by entry over the extended reals.

  At a point the body holds four blocks: the neighbourhood sums x0 and the projected rows x1 (5000 rows of 128 lanes),
  the squared inverse root degrees x2 (one per row) and the bias x3 (one per lane).  The pre-activation block is
      y (r, q) = x0 (r, q) + x1 (r, q) · x2 (r, 0) + x3 (0, q),
  the degree column being broadcast along the lanes and the bias row along the rows.  The two running rows are updated
  lane by lane: the old row plus the sum over the block's 5000 rows of y, respectively of y · y.  The row the first
  point starts from is zero on every lane.
-/
import proofs.«134670_j14499809591810_1_alg».proof.Proof.Gen.KernelIdeal.Skeleton
import proofs.«134670_j14499809591810_1_alg».proof.Proof.Stats1_____4Ops

noncomputable section

open scoped BigOperators

namespace Cert.KernelStats

open Idealize.ShloMosaic Idealize.ShloMosaic.ValueIdx
open Cert.KernelIdeal Cert.KernelIdeal.Gen

/-- The pre-activation block at row `r`, lane `q`. -/
theorem pre1_apply (x0 x1 : Vec Ideal S5000x128 .f32) (x2 : Vec Ideal S5000x1 .f32) (x3 : Vec Ideal S1x128 .f32)
    (r : Fin 5000) (q : Fin 128) :
    k1_pay3 x0 x1 x2 x3 (ix2 r q)
      = x0 (ix2 r q) + x1 (ix2 r q) * x2 (ix2 r (0 : Fin 1)) + x3 (ix2 (0 : Fin 1) q) := by
  unfold k1_pay3
  show (shapeCast S5000x128 x0 shapeCasts_S5000x128_S5000x128 (ix2 r q)
      + shapeCast S5000x128 x1 shapeCasts_S5000x128_S5000x128 (ix2 r q)
        * broadcastTo S5000x128 (shapeCast S5000x1 x2 shapeCasts_S5000x1_S5000x1) broadcasts_S5000x1_S5000x128 (ix2 r q))
      + broadcastTo S5000x128 (shapeCast S1x128 x3 shapeCasts_S1x128_S1x128) broadcasts_S1x128_S5000x128 (ix2 r q) = _
  rw [shapeCast_self, shapeCast_self, shapeCast_self, shapeCast_self]
  rw [broadcastTo_a1_ab_apply x2 broadcasts_S5000x1_S5000x128 r q,
    broadcastTo_1b_ab_apply x3 broadcasts_S1x128_S5000x128 r q]

/-- The running row of sums after a point: the old row plus the block's column sums. -/
theorem sum1_apply (x0 x1 : Vec Ideal S5000x128 .f32) (x2 : Vec Ideal S5000x1 .f32) (x3 : Vec Ideal S1x128 .f32)
    (xo : Vec Ideal S1x128 .f32) (u : Fin 1) (q : Fin 128) :
    k1_pay4 x0 x1 x2 x3 xo (ix2 u q) = xo (ix2 u q) + ∑ r : Fin 5000, k1_pay3 x0 x1 x2 x3 (ix2 r q) := by
  unfold k1_pay4
  show shapeCast S1x128 xo shapeCasts_S1x128_S1x128 (ix2 u q)
      + shapeCast S1x128 (multiReduction (F := Ideal) .add [0] S128 (k1_pay3 x0 x1 x2 x3) 0x00000000#32
          reduces_S5000x128_S128 (.inl rfl) rfl) shapeCasts_S128_S1x128 (ix2 u q) = _
  rw [shapeCast_self]
  exact congrArg (xo (ix2 u q) + ·)
    (rowReduce_keepdims_apply (k1_pay3 x0 x1 x2 x3) 0x00000000#32 reduces_S5000x128_S128 (.inl rfl) rfl
      shapeCasts_S128_S1x128 u q)

/-- The running row of sums of squares after a point: the old row plus the block's column sums of squares. -/
theorem sumsq1_apply (x0 x1 : Vec Ideal S5000x128 .f32) (x2 : Vec Ideal S5000x1 .f32) (x3 : Vec Ideal S1x128 .f32)
    (xo : Vec Ideal S1x128 .f32) (u : Fin 1) (q : Fin 128) :
    k1_pay5 x0 x1 x2 x3 xo (ix2 u q)
      = xo (ix2 u q) + ∑ r : Fin 5000, k1_pay3 x0 x1 x2 x3 (ix2 r q) * k1_pay3 x0 x1 x2 x3 (ix2 r q) := by
  unfold k1_pay5
  show shapeCast S1x128 xo shapeCasts_S1x128_S1x128 (ix2 u q)
      + shapeCast S1x128 (multiReduction (F := Ideal) .add [0] S128
          (mulf (k1_pay3 x0 x1 x2 x3) (k1_pay3 x0 x1 x2 x3)) 0x00000000#32
          reduces_S5000x128_S128 (.inl rfl) rfl) shapeCasts_S128_S1x128 (ix2 u q) = _
  rw [shapeCast_self]
  exact congrArg (xo (ix2 u q) + ·)
    (rowReduce_keepdims_apply (mulf (k1_pay3 x0 x1 x2 x3) (k1_pay3 x0 x1 x2 x3)) 0x00000000#32 reduces_S5000x128_S128
      (.inl rfl) rfl shapeCasts_S128_S1x128 u q)

/-- The row the first point starts the sums from is zero on every lane. -/
theorem zero1_sum_apply (j : S1x128.Idx) : k1_pay1 (F := Ideal) j = 0 := by
  unfold k1_pay1
  exact Ideal.ofBits_zero_f32

/-- The row the first point starts the sums of squares from is zero on every lane. -/
theorem zero1_sumsq_apply (j : S1x128.Idx) : k1_pay2 (F := Ideal) j = 0 := by
  unfold k1_pay2
  exact Ideal.ofBits_zero_f32

end Cert.KernelStats

end
-- ==== Proof.Stats1_____4Pieces1.lean ====
/-
  What one grid point of the first combine-and-moments region leaves in its three output buffers, for any float values.

  The body stores the pre-activation block once; it stores each running row once, after loading it — at the first grid
  point after first storing the zero row, which the load then reads back.  Every store and load goes through the whole
  buffer, so what a buffer holds afterwards is the payload of its last store, and that payload is the body's arithmetic
  applied to the four input blocks and, for a running row, to the row found there (the zero row at the first point).
-/
import proofs.«134670_j14499809591810_1_alg».proof.Proof.Gen.KernelIdeal.Frame
import Idealize.ShloMosaic.Lib.Pipeline.Value
import Idealize.ShloMosaic.Lib.Tactic

noncomputable section

namespace Cert.KernelStats

open Idealize.ShloMosaic Idealize.ShloMosaic.TcCoe Idealize.SL.Sem
open Cert.KernelIdeal Cert.KernelIdeal.Gen

variable {F : FTy → Type} [FloatOps F]

/-- The zero offsets of a whole-buffer access, as a constant function. -/
theorem zeroOffsets1 : (![0, 0] : Fin 2 → Nat) = fun _ => 0 := funext fun a => by fin_cases a <;> rfl

/-- Past the first point, output 4: the pre-activation block. -/
theorem found1_B_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 : Vec F S5000x128 .f32) (x1 : Vec F S5000x128 .f32) (x2 : Vec F S5000x1 .f32) (x3 : Vec F S1x128 .f32) (xo5 : Vec F S1x128 .f32) (xo6 : Vec F S1x128 .f32) :
    out1_B_4 c i arg1 harg1 arg2 harg2 arg3 harg3 arg4 harg4 arg5 harg5 arg6 harg6 arg7 harg7 hc0 x0 x1 x2 x3 xo5 xo6 = k1_pay3 x0 x1 x2 x3 := by
  unfold out1_B_4
  rw [View.read_writes_eq_canon _ _ _ (cover1_B_4 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero zeroOffsets1]
  simp only [View.readAt_eq_ld, harg1.read_unread, harg2.read_unread, harg3.read_unread, harg4.read_unread, harg6.read_unread, harg7.read_unread,
    View.ld_unit_zero (S := S5000x128) zeroOffsets1, View.ld_unit_zero (S := S5000x1) zeroOffsets1, View.ld_unit_zero (S := S1x128) zeroOffsets1]

/-- Past the first point, output 5: the row found there, updated. -/
theorem found1_B_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 : Vec F S5000x128 .f32) (x1 : Vec F S5000x128 .f32) (x2 : Vec F S5000x1 .f32) (x3 : Vec F S1x128 .f32) (xo5 : Vec F S1x128 .f32) (xo6 : Vec F S1x128 .f32) :
    out1_B_5 c i arg1 harg1 arg2 harg2 arg3 harg3 arg4 harg4 arg5 harg5 arg6 harg6 arg7 harg7 hc0 x0 x1 x2 x3 xo5 xo6 = k1_pay4 x0 x1 x2 x3 xo5 := by
  unfold out1_B_5
  rw [View.read_writes_eq_canon _ _ _ (cover1_B_5 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero zeroOffsets1]
  simp only [View.readAt_eq_ld, harg1.read_unread, harg2.read_unread, harg3.read_unread, harg4.read_unread, harg6.read_unread, harg7.read_unread,
    View.ld_unit_zero (S := S5000x128) zeroOffsets1, View.ld_unit_zero (S := S5000x1) zeroOffsets1, View.ld_unit_zero (S := S1x128) zeroOffsets1]

/-- Past the first point, output 6: the row found there, updated. -/
theorem found1_B_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 : Vec F S5000x128 .f32) (x1 : Vec F S5000x128 .f32) (x2 : Vec F S5000x1 .f32) (x3 : Vec F S1x128 .f32) (xo5 : Vec F S1x128 .f32) (xo6 : Vec F S1x128 .f32) :
    out1_B_6 c i arg1 harg1 arg2 harg2 arg3 harg3 arg4 harg4 arg5 harg5 arg6 harg6 arg7 harg7 hc0 x0 x1 x2 x3 xo5 xo6 = k1_pay5 x0 x1 x2 x3 xo6 := by
  unfold out1_B_6
  rw [View.read_writes_eq_canon _ _ _ (cover1_B_6 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero zeroOffsets1]
  simp only [View.readAt_eq_ld, harg1.read_unread, harg2.read_unread, harg3.read_unread, harg4.read_unread, harg6.read_unread, harg7.read_unread,
    View.ld_unit_zero (S := S5000x128) zeroOffsets1, View.ld_unit_zero (S := S5000x1) zeroOffsets1, View.ld_unit_zero (S := S1x128) zeroOffsets1]

/-- At the first point, output 4: the pre-activation block. -/
theorem found1_A_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 : Vec F S5000x128 .f32) (x1 : Vec F S5000x128 .f32) (x2 : Vec F S5000x1 .f32) (x3 : Vec F S1x128 .f32) :
    out1_A_4 c i arg1 harg1 arg2 harg2 arg3 harg3 arg4 harg4 arg5 harg5 arg6 harg6 arg7 harg7 hc0 x0 x1 x2 x3 = k1_pay3 x0 x1 x2 x3 := by
  unfold out1_A_4
  rw [View.read_writes_eq_canon _ _ _ (cover1_A_4 c i arg1 harg1 arg2 harg2 arg3 harg3 arg4 harg4 arg5 harg5 arg6 harg6 arg7 harg7 hc0 x0 x1 x2 x3)]
  unfold kernelRun1_A
  dsimp only
  sl_unfold_words
  rw [View.canon_unit_zero zeroOffsets1]
  simp only [View.readAt_eq_ld, harg1.read_unread, harg2.read_unread, harg3.read_unread, harg4.read_unread,
    View.ld_unit_zero (S := S5000x128) zeroOffsets1, View.ld_unit_zero (S := S5000x1) zeroOffsets1, View.ld_unit_zero (S := S1x128) zeroOffsets1]

/-- At the first point, output 5: the zero row, updated. -/
theorem found1_A_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 : Vec F S5000x128 .f32) (x1 : Vec F S5000x128 .f32) (x2 : Vec F S5000x1 .f32) (x3 : Vec F S1x128 .f32) :
    out1_A_5 c i arg1 harg1 arg2 harg2 arg3 harg3 arg4 harg4 arg5 harg5 arg6 harg6 arg7 harg7 hc0 x0 x1 x2 x3 = k1_pay4 x0 x1 x2 x3 (k1_pay1 (F := F)) := by
  unfold out1_A_5
  rw [View.read_writes_eq_canon _ _ _ (cover1_A_5 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x128) zeroOffsets1, View.readCov_unit_zero (S := S1x128) _ zeroOffsets1]
  simp only [View.readAt_eq_ld, harg1.read_unread, harg2.read_unread, harg3.read_unread, harg4.read_unread,
    View.ld_unit_zero (S := S5000x128) zeroOffsets1, View.ld_unit_zero (S := S5000x1) zeroOffsets1, View.ld_unit_zero (S := S1x128) zeroOffsets1]

/-- At the first point, output 6: the zero row, updated. -/
theorem found1_A_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 : Vec F S5000x128 .f32) (x1 : Vec F S5000x128 .f32) (x2 : Vec F S5000x1 .f32) (x3 : Vec F S1x128 .f32) :
    out1_A_6 c i arg1 harg1 arg2 harg2 arg3 harg3 arg4 harg4 arg5 harg5 arg6 harg6 arg7 harg7 hc0 x0 x1 x2 x3 = k1_pay5 x0 x1 x2 x3 (k1_pay2 (F := F)) := by
  unfold out1_A_6
  rw [View.read_writes_eq_canon _ _ _ (cover1_A_6 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x128) zeroOffsets1, View.readCov_unit_zero (S := S1x128) _ zeroOffsets1]
  simp only [View.readAt_eq_ld, harg1.read_unread, harg2.read_unread, harg3.read_unread, harg4.read_unread,
    View.ld_unit_zero (S := S5000x128) zeroOffsets1, View.ld_unit_zero (S := S5000x1) zeroOffsets1, View.ld_unit_zero (S := S1x128) zeroOffsets1]

end Cert.KernelStats

end
-- ==== Proof.Stats1_____4Inv1.lean ====
/-
  The first combine-and-moments region, point by point: what its three output buffers hold after each grid point.

  The region's inputs are four arrays as the region finds them: the neighbourhood sums and the projected rows
  (100000 × 128), the squared inverse root degrees (100000 × 1) and the bias (1 × 128).  Grid point t reads rows
  5000·t … 5000·t + 4999 of the first three and the whole bias, so its pre-activation block is rows 5000·t … of the
  pre-activation y of the whole arrays.  By induction on the point, after point n the first buffer holds block n of y,
  and the two running rows hold, on lane q, the sum of y (p, q), respectively of y (p, q)², over the rows p below
  5000·(n + 1): the first point starts from the zero row, every later point adds its block's column sums to the row the
  point before left, and addition of extended reals is commutative and associative.
-/
import proofs.«134670_j14499809591810_1_alg».proof.Proof.Gen.KernelIdeal.Frame
import proofs.«134670_j14499809591810_1_alg».proof.Proof.Stats1_____4Spec
import proofs.«134670_j14499809591810_1_alg».proof.Proof.Stats1_____4Sums
import proofs.«134670_j14499809591810_1_alg».proof.Proof.Stats1_____4Pay1
import proofs.«134670_j14499809591810_1_alg».proof.Proof.Stats1_____4Pieces1

noncomputable section

open scoped BigOperators

namespace Cert.KernelStats

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b)) (c : Dev nD)

/-- The region's input arrays as it finds them: neighbourhood sums, projected rows, squared inverse root degrees, bias. -/
abbrev agg1 : S100000x128.Idx → EReal := V c (Pipeline.arrRef spec1 0)
abbrev own1 : S100000x128.Idx → EReal := V c (Pipeline.arrRef spec1 1)
abbrev deg1 : S100000x1.Idx → EReal := V c (Pipeline.arrRef spec1 2)
abbrev bias1 : S1x128.Idx → EReal := V c (Pipeline.arrRef spec1 3)

/-- The pre-activation of the whole arrays. -/
abbrev pre1 : S100000x128.Idx → EReal := combinePre (agg1 V c) (own1 V c) (deg1 V c) (bias1 V c)

/-- Lane `q` of the pre-activation as a column over the rows, and the column of its squares. -/
abbrev col1 (q : Fin 128) : Fin 100000 → EReal := fun p => pre1 V c (ix2 p q)
abbrev colSq1 (q : Fin 128) : Fin 100000 → EReal := fun p => pre1 V c (ix2 p q) * pre1 V c (ix2 p q)

/-- The block index of every window at every grid point: the row blocks move with the point, the bias and the two
    running rows stay at block zero. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row `r`, lane `q` of the neighbourhood-sum block at point `t` is row `5000·t + r` of the array. -/
theorem blockAgg1_apply (t : Fin cfg1.N) (r : Fin 5000) (q : Fin 128) (hp : 5000 * t.val + r.val < 100000) :
    (iblk1 V c 0 t : Vec Ideal S5000x128 .f32) (ix2 r q) = agg1 V c (ix2 ⟨5000 * t.val + r.val, hp⟩ q) := by
  obtain ⟨e0, e1, -⟩ := index1 t
  show agg1 V c (((cfg1.win 0).blk t).view.emb (ix2 r q)) = agg1 V c (ix2 ⟨5000 * t.val + r.val, hp⟩ q)
  refine congrArg (agg1 V c) (funext fun a => Fin.ext ?_)
  match a with
  | ⟨0, _⟩ => show win1_0.index t (0 : Fin 2) * 5000 + 1 * r.val = 5000 * t.val + r.val; rw [e0]; omega
  | ⟨1, _⟩ => show win1_0.index t (1 : Fin 2) * 128 + 1 * q.val = q.val; rw [e1]; omega

/-- Row `r`, lane `q` of the projected-rows block at point `t` is row `5000·t + r` of the array. -/
theorem blockOwn1_apply (t : Fin cfg1.N) (r : Fin 5000) (q : Fin 128) (hp : 5000 * t.val + r.val < 100000) :
    (iblk1 V c 1 t : Vec Ideal S5000x128 .f32) (ix2 r q) = own1 V c (ix2 ⟨5000 * t.val + r.val, hp⟩ q) := by
  obtain ⟨-, -, e0, e1, -⟩ := index1 t
  show own1 V c (((cfg1.win 1).blk t).view.emb (ix2 r q)) = own1 V c (ix2 ⟨5000 * t.val + r.val, hp⟩ q)
  refine congrArg (own1 V c) (funext fun a => Fin.ext ?_)
  match a with
  | ⟨0, _⟩ => show win1_1.index t (0 : Fin 2) * 5000 + 1 * r.val = 5000 * t.val + r.val; rw [e0]; omega
  | ⟨1, _⟩ => show win1_1.index t (1 : Fin 2) * 128 + 1 * q.val = q.val; rw [e1]; omega

/-- Row `r` of the degree block at point `t` is row `5000·t + r` of the array. -/
theorem blockDeg1_apply (t : Fin cfg1.N) (r : Fin 5000) (hp : 5000 * t.val + r.val < 100000) :
    (iblk1 V c 2 t : Vec Ideal S5000x1 .f32) (ix2 r (0 : Fin 1)) = deg1 V c (ix2 ⟨5000 * t.val + r.val, hp⟩ (0 : Fin 1)) := by
  obtain ⟨-, -, -, -, e0, e1, -⟩ := index1 t
  show deg1 V c (((cfg1.win 2).blk t).view.emb (ix2 r (0 : Fin 1))) = deg1 V c (ix2 ⟨5000 * t.val + r.val, hp⟩ (0 : Fin 1))
  refine congrArg (deg1 V c) (funext fun a => Fin.ext ?_)
  match a with
  | ⟨0, _⟩ => show win1_2.index t (0 : Fin 2) * 5000 + 1 * r.val = 5000 * t.val + r.val; rw [e0]; omega
  | ⟨1, _⟩ => show win1_2.index t (1 : Fin 2) * 1 + 1 * 0 = 0; rw [e1]

/-- The bias block at every point is the bias. -/
theorem blockBias1_apply (t : Fin cfg1.N) (q : Fin 128) :
    (iblk1 V c 3 t : Vec Ideal S1x128 .f32) (ix2 (0 : Fin 1) q) = bias1 V c (ix2 (0 : Fin 1) q) := by
  obtain ⟨-, -, -, -, -, -, e0, e1, -⟩ := index1 t
  show bias1 V c (((cfg1.win 3).blk t).view.emb (ix2 (0 : Fin 1) q)) = bias1 V c (ix2 (0 : Fin 1) q)
  refine congrArg (bias1 V c) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- The pre-activation block of point `t` is rows `5000·t …` of the pre-activation of the whole arrays. -/
theorem preBlock1_apply (t : Fin cfg1.N) (r : Fin 5000) (q : Fin 128) (hp : 5000 * t.val + r.val < 100000) :
    k1_pay3 (iblk1 V c 0 t) (iblk1 V c 1 t) (iblk1 V c 2 t) (iblk1 V c 3 t) (ix2 r q)
      = pre1 V c (ix2 ⟨5000 * t.val + r.val, hp⟩ q) := by
  refine (pre1_apply (iblk1 V c 0 t) (iblk1 V c 1 t) (iblk1 V c 2 t) (iblk1 V c 3 t) r q).trans ?_
  rw [blockAgg1_apply V c t r q hp, blockOwn1_apply V c t r q hp, blockDeg1_apply V c t r hp, blockBias1_apply V c t q]
  rfl

/-- One point's update of the running row of sums: the rows below `5000·t` and then block `t`. -/
theorem stepSum1 (t : Fin cfg1.N) (q : Fin 128) (s : EReal)
    (hs : s = ∑ i ∈ Finset.range (5000 * t.val), padded (col1 V c q) i) :
    s + ∑ r : Fin 5000, k1_pay3 (iblk1 V c 0 t) (iblk1 V c 1 t) (iblk1 V c 2 t) (iblk1 V c 3 t) (ix2 r q)
      = ∑ i ∈ Finset.range (5000 * (t.val + 1)), padded (col1 V c q) i := by
  have hN : t.val < 20 := lt_of_lt_of_eq t.isLt (show cfg1.N = 20 from N_1)
  have hab : 5000 * t.val + 5000 ≤ 100000 := by omega
  have hp : ∀ r : Fin 5000, 5000 * t.val + r.val < 100000 := fun r => by have := r.isLt; omega
  rw [hs, show 5000 * (t.val + 1) = 5000 * t.val + 5000 from by omega]
  exact sum_range_add_block (col1 V c q) (5000 * t.val) hab
    (fun r => k1_pay3 (iblk1 V c 0 t) (iblk1 V c 1 t) (iblk1 V c 2 t) (iblk1 V c 3 t) (ix2 r q))
    (fun r => preBlock1_apply V c t r q (hp r))

/-- One point's update of the running row of sums of squares. -/
theorem stepSumSq1 (t : Fin cfg1.N) (q : Fin 128) (s : EReal)
    (hs : s = ∑ i ∈ Finset.range (5000 * t.val), padded (colSq1 V c q) i) :
    s + ∑ r : Fin 5000, k1_pay3 (iblk1 V c 0 t) (iblk1 V c 1 t) (iblk1 V c 2 t) (iblk1 V c 3 t) (ix2 r q)
          * k1_pay3 (iblk1 V c 0 t) (iblk1 V c 1 t) (iblk1 V c 2 t) (iblk1 V c 3 t) (ix2 r q)
      = ∑ i ∈ Finset.range (5000 * (t.val + 1)), padded (colSq1 V c q) i := by
  have hN : t.val < 20 := lt_of_lt_of_eq t.isLt (show cfg1.N = 20 from N_1)
  have hab : 5000 * t.val + 5000 ≤ 100000 := by omega
  have hp : ∀ r : Fin 5000, 5000 * t.val + r.val < 100000 := fun r => by have := r.isLt; omega
  rw [hs, show 5000 * (t.val + 1) = 5000 * t.val + 5000 from by omega]
  exact sum_range_add_block (colSq1 V c q) (5000 * t.val) hab
    (fun r => k1_pay3 (iblk1 V c 0 t) (iblk1 V c 1 t) (iblk1 V c 2 t) (iblk1 V c 3 t) (ix2 r q)
      * k1_pay3 (iblk1 V c 0 t) (iblk1 V c 1 t) (iblk1 V c 2 t) (iblk1 V c 3 t) (ix2 r q))
    (fun r => congrArg₂ (· * ·) (preBlock1_apply V c t r q (hp r)) (preBlock1_apply V c t r q (hp r)))

/-- The first point: the block, and the zero rows updated. -/
theorem firstPoint1 (h : 0 < cfg1.N) :
    outsAt1 V c 0 h
      = (k1_pay3 (iblk1 V c 0 ⟨0, h⟩) (iblk1 V c 1 ⟨0, h⟩) (iblk1 V c 2 ⟨0, h⟩) (iblk1 V c 3 ⟨0, h⟩),
         k1_pay4 (iblk1 V c 0 ⟨0, h⟩) (iblk1 V c 1 ⟨0, h⟩) (iblk1 V c 2 ⟨0, h⟩) (iblk1 V c 3 ⟨0, h⟩) (k1_pay1 (F := Ideal)),
         k1_pay5 (iblk1 V c 0 ⟨0, h⟩) (iblk1 V c 1 ⟨0, h⟩) (iblk1 V c 2 ⟨0, h⟩) (iblk1 V c 3 ⟨0, h⟩) (k1_pay2 (F := Ideal))) := by
  refine (outsAt1_A V c ⟨0, h⟩ rfl).trans ?_
  rw [found1_A_4 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩),
    found1_A_5 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩),
    found1_A_6 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩)]

/-- A later point: the block, and the rows the point before left, updated. -/
theorem laterPoint1 (n : ℕ) (h : n + 1 < cfg1.N) (hB : ¬(n + 1) % 20 = 0) :
    outsAt1 V c (n + 1) h
      = (k1_pay3 (iblk1 V c 0 ⟨n + 1, h⟩) (iblk1 V c 1 ⟨n + 1, h⟩) (iblk1 V c 2 ⟨n + 1, h⟩) (iblk1 V c 3 ⟨n + 1, h⟩),
         k1_pay4 (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2.1,
         k1_pay5 (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2.2) := by
  refine (outsAt1_B V c ⟨n + 1, h⟩ hB).trans ?_
  rw [found1_B_4 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩)
      (outsAt1 V c ((⟨n + 1, h⟩ : Fin cfg1.N).val - 1) (Nat.lt_of_le_of_lt (Nat.sub_le _ _) (⟨n + 1, h⟩ : Fin cfg1.N).isLt)).2.1
      (outsAt1 V c ((⟨n + 1, h⟩ : Fin cfg1.N).val - 1) (Nat.lt_of_le_of_lt (Nat.sub_le _ _) (⟨n + 1, h⟩ : Fin cfg1.N).isLt)).2.2,
    found1_B_5 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩)
      (outsAt1 V c ((⟨n + 1, h⟩ : Fin cfg1.N).val - 1) (Nat.lt_of_le_of_lt (Nat.sub_le _ _) (⟨n + 1, h⟩ : Fin cfg1.N).isLt)).2.1
      (outsAt1 V c ((⟨n + 1, h⟩ : Fin cfg1.N).val - 1) (Nat.lt_of_le_of_lt (Nat.sub_le _ _) (⟨n + 1, h⟩ : Fin cfg1.N).isLt)).2.2,
    found1_B_6 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩)
      (outsAt1 V c ((⟨n + 1, h⟩ : Fin cfg1.N).val - 1) (Nat.lt_of_le_of_lt (Nat.sub_le _ _) (⟨n + 1, h⟩ : Fin cfg1.N).isLt)).2.1
      (outsAt1 V c ((⟨n + 1, h⟩ : Fin cfg1.N).val - 1) (Nat.lt_of_le_of_lt (Nat.sub_le _ _) (⟨n + 1, h⟩ : Fin cfg1.N).isLt)).2.2]
  all_goals rfl

/-- THE INVARIANT.  After point `n` the first buffer holds block `n` of the pre-activation, and the running rows
    hold on every lane the sums over the rows below `5000·(n + 1)`. -/
theorem afterPoint1 : ∀ (n : ℕ) (h : n < cfg1.N),
    (outsAt1 V c n h).1 = k1_pay3 (iblk1 V c 0 ⟨n, h⟩) (iblk1 V c 1 ⟨n, h⟩) (iblk1 V c 2 ⟨n, h⟩) (iblk1 V c 3 ⟨n, h⟩)
    ∧ (∀ (u : Fin 1) (q : Fin 128), (outsAt1 V c n h).2.1 (ix2 u q)
        = ∑ i ∈ Finset.range (5000 * (n + 1)), padded (col1 V c q) i)
    ∧ (∀ (u : Fin 1) (q : Fin 128), (outsAt1 V c n h).2.2 (ix2 u q)
        = ∑ i ∈ Finset.range (5000 * (n + 1)), padded (colSq1 V c q) i)
  | 0, h => by
    rw [firstPoint1 V c h]
    refine ⟨rfl, fun u q => ?_, fun u q => ?_⟩
    · refine (sum1_apply (iblk1 V c 0 ⟨0, h⟩) (iblk1 V c 1 ⟨0, h⟩) (iblk1 V c 2 ⟨0, h⟩) (iblk1 V c 3 ⟨0, h⟩) (k1_pay1 (F := Ideal)) u q).trans ?_
      exact stepSum1 V c ⟨0, h⟩ q _ ((zero1_sum_apply (ix2 u q)).trans (by simp))
    · refine (sumsq1_apply (iblk1 V c 0 ⟨0, h⟩) (iblk1 V c 1 ⟨0, h⟩) (iblk1 V c 2 ⟨0, h⟩) (iblk1 V c 3 ⟨0, h⟩) (k1_pay2 (F := Ideal)) u q).trans ?_
      exact stepSumSq1 V c ⟨0, h⟩ q _ ((zero1_sumsq_apply (ix2 u q)).trans (by simp))
  | n + 1, h => by
    have hN : cfg1.N = 20 := N_1
    have hB : ¬(n + 1) % 20 = 0 := by omega
    obtain ⟨-, ih5, ih6⟩ := afterPoint1 n (Nat.lt_of_succ_lt h)
    rw [laterPoint1 V c n h hB]
    refine ⟨rfl, fun u q => ?_, fun u q => ?_⟩
    · refine (sum1_apply (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2.1 u q).trans ?_
      exact stepSum1 V c ⟨n + 1, h⟩ q _ (ih5 u q)
    · refine (sumsq1_apply (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2.2 u q).trans ?_
      exact stepSumSq1 V c ⟨n + 1, h⟩ q _ (ih6 u q)

end Cert.KernelStats

end
-- ==== Proof.Stats1_____4Final1.lean ====
/-
  The first combine-and-moments region after its whole grid: its three output arrays as functions of its input arrays.

  The pre-activation array is written back block by block: point t writes rows 5000·t … 5000·t + 4999, every row lies in
  the block of the point (row / 5000), and each block is the restriction of the pre-activation y of the whole arrays;
  so the array ends holding y.  The two rows of moments are written back once, after the last point, from buffers that
  then hold, on lane q, the sum of y (p, q) and of y (p, q)² over all 100000 rows p.
-/
import proofs.«134670_j14499809591810_1_alg».proof.Proof.Stats1_____4Inv1
import Idealize.ShloMosaic.Lib.Pipeline.Value

noncomputable section

open scoped BigOperators

namespace Cert.KernelStats

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## The pre-activation array -/

/-- What point `t` writes back to the pre-activation array is block `t` of the pre-activation of the whole arrays. -/
theorem preFlushed1 (t : Fin cfg1.N) :
    (dat1 V c).flushed 4 t = ((cfg1.win 4).blk t).view.read (Elt Ideal) (pre1 V c) := by
  have hN : t.val < 20 := lt_of_lt_of_eq t.isLt (show cfg1.N = 20 from N_1)
  obtain ⟨-, -, -, -, -, -, -, -, e0, e1, -⟩ := index1 t
  show (cfg1.win 4).cut (grid1.coords t) ((dat1 V c).after 4 t) = _
  rw [after1_4, (afterPoint1 V c t.val t.isLt).1]
  refine funext fun (y : S5000x128.Idx) => ?_
  obtain ⟨r, q, rfl⟩ : ∃ (r : Fin 5000) (q : Fin 128), y = ix2 r q := ⟨y 0, y 1, @eq_ix2 5000 128 y⟩
  have hp : 5000 * t.val + r.val < 100000 := by have := r.isLt; omega
  have hx : (cfg1.win 4).xinj (grid1.coords t) (ix2 r q) = ix2 r q := funext fun a => Fin.ext rfl
  refine (congrArg (k1_pay3 (iblk1 V c 0 t) (iblk1 V c 1 t) (iblk1 V c 2 t) (iblk1 V c 3 t)) hx).trans ?_
  refine (preBlock1_apply V c t r q hp).trans ?_
  show pre1 V c (ix2 ⟨5000 * t.val + r.val, hp⟩ q) = pre1 V c (((cfg1.win 4).blk t).view.emb (ix2 r q))
  refine congrArg (pre1 V c) (funext fun a => Fin.ext ?_)
  match a with
  | ⟨0, _⟩ => show 5000 * t.val + r.val = win1_4.index t (0 : Fin 2) * 5000 + 1 * r.val; rw [e0]; omega
  | ⟨1, _⟩ => show q.val = win1_4.index t (1 : Fin 2) * 128 + 1 * q.val; rw [e1]; omega

/-- An index of the pre-activation array is in point `t`'s block iff each coordinate is in the block's range. -/
theorem preBlock1_mem (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v48_0).slice (win1_4.rect t)).set ↔ _
  rw [View.set_slice_whole, Rect.mem_set_unit]
  exact Iff.rfl

/-- Every row lies in the block of the point (row / 5000). -/
theorem preCover1 (i : S100000x128.Idx) :
    ∃ t : Fin cfg1.N, (cfg1.win 4).flush t = true ∧ i ∈ ((cfg1.win 4).blk t).view.set := by
  have hN : cfg1.N = 20 := N_1
  have hi0 : (i 0).val < 100000 := (i 0).isLt
  have hi1 : (i 1).val < 128 := (i 1).isLt
  have ht : (i 0).val / 5000 < cfg1.N := by rw [hN]; omega
  obtain ⟨-, -, -, -, -, -, -, -, e0, e1, -⟩ := index1 ⟨(i 0).val / 5000, ht⟩
  have e0' : win1_4.index ⟨(i 0).val / 5000, ht⟩ (0 : Fin 2) = (i 0).val / 5000 := e0
  refine ⟨⟨(i 0).val / 5000, ht⟩, flush1_4 _, ?_⟩
  rw [preBlock1_mem]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0']; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e1]; omega

/-- (pre) After the grid the first output array holds the pre-activation of the input arrays. -/
theorem pre1_final : (dat1 V c).arrAt 4 cfg1.N = pre1 V c :=
  (dat1 V c).arrAt_eq_of_cover 4 (pre1 V c) (fun t _ => preFlushed1 V c t) (preCover1)

/-! ## The two rows of moments -/

/-- The last point. -/
theorem lastLt1 : 19 < cfg1.N := by rw [show cfg1.N = 20 from N_1]; decide

/-- The lane of an index of a one-row block at block index zero is the lane inside the block. -/
theorem rowLane1_5 (t : Fin cfg1.N) (u : Fin 1) (q : Fin 128) :
    ((((cfg1.win 5).blk t).view.emb (ix2 u q)) (1 : Fin 2) : Fin 128) = q := by
  obtain ⟨-, -, -, -, -, -, -, -, -, -, -, e1, -⟩ := index1 t
  refine Fin.ext ?_
  show win1_5.index t (1 : Fin 2) * 128 + 1 * q.val = q.val
  rw [e1]; omega

theorem rowLane1_6 (t : Fin cfg1.N) (u : Fin 1) (q : Fin 128) :
    ((((cfg1.win 6).blk t).view.emb (ix2 u q)) (1 : Fin 2) : Fin 128) = q := by
  obtain ⟨-, -, -, -, -, -, -, -, -, -, -, -, -, e1⟩ := index1 t
  refine Fin.ext ?_
  show win1_6.index t (1 : Fin 2) * 128 + 1 * q.val = q.val
  rw [e1]; omega

/-- A one-row array read through a point's block of window 5, 6: the array at the block's index. -/
theorem rowRead1_5 (t : Fin cfg1.N) (G : S1x128.Idx → EReal) (x : S1x128.Idx) :
    ((cfg1.win 5).blk t).view.read (Elt Ideal) G x = G (((cfg1.win 5).blk t).view.emb x) := rfl

theorem rowRead1_6 (t : Fin cfg1.N) (G : S1x128.Idx → EReal) (x : S1x128.Idx) :
    ((cfg1.win 6).blk t).view.read (Elt Ideal) G x = G (((cfg1.win 6).blk t).view.emb x) := rfl

/-- The one write-back of the row of sums, after the last point, writes the column sums over all the rows. -/
theorem sumFlushed1 (t : Fin cfg1.N) (hf : (cfg1.win 5).flush t = true) :
    (dat1 V c).flushed 5 t = ((cfg1.win 5).blk t).view.read (Elt Ideal) (colSums (pre1 V c)) := by
  have hN : t.val < 20 := lt_of_lt_of_eq t.isLt (show cfg1.N = 20 from N_1)
  have h19 : t.val % 20 = 19 := (flush1_5 t).mp hf
  have e : 5000 * (t.val + 1) = 100000 := by omega
  show (cfg1.win 5).cut (grid1.coords t) ((dat1 V c).after 5 t) = _
  rw [after1_5]
  refine funext fun (y : S1x128.Idx) => ?_
  obtain ⟨u, q, rfl⟩ : ∃ (u : Fin 1) (q : Fin 128), y = ix2 u q := ⟨y 0, y 1, @eq_ix2 1 128 y⟩
  have hx : (cfg1.win 5).xinj (grid1.coords t) (ix2 u q) = ix2 u q := funext fun a => Fin.ext rfl
  refine (congrArg (outsAt1 V c t.val t.isLt).2.1 hx).trans ?_
  refine ((afterPoint1 V c t.val t.isLt).2.1 u q).trans ?_
  rw [e, sum_range_padded]
  refine Eq.trans ?_ (rowRead1_5 t (colSums (pre1 V c)) (ix2 u q)).symm
  exact (colSums_eq_of_lane (pre1 V c) (((cfg1.win 5).blk t).view.emb (ix2 u q)) q (rowLane1_5 t u q)).symm

/-- The one write-back of the row of sums of squares likewise. -/
theorem sumsqFlushed1 (t : Fin cfg1.N) (hf : (cfg1.win 6).flush t = true) :
    (dat1 V c).flushed 6 t = ((cfg1.win 6).blk t).view.read (Elt Ideal) (colSumSqs (pre1 V c)) := by
  have hN : t.val < 20 := lt_of_lt_of_eq t.isLt (show cfg1.N = 20 from N_1)
  have h19 : t.val % 20 = 19 := (flush1_6 t).mp hf
  have e : 5000 * (t.val + 1) = 100000 := by omega
  show (cfg1.win 6).cut (grid1.coords t) ((dat1 V c).after 6 t) = _
  rw [after1_6]
  refine funext fun (y : S1x128.Idx) => ?_
  obtain ⟨u, q, rfl⟩ : ∃ (u : Fin 1) (q : Fin 128), y = ix2 u q := ⟨y 0, y 1, @eq_ix2 1 128 y⟩
  have hx : (cfg1.win 6).xinj (grid1.coords t) (ix2 u q) = ix2 u q := funext fun a => Fin.ext rfl
  refine (congrArg (outsAt1 V c t.val t.isLt).2.2 hx).trans ?_
  refine ((afterPoint1 V c t.val t.isLt).2.2 u q).trans ?_
  rw [e, sum_range_padded]
  refine Eq.trans ?_ (rowRead1_6 t (colSumSqs (pre1 V c)) (ix2 u q)).symm
  exact (colSumSqs_eq_of_lane (pre1 V c) (((cfg1.win 6).blk t).view.emb (ix2 u q)) q (rowLane1_6 t u q)).symm

/-- The last point's block of a one-row array is the whole row. -/
theorem sumCover1 (i : S1x128.Idx) :
    ∃ t : Fin cfg1.N, (cfg1.win 5).flush t = true ∧ i ∈ ((cfg1.win 5).blk t).view.set := by
  have hi0 : (i 0).val < 1 := (i 0).isLt
  have hi1 : (i 1).val < 128 := (i 1).isLt
  obtain ⟨-, -, -, -, -, -, -, -, -, -, e0, e1, -⟩ := index1 ⟨19, lastLt1⟩
  refine ⟨⟨19, lastLt1⟩, (flush1_5 _).mpr rfl, ?_⟩
  show i ∈ ((View.whole main_v48_1).slice (win1_5.rect ⟨19, lastLt1⟩)).set
  rw [View.set_slice_whole, Rect.mem_set_unit]
  intro a
  match a with
  | ⟨0, _⟩ =>
    show win1_5.index ⟨19, lastLt1⟩ (0 : Fin 2) * 1 ≤ (i 0).val ∧ (i 0).val < win1_5.index ⟨19, lastLt1⟩ (0 : Fin 2) * 1 + 1
    rw [e0]; omega
  | ⟨1, _⟩ =>
    show win1_5.index ⟨19, lastLt1⟩ (1 : Fin 2) * 128 ≤ (i 1).val ∧ (i 1).val < win1_5.index ⟨19, lastLt1⟩ (1 : Fin 2) * 128 + 128
    rw [e1]; omega

theorem sumsqCover1 (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  obtain ⟨-, -, -, -, -, -, -, -, -, -, -, -, e0, e1⟩ := index1 ⟨19, lastLt1⟩
  refine ⟨⟨19, lastLt1⟩, (flush1_6 _).mpr rfl, ?_⟩
  show i ∈ ((View.whole main_v48_2).slice (win1_6.rect ⟨19, lastLt1⟩)).set
  rw [View.set_slice_whole, Rect.mem_set_unit]
  intro a
  match a with
  | ⟨0, _⟩ =>
    show win1_6.index ⟨19, lastLt1⟩ (0 : Fin 2) * 1 ≤ (i 0).val ∧ (i 0).val < win1_6.index ⟨19, lastLt1⟩ (0 : Fin 2) * 1 + 1
    rw [e0]; omega
  | ⟨1, _⟩ =>
    show win1_6.index ⟨19, lastLt1⟩ (1 : Fin 2) * 128 ≤ (i 1).val ∧ (i 1).val < win1_6.index ⟨19, lastLt1⟩ (1 : Fin 2) * 128 + 128
    rw [e1]; omega

/-- (sum) After the grid the second output array holds, on lane `q`, the sum of the pre-activation over all rows. -/
theorem sum1_final : (dat1 V c).arrAt 5 cfg1.N = colSums (pre1 V c) :=
  (dat1 V c).arrAt_eq_of_cover 5 (colSums (pre1 V c)) (sumFlushed1 V c) (sumCover1)

/-- (sumsq) After the grid the third output array holds, on lane `q`, the sum of its squares over all rows. -/
theorem sumsq1_final : (dat1 V c).arrAt 6 cfg1.N = colSumSqs (pre1 V c) :=
  (dat1 V c).arrAt_eq_of_cover 6 (colSumSqs (pre1 V c)) (sumsqFlushed1 V c) (sumsqCover1)

end Cert.KernelStats

end
-- ==== Proof.Stats1_____4Pay4.lean ====
/-
  The arithmetic of one grid point of the second combine-and-moments region, read entry by entry over the extended reals.

  At a point the body holds four blocks: the neighbourhood sums x0 and the projected rows x1 (5000 rows of 128 lanes),
  the squared inverse root degrees x2 (one per row) and the bias x3 (one per lane).  The pre-activation block is
      y (r, q) = x0 (r, q) + x1 (r, q) · x2 (r, 0) + x3 (0, q),
  the degree column being broadcast along the lanes and the bias row along the rows.  The two running rows are updated
  lane by lane: the old row plus the sum over the block's 5000 rows of y, respectively of y · y.  The row the first
  point starts from is zero on every lane.
-/
import proofs.«134670_j14499809591810_1_alg».proof.Proof.Gen.KernelIdeal.Skeleton
import proofs.«134670_j14499809591810_1_alg».proof.Proof.Stats1_____4Ops

noncomputable section

open scoped BigOperators

namespace Cert.KernelStats

open Idealize.ShloMosaic Idealize.ShloMosaic.ValueIdx
open Cert.KernelIdeal Cert.KernelIdeal.Gen

/-- The pre-activation block at row `r`, lane `q`. -/
theorem pre4_apply (x0 x1 : Vec Ideal S5000x128 .f32) (x2 : Vec Ideal S5000x1 .f32) (x3 : Vec Ideal S1x128 .f32)
    (r : Fin 5000) (q : Fin 128) :
    k4_pay3 x0 x1 x2 x3 (ix2 r q)
      = x0 (ix2 r q) + x1 (ix2 r q) * x2 (ix2 r (0 : Fin 1)) + x3 (ix2 (0 : Fin 1) q) := by
  unfold k4_pay3
  show (shapeCast S5000x128 x0 shapeCasts_S5000x128_S5000x128 (ix2 r q)
      + shapeCast S5000x128 x1 shapeCasts_S5000x128_S5000x128 (ix2 r q)
        * broadcastTo S5000x128 (shapeCast S5000x1 x2 shapeCasts_S5000x1_S5000x1) broadcasts_S5000x1_S5000x128 (ix2 r q))
      + broadcastTo S5000x128 (shapeCast S1x128 x3 shapeCasts_S1x128_S1x128) broadcasts_S1x128_S5000x128 (ix2 r q) = _
  rw [shapeCast_self, shapeCast_self, shapeCast_self, shapeCast_self]
  rw [broadcastTo_a1_ab_apply x2 broadcasts_S5000x1_S5000x128 r q,
    broadcastTo_1b_ab_apply x3 broadcasts_S1x128_S5000x128 r q]

/-- The running row of sums after a point: the old row plus the block's column sums. -/
theorem sum4_apply (x0 x1 : Vec Ideal S5000x128 .f32) (x2 : Vec Ideal S5000x1 .f32) (x3 : Vec Ideal S1x128 .f32)
    (xo : Vec Ideal S1x128 .f32) (u : Fin 1) (q : Fin 128) :
    k4_pay4 x0 x1 x2 x3 xo (ix2 u q) = xo (ix2 u q) + ∑ r : Fin 5000, k4_pay3 x0 x1 x2 x3 (ix2 r q) := by
  unfold k4_pay4
  show shapeCast S1x128 xo shapeCasts_S1x128_S1x128 (ix2 u q)
      + shapeCast S1x128 (multiReduction (F := Ideal) .add [0] S128 (k4_pay3 x0 x1 x2 x3) 0x00000000#32
          reduces_S5000x128_S128 (.inl rfl) rfl) shapeCasts_S128_S1x128 (ix2 u q) = _
  rw [shapeCast_self]
  exact congrArg (xo (ix2 u q) + ·)
    (rowReduce_keepdims_apply (k4_pay3 x0 x1 x2 x3) 0x00000000#32 reduces_S5000x128_S128 (.inl rfl) rfl
      shapeCasts_S128_S1x128 u q)

/-- The running row of sums of squares after a point: the old row plus the block's column sums of squares. -/
theorem sumsq4_apply (x0 x1 : Vec Ideal S5000x128 .f32) (x2 : Vec Ideal S5000x1 .f32) (x3 : Vec Ideal S1x128 .f32)
    (xo : Vec Ideal S1x128 .f32) (u : Fin 1) (q : Fin 128) :
    k4_pay5 x0 x1 x2 x3 xo (ix2 u q)
      = xo (ix2 u q) + ∑ r : Fin 5000, k4_pay3 x0 x1 x2 x3 (ix2 r q) * k4_pay3 x0 x1 x2 x3 (ix2 r q) := by
  unfold k4_pay5
  show shapeCast S1x128 xo shapeCasts_S1x128_S1x128 (ix2 u q)
      + shapeCast S1x128 (multiReduction (F := Ideal) .add [0] S128
          (mulf (k4_pay3 x0 x1 x2 x3) (k4_pay3 x0 x1 x2 x3)) 0x00000000#32
          reduces_S5000x128_S128 (.inl rfl) rfl) shapeCasts_S128_S1x128 (ix2 u q) = _
  rw [shapeCast_self]
  exact congrArg (xo (ix2 u q) + ·)
    (rowReduce_keepdims_apply (mulf (k4_pay3 x0 x1 x2 x3) (k4_pay3 x0 x1 x2 x3)) 0x00000000#32 reduces_S5000x128_S128
      (.inl rfl) rfl shapeCasts_S128_S1x128 u q)

/-- The row the first point starts the sums from is zero on every lane. -/
theorem zero4_sum_apply (j : S1x128.Idx) : k4_pay1 (F := Ideal) j = 0 := by
  unfold k4_pay1
  exact Ideal.ofBits_zero_f32

/-- The row the first point starts the sums of squares from is zero on every lane. -/
theorem zero4_sumsq_apply (j : S1x128.Idx) : k4_pay2 (F := Ideal) j = 0 := by
  unfold k4_pay2
  exact Ideal.ofBits_zero_f32

end Cert.KernelStats

end
-- ==== Proof.Stats1_____4Pieces4.lean ====
/-
  What one grid point of the second combine-and-moments region leaves in its three output buffers, for any float values.

  The body stores the pre-activation block once; it stores each running row once, after loading it — at the first grid
  point after first storing the zero row, which the load then reads back.  Every store and load goes through the whole
  buffer, so what a buffer holds afterwards is the payload of its last store, and that payload is the body's arithmetic
  applied to the four input blocks and, for a running row, to the row found there (the zero row at the first point).
-/
import proofs.«134670_j14499809591810_1_alg».proof.Proof.Gen.KernelIdeal.Frame
import Idealize.ShloMosaic.Lib.Pipeline.Value
import Idealize.ShloMosaic.Lib.Tactic

noncomputable section

namespace Cert.KernelStats

open Idealize.ShloMosaic Idealize.ShloMosaic.TcCoe Idealize.SL.Sem
open Cert.KernelIdeal Cert.KernelIdeal.Gen

variable {F : FTy → Type} [FloatOps F]

/-- The zero offsets of a whole-buffer access, as a constant function. -/
theorem zeroOffsets4 : (![0, 0] : Fin 2 → Nat) = fun _ => 0 := funext fun a => by fin_cases a <;> rfl

/-- Past the first point, output 4: the pre-activation block. -/
theorem found4_B_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond4_0 i)
    (x0 : Vec F S5000x128 .f32) (x1 : Vec F S5000x128 .f32) (x2 : Vec F S5000x1 .f32) (x3 : Vec F S1x128 .f32) (xo5 : Vec F S1x128 .f32) (xo6 : Vec F S1x128 .f32) :
    out4_B_4 c i arg1 harg1 arg2 harg2 arg3 harg3 arg4 harg4 arg5 harg5 arg6 harg6 arg7 harg7 hc0 x0 x1 x2 x3 xo5 xo6 = k4_pay3 x0 x1 x2 x3 := by
  unfold out4_B_4
  rw [View.read_writes_eq_canon _ _ _ (cover4_B_4 c i arg1 harg1 arg2 harg2 arg3 harg3 arg4 harg4 arg5 harg5 arg6 harg6 arg7 harg7 hc0 x0 x1 x2 x3 xo5 xo6)]
  unfold kernelRun4_B
  dsimp only
  sl_unfold_words
  rw [View.canon_unit_zero zeroOffsets4]
  simp only [View.readAt_eq_ld, harg1.read_unread, harg2.read_unread, harg3.read_unread, harg4.read_unread, harg6.read_unread, harg7.read_unread,
    View.ld_unit_zero (S := S5000x128) zeroOffsets4, View.ld_unit_zero (S := S5000x1) zeroOffsets4, View.ld_unit_zero (S := S1x128) zeroOffsets4]

/-- Past the first point, output 5: the row found there, updated. -/
theorem found4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond4_0 i)
    (x0 : Vec F S5000x128 .f32) (x1 : Vec F S5000x128 .f32) (x2 : Vec F S5000x1 .f32) (x3 : Vec F S1x128 .f32) (xo5 : Vec F S1x128 .f32) (xo6 : Vec F S1x128 .f32) :
    out4_B_5 c i arg1 harg1 arg2 harg2 arg3 harg3 arg4 harg4 arg5 harg5 arg6 harg6 arg7 harg7 hc0 x0 x1 x2 x3 xo5 xo6 = k4_pay4 x0 x1 x2 x3 xo5 := by
  unfold out4_B_5
  rw [View.read_writes_eq_canon _ _ _ (cover4_B_5 c i arg1 harg1 arg2 harg2 arg3 harg3 arg4 harg4 arg5 harg5 arg6 harg6 arg7 harg7 hc0 x0 x1 x2 x3 xo5 xo6)]
  unfold kernelRun4_B
  dsimp only
  sl_unfold_words
  rw [View.canon_unit_zero zeroOffsets4]
  simp only [View.readAt_eq_ld, harg1.read_unread, harg2.read_unread, harg3.read_unread, harg4.read_unread, harg6.read_unread, harg7.read_unread,
    View.ld_unit_zero (S := S5000x128) zeroOffsets4, View.ld_unit_zero (S := S5000x1) zeroOffsets4, View.ld_unit_zero (S := S1x128) zeroOffsets4]

/-- Past the first point, output 6: the row found there, updated. -/
theorem found4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond4_0 i)
    (x0 : Vec F S5000x128 .f32) (x1 : Vec F S5000x128 .f32) (x2 : Vec F S5000x1 .f32) (x3 : Vec F S1x128 .f32) (xo5 : Vec F S1x128 .f32) (xo6 : Vec F S1x128 .f32) :
    out4_B_6 c i arg1 harg1 arg2 harg2 arg3 harg3 arg4 harg4 arg5 harg5 arg6 harg6 arg7 harg7 hc0 x0 x1 x2 x3 xo5 xo6 = k4_pay5 x0 x1 x2 x3 xo6 := by
  unfold out4_B_6
  rw [View.read_writes_eq_canon _ _ _ (cover4_B_6 c i arg1 harg1 arg2 harg2 arg3 harg3 arg4 harg4 arg5 harg5 arg6 harg6 arg7 harg7 hc0 x0 x1 x2 x3 xo5 xo6)]
  unfold kernelRun4_B
  dsimp only
  sl_unfold_words
  rw [View.canon_unit_zero zeroOffsets4]
  simp only [View.readAt_eq_ld, harg1.read_unread, harg2.read_unread, harg3.read_unread, harg4.read_unread, harg6.read_unread, harg7.read_unread,
    View.ld_unit_zero (S := S5000x128) zeroOffsets4, View.ld_unit_zero (S := S5000x1) zeroOffsets4, View.ld_unit_zero (S := S1x128) zeroOffsets4]

/-- At the first point, output 4: the pre-activation block. -/
theorem found4_A_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond4_0 i)
    (x0 : Vec F S5000x128 .f32) (x1 : Vec F S5000x128 .f32) (x2 : Vec F S5000x1 .f32) (x3 : Vec F S1x128 .f32) :
    out4_A_4 c i arg1 harg1 arg2 harg2 arg3 harg3 arg4 harg4 arg5 harg5 arg6 harg6 arg7 harg7 hc0 x0 x1 x2 x3 = k4_pay3 x0 x1 x2 x3 := by
  unfold out4_A_4
  rw [View.read_writes_eq_canon _ _ _ (cover4_A_4 c i arg1 harg1 arg2 harg2 arg3 harg3 arg4 harg4 arg5 harg5 arg6 harg6 arg7 harg7 hc0 x0 x1 x2 x3)]
  unfold kernelRun4_A
  dsimp only
  sl_unfold_words
  rw [View.canon_unit_zero zeroOffsets4]
  simp only [View.readAt_eq_ld, harg1.read_unread, harg2.read_unread, harg3.read_unread, harg4.read_unread,
    View.ld_unit_zero (S := S5000x128) zeroOffsets4, View.ld_unit_zero (S := S5000x1) zeroOffsets4, View.ld_unit_zero (S := S1x128) zeroOffsets4]

/-- At the first point, output 5: the zero row, updated. -/
theorem found4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond4_0 i)
    (x0 : Vec F S5000x128 .f32) (x1 : Vec F S5000x128 .f32) (x2 : Vec F S5000x1 .f32) (x3 : Vec F S1x128 .f32) :
    out4_A_5 c i arg1 harg1 arg2 harg2 arg3 harg3 arg4 harg4 arg5 harg5 arg6 harg6 arg7 harg7 hc0 x0 x1 x2 x3 = k4_pay4 x0 x1 x2 x3 (k4_pay1 (F := F)) := by
  unfold out4_A_5
  rw [View.read_writes_eq_canon _ _ _ (cover4_A_5 c i arg1 harg1 arg2 harg2 arg3 harg3 arg4 harg4 arg5 harg5 arg6 harg6 arg7 harg7 hc0 x0 x1 x2 x3)]
  unfold kernelRun4_A
  dsimp only
  sl_unfold_words
  rw [View.canon_cons_unit_zero (S := S1x128) zeroOffsets4, View.readCov_unit_zero (S := S1x128) _ zeroOffsets4]
  simp only [View.readAt_eq_ld, harg1.read_unread, harg2.read_unread, harg3.read_unread, harg4.read_unread,
    View.ld_unit_zero (S := S5000x128) zeroOffsets4, View.ld_unit_zero (S := S5000x1) zeroOffsets4, View.ld_unit_zero (S := S1x128) zeroOffsets4]

/-- At the first point, output 6: the zero row, updated. -/
theorem found4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond4_0 i)
    (x0 : Vec F S5000x128 .f32) (x1 : Vec F S5000x128 .f32) (x2 : Vec F S5000x1 .f32) (x3 : Vec F S1x128 .f32) :
    out4_A_6 c i arg1 harg1 arg2 harg2 arg3 harg3 arg4 harg4 arg5 harg5 arg6 harg6 arg7 harg7 hc0 x0 x1 x2 x3 = k4_pay5 x0 x1 x2 x3 (k4_pay2 (F := F)) := by
  unfold out4_A_6
  rw [View.read_writes_eq_canon _ _ _ (cover4_A_6 c i arg1 harg1 arg2 harg2 arg3 harg3 arg4 harg4 arg5 harg5 arg6 harg6 arg7 harg7 hc0 x0 x1 x2 x3)]
  unfold kernelRun4_A
  dsimp only
  sl_unfold_words
  rw [View.canon_cons_unit_zero (S := S1x128) zeroOffsets4, View.readCov_unit_zero (S := S1x128) _ zeroOffsets4]
  simp only [View.readAt_eq_ld, harg1.read_unread, harg2.read_unread, harg3.read_unread, harg4.read_unread,
    View.ld_unit_zero (S := S5000x128) zeroOffsets4, View.ld_unit_zero (S := S5000x1) zeroOffsets4, View.ld_unit_zero (S := S1x128) zeroOffsets4]

end Cert.KernelStats

end
-- ==== Proof.Stats1_____4Inv4.lean ====
/-
  The second combine-and-moments region, point by point: what its three output buffers hold after each grid point.

  The region's inputs are four arrays as the region finds them: the neighbourhood sums and the projected rows
  (100000 × 128), the squared inverse root degrees (100000 × 1) and the bias (1 × 128).  Grid point t reads rows
  5000·t … 5000·t + 4999 of the first three and the whole bias, so its pre-activation block is rows 5000·t … of the
  pre-activation y of the whole arrays.  By induction on the point, after point n the first buffer holds block n of y,
  and the two running rows hold, on lane q, the sum of y (p, q), respectively of y (p, q)², over the rows p below
  5000·(n + 1): the first point starts from the zero row, every later point adds its block's column sums to the row the
  point before left, and addition of extended reals is commutative and associative.
-/
import proofs.«134670_j14499809591810_1_alg».proof.Proof.Gen.KernelIdeal.Frame
import proofs.«134670_j14499809591810_1_alg».proof.Proof.Stats1_____4Spec
import proofs.«134670_j14499809591810_1_alg».proof.Proof.Stats1_____4Sums
import proofs.«134670_j14499809591810_1_alg».proof.Proof.Stats1_____4Pay4
import proofs.«134670_j14499809591810_1_alg».proof.Proof.Stats1_____4Pieces4

noncomputable section

open scoped BigOperators

namespace Cert.KernelStats

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b)) (c : Dev nD)

/-- The region's input arrays as it finds them: neighbourhood sums, projected rows, squared inverse root degrees, bias. -/
abbrev agg4 : S100000x128.Idx → EReal := V c (Pipeline.arrRef spec4 0)
abbrev own4 : S100000x128.Idx → EReal := V c (Pipeline.arrRef spec4 1)
abbrev deg4 : S100000x1.Idx → EReal := V c (Pipeline.arrRef spec4 2)
abbrev bias4 : S1x128.Idx → EReal := V c (Pipeline.arrRef spec4 3)

/-- The pre-activation of the whole arrays. -/
abbrev pre4 : S100000x128.Idx → EReal := combinePre (agg4 V c) (own4 V c) (deg4 V c) (bias4 V c)

/-- Lane `q` of the pre-activation as a column over the rows, and the column of its squares. -/
abbrev col4 (q : Fin 128) : Fin 100000 → EReal := fun p => pre4 V c (ix2 p q)
abbrev colSq4 (q : Fin 128) : Fin 100000 → EReal := fun p => pre4 V c (ix2 p q) * pre4 V c (ix2 p q)

/-- The block index of every window at every grid point: the row blocks move with the point, the bias and the two
    running rows stay at block zero. -/
theorem index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- Row `r`, lane `q` of the neighbourhood-sum block at point `t` is row `5000·t + r` of the array. -/
theorem blockAgg4_apply (t : Fin cfg4.N) (r : Fin 5000) (q : Fin 128) (hp : 5000 * t.val + r.val < 100000) :
    (iblk4 V c 0 t : Vec Ideal S5000x128 .f32) (ix2 r q) = agg4 V c (ix2 ⟨5000 * t.val + r.val, hp⟩ q) := by
  obtain ⟨e0, e1, -⟩ := index4 t
  show agg4 V c (((cfg4.win 0).blk t).view.emb (ix2 r q)) = agg4 V c (ix2 ⟨5000 * t.val + r.val, hp⟩ q)
  refine congrArg (agg4 V c) (funext fun a => Fin.ext ?_)
  match a with
  | ⟨0, _⟩ => show win4_0.index t (0 : Fin 2) * 5000 + 1 * r.val = 5000 * t.val + r.val; rw [e0]; omega
  | ⟨1, _⟩ => show win4_0.index t (1 : Fin 2) * 128 + 1 * q.val = q.val; rw [e1]; omega

/-- Row `r`, lane `q` of the projected-rows block at point `t` is row `5000·t + r` of the array. -/
theorem blockOwn4_apply (t : Fin cfg4.N) (r : Fin 5000) (q : Fin 128) (hp : 5000 * t.val + r.val < 100000) :
    (iblk4 V c 1 t : Vec Ideal S5000x128 .f32) (ix2 r q) = own4 V c (ix2 ⟨5000 * t.val + r.val, hp⟩ q) := by
  obtain ⟨-, -, e0, e1, -⟩ := index4 t
  show own4 V c (((cfg4.win 1).blk t).view.emb (ix2 r q)) = own4 V c (ix2 ⟨5000 * t.val + r.val, hp⟩ q)
  refine congrArg (own4 V c) (funext fun a => Fin.ext ?_)
  match a with
  | ⟨0, _⟩ => show win4_1.index t (0 : Fin 2) * 5000 + 1 * r.val = 5000 * t.val + r.val; rw [e0]; omega
  | ⟨1, _⟩ => show win4_1.index t (1 : Fin 2) * 128 + 1 * q.val = q.val; rw [e1]; omega

/-- Row `r` of the degree block at point `t` is row `5000·t + r` of the array. -/
theorem blockDeg4_apply (t : Fin cfg4.N) (r : Fin 5000) (hp : 5000 * t.val + r.val < 100000) :
    (iblk4 V c 2 t : Vec Ideal S5000x1 .f32) (ix2 r (0 : Fin 1)) = deg4 V c (ix2 ⟨5000 * t.val + r.val, hp⟩ (0 : Fin 1)) := by
  obtain ⟨-, -, -, -, e0, e1, -⟩ := index4 t
  show deg4 V c (((cfg4.win 2).blk t).view.emb (ix2 r (0 : Fin 1))) = deg4 V c (ix2 ⟨5000 * t.val + r.val, hp⟩ (0 : Fin 1))
  refine congrArg (deg4 V c) (funext fun a => Fin.ext ?_)
  match a with
  | ⟨0, _⟩ => show win4_2.index t (0 : Fin 2) * 5000 + 1 * r.val = 5000 * t.val + r.val; rw [e0]; omega
  | ⟨1, _⟩ => show win4_2.index t (1 : Fin 2) * 1 + 1 * 0 = 0; rw [e1]

/-- The bias block at every point is the bias. -/
theorem blockBias4_apply (t : Fin cfg4.N) (q : Fin 128) :
    (iblk4 V c 3 t : Vec Ideal S1x128 .f32) (ix2 (0 : Fin 1) q) = bias4 V c (ix2 (0 : Fin 1) q) := by
  obtain ⟨-, -, -, -, -, -, e0, e1, -⟩ := index4 t
  show bias4 V c (((cfg4.win 3).blk t).view.emb (ix2 (0 : Fin 1) q)) = bias4 V c (ix2 (0 : Fin 1) q)
  refine congrArg (bias4 V c) (funext fun a => Fin.ext ?_)
  match a with
  | ⟨0, _⟩ => show win4_3.index t (0 : Fin 2) * 1 + 1 * 0 = 0; rw [e0]
  | ⟨1, _⟩ => show win4_3.index t (1 : Fin 2) * 128 + 1 * q.val = q.val; rw [e1]; omega

/-- The pre-activation block of point `t` is rows `5000·t …` of the pre-activation of the whole arrays. -/
theorem preBlock4_apply (t : Fin cfg4.N) (r : Fin 5000) (q : Fin 128) (hp : 5000 * t.val + r.val < 100000) :
    k4_pay3 (iblk4 V c 0 t) (iblk4 V c 1 t) (iblk4 V c 2 t) (iblk4 V c 3 t) (ix2 r q)
      = pre4 V c (ix2 ⟨5000 * t.val + r.val, hp⟩ q) := by
  refine (pre4_apply (iblk4 V c 0 t) (iblk4 V c 1 t) (iblk4 V c 2 t) (iblk4 V c 3 t) r q).trans ?_
  rw [blockAgg4_apply V c t r q hp, blockOwn4_apply V c t r q hp, blockDeg4_apply V c t r hp, blockBias4_apply V c t q]
  rfl

/-- One point's update of the running row of sums: the rows below `5000·t` and then block `t`. -/
theorem stepSum4 (t : Fin cfg4.N) (q : Fin 128) (s : EReal)
    (hs : s = ∑ i ∈ Finset.range (5000 * t.val), padded (col4 V c q) i) :
    s + ∑ r : Fin 5000, k4_pay3 (iblk4 V c 0 t) (iblk4 V c 1 t) (iblk4 V c 2 t) (iblk4 V c 3 t) (ix2 r q)
      = ∑ i ∈ Finset.range (5000 * (t.val + 1)), padded (col4 V c q) i := by
  have hN : t.val < 20 := lt_of_lt_of_eq t.isLt (show cfg4.N = 20 from N_4)
  have hab : 5000 * t.val + 5000 ≤ 100000 := by omega
  have hp : ∀ r : Fin 5000, 5000 * t.val + r.val < 100000 := fun r => by have := r.isLt; omega
  rw [hs, show 5000 * (t.val + 1) = 5000 * t.val + 5000 from by omega]
  exact sum_range_add_block (col4 V c q) (5000 * t.val) hab
    (fun r => k4_pay3 (iblk4 V c 0 t) (iblk4 V c 1 t) (iblk4 V c 2 t) (iblk4 V c 3 t) (ix2 r q))
    (fun r => preBlock4_apply V c t r q (hp r))

/-- One point's update of the running row of sums of squares. -/
theorem stepSumSq4 (t : Fin cfg4.N) (q : Fin 128) (s : EReal)
    (hs : s = ∑ i ∈ Finset.range (5000 * t.val), padded (colSq4 V c q) i) :
    s + ∑ r : Fin 5000, k4_pay3 (iblk4 V c 0 t) (iblk4 V c 1 t) (iblk4 V c 2 t) (iblk4 V c 3 t) (ix2 r q)
          * k4_pay3 (iblk4 V c 0 t) (iblk4 V c 1 t) (iblk4 V c 2 t) (iblk4 V c 3 t) (ix2 r q)
      = ∑ i ∈ Finset.range (5000 * (t.val + 1)), padded (colSq4 V c q) i := by
  have hN : t.val < 20 := lt_of_lt_of_eq t.isLt (show cfg4.N = 20 from N_4)
  have hab : 5000 * t.val + 5000 ≤ 100000 := by omega
  have hp : ∀ r : Fin 5000, 5000 * t.val + r.val < 100000 := fun r => by have := r.isLt; omega
  rw [hs, show 5000 * (t.val + 1) = 5000 * t.val + 5000 from by omega]
  exact sum_range_add_block (colSq4 V c q) (5000 * t.val) hab
    (fun r => k4_pay3 (iblk4 V c 0 t) (iblk4 V c 1 t) (iblk4 V c 2 t) (iblk4 V c 3 t) (ix2 r q)
      * k4_pay3 (iblk4 V c 0 t) (iblk4 V c 1 t) (iblk4 V c 2 t) (iblk4 V c 3 t) (ix2 r q))
    (fun r => congrArg₂ (· * ·) (preBlock4_apply V c t r q (hp r)) (preBlock4_apply V c t r q (hp r)))

/-- The first point: the block, and the zero rows updated. -/
theorem firstPoint4 (h : 0 < cfg4.N) :
    outsAt4 V c 0 h
      = (k4_pay3 (iblk4 V c 0 ⟨0, h⟩) (iblk4 V c 1 ⟨0, h⟩) (iblk4 V c 2 ⟨0, h⟩) (iblk4 V c 3 ⟨0, h⟩),
         k4_pay4 (iblk4 V c 0 ⟨0, h⟩) (iblk4 V c 1 ⟨0, h⟩) (iblk4 V c 2 ⟨0, h⟩) (iblk4 V c 3 ⟨0, h⟩) (k4_pay1 (F := Ideal)),
         k4_pay5 (iblk4 V c 0 ⟨0, h⟩) (iblk4 V c 1 ⟨0, h⟩) (iblk4 V c 2 ⟨0, h⟩) (iblk4 V c 3 ⟨0, h⟩) (k4_pay2 (F := Ideal))) := by
  refine (outsAt4_A V c ⟨0, h⟩ rfl).trans ?_
  rw [found4_A_4 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) ((hcond4_0 ⟨0, h⟩).mpr rfl) (iblk4 V c 0 ⟨0, h⟩) (iblk4 V c 1 ⟨0, h⟩) (iblk4 V c 2 ⟨0, h⟩) (iblk4 V c 3 ⟨0, h⟩),
    found4_A_5 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) ((hcond4_0 ⟨0, h⟩).mpr rfl) (iblk4 V c 0 ⟨0, h⟩) (iblk4 V c 1 ⟨0, h⟩) (iblk4 V c 2 ⟨0, h⟩) (iblk4 V c 3 ⟨0, h⟩),
    found4_A_6 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) ((hcond4_0 ⟨0, h⟩).mpr rfl) (iblk4 V c 0 ⟨0, h⟩) (iblk4 V c 1 ⟨0, h⟩) (iblk4 V c 2 ⟨0, h⟩) (iblk4 V c 3 ⟨0, h⟩)]

/-- A later point: the block, and the rows the point before left, updated. -/
theorem laterPoint4 (n : ℕ) (h : n + 1 < cfg4.N) (hB : ¬(n + 1) % 20 = 0) :
    outsAt4 V c (n + 1) h
      = (k4_pay3 (iblk4 V c 0 ⟨n + 1, h⟩) (iblk4 V c 1 ⟨n + 1, h⟩) (iblk4 V c 2 ⟨n + 1, h⟩) (iblk4 V c 3 ⟨n + 1, h⟩),
         k4_pay4 (iblk4 V c 0 ⟨n + 1, h⟩) (iblk4 V c 1 ⟨n + 1, h⟩) (iblk4 V c 2 ⟨n + 1, h⟩) (iblk4 V c 3 ⟨n + 1, h⟩) (outsAt4 V c n (Nat.lt_of_succ_lt h)).2.1,
         k4_pay5 (iblk4 V c 0 ⟨n + 1, h⟩) (iblk4 V c 1 ⟨n + 1, h⟩) (iblk4 V c 2 ⟨n + 1, h⟩) (iblk4 V c 3 ⟨n + 1, h⟩) (outsAt4 V c n (Nat.lt_of_succ_lt h)).2.2) := by
  refine (outsAt4_B V c ⟨n + 1, h⟩ hB).trans ?_
  rw [found4_B_4 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (fun hh => hB ((hcond4_0 ⟨n + 1, h⟩).mp hh)) (iblk4 V c 0 ⟨n + 1, h⟩) (iblk4 V c 1 ⟨n + 1, h⟩) (iblk4 V c 2 ⟨n + 1, h⟩) (iblk4 V c 3 ⟨n + 1, h⟩)
      (outsAt4 V c ((⟨n + 1, h⟩ : Fin cfg4.N).val - 1) (Nat.lt_of_le_of_lt (Nat.sub_le _ _) (⟨n + 1, h⟩ : Fin cfg4.N).isLt)).2.1
      (outsAt4 V c ((⟨n + 1, h⟩ : Fin cfg4.N).val - 1) (Nat.lt_of_le_of_lt (Nat.sub_le _ _) (⟨n + 1, h⟩ : Fin cfg4.N).isLt)).2.2,
    found4_B_5 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (fun hh => hB ((hcond4_0 ⟨n + 1, h⟩).mp hh)) (iblk4 V c 0 ⟨n + 1, h⟩) (iblk4 V c 1 ⟨n + 1, h⟩) (iblk4 V c 2 ⟨n + 1, h⟩) (iblk4 V c 3 ⟨n + 1, h⟩)
      (outsAt4 V c ((⟨n + 1, h⟩ : Fin cfg4.N).val - 1) (Nat.lt_of_le_of_lt (Nat.sub_le _ _) (⟨n + 1, h⟩ : Fin cfg4.N).isLt)).2.1
      (outsAt4 V c ((⟨n + 1, h⟩ : Fin cfg4.N).val - 1) (Nat.lt_of_le_of_lt (Nat.sub_le _ _) (⟨n + 1, h⟩ : Fin cfg4.N).isLt)).2.2,
    found4_B_6 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (fun hh => hB ((hcond4_0 ⟨n + 1, h⟩).mp hh)) (iblk4 V c 0 ⟨n + 1, h⟩) (iblk4 V c 1 ⟨n + 1, h⟩) (iblk4 V c 2 ⟨n + 1, h⟩) (iblk4 V c 3 ⟨n + 1, h⟩)
      (outsAt4 V c ((⟨n + 1, h⟩ : Fin cfg4.N).val - 1) (Nat.lt_of_le_of_lt (Nat.sub_le _ _) (⟨n + 1, h⟩ : Fin cfg4.N).isLt)).2.1
      (outsAt4 V c ((⟨n + 1, h⟩ : Fin cfg4.N).val - 1) (Nat.lt_of_le_of_lt (Nat.sub_le _ _) (⟨n + 1, h⟩ : Fin cfg4.N).isLt)).2.2]
  all_goals rfl

/-- THE INVARIANT.  After point `n` the first buffer holds block `n` of the pre-activation, and the running rows
    hold on every lane the sums over the rows below `5000·(n + 1)`. -/
theorem afterPoint4 : ∀ (n : ℕ) (h : n < cfg4.N),
    (outsAt4 V c n h).1 = k4_pay3 (iblk4 V c 0 ⟨n, h⟩) (iblk4 V c 1 ⟨n, h⟩) (iblk4 V c 2 ⟨n, h⟩) (iblk4 V c 3 ⟨n, h⟩)
    ∧ (∀ (u : Fin 1) (q : Fin 128), (outsAt4 V c n h).2.1 (ix2 u q)
        = ∑ i ∈ Finset.range (5000 * (n + 1)), padded (col4 V c q) i)
    ∧ (∀ (u : Fin 1) (q : Fin 128), (outsAt4 V c n h).2.2 (ix2 u q)
        = ∑ i ∈ Finset.range (5000 * (n + 1)), padded (colSq4 V c q) i)
  | 0, h => by
    rw [firstPoint4 V c h]
    refine ⟨rfl, fun u q => ?_, fun u q => ?_⟩
    · refine (sum4_apply (iblk4 V c 0 ⟨0, h⟩) (iblk4 V c 1 ⟨0, h⟩) (iblk4 V c 2 ⟨0, h⟩) (iblk4 V c 3 ⟨0, h⟩) (k4_pay1 (F := Ideal)) u q).trans ?_
      exact stepSum4 V c ⟨0, h⟩ q _ ((zero4_sum_apply (ix2 u q)).trans (by simp))
    · refine (sumsq4_apply (iblk4 V c 0 ⟨0, h⟩) (iblk4 V c 1 ⟨0, h⟩) (iblk4 V c 2 ⟨0, h⟩) (iblk4 V c 3 ⟨0, h⟩) (k4_pay2 (F := Ideal)) u q).trans ?_
      exact stepSumSq4 V c ⟨0, h⟩ q _ ((zero4_sumsq_apply (ix2 u q)).trans (by simp))
  | n + 1, h => by
    have hN : cfg4.N = 20 := N_4
    have hB : ¬(n + 1) % 20 = 0 := by omega
    obtain ⟨-, ih5, ih6⟩ := afterPoint4 n (Nat.lt_of_succ_lt h)
    rw [laterPoint4 V c n h hB]
    refine ⟨rfl, fun u q => ?_, fun u q => ?_⟩
    · refine (sum4_apply (iblk4 V c 0 ⟨n + 1, h⟩) (iblk4 V c 1 ⟨n + 1, h⟩) (iblk4 V c 2 ⟨n + 1, h⟩) (iblk4 V c 3 ⟨n + 1, h⟩) (outsAt4 V c n (Nat.lt_of_succ_lt h)).2.1 u q).trans ?_
      exact stepSum4 V c ⟨n + 1, h⟩ q _ (ih5 u q)
    · refine (sumsq4_apply (iblk4 V c 0 ⟨n + 1, h⟩) (iblk4 V c 1 ⟨n + 1, h⟩) (iblk4 V c 2 ⟨n + 1, h⟩) (iblk4 V c 3 ⟨n + 1, h⟩) (outsAt4 V c n (Nat.lt_of_succ_lt h)).2.2 u q).trans ?_
      exact stepSumSq4 V c ⟨n + 1, h⟩ q _ (ih6 u q)

end Cert.KernelStats

end
-- ==== Proof.Stats1_____4Final4.lean ====
/-
  The second combine-and-moments region after its whole grid: its three output arrays as functions of its input arrays.

  The pre-activation array is written back block by block: point t writes rows 5000·t … 5000·t + 4999, every row lies in
  the block of the point (row / 5000), and each block is the restriction of the pre-activation y of the whole arrays;
  so the array ends holding y.  The two rows of moments are written back once, after the last point, from buffers that
  then hold, on lane q, the sum of y (p, q) and of y (p, q)² over all 100000 rows p.
-/
import proofs.«134670_j14499809591810_1_alg».proof.Proof.Stats1_____4Inv4
import Idealize.ShloMosaic.Lib.Pipeline.Value

noncomputable section

open scoped BigOperators

namespace Cert.KernelStats

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## The pre-activation array -/

/-- What point `t` writes back to the pre-activation array is block `t` of the pre-activation of the whole arrays. -/
theorem preFlushed4 (t : Fin cfg4.N) :
    (dat4 V c).flushed 4 t = ((cfg4.win 4).blk t).view.read (Elt Ideal) (pre4 V c) := by
  have hN : t.val < 20 := lt_of_lt_of_eq t.isLt (show cfg4.N = 20 from N_4)
  obtain ⟨-, -, -, -, -, -, -, -, e0, e1, -⟩ := index4 t
  show (cfg4.win 4).cut (grid4.coords t) ((dat4 V c).after 4 t) = _
  rw [after4_4, (afterPoint4 V c t.val t.isLt).1]
  refine funext fun (y : S5000x128.Idx) => ?_
  obtain ⟨r, q, rfl⟩ : ∃ (r : Fin 5000) (q : Fin 128), y = ix2 r q := ⟨y 0, y 1, @eq_ix2 5000 128 y⟩
  have hp : 5000 * t.val + r.val < 100000 := by have := r.isLt; omega
  have hx : (cfg4.win 4).xinj (grid4.coords t) (ix2 r q) = ix2 r q := funext fun a => Fin.ext rfl
  refine (congrArg (k4_pay3 (iblk4 V c 0 t) (iblk4 V c 1 t) (iblk4 V c 2 t) (iblk4 V c 3 t)) hx).trans ?_
  refine (preBlock4_apply V c t r q hp).trans ?_
  show pre4 V c (ix2 ⟨5000 * t.val + r.val, hp⟩ q) = pre4 V c (((cfg4.win 4).blk t).view.emb (ix2 r q))
  refine congrArg (pre4 V c) (funext fun a => Fin.ext ?_)
  match a with
  | ⟨0, _⟩ => show 5000 * t.val + r.val = win4_4.index t (0 : Fin 2) * 5000 + 1 * r.val; rw [e0]; omega
  | ⟨1, _⟩ => show q.val = win4_4.index t (1 : Fin 2) * 128 + 1 * q.val; rw [e1]; omega

/-- An index of the pre-activation array is in point `t`'s block iff each coordinate is in the block's range. -/
theorem preBlock4_mem (t : Fin cfg4.N) (i : S100000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v72_0).slice (win4_4.rect t)).set ↔ _
  rw [View.set_slice_whole, Rect.mem_set_unit]
  exact Iff.rfl

/-- Every row lies in the block of the point (row / 5000). -/
theorem preCover4 (i : S100000x128.Idx) :
    ∃ t : Fin cfg4.N, (cfg4.win 4).flush t = true ∧ i ∈ ((cfg4.win 4).blk t).view.set := by
  have hN : cfg4.N = 20 := N_4
  have hi0 : (i 0).val < 100000 := (i 0).isLt
  have hi1 : (i 1).val < 128 := (i 1).isLt
  have ht : (i 0).val / 5000 < cfg4.N := by rw [hN]; omega
  obtain ⟨-, -, -, -, -, -, -, -, e0, e1, -⟩ := index4 ⟨(i 0).val / 5000, ht⟩
  have e0' : win4_4.index ⟨(i 0).val / 5000, ht⟩ (0 : Fin 2) = (i 0).val / 5000 := e0
  refine ⟨⟨(i 0).val / 5000, ht⟩, flush4_4 _, ?_⟩
  rw [preBlock4_mem]
  intro a
  match a with
  | ⟨0, _⟩ =>
    show win4_4.index ⟨(i 0).val / 5000, ht⟩ (0 : Fin 2) * 5000 ≤ (i 0).val
      ∧ (i 0).val < win4_4.index ⟨(i 0).val / 5000, ht⟩ (0 : Fin 2) * 5000 + 5000
    rw [e0']; omega
  | ⟨1, _⟩ =>
    show win4_4.index ⟨(i 0).val / 5000, ht⟩ (1 : Fin 2) * 128 ≤ (i 1).val
      ∧ (i 1).val < win4_4.index ⟨(i 0).val / 5000, ht⟩ (1 : Fin 2) * 128 + 128
    rw [e1]; omega

/-- (pre) After the grid the first output array holds the pre-activation of the input arrays. -/
theorem pre4_final : (dat4 V c).arrAt 4 cfg4.N = pre4 V c :=
  (dat4 V c).arrAt_eq_of_cover 4 (pre4 V c) (fun t _ => preFlushed4 V c t) (preCover4)

/-! ## The two rows of moments -/

/-- The last point. -/
theorem lastLt4 : 19 < cfg4.N := by rw [show cfg4.N = 20 from N_4]; decide

/-- The lane of an index of a one-row block at block index zero is the lane inside the block. -/
theorem rowLane4_5 (t : Fin cfg4.N) (u : Fin 1) (q : Fin 128) :
    ((((cfg4.win 5).blk t).view.emb (ix2 u q)) (1 : Fin 2) : Fin 128) = q := by
  obtain ⟨-, -, -, -, -, -, -, -, -, -, -, e1, -⟩ := index4 t
  refine Fin.ext ?_
  show win4_5.index t (1 : Fin 2) * 128 + 1 * q.val = q.val
  rw [e1]; omega

theorem rowLane4_6 (t : Fin cfg4.N) (u : Fin 1) (q : Fin 128) :
    ((((cfg4.win 6).blk t).view.emb (ix2 u q)) (1 : Fin 2) : Fin 128) = q := by
  obtain ⟨-, -, -, -, -, -, -, -, -, -, -, -, -, e1⟩ := index4 t
  refine Fin.ext ?_
  show win4_6.index t (1 : Fin 2) * 128 + 1 * q.val = q.val
  rw [e1]; omega

/-- A one-row array read through a point's block of window 5, 6: the array at the block's index. -/
theorem rowRead4_5 (t : Fin cfg4.N) (G : S1x128.Idx → EReal) (x : S1x128.Idx) :
    ((cfg4.win 5).blk t).view.read (Elt Ideal) G x = G (((cfg4.win 5).blk t).view.emb x) := rfl

theorem rowRead4_6 (t : Fin cfg4.N) (G : S1x128.Idx → EReal) (x : S1x128.Idx) :
    ((cfg4.win 6).blk t).view.read (Elt Ideal) G x = G (((cfg4.win 6).blk t).view.emb x) := rfl

/-- The one write-back of the row of sums, after the last point, writes the column sums over all the rows. -/
theorem sumFlushed4 (t : Fin cfg4.N) (hf : (cfg4.win 5).flush t = true) :
    (dat4 V c).flushed 5 t = ((cfg4.win 5).blk t).view.read (Elt Ideal) (colSums (pre4 V c)) := by
  have hN : t.val < 20 := lt_of_lt_of_eq t.isLt (show cfg4.N = 20 from N_4)
  have h19 : t.val % 20 = 19 := (flush4_5 t).mp hf
  have e : 5000 * (t.val + 1) = 100000 := by omega
  show (cfg4.win 5).cut (grid4.coords t) ((dat4 V c).after 5 t) = _
  rw [after4_5]
  refine funext fun (y : S1x128.Idx) => ?_
  obtain ⟨u, q, rfl⟩ : ∃ (u : Fin 1) (q : Fin 128), y = ix2 u q := ⟨y 0, y 1, @eq_ix2 1 128 y⟩
  have hx : (cfg4.win 5).xinj (grid4.coords t) (ix2 u q) = ix2 u q := funext fun a => Fin.ext rfl
  refine (congrArg (outsAt4 V c t.val t.isLt).2.1 hx).trans ?_
  refine ((afterPoint4 V c t.val t.isLt).2.1 u q).trans ?_
  rw [e, sum_range_padded]
  refine Eq.trans ?_ (rowRead4_5 t (colSums (pre4 V c)) (ix2 u q)).symm
  exact (colSums_eq_of_lane (pre4 V c) (((cfg4.win 5).blk t).view.emb (ix2 u q)) q (rowLane4_5 t u q)).symm

/-- The one write-back of the row of sums of squares likewise. -/
theorem sumsqFlushed4 (t : Fin cfg4.N) (hf : (cfg4.win 6).flush t = true) :
    (dat4 V c).flushed 6 t = ((cfg4.win 6).blk t).view.read (Elt Ideal) (colSumSqs (pre4 V c)) := by
  have hN : t.val < 20 := lt_of_lt_of_eq t.isLt (show cfg4.N = 20 from N_4)
  have h19 : t.val % 20 = 19 := (flush4_6 t).mp hf
  have e : 5000 * (t.val + 1) = 100000 := by omega
  show (cfg4.win 6).cut (grid4.coords t) ((dat4 V c).after 6 t) = _
  rw [after4_6]
  refine funext fun (y : S1x128.Idx) => ?_
  obtain ⟨u, q, rfl⟩ : ∃ (u : Fin 1) (q : Fin 128), y = ix2 u q := ⟨y 0, y 1, @eq_ix2 1 128 y⟩
  have hx : (cfg4.win 6).xinj (grid4.coords t) (ix2 u q) = ix2 u q := funext fun a => Fin.ext rfl
  refine (congrArg (outsAt4 V c t.val t.isLt).2.2 hx).trans ?_
  refine ((afterPoint4 V c t.val t.isLt).2.2 u q).trans ?_
  rw [e, sum_range_padded]
  refine Eq.trans ?_ (rowRead4_6 t (colSumSqs (pre4 V c)) (ix2 u q)).symm
  exact (colSumSqs_eq_of_lane (pre4 V c) (((cfg4.win 6).blk t).view.emb (ix2 u q)) q (rowLane4_6 t u q)).symm

/-- The last point's block of a one-row array is the whole row. -/
theorem sumCover4 (i : S1x128.Idx) :
    ∃ t : Fin cfg4.N, (cfg4.win 5).flush t = true ∧ i ∈ ((cfg4.win 5).blk t).view.set := by
  have hi0 : (i 0).val < 1 := (i 0).isLt
  have hi1 : (i 1).val < 128 := (i 1).isLt
  obtain ⟨-, -, -, -, -, -, -, -, -, -, e0, e1, -⟩ := index4 ⟨19, lastLt4⟩
  refine ⟨⟨19, lastLt4⟩, (flush4_5 _).mpr rfl, ?_⟩
  show i ∈ ((View.whole main_v72_1).slice (win4_5.rect ⟨19, lastLt4⟩)).set
  rw [View.set_slice_whole, Rect.mem_set_unit]
  intro a
  match a with
  | ⟨0, _⟩ =>
    show win4_5.index ⟨19, lastLt4⟩ (0 : Fin 2) * 1 ≤ (i 0).val ∧ (i 0).val < win4_5.index ⟨19, lastLt4⟩ (0 : Fin 2) * 1 + 1
    rw [e0]; omega
  | ⟨1, _⟩ =>
    show win4_5.index ⟨19, lastLt4⟩ (1 : Fin 2) * 128 ≤ (i 1).val ∧ (i 1).val < win4_5.index ⟨19, lastLt4⟩ (1 : Fin 2) * 128 + 128
    rw [e1]; omega

theorem sumsqCover4 (i : S1x128.Idx) :
    ∃ t : Fin cfg4.N, (cfg4.win 6).flush t = true ∧ i ∈ ((cfg4.win 6).blk t).view.set := by
  have hi0 : (i 0).val < 1 := (i 0).isLt
  have hi1 : (i 1).val < 128 := (i 1).isLt
  obtain ⟨-, -, -, -, -, -, -, -, -, -, -, -, e0, e1⟩ := index4 ⟨19, lastLt4⟩
  refine ⟨⟨19, lastLt4⟩, (flush4_6 _).mpr rfl, ?_⟩
  show i ∈ ((View.whole main_v72_2).slice (win4_6.rect ⟨19, lastLt4⟩)).set
  rw [View.set_slice_whole, Rect.mem_set_unit]
  intro a
  match a with
  | ⟨0, _⟩ =>
    show win4_6.index ⟨19, lastLt4⟩ (0 : Fin 2) * 1 ≤ (i 0).val ∧ (i 0).val < win4_6.index ⟨19, lastLt4⟩ (0 : Fin 2) * 1 + 1
    rw [e0]; omega
  | ⟨1, _⟩ =>
    show win4_6.index ⟨19, lastLt4⟩ (1 : Fin 2) * 128 ≤ (i 1).val ∧ (i 1).val < win4_6.index ⟨19, lastLt4⟩ (1 : Fin 2) * 128 + 128
    rw [e1]; omega

/-- (sum) After the grid the second output array holds, on lane `q`, the sum of the pre-activation over all rows. -/
theorem sum4_final : (dat4 V c).arrAt 5 cfg4.N = colSums (pre4 V c) :=
  (dat4 V c).arrAt_eq_of_cover 5 (colSums (pre4 V c)) (sumFlushed4 V c) (sumCover4)

/-- (sumsq) After the grid the third output array holds, on lane `q`, the sum of its squares over all rows. -/
theorem sumsq4_final : (dat4 V c).arrAt 6 cfg4.N = colSumSqs (pre4 V c) :=
  (dat4 V c).arrAt_eq_of_cover 6 (colSumSqs (pre4 V c)) (sumsqFlushed4 V c) (sumsqCover4)

end Cert.KernelStats

end
-- ==== Proof.KernelStages.lean ====
/-
  The kernel's stages that involve no graph quantity, each named at the segment boundary where it is written.

  The first product is the node features times the first weight matrix; the second product is the first layer's
  activation times the second weight matrix; the head is the logistic function of the last activation's product with
  the output column plus the output bias.  A stats region leaves three arrays: the layer's pre-activation, its column
  sums and the column sums of its squares.
-/
import proofs.«134670_j14499809591810_1_alg».proof.Proof.Gen.KernelIdeal.Frame
import proofs.«134670_j14499809591810_1_alg».proof.Proof.KernelFold
import proofs.«134670_j14499809591810_1_alg».proof.Proof.ProductRegions
import proofs.«134670_j14499809591810_1_alg».proof.Proof.HeadRegion
import proofs.«134670_j14499809591810_1_alg».proof.Proof.StageForms
import proofs.«134670_j14499809591810_1_alg».proof.Proof.Stats1_____4Final1
import proofs.«134670_j14499809591810_1_alg».proof.Proof.Stats1_____4Final4
import Idealize.ShloMosaic.Lib.ValueIdx
import Idealize.ShloMosaic.Lib.ValueLayout

set_option maxRecDepth 16384

noncomputable section

open scoped BigOperators

namespace Cert.KernelIdeal.Stages

open Cert.KernelIdeal Cert.KernelIdeal.Gen Cert.KernelIdeal.Fold Cert.KernelIdeal.RegionValue
open Idealize.ShloMosaic Idealize.ShloMosaic.TcCoe Idealize.ShloMosaic.ValueIdx Idealize.SL.Sem Idealize.ShloMosaic.StableHlo
open Cert.StageForms Cert.GcnSpec

variable (m : (ℓ : Loc nD τ sig) → Buf (Elt Ideal) ℓ) (ρ : Dev nD → PrngReg)

/-- The first product, as the array region 0 leaves: the node features times the first weight matrix. -/
theorem firstProduct (c : Dev nD) :
    (W2 m ρ c (Proc.devRef .tc main_v34) : S100000x128.Idx → EReal)
      = product0 (m ((c : Thread nD τ).loc main_arg0)) (m ((c : Thread nD τ).loc main_arg2)) := by
  refine (W2_arr m ρ c 2).trans ((productFinal0 (V1 m ρ) c).trans ?_)
  show product0 (W1 m ρ c (Proc.devRef .tc main_arg0)) (W1 m ρ c (Proc.devRef .tc main_arg2)) = _
  rw [back1_arg0 m ρ c, back1_arg2 m ρ c]

/-- The second product, as the array region 3 leaves: the first layer's activation times the second weight matrix. -/
theorem secondProduct (c : Dev nD) :
    (W7 m ρ c (Proc.devRef .tc main_v58) : S100000x128.Idx → EReal)
      = product3 (W6 m ρ c (Proc.devRef .tc main_v57)) (m ((c : Thread nD τ).loc main_arg6)) := by
  refine (W7_arr m ρ c 2).trans ((productFinal3 (V6 m ρ) c).trans ?_)
  show product3 (W6 m ρ c (Proc.devRef .tc main_v57)) (W6 m ρ c (Proc.devRef .tc main_arg6)) = _
  rw [back6_arg6 m ρ c]

/-- The first convolution's stats region leaves the pre-activation of the arrays it finds. -/
theorem conv1_pre (c : Dev nD) :
    (W4 m ρ c (Proc.devRef .tc main_v48_0) : S100000x128.Idx → EReal) = Cert.KernelStats.pre1 (V3 m ρ) c :=
  (W4_arr m ρ c 4).trans (Cert.KernelStats.pre1_final (V3 m ρ) c)
theorem conv1_sum (c : Dev nD) :
    (W4 m ρ c (Proc.devRef .tc main_v48_1) : S1x128.Idx → EReal) = Cert.KernelStats.colSums (Cert.KernelStats.pre1 (V3 m ρ) c) :=
  (W4_arr m ρ c 5).trans (Cert.KernelStats.sum1_final (V3 m ρ) c)
theorem conv1_sumsq (c : Dev nD) :
    (W4 m ρ c (Proc.devRef .tc main_v48_2) : S1x128.Idx → EReal) = Cert.KernelStats.colSumSqs (Cert.KernelStats.pre1 (V3 m ρ) c) :=
  (W4_arr m ρ c 6).trans (Cert.KernelStats.sumsq1_final (V3 m ρ) c)

/-- The second convolution's stats region leaves the pre-activation of the arrays it finds. -/
theorem conv2_pre (c : Dev nD) :
    (W9 m ρ c (Proc.devRef .tc main_v72_0) : S100000x128.Idx → EReal) = Cert.KernelStats.pre4 (V8 m ρ) c :=
  (W9_arr m ρ c 4).trans (Cert.KernelStats.pre4_final (V8 m ρ) c)
theorem conv2_sum (c : Dev nD) :
    (W9 m ρ c (Proc.devRef .tc main_v72_1) : S1x128.Idx → EReal) = Cert.KernelStats.colSums (Cert.KernelStats.pre4 (V8 m ρ) c) :=
  (W9_arr m ρ c 5).trans (Cert.KernelStats.sum4_final (V8 m ρ) c)
theorem conv2_sumsq (c : Dev nD) :
    (W9 m ρ c (Proc.devRef .tc main_v72_2) : S1x128.Idx → EReal) = Cert.KernelStats.colSumSqs (Cert.KernelStats.pre4 (V8 m ρ) c) :=
  (W9_arr m ρ c 6).trans (Cert.KernelStats.sumsq4_final (V8 m ρ) c)

/-- The result: the head of the last activation, the output column and the output bias recast as a 1 × 1 matrix. -/
theorem headStage (c : Dev nD) :
    (W21 m ρ c (Proc.devRef .tc main_v105) : S100000x1.Idx → EReal)
      = headOut (W19 m ρ c (Proc.devRef .tc main_v103)) (m ((c : Thread nD τ).loc main_arg18)) (W20 m ρ c (Proc.devRef .tc main_v104)) := by
  refine (W21_arr m ρ c 3).trans ((headFinal (V20 m ρ) c).trans ?_)
  show headOut (W20 m ρ c (Proc.devRef .tc main_v103)) (W20 m ρ c (Proc.devRef .tc main_arg18)) (W20 m ρ c (Proc.devRef .tc main_v104)) = _
  rw [back20_v103 m ρ c, back20_arg18 m ρ c]

end Cert.KernelIdeal.Stages

end
-- ==== Proof.KernelConv.lean ====
/-
  The kernel's two graph-convolution layers read as the specification's.

  A layer's stats region finds the neighbourhood sum of the layer's product, the product itself, the squared inverse
  root degrees and the bias row; it leaves the convolution's pre-activation and its two column moments.  Read at
  (p, q) these are the specification's convPre of the product matrix and its sums over the nodes.
-/
import proofs.«134670_j14499809591810_1_alg».proof.Proof.Gen.KernelIdeal.Frame
import proofs.«134670_j14499809591810_1_alg».proof.Proof.KernelFold
import proofs.«134670_j14499809591810_1_alg».proof.Proof.StageForms
import proofs.«134670_j14499809591810_1_alg».proof.Proof.KernelGraph
import proofs.«134670_j14499809591810_1_alg».proof.Proof.KernelStages
import Idealize.ShloMosaic.Lib.ValueIdx
import Idealize.ShloMosaic.Lib.ValueLayout

set_option maxRecDepth 16384

noncomputable section

open scoped BigOperators

namespace Cert.KernelIdeal.Stages

open Cert.KernelIdeal Cert.KernelIdeal.Gen Cert.KernelIdeal.Fold Cert.KernelIdeal.RegionValue
open Idealize.ShloMosaic Idealize.ShloMosaic.TcCoe Idealize.ShloMosaic.ValueIdx Idealize.SL.Sem Idealize.ShloMosaic.StableHlo
open Cert.StageForms Cert.GcnSpec

variable (m : (ℓ : Loc nD τ sig) → Buf (Elt Ideal) ℓ) (ρ : Dev nD → PrngReg)

/-- The neighbourhood-sum operator on matrices. -/
def aggOfK (ei : S2x1600000.Idx → BitVec 32) : Mat 128 → Mat 128 :=
  fun H p q => neighbourSum ei (fun i : S100000x128.Idx => H (i 0) (i 1)) (ix2 p q)

/-- The squared inverse root degree of node p. -/
def d2K (ei : S2x1600000.Idx → BitVec 32) : Fin Rows → EReal := fun p => sqInvRootColumn ei (ix2 p (0 : Fin 1))

/-- An array is the array of its matrix. -/
theorem arr_of_mat (a : S100000x128.Idx → EReal) : (fun i : S100000x128.Idx => matOf a (i 0) (i 1)) = a :=
  funext fun i => congrArg a (eq_ix2 i).symm

/-! ## Convolution layer 1 -/

set_option maxHeartbeats 1000000 in
/-- The neighbourhood sum this layer's stats region finds: of the layer's product, over the edge list. -/
theorem neighbourSum1_read (c : Dev nD) :
    (W3 m ρ c (Proc.devRef .tc main_v46) : S100000x128.Idx → EReal)
      = neighbourSum (m ((c : Thread nD τ).loc main_arg1)) (W2 m ρ c (Proc.devRef .tc main_v34)) := by
  have e : (W3 m ρ c (Proc.devRef .tc main_v46) : S100000x128.Idx → EReal)
      = neighbourSumOf (W2 m ρ c (Proc.devRef .tc main_v3)) (W2 m ρ c (Proc.devRef .tc main_v1))
          (W2 m ρ c (Proc.devRef .tc main_v31)) (W2 m ρ c (Proc.devRef .tc main_v34)) := by
    show StableHlo.after hostOps1 _ (Proc.devRef .tc main_v46) = _
    after_results
    rfl
  have h3 : (W2 m ρ c (Proc.devRef .tc main_v3) : S1600000.Idx → BitVec 32) = dstOf (m ((c : Thread nD τ).loc main_arg1)) :=
    (back2_v3 m ρ c).trans (dst_read m ρ c)
  have h1 : (W2 m ρ c (Proc.devRef .tc main_v1) : S1600000.Idx → BitVec 32) = srcOf (m ((c : Thread nD τ).loc main_arg1)) :=
    (back2_v1 m ρ c).trans (src_read m ρ c)
  have h31 : (W2 m ρ c (Proc.devRef .tc main_v31) : S1600000x1.Idx → EReal) = edgeWeightColumn (m ((c : Thread nD τ).loc main_arg1)) :=
    (back2_v31 m ρ c).trans (edgeWeight_read m ρ c)
  rw [e, h3, h1, h31]
  rfl

/-- The bias row this layer's stats region finds, read at a column. -/
theorem convBias1_read (c : Dev nD) (q : Fin 128) :
    (W3 m ρ c (Proc.devRef .tc main_v47) : S1x128.Idx → EReal) (ix2 (0 : Fin 1) q)
      = (m ((c : Thread nD τ).loc main_arg3) : S128.Idx → EReal) (ix1 q) := by
  have e : (W3 m ρ c (Proc.devRef .tc main_v47) : S1x128.Idx → EReal)
      = shapeCast S1x128 (W2 m ρ c (Proc.devRef .tc main_arg3) : S128.Idx → EReal) shapeCasts_S128_S1x128 := by
    show StableHlo.after hostOps1 _ (Proc.devRef .tc main_v47) = _
    after_results
    rfl
  have hb : (W2 m ρ c (Proc.devRef .tc main_arg3) : S128.Idx → EReal) = m ((c : Thread nD τ).loc main_arg3) :=
    back2_arg3 m ρ c
  rw [e, hb]
  exact shapeCast_a_1a_apply _ _ (0 : Fin 1) q

set_option maxHeartbeats 1000000 in
/-- The pre-activation this layer's stats region leaves, as the specification's convolution pre-activation of the
    layer's product. -/
theorem convPre1_read (c : Dev nD) (p : Fin 100000) (q : Fin 128) :
    (W4 m ρ c (Proc.devRef .tc main_v48_0) : S100000x128.Idx → EReal) (ix2 p q)
      = convPre (aggOfK (m ((c : Thread nD τ).loc main_arg1)) (matOf (W2 m ρ c (Proc.devRef .tc main_v34) : S100000x128.Idx → EReal)))
          (matOf (W2 m ρ c (Proc.devRef .tc main_v34) : S100000x128.Idx → EReal)) (d2K (m ((c : Thread nD τ).loc main_arg1)))
          (fun q => (m ((c : Thread nD τ).loc main_arg3) : S128.Idx → EReal) (ix1 q)) p q := by
  have hagg : (W3 m ρ c (Proc.devRef .tc main_v46) : S100000x128.Idx → EReal)
      = neighbourSum (m ((c : Thread nD τ).loc main_arg1)) (W2 m ρ c (Proc.devRef .tc main_v34)) := neighbourSum1_read m ρ c
  have hh : (W3 m ρ c (Proc.devRef .tc main_v34) : S100000x128.Idx → EReal) = W2 m ρ c (Proc.devRef .tc main_v34) :=
    back3_v34 m ρ c
  have hd : (W3 m ρ c (Proc.devRef .tc main_v33) : S100000x1.Idx → EReal) = sqInvRootColumn (m ((c : Thread nD τ).loc main_arg1)) :=
    (back3_v33 m ρ c).trans (sqInvRoot_read m ρ c)
  refine (congrFun (conv1_pre m ρ c) (ix2 p q)).trans ?_
  show Cert.KernelStats.combinePre (W3 m ρ c (Proc.devRef .tc main_v46) : S100000x128.Idx → EReal)
      (W3 m ρ c (Proc.devRef .tc main_v34) : S100000x128.Idx → EReal)
      (W3 m ρ c (Proc.devRef .tc main_v33) : S100000x1.Idx → EReal)
      (W3 m ρ c (Proc.devRef .tc main_v47) : S1x128.Idx → EReal) (ix2 p q) = _
  rw [Cert.KernelStats.combinePre_ix2, hagg, hh, hd, convBias1_read m ρ c q]
  unfold convPre aggOfK d2K
  rw [arr_of_mat]

/-- The column sums this layer's stats region leaves are the sums of that pre-activation over the nodes. -/
theorem convSum1_read (c : Dev nD) (Y : Mat 128)
    (hY : ∀ p q, (W4 m ρ c (Proc.devRef .tc main_v48_0) : S100000x128.Idx → EReal) (ix2 p q) = Y p q) (q : Fin 128) :
    (W4 m ρ c (Proc.devRef .tc main_v48_1) : S1x128.Idx → EReal) (ix2 (0 : Fin 1) q) = ∑ p, Y p q := by
  refine (congrFun (conv1_sum m ρ c) (ix2 (0 : Fin 1) q)).trans ?_
  refine (Cert.KernelStats.colSums_eq_of_lane (Cert.KernelStats.pre1 (V3 m ρ) c) (ix2 (0 : Fin 1) q) q rfl).trans ?_
  refine Finset.sum_congr rfl fun p _ => ?_
  exact (congrFun (conv1_pre m ρ c) (ix2 p q)).symm.trans (hY p q)

/-- The column sums of squares this layer's stats region leaves. -/
theorem convSumSq1_read (c : Dev nD) (Y : Mat 128)
    (hY : ∀ p q, (W4 m ρ c (Proc.devRef .tc main_v48_0) : S100000x128.Idx → EReal) (ix2 p q) = Y p q) (q : Fin 128) :
    (W4 m ρ c (Proc.devRef .tc main_v48_2) : S1x128.Idx → EReal) (ix2 (0 : Fin 1) q) = ∑ p, Y p q * Y p q := by
  refine (congrFun (conv1_sumsq m ρ c) (ix2 (0 : Fin 1) q)).trans ?_
  refine (Cert.KernelStats.colSumSqs_eq_of_lane (Cert.KernelStats.pre1 (V3 m ρ) c) (ix2 (0 : Fin 1) q) q rfl).trans ?_
  refine Finset.sum_congr rfl fun p _ => ?_
  have hp : Cert.KernelStats.pre1 (V3 m ρ) c (ix2 p q) = Y p q :=
    (congrFun (conv1_pre m ρ c) (ix2 p q)).symm.trans (hY p q)
  rw [hp]

/-! ## Convolution layer 2 -/

set_option maxHeartbeats 1000000 in
/-- The neighbourhood sum this layer's stats region finds: of the layer's product, over the edge list. -/
theorem neighbourSum2_read (c : Dev nD) :
    (W8 m ρ c (Proc.devRef .tc main_v70) : S100000x128.Idx → EReal)
      = neighbourSum (m ((c : Thread nD τ).loc main_arg1)) (W7 m ρ c (Proc.devRef .tc main_v58)) := by
  have e : (W8 m ρ c (Proc.devRef .tc main_v70) : S100000x128.Idx → EReal)
      = neighbourSumOf (W7 m ρ c (Proc.devRef .tc main_v3)) (W7 m ρ c (Proc.devRef .tc main_v1))
          (W7 m ρ c (Proc.devRef .tc main_v31)) (W7 m ρ c (Proc.devRef .tc main_v58)) := by
    show StableHlo.after hostOps4 _ (Proc.devRef .tc main_v70) = _
    after_results
    rfl
  have h3 : (W7 m ρ c (Proc.devRef .tc main_v3) : S1600000.Idx → BitVec 32) = dstOf (m ((c : Thread nD τ).loc main_arg1)) :=
    (back7_v3 m ρ c).trans (dst_read m ρ c)
  have h1 : (W7 m ρ c (Proc.devRef .tc main_v1) : S1600000.Idx → BitVec 32) = srcOf (m ((c : Thread nD τ).loc main_arg1)) :=
    (back7_v1 m ρ c).trans (src_read m ρ c)
  have h31 : (W7 m ρ c (Proc.devRef .tc main_v31) : S1600000x1.Idx → EReal) = edgeWeightColumn (m ((c : Thread nD τ).loc main_arg1)) :=
    (back7_v31 m ρ c).trans (edgeWeight_read m ρ c)
  rw [e, h3, h1, h31]
  rfl

/-- The bias row this layer's stats region finds, read at a column. -/
theorem convBias2_read (c : Dev nD) (q : Fin 128) :
    (W8 m ρ c (Proc.devRef .tc main_v71) : S1x128.Idx → EReal) (ix2 (0 : Fin 1) q)
      = (m ((c : Thread nD τ).loc main_arg7) : S128.Idx → EReal) (ix1 q) := by
  have e : (W8 m ρ c (Proc.devRef .tc main_v71) : S1x128.Idx → EReal)
      = shapeCast S1x128 (W7 m ρ c (Proc.devRef .tc main_arg7) : S128.Idx → EReal) shapeCasts_S128_S1x128 := by
    show StableHlo.after hostOps4 _ (Proc.devRef .tc main_v71) = _
    after_results
    rfl
  have hb : (W7 m ρ c (Proc.devRef .tc main_arg7) : S128.Idx → EReal) = m ((c : Thread nD τ).loc main_arg7) :=
    back7_arg7 m ρ c
  rw [e, hb]
  exact shapeCast_a_1a_apply _ _ (0 : Fin 1) q

set_option maxHeartbeats 1000000 in
/-- The pre-activation this layer's stats region leaves, as the specification's convolution pre-activation of the
    layer's product. -/
theorem convPre2_read (c : Dev nD) (p : Fin 100000) (q : Fin 128) :
    (W9 m ρ c (Proc.devRef .tc main_v72_0) : S100000x128.Idx → EReal) (ix2 p q)
      = convPre (aggOfK (m ((c : Thread nD τ).loc main_arg1)) (matOf (W7 m ρ c (Proc.devRef .tc main_v58) : S100000x128.Idx → EReal)))
          (matOf (W7 m ρ c (Proc.devRef .tc main_v58) : S100000x128.Idx → EReal)) (d2K (m ((c : Thread nD τ).loc main_arg1)))
          (fun q => (m ((c : Thread nD τ).loc main_arg7) : S128.Idx → EReal) (ix1 q)) p q := by
  have hagg : (W8 m ρ c (Proc.devRef .tc main_v70) : S100000x128.Idx → EReal)
      = neighbourSum (m ((c : Thread nD τ).loc main_arg1)) (W7 m ρ c (Proc.devRef .tc main_v58)) := neighbourSum2_read m ρ c
  have hh : (W8 m ρ c (Proc.devRef .tc main_v58) : S100000x128.Idx → EReal) = W7 m ρ c (Proc.devRef .tc main_v58) :=
    back8_v58 m ρ c
  have hd : (W8 m ρ c (Proc.devRef .tc main_v33) : S100000x1.Idx → EReal) = sqInvRootColumn (m ((c : Thread nD τ).loc main_arg1)) :=
    (back8_v33 m ρ c).trans (sqInvRoot_read m ρ c)
  refine (congrFun (conv2_pre m ρ c) (ix2 p q)).trans ?_
  show Cert.KernelStats.combinePre (W8 m ρ c (Proc.devRef .tc main_v70) : S100000x128.Idx → EReal)
      (W8 m ρ c (Proc.devRef .tc main_v58) : S100000x128.Idx → EReal)
      (W8 m ρ c (Proc.devRef .tc main_v33) : S100000x1.Idx → EReal)
      (W8 m ρ c (Proc.devRef .tc main_v71) : S1x128.Idx → EReal) (ix2 p q) = _
  rw [Cert.KernelStats.combinePre_ix2, hagg, hh, hd, convBias2_read m ρ c q]
  unfold convPre aggOfK d2K
  rw [arr_of_mat]

/-- The column sums this layer's stats region leaves are the sums of that pre-activation over the nodes. -/
theorem convSum2_read (c : Dev nD) (Y : Mat 128)
    (hY : ∀ p q, (W9 m ρ c (Proc.devRef .tc main_v72_0) : S100000x128.Idx → EReal) (ix2 p q) = Y p q) (q : Fin 128) :
    (W9 m ρ c (Proc.devRef .tc main_v72_1) : S1x128.Idx → EReal) (ix2 (0 : Fin 1) q) = ∑ p, Y p q := by
  refine (congrFun (conv2_sum m ρ c) (ix2 (0 : Fin 1) q)).trans ?_
  refine (Cert.KernelStats.colSums_eq_of_lane (Cert.KernelStats.pre4 (V8 m ρ) c) (ix2 (0 : Fin 1) q) q rfl).trans ?_
  refine Finset.sum_congr rfl fun p _ => ?_
  exact (congrFun (conv2_pre m ρ c) (ix2 p q)).symm.trans (hY p q)

/-- The column sums of squares this layer's stats region leaves. -/
theorem convSumSq2_read (c : Dev nD) (Y : Mat 128)
    (hY : ∀ p q, (W9 m ρ c (Proc.devRef .tc main_v72_0) : S100000x128.Idx → EReal) (ix2 p q) = Y p q) (q : Fin 128) :
    (W9 m ρ c (Proc.devRef .tc main_v72_2) : S1x128.Idx → EReal) (ix2 (0 : Fin 1) q) = ∑ p, Y p q * Y p q := by
  refine (congrFun (conv2_sumsq m ρ c) (ix2 (0 : Fin 1) q)).trans ?_
  refine (Cert.KernelStats.colSumSqs_eq_of_lane (Cert.KernelStats.pre4 (V8 m ρ) c) (ix2 (0 : Fin 1) q) q rfl).trans ?_
  refine Finset.sum_congr rfl fun p _ => ?_
  have hp : Cert.KernelStats.pre4 (V8 m ρ) c (ix2 p q) = Y p q :=
    (congrFun (conv2_pre m ρ c) (ix2 p q)).symm.trans (hY p q)
  rw [hp]

end Cert.KernelIdeal.Stages

end
-- ==== Proof.NormRegions.lean ====
/-
  The four normalise-and-clamp regions of the kernel.

  Each runs over 20 grid points; point t loads rows 5000·t … 5000·t + 4999 of the pre-activation and the four row
  operands (a mean, a variance, a scale, a shift: one row of C columns each, the same at every point), and writes
  back, to the same rows of the output,

      max (((y − mean) · rsqrt (variance + ε)) · scale + shift, 0)

  entry by entry, the row operands read at the entry's column.  The blocks tile the output, so after the grid the
  output array holds that function of the whole arrays.
-/
import proofs.«134670_j14499809591810_1_alg».proof.Proof.Gen.KernelIdeal.Frame
import Idealize.ShloMosaic.Lib.ValueLayout
import proofs.«134670_j14499809591810_1_alg».proof.Proof.StageForms
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.StageForms (normalized)

variable (V : (c : Dev nD) → (b : Ref sig .tc) → Buf (Elt Ideal) ((c : Thread nD τ).loc b))

/-- The origin of a two-axis buffer, as the constant function. -/
theorem origin2' : (![0, 0] : Fin 2 → Nat) = fun _ => 0 := funext fun a => by fin_cases a <;> rfl

/-! ## Region 2: 128 columns -/

/-- The block's normalised entry at (r, q), from the loaded blocks: the row operands are read at (0, q). -/
theorem normBlock2_apply (var : Vec Ideal S1x128 .f32) (y : Vec Ideal S5000x128 .f32) (mean g be : Vec Ideal S1x128 .f32)
    (r : Fin 5000) (q : Fin 128) :
    k2_pay1 var y mean g be (ix2 r q)
      = max ((y (ix2 r q) - mean (ix2 0 q)) * Ideal.rsqrt (var (ix2 0 q) + Ideal.ofBits .f32 0x3727C5AC#32) * g (ix2 0 q)
          + be (ix2 0 q)) 0 := by
  unfold k2_pay1
  simp only [shapeCast_self]
  show max (((y (ix2 r q) - broadcastTo S5000x128 mean broadcasts_S1x128_S5000x128 (ix2 r q))
        * broadcastTo S5000x128 (rsqrt (F := Ideal) (addf var (broadcast S1x128 (Scalar.ofBits (F := Ideal) .f32 0x3727C5AC#32)))) broadcasts_S1x128_S5000x128 (ix2 r q))
        * broadcastTo S5000x128 g broadcasts_S1x128_S5000x128 (ix2 r q)
        + broadcastTo S5000x128 be broadcasts_S1x128_S5000x128 (ix2 r q)) (Ideal.ofBits .f32 0x00000000#32) = _
  rw [broadcastTo_1b_ab_apply, broadcastTo_1b_ab_apply, broadcastTo_1b_ab_apply, broadcastTo_1b_ab_apply, Ideal.ofBits_zero_f32]
  rfl

/-- The printed index maps over the grid: the pre-activation's and the output's blocks move together down the rows,
    the four row operands' blocks stay. -/
theorem normIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The block's normalised entry at (r, q) of point t, read off the arrays, is the normalised array at the array index
    of the output block's (r, q). -/
theorem normBlockRead2 (y : S100000x128.Idx → EReal) (mean var g be : S1x128.Idx → EReal) (t : Fin cfg2.N)
    (r : Fin 5000) (q : Fin 128) :
    max ((y (((cfg2.win 0).blk t).view.emb (ix2 r q)) - mean (((cfg2.win 1).blk t).view.emb (ix2 (0 : Fin 1) q)))
        * Ideal.rsqrt (var (((cfg2.win 2).blk t).view.emb (ix2 (0 : Fin 1) q)) + Ideal.ofBits .f32 0x3727C5AC#32)
        * g (((cfg2.win 3).blk t).view.emb (ix2 (0 : Fin 1) q))
        + be (((cfg2.win 4).blk t).view.emb (ix2 (0 : Fin 1) q))) 0
      = normalized (C := 128) y mean var g be (((cfg2.win 5).blk t).view.emb (ix2 r q)) := by
  obtain ⟨a0, a1, b0, b1, c0, c1, d0, d1, e0, e1, f0, f1⟩ := normIndex2 t
  have h0 : ((cfg2.win 0).blk t).view.emb (ix2 r q) = ((cfg2.win 5).blk t).view.emb (ix2 r q) := by
    funext a; apply Fin.ext
    match a with
    | ⟨0, _⟩ => show win2_0.index t (0 : Fin 2) * 5000 + 1 * r.val = win2_5.index t (0 : Fin 2) * 5000 + 1 * r.val; omega
    | ⟨1, _⟩ => show win2_0.index t (1 : Fin 2) * 128 + 1 * q.val = win2_5.index t (1 : Fin 2) * 128 + 1 * q.val; omega
  have h1 : ((cfg2.win 1).blk t).view.emb (ix2 (0 : Fin 1) q) = ix2 (0 : Fin 1) ((((cfg2.win 5).blk t).view.emb (ix2 r q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_5.index t (1 : Fin 2) * 128 + 1 * q.val; omega
  have h2 : ((cfg2.win 2).blk t).view.emb (ix2 (0 : Fin 1) q) = ix2 (0 : Fin 1) ((((cfg2.win 5).blk t).view.emb (ix2 r q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_5.index t (1 : Fin 2) * 128 + 1 * q.val; omega
  have h3 : ((cfg2.win 3).blk t).view.emb (ix2 (0 : Fin 1) q) = ix2 (0 : Fin 1) ((((cfg2.win 5).blk t).view.emb (ix2 r q)) 1) := by
    funext a; apply Fin.ext
    match a with
    | ⟨0, _⟩ => show win2_3.index t (0 : Fin 2) * 1 + 1 * 0 = 0; omega
    | ⟨1, _⟩ => show win2_3.index t (1 : Fin 2) * 128 + 1 * q.val = win2_5.index t (1 : Fin 2) * 128 + 1 * q.val; omega
  have h4 : ((cfg2.win 4).blk t).view.emb (ix2 (0 : Fin 1) q) = ix2 (0 : Fin 1) ((((cfg2.win 5).blk t).view.emb (ix2 r q)) 1) := by
    funext a; apply Fin.ext
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega
  rw [h0, h1, h2, h3, h4]
  rfl

set_option maxHeartbeats 1600000 in
/-- What point t writes back is block t of the normalised array of the arrays as the region finds them. -/
theorem normFlushed2 (c : Dev nD) (t : Fin cfg2.N) :
    (dat2 V c).flushed 5 t = ((cfg2.win 5).blk t).view.read (Elt Ideal)
      (normalized (C := 128) (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero origin2']
  simp only [View.ld_unit_zero (S := S5000x128) origin2', View.ld_unit_zero (S := S1x128) origin2']
  funext j
  obtain ⟨r, q, rfl⟩ : ∃ (r : Fin 5000) (q : Fin 128), j = ix2 r q := ⟨j 0, j 1, eq_ix2 j⟩
  refine (normBlock2_apply (iblk2 V c 2 t) (iblk2 V c 0 t) (iblk2 V c 1 t) (iblk2 V c 3 t) (iblk2 V c 4 t) r q).trans ?_
  exact normBlockRead2 (V c (Pipeline.arrRef spec2 0)) (V c (Pipeline.arrRef spec2 1)) (V c (Pipeline.arrRef spec2 2))
    (V c (Pipeline.arrRef spec2 3)) (V c (Pipeline.arrRef spec2 4)) t r q

/-- An index of the output array is in point t's block iff its row is among the block's 5000 rows. -/
theorem normBlockMem2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v57).slice (win2_5.rect t)).set ↔ _
  rw [View.set_slice_whole, Rect.mem_set_unit]
  exact Iff.rfl

/-- Every index of the output array is in the block of the point that handles its row. -/
theorem normCover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  refine ⟨⟨(i 0).val / 5000, by show (i 0).val / 5000 < 20; omega⟩, flush2_5 _, ?_⟩
  rw [normBlockMem2]
  obtain ⟨a0, a1, b0, b1, c0, c1, d0, d1, e0, e1, f0, f1⟩ := normIndex2 ⟨(i 0).val / 5000, by show (i 0).val / 5000 < 20; omega⟩
  intro a
  match a with
  | ⟨0, _⟩ =>
    show win2_5.index _ (0 : Fin 2) * 5000 ≤ (i 0).val ∧ (i 0).val < win2_5.index _ (0 : Fin 2) * 5000 + 5000
    rw [f0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [f1]; omega

/-- After the grid the output array holds the normalised array. -/
theorem normFinal2 (c : Dev nD) :
    (dat2 V c).arrAt 5 cfg2.N = normalized (C := 128) (V c (Pipeline.arrRef spec2 0)) (V c (Pipeline.arrRef spec2 1))
      (V c (Pipeline.arrRef spec2 2)) (V c (Pipeline.arrRef spec2 3)) (V c (Pipeline.arrRef spec2 4)) :=
  (dat2 V c).arrAt_eq_of_cover 5 _ (fun t _ => normFlushed2 V c t) (normCover2)

/-! ## Region 5: 128 columns -/

/-- The block's normalised entry at (r, q), from the loaded blocks: the row operands are read at (0, q). -/
theorem normBlock5_apply (var : Vec Ideal S1x128 .f32) (y : Vec Ideal S5000x128 .f32) (mean g be : Vec Ideal S1x128 .f32)
    (r : Fin 5000) (q : Fin 128) :
    k5_pay1 var y mean g be (ix2 r q)
      = max ((y (ix2 r q) - mean (ix2 0 q)) * Ideal.rsqrt (var (ix2 0 q) + Ideal.ofBits .f32 0x3727C5AC#32) * g (ix2 0 q)
          + be (ix2 0 q)) 0 := by
  unfold k5_pay1
  simp only [shapeCast_self]
  show max (((y (ix2 r q) - broadcastTo S5000x128 mean broadcasts_S1x128_S5000x128 (ix2 r q))
        * broadcastTo S5000x128 (rsqrt (F := Ideal) (addf var (broadcast S1x128 (Scalar.ofBits (F := Ideal) .f32 0x3727C5AC#32)))) broadcasts_S1x128_S5000x128 (ix2 r q))
        * broadcastTo S5000x128 g broadcasts_S1x128_S5000x128 (ix2 r q)
        + broadcastTo S5000x128 be broadcasts_S1x128_S5000x128 (ix2 r q)) (Ideal.ofBits .f32 0x00000000#32) = _
  rw [broadcastTo_1b_ab_apply, broadcastTo_1b_ab_apply, broadcastTo_1b_ab_apply, broadcastTo_1b_ab_apply, Ideal.ofBits_zero_f32]
  rfl

/-- The printed index maps over the grid: the pre-activation's and the output's blocks move together down the rows,
    the four row operands' blocks stay. -/
theorem normIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The block's normalised entry at (r, q) of point t, read off the arrays, is the normalised array at the array index
    of the output block's (r, q). -/
theorem normBlockRead5 (y : S100000x128.Idx → EReal) (mean var g be : S1x128.Idx → EReal) (t : Fin cfg5.N)
    (r : Fin 5000) (q : Fin 128) :
    max ((y (((cfg5.win 0).blk t).view.emb (ix2 r q)) - mean (((cfg5.win 1).blk t).view.emb (ix2 (0 : Fin 1) q)))
        * Ideal.rsqrt (var (((cfg5.win 2).blk t).view.emb (ix2 (0 : Fin 1) q)) + Ideal.ofBits .f32 0x3727C5AC#32)
        * g (((cfg5.win 3).blk t).view.emb (ix2 (0 : Fin 1) q))
        + be (((cfg5.win 4).blk t).view.emb (ix2 (0 : Fin 1) q))) 0
      = normalized (C := 128) y mean var g be (((cfg5.win 5).blk t).view.emb (ix2 r q)) := by
  obtain ⟨a0, a1, b0, b1, c0, c1, d0, d1, e0, e1, f0, f1⟩ := normIndex5 t
  have h0 : ((cfg5.win 0).blk t).view.emb (ix2 r q) = ((cfg5.win 5).blk t).view.emb (ix2 r q) := by
    funext a; apply Fin.ext
    match a with
    | ⟨0, _⟩ => show win5_0.index t (0 : Fin 2) * 5000 + 1 * r.val = win5_5.index t (0 : Fin 2) * 5000 + 1 * r.val; omega
    | ⟨1, _⟩ => show win5_0.index t (1 : Fin 2) * 128 + 1 * q.val = win5_5.index t (1 : Fin 2) * 128 + 1 * q.val; omega
  have h1 : ((cfg5.win 1).blk t).view.emb (ix2 (0 : Fin 1) q) = ix2 (0 : Fin 1) ((((cfg5.win 5).blk t).view.emb (ix2 r q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_5.index t (1 : Fin 2) * 128 + 1 * q.val; omega
  have h2 : ((cfg5.win 2).blk t).view.emb (ix2 (0 : Fin 1) q) = ix2 (0 : Fin 1) ((((cfg5.win 5).blk t).view.emb (ix2 r q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_5.index t (1 : Fin 2) * 128 + 1 * q.val; omega
  have h3 : ((cfg5.win 3).blk t).view.emb (ix2 (0 : Fin 1) q) = ix2 (0 : Fin 1) ((((cfg5.win 5).blk t).view.emb (ix2 r q)) 1) := by
    funext a; apply Fin.ext
    match a with
    | ⟨0, _⟩ => show win5_3.index t (0 : Fin 2) * 1 + 1 * 0 = 0; omega
    | ⟨1, _⟩ => show win5_3.index t (1 : Fin 2) * 128 + 1 * q.val = win5_5.index t (1 : Fin 2) * 128 + 1 * q.val; omega
  have h4 : ((cfg5.win 4).blk t).view.emb (ix2 (0 : Fin 1) q) = ix2 (0 : Fin 1) ((((cfg5.win 5).blk t).view.emb (ix2 r q)) 1) := by
    funext a; apply Fin.ext
    match a with
    | ⟨0, _⟩ => show win5_4.index t (0 : Fin 2) * 1 + 1 * 0 = 0; omega
    | ⟨1, _⟩ => show win5_4.index t (1 : Fin 2) * 128 + 1 * q.val = win5_5.index t (1 : Fin 2) * 128 + 1 * q.val; omega
  rw [h0, h1, h2, h3, h4]
  rfl

set_option maxHeartbeats 1600000 in
/-- What point t writes back is block t of the normalised array of the arrays as the region finds them. -/
theorem normFlushed5 (c : Dev nD) (t : Fin cfg5.N) :
    (dat5 V c).flushed 5 t = ((cfg5.win 5).blk t).view.read (Elt Ideal)
      (normalized (C := 128) (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero origin2']
  simp only [View.ld_unit_zero (S := S5000x128) origin2', View.ld_unit_zero (S := S1x128) origin2']
  funext j
  obtain ⟨r, q, rfl⟩ : ∃ (r : Fin 5000) (q : Fin 128), j = ix2 r q := ⟨j 0, j 1, eq_ix2 j⟩
  refine (normBlock5_apply (iblk5 V c 2 t) (iblk5 V c 0 t) (iblk5 V c 1 t) (iblk5 V c 3 t) (iblk5 V c 4 t) r q).trans ?_
  exact normBlockRead5 (V c (Pipeline.arrRef spec5 0)) (V c (Pipeline.arrRef spec5 1)) (V c (Pipeline.arrRef spec5 2))
    (V c (Pipeline.arrRef spec5 3)) (V c (Pipeline.arrRef spec5 4)) t r q

/-- An index of the output array is in point t's block iff its row is among the block's 5000 rows. -/
theorem normBlockMem5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v81).slice (win5_5.rect t)).set ↔ _
  rw [View.set_slice_whole, Rect.mem_set_unit]
  exact Iff.rfl

/-- Every index of the output array is in the block of the point that handles its row. -/
theorem normCover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  refine ⟨⟨(i 0).val / 5000, by show (i 0).val / 5000 < 20; omega⟩, flush5_5 _, ?_⟩
  rw [normBlockMem5]
  obtain ⟨a0, a1, b0, b1, c0, c1, d0, d1, e0, e1, f0, f1⟩ := normIndex5 ⟨(i 0).val / 5000, by show (i 0).val / 5000 < 20; omega⟩
  intro a
  match a with
  | ⟨0, _⟩ =>
    show win5_5.index _ (0 : Fin 2) * 5000 ≤ (i 0).val ∧ (i 0).val < win5_5.index _ (0 : Fin 2) * 5000 + 5000
    rw [f0]; show (i 0).val / 5000 * 5000 ≤ (i 0).val ∧ (i 0).val < (i 0).val / 5000 * 5000 + 5000; omega
  | ⟨1, _⟩ =>
    show win5_5.index _ (1 : Fin 2) * 128 ≤ (i 1).val ∧ (i 1).val < win5_5.index _ (1 : Fin 2) * 128 + 128
    rw [f1]; omega

/-- After the grid the output array holds the normalised array. -/
theorem normFinal5 (c : Dev nD) :
    (dat5 V c).arrAt 5 cfg5.N = normalized (C := 128) (V c (Pipeline.arrRef spec5 0)) (V c (Pipeline.arrRef spec5 1))
      (V c (Pipeline.arrRef spec5 2)) (V c (Pipeline.arrRef spec5 3)) (V c (Pipeline.arrRef spec5 4)) :=
  (dat5 V c).arrAt_eq_of_cover 5 _ (fun t _ => normFlushed5 V c t) (normCover5)

/-! ## Region 7: 256 columns -/

/-- The block's normalised entry at (r, q), from the loaded blocks: the row operands are read at (0, q). -/
theorem normBlock7_apply (var : Vec Ideal S1x256 .f32) (y : Vec Ideal S5000x256 .f32) (mean g be : Vec Ideal S1x256 .f32)
    (r : Fin 5000) (q : Fin 256) :
    k7_pay1 var y mean g be (ix2 r q)
      = max ((y (ix2 r q) - mean (ix2 0 q)) * Ideal.rsqrt (var (ix2 0 q) + Ideal.ofBits .f32 0x3727C5AC#32) * g (ix2 0 q)
          + be (ix2 0 q)) 0 := by
  unfold k7_pay1
  simp only [shapeCast_self]
  show max (((y (ix2 r q) - broadcastTo S5000x256 mean broadcasts_S1x256_S5000x256 (ix2 r q))
        * broadcastTo S5000x256 (rsqrt (F := Ideal) (addf var (broadcast S1x256 (Scalar.ofBits (F := Ideal) .f32 0x3727C5AC#32)))) broadcasts_S1x256_S5000x256 (ix2 r q))
        * broadcastTo S5000x256 g broadcasts_S1x256_S5000x256 (ix2 r q)
        + broadcastTo S5000x256 be broadcasts_S1x256_S5000x256 (ix2 r q)) (Ideal.ofBits .f32 0x00000000#32) = _
  rw [broadcastTo_1b_ab_apply, broadcastTo_1b_ab_apply, broadcastTo_1b_ab_apply, broadcastTo_1b_ab_apply, Ideal.ofBits_zero_f32]
  rfl

/-- The printed index maps over the grid: the pre-activation's and the output's blocks move together down the rows,
    the four row operands' blocks stay. -/
theorem normIndex7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The block's normalised entry at (r, q) of point t, read off the arrays, is the normalised array at the array index
    of the output block's (r, q). -/
theorem normBlockRead7 (y : S100000x256.Idx → EReal) (mean var g be : S1x256.Idx → EReal) (t : Fin cfg7.N)
    (r : Fin 5000) (q : Fin 256) :
    max ((y (((cfg7.win 0).blk t).view.emb (ix2 r q)) - mean (((cfg7.win 1).blk t).view.emb (ix2 (0 : Fin 1) q)))
        * Ideal.rsqrt (var (((cfg7.win 2).blk t).view.emb (ix2 (0 : Fin 1) q)) + Ideal.ofBits .f32 0x3727C5AC#32)
        * g (((cfg7.win 3).blk t).view.emb (ix2 (0 : Fin 1) q))
        + be (((cfg7.win 4).blk t).view.emb (ix2 (0 : Fin 1) q))) 0
      = normalized (C := 256) y mean var g be (((cfg7.win 5).blk t).view.emb (ix2 r q)) := by
  obtain ⟨a0, a1, b0, b1, c0, c1, d0, d1, e0, e1, f0, f1⟩ := normIndex7 t
  have h0 : ((cfg7.win 0).blk t).view.emb (ix2 r q) = ((cfg7.win 5).blk t).view.emb (ix2 r q) := by
    funext a; apply Fin.ext
    match a with
    | ⟨0, _⟩ => show win7_0.index t (0 : Fin 2) * 5000 + 1 * r.val = win7_5.index t (0 : Fin 2) * 5000 + 1 * r.val; omega
    | ⟨1, _⟩ => show win7_0.index t (1 : Fin 2) * 256 + 1 * q.val = win7_5.index t (1 : Fin 2) * 256 + 1 * q.val; omega
  have h1 : ((cfg7.win 1).blk t).view.emb (ix2 (0 : Fin 1) q) = ix2 (0 : Fin 1) ((((cfg7.win 5).blk t).view.emb (ix2 r q)) 1) := by
    funext a; apply Fin.ext
    match a with
    | ⟨0, _⟩ => show win7_1.index t (0 : Fin 2) * 1 + 1 * 0 = 0; omega
    | ⟨1, _⟩ => show win7_1.index t (1 : Fin 2) * 256 + 1 * q.val = win7_5.index t (1 : Fin 2) * 256 + 1 * q.val; omega
  have h2 : ((cfg7.win 2).blk t).view.emb (ix2 (0 : Fin 1) q) = ix2 (0 : Fin 1) ((((cfg7.win 5).blk t).view.emb (ix2 r q)) 1) := by
    funext a; apply Fin.ext
    match a with
    | ⟨0, _⟩ => show win7_2.index t (0 : Fin 2) * 1 + 1 * 0 = 0; omega
    | ⟨1, _⟩ => show win7_2.index t (1 : Fin 2) * 256 + 1 * q.val = win7_5.index t (1 : Fin 2) * 256 + 1 * q.val; omega
  have h3 : ((cfg7.win 3).blk t).view.emb (ix2 (0 : Fin 1) q) = ix2 (0 : Fin 1) ((((cfg7.win 5).blk t).view.emb (ix2 r q)) 1) := by
    funext a; apply Fin.ext
    match a with
    | ⟨0, _⟩ => show win7_3.index t (0 : Fin 2) * 1 + 1 * 0 = 0; omega
    | ⟨1, _⟩ => show win7_3.index t (1 : Fin 2) * 256 + 1 * q.val = win7_5.index t (1 : Fin 2) * 256 + 1 * q.val; omega
  have h4 : ((cfg7.win 4).blk t).view.emb (ix2 (0 : Fin 1) q) = ix2 (0 : Fin 1) ((((cfg7.win 5).blk t).view.emb (ix2 r q)) 1) := by
    funext a; apply Fin.ext
    match a with
    | ⟨0, _⟩ => show win7_4.index t (0 : Fin 2) * 1 + 1 * 0 = 0; omega
    | ⟨1, _⟩ => show win7_4.index t (1 : Fin 2) * 256 + 1 * q.val = win7_5.index t (1 : Fin 2) * 256 + 1 * q.val; omega
  rw [h0, h1, h2, h3, h4]
  rfl

set_option maxHeartbeats 1600000 in
/-- What point t writes back is block t of the normalised array of the arrays as the region finds them. -/
theorem normFlushed7 (c : Dev nD) (t : Fin cfg7.N) :
    (dat7 V c).flushed 5 t = ((cfg7.win 5).blk t).view.read (Elt Ideal)
      (normalized (C := 256) (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  unfold out7_5
  rw [View.canon_unit_zero origin2']
  simp only [View.ld_unit_zero (S := S5000x256) origin2', View.ld_unit_zero (S := S1x256) origin2']
  funext j
  obtain ⟨r, q, rfl⟩ : ∃ (r : Fin 5000) (q : Fin 256), j = ix2 r q := ⟨j 0, j 1, eq_ix2 j⟩
  refine (normBlock7_apply (iblk7 V c 2 t) (iblk7 V c 0 t) (iblk7 V c 1 t) (iblk7 V c 3 t) (iblk7 V c 4 t) r q).trans ?_
  exact normBlockRead7 (V c (Pipeline.arrRef spec7 0)) (V c (Pipeline.arrRef spec7 1)) (V c (Pipeline.arrRef spec7 2))
    (V c (Pipeline.arrRef spec7 3)) (V c (Pipeline.arrRef spec7 4)) t r q

/-- An index of the output array is in point t's block iff its row is among the block's 5000 rows. -/
theorem normBlockMem7 (t : Fin cfg7.N) (i : S100000x256.Idx) :
    i ∈ ((cfg7.win 5).blk t).view.set ↔ ∀ a : Fin 2, win7_5.index t a * S5000x256.size a ≤ (i a).val ∧ (i a).val < win7_5.index t a * S5000x256.size a + S5000x256.size a := by
  show i ∈ ((View.whole main_v92).slice (win7_5.rect t)).set ↔ _
  rw [View.set_slice_whole, Rect.mem_set_unit]
  exact Iff.rfl

/-- Every index of the output array is in the block of the point that handles its row. -/
theorem normCover7 (i : S100000x256.Idx) :
    ∃ t : Fin cfg7.N, (cfg7.win 5).flush t = true ∧ i ∈ ((cfg7.win 5).blk t).view.set := by
  have hi0 : (i 0).val < 100000 := (i 0).isLt
  have hi1 : (i 1).val < 256 := (i 1).isLt
  refine ⟨⟨(i 0).val / 5000, by show (i 0).val / 5000 < 20; omega⟩, flush7_5 _, ?_⟩
  rw [normBlockMem7]
  obtain ⟨a0, a1, b0, b1, c0, c1, d0, d1, e0, e1, f0, f1⟩ := normIndex7 ⟨(i 0).val / 5000, by show (i 0).val / 5000 < 20; omega⟩
  intro a
  match a with
  | ⟨0, _⟩ =>
    show win7_5.index _ (0 : Fin 2) * 5000 ≤ (i 0).val ∧ (i 0).val < win7_5.index _ (0 : Fin 2) * 5000 + 5000
    rw [f0]; show (i 0).val / 5000 * 5000 ≤ (i 0).val ∧ (i 0).val < (i 0).val / 5000 * 5000 + 5000; omega
  | ⟨1, _⟩ =>
    show win7_5.index _ (1 : Fin 2) * 256 ≤ (i 1).val ∧ (i 1).val < win7_5.index _ (1 : Fin 2) * 256 + 256
    rw [f1]; omega

/-- After the grid the output array holds the normalised array. -/
theorem normFinal7 (c : Dev nD) :
    (dat7 V c).arrAt 5 cfg7.N = normalized (C := 256) (V c (Pipeline.arrRef spec7 0)) (V c (Pipeline.arrRef spec7 1))
      (V c (Pipeline.arrRef spec7 2)) (V c (Pipeline.arrRef spec7 3)) (V c (Pipeline.arrRef spec7 4)) :=
  (dat7 V c).arrAt_eq_of_cover 5 _ (fun t _ => normFlushed7 V c t) (normCover7)

/-! ## Region 9: 128 columns -/

/-- The block's normalised entry at (r, q), from the loaded blocks: the row operands are read at (0, q). -/
theorem normBlock9_apply (var : Vec Ideal S1x128 .f32) (y : Vec Ideal S5000x128 .f32) (mean g be : Vec Ideal S1x128 .f32)
    (r : Fin 5000) (q : Fin 128) :
    k9_pay1 var y mean g be (ix2 r q)
      = max ((y (ix2 r q) - mean (ix2 0 q)) * Ideal.rsqrt (var (ix2 0 q) + Ideal.ofBits .f32 0x3727C5AC#32) * g (ix2 0 q)
          + be (ix2 0 q)) 0 := by
  unfold k9_pay1
  simp only [shapeCast_self]
  show max (((y (ix2 r q) - broadcastTo S5000x128 mean broadcasts_S1x128_S5000x128 (ix2 r q))
        * broadcastTo S5000x128 (rsqrt (F := Ideal) (addf var (broadcast S1x128 (Scalar.ofBits (F := Ideal) .f32 0x3727C5AC#32)))) broadcasts_S1x128_S5000x128 (ix2 r q))
        * broadcastTo S5000x128 g broadcasts_S1x128_S5000x128 (ix2 r q)
        + broadcastTo S5000x128 be broadcasts_S1x128_S5000x128 (ix2 r q)) (Ideal.ofBits .f32 0x00000000#32) = _
  rw [broadcastTo_1b_ab_apply, broadcastTo_1b_ab_apply, broadcastTo_1b_ab_apply, broadcastTo_1b_ab_apply, Ideal.ofBits_zero_f32]
  rfl

/-- The printed index maps over the grid: the pre-activation's and the output's blocks move together down the rows,
    the four row operands' blocks stay. -/
theorem normIndex9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- The block's normalised entry at (r, q) of point t, read off the arrays, is the normalised array at the array index
    of the output block's (r, q). -/
theorem normBlockRead9 (y : S100000x128.Idx → EReal) (mean var g be : S1x128.Idx → EReal) (t : Fin cfg9.N)
    (r : Fin 5000) (q : Fin 128) :
    max ((y (((cfg9.win 0).blk t).view.emb (ix2 r q)) - mean (((cfg9.win 1).blk t).view.emb (ix2 (0 : Fin 1) q)))
        * Ideal.rsqrt (var (((cfg9.win 2).blk t).view.emb (ix2 (0 : Fin 1) q)) + Ideal.ofBits .f32 0x3727C5AC#32)
        * g (((cfg9.win 3).blk t).view.emb (ix2 (0 : Fin 1) q))
        + be (((cfg9.win 4).blk t).view.emb (ix2 (0 : Fin 1) q))) 0
      = normalized (C := 128) y mean var g be (((cfg9.win 5).blk t).view.emb (ix2 r q)) := by
  obtain ⟨a0, a1, b0, b1, c0, c1, d0, d1, e0, e1, f0, f1⟩ := normIndex9 t
  have h0 : ((cfg9.win 0).blk t).view.emb (ix2 r q) = ((cfg9.win 5).blk t).view.emb (ix2 r q) := by
    funext a; apply Fin.ext
    match a with
    | ⟨0, _⟩ => show win9_0.index t (0 : Fin 2) * 5000 + 1 * r.val = win9_5.index t (0 : Fin 2) * 5000 + 1 * r.val; omega
    | ⟨1, _⟩ => show win9_0.index t (1 : Fin 2) * 128 + 1 * q.val = win9_5.index t (1 : Fin 2) * 128 + 1 * q.val; omega
  have h1 : ((cfg9.win 1).blk t).view.emb (ix2 (0 : Fin 1) q) = ix2 (0 : Fin 1) ((((cfg9.win 5).blk t).view.emb (ix2 r q)) 1) := by
    funext a; apply Fin.ext
    match a with
    | ⟨0, _⟩ => show win9_1.index t (0 : Fin 2) * 1 + 1 * 0 = 0; omega
    | ⟨1, _⟩ => show win9_1.index t (1 : Fin 2) * 128 + 1 * q.val = win9_5.index t (1 : Fin 2) * 128 + 1 * q.val; omega
  have h2 : ((cfg9.win 2).blk t).view.emb (ix2 (0 : Fin 1) q) = ix2 (0 : Fin 1) ((((cfg9.win 5).blk t).view.emb (ix2 r q)) 1) := by
    funext a; apply Fin.ext
    match a with
    | ⟨0, _⟩ => show win9_2.index t (0 : Fin 2) * 1 + 1 * 0 = 0; omega
    | ⟨1, _⟩ => show win9_2.index t (1 : Fin 2) * 128 + 1 * q.val = win9_5.index t (1 : Fin 2) * 128 + 1 * q.val; omega
  have h3 : ((cfg9.win 3).blk t).view.emb (ix2 (0 : Fin 1) q) = ix2 (0 : Fin 1) ((((cfg9.win 5).blk t).view.emb (ix2 r q)) 1) := by
    funext a; apply Fin.ext
    match a with
    | ⟨0, _⟩ => show win9_3.index t (0 : Fin 2) * 1 + 1 * 0 = 0; omega
    | ⟨1, _⟩ => show win9_3.index t (1 : Fin 2) * 128 + 1 * q.val = win9_5.index t (1 : Fin 2) * 128 + 1 * q.val; omega
  have h4 : ((cfg9.win 4).blk t).view.emb (ix2 (0 : Fin 1) q) = ix2 (0 : Fin 1) ((((cfg9.win 5).blk t).view.emb (ix2 r q)) 1) := by
    funext a; apply Fin.ext
    match a with
    | ⟨0, _⟩ => show win9_4.index t (0 : Fin 2) * 1 + 1 * 0 = 0; omega
    | ⟨1, _⟩ => show win9_4.index t (1 : Fin 2) * 128 + 1 * q.val = win9_5.index t (1 : Fin 2) * 128 + 1 * q.val; omega
  rw [h0, h1, h2, h3, h4]
  rfl

set_option maxHeartbeats 1600000 in
/-- What point t writes back is block t of the normalised array of the arrays as the region finds them. -/
theorem normFlushed9 (c : Dev nD) (t : Fin cfg9.N) :
    (dat9 V c).flushed 5 t = ((cfg9.win 5).blk t).view.read (Elt Ideal)
      (normalized (C := 128) (V c (Pipeline.arrRef spec9 0)) (V c (Pipeline.arrRef spec9 1)) (V c (Pipeline.arrRef spec9 2))
        (V c (Pipeline.arrRef spec9 3)) (V c (Pipeline.arrRef spec9 4))) := by
  show (cfg9.win 5).cut (grid9.coords t) ((dat9 V c).after 5 t) = _
  rw [after9_5]
  unfold out9_5
  rw [View.canon_unit_zero origin2']
  simp only [View.ld_unit_zero (S := S5000x128) origin2', View.ld_unit_zero (S := S1x128) origin2']
  funext j
  obtain ⟨r, q, rfl⟩ : ∃ (r : Fin 5000) (q : Fin 128), j = ix2 r q := ⟨j 0, j 1, eq_ix2 j⟩
  refine (normBlock9_apply (iblk9 V c 2 t) (iblk9 V c 0 t) (iblk9 V c 1 t) (iblk9 V c 3 t) (iblk9 V c 4 t) r q).trans ?_
  exact normBlockRead9 (V c (Pipeline.arrRef spec9 0)) (V c (Pipeline.arrRef spec9 1)) (V c (Pipeline.arrRef spec9 2))
    (V c (Pipeline.arrRef spec9 3)) (V c (Pipeline.arrRef spec9 4)) t r q

/-- An index of the output array is in point t's block iff its row is among the block's 5000 rows. -/
theorem normBlockMem9 (t : Fin cfg9.N) (i : S100000x128.Idx) :
    i ∈ ((cfg9.win 5).blk t).view.set ↔ ∀ a : Fin 2, win9_5.index t a * S5000x128.size a ≤ (i a).val ∧ (i a).val < win9_5.index t a * S5000x128.size a + S5000x128.size a := by
  show i ∈ ((View.whole main_v103).slice (win9_5.rect t)).set ↔ _
  rw [View.set_slice_whole, Rect.mem_set_unit]
  exact Iff.rfl

/-- Every index of the output array is in the block of the point that handles its row. -/
theorem normCover9 (i : S100000x128.Idx) :
    ∃ t : Fin cfg9.N, (cfg9.win 5).flush t = true ∧ i ∈ ((cfg9.win 5).blk t).view.set := by
  have hi0 : (i 0).val < 100000 := (i 0).isLt
  have hi1 : (i 1).val < 128 := (i 1).isLt
  refine ⟨⟨(i 0).val / 5000, by show (i 0).val / 5000 < 20; omega⟩, flush9_5 _, ?_⟩
  rw [normBlockMem9]
  obtain ⟨a0, a1, b0, b1, c0, c1, d0, d1, e0, e1, f0, f1⟩ := normIndex9 ⟨(i 0).val / 5000, by show (i 0).val / 5000 < 20; omega⟩
  intro a
  match a with
  | ⟨0, _⟩ =>
    show win9_5.index _ (0 : Fin 2) * 5000 ≤ (i 0).val ∧ (i 0).val < win9_5.index _ (0 : Fin 2) * 5000 + 5000
    rw [f0]; show (i 0).val / 5000 * 5000 ≤ (i 0).val ∧ (i 0).val < (i 0).val / 5000 * 5000 + 5000; omega
  | ⟨1, _⟩ =>
    show win9_5.index _ (1 : Fin 2) * 128 ≤ (i 1).val ∧ (i 1).val < win9_5.index _ (1 : Fin 2) * 128 + 128
    rw [f1]; omega

/-- After the grid the output array holds the normalised array. -/
theorem normFinal9 (c : Dev nD) :
    (dat9 V c).arrAt 5 cfg9.N = normalized (C := 128) (V c (Pipeline.arrRef spec9 0)) (V c (Pipeline.arrRef spec9 1))
      (V c (Pipeline.arrRef spec9 2)) (V c (Pipeline.arrRef spec9 3)) (V c (Pipeline.arrRef spec9 4)) :=
  (dat9 V c).arrAt_eq_of_cover 5 _ (fun t _ => normFlushed9 V c t) (normCover9)

end Cert.KernelIdeal.RegionValue

end
-- ==== Proof.KernelLayers.lean ====
/-
  The four normalised layers of the kernel, each read as the specification's normalise-and-clamp.

  After a moments region the program divides the row of column sums by the node count to get the mean row, divides the
  row of column sums of squares by the node count and subtracts the squared mean row to get the variance row, and lays
  the scale and shift arguments out as one row each; the normalise region then subtracts the mean, multiplies by the
  reciprocal square root of the variance plus ε and by the scale, adds the shift and clamps below at zero.  With the
  pre-activation Y, its column sums and its column sums of squares in the moments region's three arrays, that is the
  specification's normalisation of Y with the variance taken from one pass of moments.
-/
import proofs.«134670_j14499809591810_1_alg».proof.Proof.Gen.KernelIdeal.Frame
import proofs.«134670_j14499809591810_1_alg».proof.Proof.KernelFold
import proofs.«134670_j14499809591810_1_alg».proof.Proof.NormRegions
import proofs.«134670_j14499809591810_1_alg».proof.Proof.StageForms
import Idealize.ShloMosaic.Lib.IdealHost
import Idealize.ShloMosaic.Lib.StableHlo.Run
import Idealize.ShloMosaic.Lib.Tactic

set_option maxRecDepth 16384

noncomputable section

open scoped BigOperators

namespace Cert.KernelIdeal.Layers

open Cert.KernelIdeal Cert.KernelIdeal.Gen Cert.KernelIdeal.Fold Cert.KernelIdeal.RegionValue
open Idealize.ShloMosaic Idealize.ShloMosaic.TcCoe Idealize.ShloMosaic.ValueIdx Idealize.SL.Sem Idealize.ShloMosaic.StableHlo
open Cert.StageForms Cert.GcnSpec

/-- The mean and variance rows as the program computes them, lane by lane: the mean is the column sum over the node
    count, the variance the column sum of squares over the node count less the squared mean. -/
theorem momentRows_apply {C : Nat} (s ss mean vr : (⟨2, ![1, C]⟩ : Shape).Idx → EReal)
    (h : (⟨0, ![]⟩ : Shape).BroadcastsInDim ⟨2, ![1, C]⟩ ![])
    (hmean : mean = Host.divf s (broadcastInDim ⟨2, ![1, C]⟩ ![] h (constant (F := Ideal) ⟨0, ![]⟩ .f32 0x47C35000#32)))
    (hvar : vr = subf (Host.divf ss (broadcastInDim ⟨2, ![1, C]⟩ ![] h (constant (F := Ideal) ⟨0, ![]⟩ .f32 0x47C35000#32)))
      (mulf (Host.divf s (broadcastInDim ⟨2, ![1, C]⟩ ![] h (constant (F := Ideal) ⟨0, ![]⟩ .f32 0x47C35000#32)))
        (Host.divf s (broadcastInDim ⟨2, ![1, C]⟩ ![] h (constant (F := Ideal) ⟨0, ![]⟩ .f32 0x47C35000#32)))))
    (j : (⟨2, ![1, C]⟩ : Shape).Idx) :
    mean j = Ideal.div (s j) nodesWord ∧ vr j = Ideal.div (ss j) nodesWord - mean j * mean j := by
  subst hmean hvar
  refine ⟨?_, ?_⟩
  · rw [hostDivf_apply, scalarBroadcast_apply]
  · rw [subf_apply, mulf_apply, hostDivf_apply, hostDivf_apply, scalarBroadcast_apply]

variable (m : (ℓ : Loc nD τ sig) → Buf (Elt Ideal) ℓ) (ρ : Dev nD → PrngReg)

/-! ## The first normalised layer: 128 columns -/

/-- The mean row as the program computes it: the row of column sums over the broadcast node count. -/
theorem meanTerm1 (c : Dev nD) : (W5 m ρ c (Proc.devRef .tc main_v50) : S1x128.Idx → EReal) = Host.divf (W4 m ρ c (Proc.devRef .tc main_v48_1) : S1x128.Idx → EReal) (broadcastInDim S1x128 ![] bcast_S_S1x128 (constant (F := Ideal) S_ .f32 0x47C35000#32)) := by
  show StableHlo.after hostOps2 _ (Proc.devRef .tc main_v50) = _
  after_results

/-- The variance row as the program computes it: the row of column sums of squares over the node count, less the
    square of the mean row. -/
theorem varTerm1 (c : Dev nD) : (W5 m ρ c (Proc.devRef .tc main_v54) : S1x128.Idx → EReal)
    = subf (Host.divf (W4 m ρ c (Proc.devRef .tc main_v48_2) : S1x128.Idx → EReal) (broadcastInDim S1x128 ![] bcast_S_S1x128 (constant (F := Ideal) S_ .f32 0x47C35000#32)))
        (mulf (Host.divf (W4 m ρ c (Proc.devRef .tc main_v48_1) : S1x128.Idx → EReal) (broadcastInDim S1x128 ![] bcast_S_S1x128 (constant (F := Ideal) S_ .f32 0x47C35000#32))) (Host.divf (W4 m ρ c (Proc.devRef .tc main_v48_1) : S1x128.Idx → EReal) (broadcastInDim S1x128 ![] bcast_S_S1x128 (constant (F := Ideal) S_ .f32 0x47C35000#32)))) := by
  show StableHlo.after hostOps2 _ (Proc.devRef .tc main_v54) = _
  after_results

/-- The scale row is the scale argument laid out as one row. -/
theorem scale1_apply (c : Dev nD) (q : Fin 128) :
    (W5 m ρ c (Proc.devRef .tc main_v55) : S1x128.Idx → EReal) (ix2 (0 : Fin 1) q) = (m ((c : Thread nD τ).loc main_arg4) : S128.Idx → EReal) (ix1 q) := by
  have e : (W5 m ρ c (Proc.devRef .tc main_v55) : S1x128.Idx → EReal)
      = shapeCast S1x128 (W4 m ρ c (Proc.devRef .tc main_arg4) : S128.Idx → EReal) shapeCasts_S128_S1x128 := by
    show StableHlo.after hostOps2 _ (Proc.devRef .tc main_v55) = _
    after_results
    rfl
  rw [e, shapeCast_a_1a_apply, back4_arg4]

/-- The shift row is the shift argument laid out as one row. -/
theorem shift1_apply (c : Dev nD) (q : Fin 128) :
    (W5 m ρ c (Proc.devRef .tc main_v56) : S1x128.Idx → EReal) (ix2 (0 : Fin 1) q) = (m ((c : Thread nD τ).loc main_arg5) : S128.Idx → EReal) (ix1 q) := by
  have e : (W5 m ρ c (Proc.devRef .tc main_v56) : S1x128.Idx → EReal)
      = shapeCast S1x128 (W4 m ρ c (Proc.devRef .tc main_arg5) : S128.Idx → EReal) shapeCasts_S128_S1x128 := by
    show StableHlo.after hostOps2 _ (Proc.devRef .tc main_v56) = _
    after_results
    rfl
  rw [e, shapeCast_a_1a_apply, back4_arg5]

/-- The first normalised layer.  When the moments region left the pre-activation `Y` and its column sums and column
    sums of squares, the normalise region leaves the specification's normalise-and-clamp of `Y` with the one-pass
    variance, the scale and the shift read off the arguments. -/
theorem normLayer1 (c : Dev nD) (Y : Cert.GcnSpec.Mat 128)
    (hY : ∀ p q, (W4 m ρ c (Proc.devRef .tc main_v48_0) : S100000x128.Idx → EReal) (ix2 p q) = Y p q)
    (hs : ∀ q, (W4 m ρ c (Proc.devRef .tc main_v48_1) : S1x128.Idx → EReal) (ix2 (0 : Fin 1) q) = ∑ p, Y p q)
    (hss : ∀ q, (W4 m ρ c (Proc.devRef .tc main_v48_2) : S1x128.Idx → EReal) (ix2 (0 : Fin 1) q) = ∑ p, Y p q * Y p q)
    (p : Fin 100000) (q : Fin 128) :
    (W6 m ρ c (Proc.devRef .tc main_v57) : S100000x128.Idx → EReal) (ix2 p q)
      = Cert.GcnSpec.normRelu (Cert.GcnSpec.varOnePass Y) Y
          (fun q => (m ((c : Thread nD τ).loc main_arg4) : S128.Idx → EReal) (ix1 q))
          (fun q => (m ((c : Thread nD τ).loc main_arg5) : S128.Idx → EReal) (ix1 q)) p q := by
  have hout : (W6 m ρ c (Proc.devRef .tc main_v57) : S100000x128.Idx → EReal)
      = normalized (C := 128) (W5 m ρ c (Proc.devRef .tc main_v48_0)) (W5 m ρ c (Proc.devRef .tc main_v50))
          (W5 m ρ c (Proc.devRef .tc main_v54)) (W5 m ρ c (Proc.devRef .tc main_v55))
          (W5 m ρ c (Proc.devRef .tc main_v56)) :=
    (W6_arr m ρ c 5).trans (normFinal2 (V5 m ρ) c)
  refine (congrFun hout (ix2 p q)).trans ?_
  exact normalized_onePass (W5 m ρ c (Proc.devRef .tc main_v48_0)) (W4 m ρ c (Proc.devRef .tc main_v48_1) : S1x128.Idx → EReal) (W4 m ρ c (Proc.devRef .tc main_v48_2) : S1x128.Idx → EReal)
    (W5 m ρ c (Proc.devRef .tc main_v50)) (W5 m ρ c (Proc.devRef .tc main_v54))
    (W5 m ρ c (Proc.devRef .tc main_v55)) (W5 m ρ c (Proc.devRef .tc main_v56)) Y _ _
    (fun p q => (congrFun (back5_v48_0 m ρ c) (ix2 p q)).trans (hY p q))
    hs hss
    (fun q => (momentRows_apply _ _ _ _ bcast_S_S1x128 (meanTerm1 m ρ c) (varTerm1 m ρ c) (ix2 (0 : Fin 1) q)).1)
    (fun q => (momentRows_apply _ _ _ _ bcast_S_S1x128 (meanTerm1 m ρ c) (varTerm1 m ρ c) (ix2 (0 : Fin 1) q)).2)
    (fun q => scale1_apply m ρ c q)
    (fun q => shift1_apply m ρ c q) p q

/-! ## The second normalised layer: 128 columns -/

/-- The mean row as the program computes it: the row of column sums over the broadcast node count. -/
theorem meanTerm2 (c : Dev nD) : (W10 m ρ c (Proc.devRef .tc main_v74) : S1x128.Idx → EReal) = Host.divf (W9 m ρ c (Proc.devRef .tc main_v72_1) : S1x128.Idx → EReal) (broadcastInDim S1x128 ![] bcast_S_S1x128 (constant (F := Ideal) S_ .f32 0x47C35000#32)) := by
  show StableHlo.after hostOps5 _ (Proc.devRef .tc main_v74) = _
  after_results

/-- The variance row as the program computes it: the row of column sums of squares over the node count, less the
    square of the mean row. -/
theorem varTerm2 (c : Dev nD) : (W10 m ρ c (Proc.devRef .tc main_v78) : S1x128.Idx → EReal)
    = subf (Host.divf (W9 m ρ c (Proc.devRef .tc main_v72_2) : S1x128.Idx → EReal) (broadcastInDim S1x128 ![] bcast_S_S1x128 (constant (F := Ideal) S_ .f32 0x47C35000#32)))
        (mulf (Host.divf (W9 m ρ c (Proc.devRef .tc main_v72_1) : S1x128.Idx → EReal) (broadcastInDim S1x128 ![] bcast_S_S1x128 (constant (F := Ideal) S_ .f32 0x47C35000#32))) (Host.divf (W9 m ρ c (Proc.devRef .tc main_v72_1) : S1x128.Idx → EReal) (broadcastInDim S1x128 ![] bcast_S_S1x128 (constant (F := Ideal) S_ .f32 0x47C35000#32)))) := by
  show StableHlo.after hostOps5 _ (Proc.devRef .tc main_v78) = _
  after_results

/-- The scale row is the scale argument laid out as one row. -/
theorem scale2_apply (c : Dev nD) (q : Fin 128) :
    (W10 m ρ c (Proc.devRef .tc main_v79) : S1x128.Idx → EReal) (ix2 (0 : Fin 1) q) = (m ((c : Thread nD τ).loc main_arg8) : S128.Idx → EReal) (ix1 q) := by
  have e : (W10 m ρ c (Proc.devRef .tc main_v79) : S1x128.Idx → EReal)
      = shapeCast S1x128 (W9 m ρ c (Proc.devRef .tc main_arg8) : S128.Idx → EReal) shapeCasts_S128_S1x128 := by
    show StableHlo.after hostOps5 _ (Proc.devRef .tc main_v79) = _
    after_results
    rfl
  rw [e, shapeCast_a_1a_apply, back9_arg8]

/-- The shift row is the shift argument laid out as one row. -/
theorem shift2_apply (c : Dev nD) (q : Fin 128) :
    (W10 m ρ c (Proc.devRef .tc main_v80) : S1x128.Idx → EReal) (ix2 (0 : Fin 1) q) = (m ((c : Thread nD τ).loc main_arg9) : S128.Idx → EReal) (ix1 q) := by
  have e : (W10 m ρ c (Proc.devRef .tc main_v80) : S1x128.Idx → EReal)
      = shapeCast S1x128 (W9 m ρ c (Proc.devRef .tc main_arg9) : S128.Idx → EReal) shapeCasts_S128_S1x128 := by
    show StableHlo.after hostOps5 _ (Proc.devRef .tc main_v80) = _
    after_results
    rfl
  rw [e, shapeCast_a_1a_apply, back9_arg9]

/-- The second normalised layer.  When the moments region left the pre-activation `Y` and its column sums and column
    sums of squares, the normalise region leaves the specification's normalise-and-clamp of `Y` with the one-pass
    variance, the scale and the shift read off the arguments. -/
theorem normLayer2 (c : Dev nD) (Y : Cert.GcnSpec.Mat 128)
    (hY : ∀ p q, (W9 m ρ c (Proc.devRef .tc main_v72_0) : S100000x128.Idx → EReal) (ix2 p q) = Y p q)
    (hs : ∀ q, (W9 m ρ c (Proc.devRef .tc main_v72_1) : S1x128.Idx → EReal) (ix2 (0 : Fin 1) q) = ∑ p, Y p q)
    (hss : ∀ q, (W9 m ρ c (Proc.devRef .tc main_v72_2) : S1x128.Idx → EReal) (ix2 (0 : Fin 1) q) = ∑ p, Y p q * Y p q)
    (p : Fin 100000) (q : Fin 128) :
    (W11 m ρ c (Proc.devRef .tc main_v81) : S100000x128.Idx → EReal) (ix2 p q)
      = Cert.GcnSpec.normRelu (Cert.GcnSpec.varOnePass Y) Y
          (fun q => (m ((c : Thread nD τ).loc main_arg8) : S128.Idx → EReal) (ix1 q))
          (fun q => (m ((c : Thread nD τ).loc main_arg9) : S128.Idx → EReal) (ix1 q)) p q := by
  have hout : (W11 m ρ c (Proc.devRef .tc main_v81) : S100000x128.Idx → EReal)
      = normalized (C := 128) (W10 m ρ c (Proc.devRef .tc main_v72_0)) (W10 m ρ c (Proc.devRef .tc main_v74))
          (W10 m ρ c (Proc.devRef .tc main_v78)) (W10 m ρ c (Proc.devRef .tc main_v79))
          (W10 m ρ c (Proc.devRef .tc main_v80)) :=
    (W11_arr m ρ c 5).trans (normFinal5 (V10 m ρ) c)
  refine (congrFun hout (ix2 p q)).trans ?_
  exact normalized_onePass (W10 m ρ c (Proc.devRef .tc main_v72_0)) (W9 m ρ c (Proc.devRef .tc main_v72_1) : S1x128.Idx → EReal) (W9 m ρ c (Proc.devRef .tc main_v72_2) : S1x128.Idx → EReal)
    (W10 m ρ c (Proc.devRef .tc main_v74)) (W10 m ρ c (Proc.devRef .tc main_v78))
    (W10 m ρ c (Proc.devRef .tc main_v79)) (W10 m ρ c (Proc.devRef .tc main_v80)) Y _ _
    (fun p q => (congrFun (back10_v72_0 m ρ c) (ix2 p q)).trans (hY p q))
    hs hss
    (fun q => (momentRows_apply _ _ _ _ bcast_S_S1x128 (meanTerm2 m ρ c) (varTerm2 m ρ c) (ix2 (0 : Fin 1) q)).1)
    (fun q => (momentRows_apply _ _ _ _ bcast_S_S1x128 (meanTerm2 m ρ c) (varTerm2 m ρ c) (ix2 (0 : Fin 1) q)).2)
    (fun q => scale2_apply m ρ c q)
    (fun q => shift2_apply m ρ c q) p q

/-! ## The third normalised layer: 256 columns -/

/-- The mean row as the program computes it: the row of column sums over the broadcast node count. -/
theorem meanTerm3 (c : Dev nD) : (W14 m ρ c (Proc.devRef .tc main_v85) : S1x256.Idx → EReal) = Host.divf (W13 m ρ c (Proc.devRef .tc main_v83_1) : S1x256.Idx → EReal) (broadcastInDim S1x256 ![] bcast_S_S1x256 (constant (F := Ideal) S_ .f32 0x47C35000#32)) := by
  show StableHlo.after hostOps7 _ (Proc.devRef .tc main_v85) = _
  after_results

/-- The variance row as the program computes it: the row of column sums of squares over the node count, less the
    square of the mean row. -/
theorem varTerm3 (c : Dev nD) : (W14 m ρ c (Proc.devRef .tc main_v89) : S1x256.Idx → EReal)
    = subf (Host.divf (W13 m ρ c (Proc.devRef .tc main_v83_2) : S1x256.Idx → EReal) (broadcastInDim S1x256 ![] bcast_S_S1x256 (constant (F := Ideal) S_ .f32 0x47C35000#32)))
        (mulf (Host.divf (W13 m ρ c (Proc.devRef .tc main_v83_1) : S1x256.Idx → EReal) (broadcastInDim S1x256 ![] bcast_S_S1x256 (constant (F := Ideal) S_ .f32 0x47C35000#32))) (Host.divf (W13 m ρ c (Proc.devRef .tc main_v83_1) : S1x256.Idx → EReal) (broadcastInDim S1x256 ![] bcast_S_S1x256 (constant (F := Ideal) S_ .f32 0x47C35000#32)))) := by
  show StableHlo.after hostOps7 _ (Proc.devRef .tc main_v89) = _
  after_results

/-- The scale row is the scale argument laid out as one row. -/
theorem scale3_apply (c : Dev nD) (q : Fin 256) :
    (W14 m ρ c (Proc.devRef .tc main_v90) : S1x256.Idx → EReal) (ix2 (0 : Fin 1) q) = (m ((c : Thread nD τ).loc main_arg12) : S256.Idx → EReal) (ix1 q) := by
  have e : (W14 m ρ c (Proc.devRef .tc main_v90) : S1x256.Idx → EReal)
      = shapeCast S1x256 (W13 m ρ c (Proc.devRef .tc main_arg12) : S256.Idx → EReal) shapeCasts_S256_S1x256 := by
    show StableHlo.after hostOps7 _ (Proc.devRef .tc main_v90) = _
    after_results
    rfl
  rw [e, shapeCast_a_1a_apply, back13_arg12]

/-- The shift row is the shift argument laid out as one row. -/
theorem shift3_apply (c : Dev nD) (q : Fin 256) :
    (W14 m ρ c (Proc.devRef .tc main_v91) : S1x256.Idx → EReal) (ix2 (0 : Fin 1) q) = (m ((c : Thread nD τ).loc main_arg13) : S256.Idx → EReal) (ix1 q) := by
  have e : (W14 m ρ c (Proc.devRef .tc main_v91) : S1x256.Idx → EReal)
      = shapeCast S1x256 (W13 m ρ c (Proc.devRef .tc main_arg13) : S256.Idx → EReal) shapeCasts_S256_S1x256 := by
    show StableHlo.after hostOps7 _ (Proc.devRef .tc main_v91) = _
    after_results
    rfl
  rw [e, shapeCast_a_1a_apply, back13_arg13]

/-- The third normalised layer.  When the moments region left the pre-activation `Y` and its column sums and column
    sums of squares, the normalise region leaves the specification's normalise-and-clamp of `Y` with the one-pass
    variance, the scale and the shift read off the arguments. -/
theorem normLayer3 (c : Dev nD) (Y : Cert.GcnSpec.Mat 256)
    (hY : ∀ p q, (W13 m ρ c (Proc.devRef .tc main_v83_0) : S100000x256.Idx → EReal) (ix2 p q) = Y p q)
    (hs : ∀ q, (W13 m ρ c (Proc.devRef .tc main_v83_1) : S1x256.Idx → EReal) (ix2 (0 : Fin 1) q) = ∑ p, Y p q)
    (hss : ∀ q, (W13 m ρ c (Proc.devRef .tc main_v83_2) : S1x256.Idx → EReal) (ix2 (0 : Fin 1) q) = ∑ p, Y p q * Y p q)
    (p : Fin 100000) (q : Fin 256) :
    (W15 m ρ c (Proc.devRef .tc main_v92) : S100000x256.Idx → EReal) (ix2 p q)
      = Cert.GcnSpec.normRelu (Cert.GcnSpec.varOnePass Y) Y
          (fun q => (m ((c : Thread nD τ).loc main_arg12) : S256.Idx → EReal) (ix1 q))
          (fun q => (m ((c : Thread nD τ).loc main_arg13) : S256.Idx → EReal) (ix1 q)) p q := by
  have hout : (W15 m ρ c (Proc.devRef .tc main_v92) : S100000x256.Idx → EReal)
      = normalized (C := 256) (W14 m ρ c (Proc.devRef .tc main_v83_0)) (W14 m ρ c (Proc.devRef .tc main_v85))
          (W14 m ρ c (Proc.devRef .tc main_v89)) (W14 m ρ c (Proc.devRef .tc main_v90))
          (W14 m ρ c (Proc.devRef .tc main_v91)) :=
    (W15_arr m ρ c 5).trans (normFinal7 (V14 m ρ) c)
  refine (congrFun hout (ix2 p q)).trans ?_
  exact normalized_onePass (W14 m ρ c (Proc.devRef .tc main_v83_0)) (W13 m ρ c (Proc.devRef .tc main_v83_1) : S1x256.Idx → EReal) (W13 m ρ c (Proc.devRef .tc main_v83_2) : S1x256.Idx → EReal)
    (W14 m ρ c (Proc.devRef .tc main_v85)) (W14 m ρ c (Proc.devRef .tc main_v89))
    (W14 m ρ c (Proc.devRef .tc main_v90)) (W14 m ρ c (Proc.devRef .tc main_v91)) Y _ _
    (fun p q => (congrFun (back14_v83_0 m ρ c) (ix2 p q)).trans (hY p q))
    hs hss
    (fun q => (momentRows_apply _ _ _ _ bcast_S_S1x256 (meanTerm3 m ρ c) (varTerm3 m ρ c) (ix2 (0 : Fin 1) q)).1)
    (fun q => (momentRows_apply _ _ _ _ bcast_S_S1x256 (meanTerm3 m ρ c) (varTerm3 m ρ c) (ix2 (0 : Fin 1) q)).2)
    (fun q => scale3_apply m ρ c q)
    (fun q => shift3_apply m ρ c q) p q

/-! ## The fourth normalised layer: 128 columns -/

/-- The mean row as the program computes it: the row of column sums over the broadcast node count. -/
theorem meanTerm4 (c : Dev nD) : (W18 m ρ c (Proc.devRef .tc main_v96) : S1x128.Idx → EReal) = Host.divf (W17 m ρ c (Proc.devRef .tc main_v94_1) : S1x128.Idx → EReal) (broadcastInDim S1x128 ![] bcast_S_S1x128 (constant (F := Ideal) S_ .f32 0x47C35000#32)) := by
  show StableHlo.after hostOps9 _ (Proc.devRef .tc main_v96) = _
  after_results

/-- The variance row as the program computes it: the row of column sums of squares over the node count, less the
    square of the mean row. -/
theorem varTerm4 (c : Dev nD) : (W18 m ρ c (Proc.devRef .tc main_v100) : S1x128.Idx → EReal)
    = subf (Host.divf (W17 m ρ c (Proc.devRef .tc main_v94_2) : S1x128.Idx → EReal) (broadcastInDim S1x128 ![] bcast_S_S1x128 (constant (F := Ideal) S_ .f32 0x47C35000#32)))
        (mulf (Host.divf (W17 m ρ c (Proc.devRef .tc main_v94_1) : S1x128.Idx → EReal) (broadcastInDim S1x128 ![] bcast_S_S1x128 (constant (F := Ideal) S_ .f32 0x47C35000#32))) (Host.divf (W17 m ρ c (Proc.devRef .tc main_v94_1) : S1x128.Idx → EReal) (broadcastInDim S1x128 ![] bcast_S_S1x128 (constant (F := Ideal) S_ .f32 0x47C35000#32)))) := by
  show StableHlo.after hostOps9 _ (Proc.devRef .tc main_v100) = _
  after_results

/-- The scale row is the scale argument laid out as one row. -/
theorem scale4_apply (c : Dev nD) (q : Fin 128) :
    (W18 m ρ c (Proc.devRef .tc main_v101) : S1x128.Idx → EReal) (ix2 (0 : Fin 1) q) = (m ((c : Thread nD τ).loc main_arg16) : S128.Idx → EReal) (ix1 q) := by
  have e : (W18 m ρ c (Proc.devRef .tc main_v101) : S1x128.Idx → EReal)
      = shapeCast S1x128 (W17 m ρ c (Proc.devRef .tc main_arg16) : S128.Idx → EReal) shapeCasts_S128_S1x128 := by
    show StableHlo.after hostOps9 _ (Proc.devRef .tc main_v101) = _
    after_results
    rfl
  rw [e, shapeCast_a_1a_apply, back17_arg16]

/-- The shift row is the shift argument laid out as one row. -/
theorem shift4_apply (c : Dev nD) (q : Fin 128) :
    (W18 m ρ c (Proc.devRef .tc main_v102) : S1x128.Idx → EReal) (ix2 (0 : Fin 1) q) = (m ((c : Thread nD τ).loc main_arg17) : S128.Idx → EReal) (ix1 q) := by
  have e : (W18 m ρ c (Proc.devRef .tc main_v102) : S1x128.Idx → EReal)
      = shapeCast S1x128 (W17 m ρ c (Proc.devRef .tc main_arg17) : S128.Idx → EReal) shapeCasts_S128_S1x128 := by
    show StableHlo.after hostOps9 _ (Proc.devRef .tc main_v102) = _
    after_results
    rfl
  rw [e, shapeCast_a_1a_apply, back17_arg17]

/-- The fourth normalised layer.  When the moments region left the pre-activation `Y` and its column sums and column
    sums of squares, the normalise region leaves the specification's normalise-and-clamp of `Y` with the one-pass
    variance, the scale and the shift read off the arguments. -/
theorem normLayer4 (c : Dev nD) (Y : Cert.GcnSpec.Mat 128)
    (hY : ∀ p q, (W17 m ρ c (Proc.devRef .tc main_v94_0) : S100000x128.Idx → EReal) (ix2 p q) = Y p q)
    (hs : ∀ q, (W17 m ρ c (Proc.devRef .tc main_v94_1) : S1x128.Idx → EReal) (ix2 (0 : Fin 1) q) = ∑ p, Y p q)
    (hss : ∀ q, (W17 m ρ c (Proc.devRef .tc main_v94_2) : S1x128.Idx → EReal) (ix2 (0 : Fin 1) q) = ∑ p, Y p q * Y p q)
    (p : Fin 100000) (q : Fin 128) :
    (W19 m ρ c (Proc.devRef .tc main_v103) : S100000x128.Idx → EReal) (ix2 p q)
      = Cert.GcnSpec.normRelu (Cert.GcnSpec.varOnePass Y) Y
          (fun q => (m ((c : Thread nD τ).loc main_arg16) : S128.Idx → EReal) (ix1 q))
          (fun q => (m ((c : Thread nD τ).loc main_arg17) : S128.Idx → EReal) (ix1 q)) p q := by
  have hout : (W19 m ρ c (Proc.devRef .tc main_v103) : S100000x128.Idx → EReal)
      = normalized (C := 128) (W18 m ρ c (Proc.devRef .tc main_v94_0)) (W18 m ρ c (Proc.devRef .tc main_v96))
          (W18 m ρ c (Proc.devRef .tc main_v100)) (W18 m ρ c (Proc.devRef .tc main_v101))
          (W18 m ρ c (Proc.devRef .tc main_v102)) :=
    (W19_arr m ρ c 5).trans (normFinal9 (V18 m ρ) c)
  refine (congrFun hout (ix2 p q)).trans ?_
  exact normalized_onePass (W18 m ρ c (Proc.devRef .tc main_v94_0)) (W17 m ρ c (Proc.devRef .tc main_v94_1) : S1x128.Idx → EReal) (W17 m ρ c (Proc.devRef .tc main_v94_2) : S1x128.Idx → EReal)
    (W18 m ρ c (Proc.devRef .tc main_v96)) (W18 m ρ c (Proc.devRef .tc main_v100))
    (W18 m ρ c (Proc.devRef .tc main_v101)) (W18 m ρ c (Proc.devRef .tc main_v102)) Y _ _
    (fun p q => (congrFun (back18_v94_0 m ρ c) (ix2 p q)).trans (hY p q))
    hs hss
    (fun q => (momentRows_apply _ _ _ _ bcast_S_S1x128 (meanTerm4 m ρ c) (varTerm4 m ρ c) (ix2 (0 : Fin 1) q)).1)
    (fun q => (momentRows_apply _ _ _ _ bcast_S_S1x128 (meanTerm4 m ρ c) (varTerm4 m ρ c) (ix2 (0 : Fin 1) q)).2)
    (fun q => scale4_apply m ρ c q)
    (fun q => shift4_apply m ρ c q) p q

end Cert.KernelIdeal.Layers

end
-- ==== Proof.Stats6Pieces.lean ====
/-
  What one grid point of the dense layer with column statistics (128 inputs to 256 columns) leaves in its three output
  buffers, for any float instance.

  At the first point the body stores zeros in the two 1×256 column totals, reads them back, and then — as at every
  other point, where it finds the running totals of the point before — stores the block's pre-activation, the total
  plus the block's column sums, and the total of squares plus the block's column sums of squares.  Each buffer is
  covered by its last store, so it holds that store's value:
    first point:   pre-activation of the block;  0-row + column sums;  0-row + column sums of squares;
    other points:  pre-activation of the block;  running total + column sums;  running total + sums of squares.
-/
import proofs.«134670_j14499809591810_1_alg».proof.Proof.Gen.KernelIdeal.Frame
import Idealize.ShloMosaic.Lib.Pipeline.Value
import Idealize.ShloMosaic.Lib.Tactic

noncomputable section

namespace Cert.KernelStats.R6

open Idealize.ShloMosaic Idealize.ShloMosaic.TcCoe Idealize.SL.Sem
open Cert.KernelIdeal Cert.KernelIdeal.Gen

variable {F : FTy → Type} [FloatOps F]

/-- Every block of this body is loaded and stored whole: at offsets (0, 0). -/
theorem offsets_zero : (![0, 0] : Fin 2 → Nat) = fun _ => 0 := funext fun a => by fin_cases a <;> rfl

/-- First point, pre-activation buffer: the block's pre-activation. -/
theorem first_pre (c : Dev nD) (i : grid6.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S5000x256 .f32) (h4 : a4.IsWhole) (a5 : Memref sig .tc .vmem S1x256 .f32) (h5 : a5.IsWhole) (a6 : Memref sig .tc .vmem S1x256 .f32) (h6 : a6.IsWhole) (hc : cond6_0 i) (x : Vec F S5000x128 .f32) (w : Vec F S128x256 .f32) (b : Vec F S1x256 .f32) :
    out6_A_3 c i a1 h1 a2 h2 a3 h3 a4 h4 a5 h5 a6 h6 hc x w b = k6_pay3 x w b := by
  unfold out6_A_3
  rw [View.read_writes_eq_canon _ _ _ (cover6_A_3 c i a1 h1 a2 h2 a3 h3 a4 h4 a5 h5 a6 h6 hc x w b)]
  unfold kernelRun6_A
  dsimp only
  sl_unfold_words
  rw [View.canon_unit_zero offsets_zero]
  simp only [View.readAt_eq_ld, h1.read_unread, h2.read_unread, h3.read_unread, h5.read_unread, h6.read_unread,
    View.ld_unit_zero (S := S5000x128) offsets_zero, View.ld_unit_zero (S := S128x256) offsets_zero,
    View.ld_unit_zero (S := S1x256) offsets_zero]

/-- First point, column totals: the zero row plus the block's column sums. -/
theorem first_sum (c : Dev nD) (i : grid6.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S5000x256 .f32) (h4 : a4.IsWhole) (a5 : Memref sig .tc .vmem S1x256 .f32) (h5 : a5.IsWhole) (a6 : Memref sig .tc .vmem S1x256 .f32) (h6 : a6.IsWhole) (hc : cond6_0 i) (x : Vec F S5000x128 .f32) (w : Vec F S128x256 .f32) (b : Vec F S1x256 .f32) :
    out6_A_4 c i a1 h1 a2 h2 a3 h3 a4 h4 a5 h5 a6 h6 hc x w b = k6_pay4 x w b k6_pay1 := by
  unfold out6_A_4
  rw [View.read_writes_eq_canon _ _ _ (cover6_A_4 c i a1 h1 a2 h2 a3 h3 a4 h4 a5 h5 a6 h6 hc x w b)]
  unfold kernelRun6_A
  dsimp only
  sl_unfold_words
  rw [View.canon_cons_unit_zero (S := S1x256) offsets_zero, View.readCov_unit_zero (S := S1x256) _ offsets_zero]
  simp only [View.readAt_eq_ld, h1.read_unread, h2.read_unread, h3.read_unread, h5.read_unread, h6.read_unread,
    View.ld_unit_zero (S := S5000x128) offsets_zero, View.ld_unit_zero (S := S128x256) offsets_zero,
    View.ld_unit_zero (S := S1x256) offsets_zero]

/-- First point, totals of squares: the zero row plus the block's column sums of squares. -/
theorem first_sumsq (c : Dev nD) (i : grid6.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S5000x256 .f32) (h4 : a4.IsWhole) (a5 : Memref sig .tc .vmem S1x256 .f32) (h5 : a5.IsWhole) (a6 : Memref sig .tc .vmem S1x256 .f32) (h6 : a6.IsWhole) (hc : cond6_0 i) (x : Vec F S5000x128 .f32) (w : Vec F S128x256 .f32) (b : Vec F S1x256 .f32) :
    out6_A_5 c i a1 h1 a2 h2 a3 h3 a4 h4 a5 h5 a6 h6 hc x w b = k6_pay5 x w b k6_pay2 := by
  unfold out6_A_5
  rw [View.read_writes_eq_canon _ _ _ (cover6_A_5 c i a1 h1 a2 h2 a3 h3 a4 h4 a5 h5 a6 h6 hc x w b)]
  unfold kernelRun6_A
  dsimp only
  sl_unfold_words
  rw [View.canon_cons_unit_zero (S := S1x256) offsets_zero, View.readCov_unit_zero (S := S1x256) _ offsets_zero]
  simp only [View.readAt_eq_ld, h1.read_unread, h2.read_unread, h3.read_unread, h5.read_unread, h6.read_unread,
    View.ld_unit_zero (S := S5000x128) offsets_zero, View.ld_unit_zero (S := S128x256) offsets_zero,
    View.ld_unit_zero (S := S1x256) offsets_zero]

/-- Another point, pre-activation buffer: the block's pre-activation. -/
theorem next_pre (c : Dev nD) (i : grid6.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S5000x256 .f32) (h4 : a4.IsWhole) (a5 : Memref sig .tc .vmem S1x256 .f32) (h5 : a5.IsWhole) (a6 : Memref sig .tc .vmem S1x256 .f32) (h6 : a6.IsWhole) (hc : ¬cond6_0 i) (x : Vec F S5000x128 .f32) (w : Vec F S128x256 .f32) (b : Vec F S1x256 .f32) (s ss : Vec F S1x256 .f32) :
    out6_B_3 c i a1 h1 a2 h2 a3 h3 a4 h4 a5 h5 a6 h6 hc x w b s ss = k6_pay3 x w b := by
  unfold out6_B_3
  rw [View.read_writes_eq_canon _ _ _ (cover6_B_3 c i a1 h1 a2 h2 a3 h3 a4 h4 a5 h5 a6 h6 hc x w b s ss)]
  unfold kernelRun6_B
  dsimp only
  sl_unfold_words
  rw [View.canon_unit_zero offsets_zero]
  simp only [View.readAt_eq_ld, h1.read_unread, h2.read_unread, h3.read_unread, h5.read_unread, h6.read_unread,
    View.ld_unit_zero (S := S5000x128) offsets_zero, View.ld_unit_zero (S := S128x256) offsets_zero,
    View.ld_unit_zero (S := S1x256) offsets_zero]

/-- Another point, column totals: the running total plus the block's column sums. -/
theorem next_sum (c : Dev nD) (i : grid6.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S5000x256 .f32) (h4 : a4.IsWhole) (a5 : Memref sig .tc .vmem S1x256 .f32) (h5 : a5.IsWhole) (a6 : Memref sig .tc .vmem S1x256 .f32) (h6 : a6.IsWhole) (hc : ¬cond6_0 i) (x : Vec F S5000x128 .f32) (w : Vec F S128x256 .f32) (b : Vec F S1x256 .f32) (s ss : Vec F S1x256 .f32) :
    out6_B_4 c i a1 h1 a2 h2 a3 h3 a4 h4 a5 h5 a6 h6 hc x w b s ss = k6_pay4 x w b s := by
  unfold out6_B_4
  rw [View.read_writes_eq_canon _ _ _ (cover6_B_4 c i a1 h1 a2 h2 a3 h3 a4 h4 a5 h5 a6 h6 hc x w b s ss)]
  unfold kernelRun6_B
  dsimp only
  sl_unfold_words
  rw [View.canon_unit_zero offsets_zero]
  simp only [View.readAt_eq_ld, h1.read_unread, h2.read_unread, h3.read_unread, h5.read_unread, h6.read_unread,
    View.ld_unit_zero (S := S5000x128) offsets_zero, View.ld_unit_zero (S := S128x256) offsets_zero,
    View.ld_unit_zero (S := S1x256) offsets_zero]

/-- Another point, totals of squares: the running total plus the block's column sums of squares. -/
theorem next_sumsq (c : Dev nD) (i : grid6.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S5000x256 .f32) (h4 : a4.IsWhole) (a5 : Memref sig .tc .vmem S1x256 .f32) (h5 : a5.IsWhole) (a6 : Memref sig .tc .vmem S1x256 .f32) (h6 : a6.IsWhole) (hc : ¬cond6_0 i) (x : Vec F S5000x128 .f32) (w : Vec F S128x256 .f32) (b : Vec F S1x256 .f32) (s ss : Vec F S1x256 .f32) :
    out6_B_5 c i a1 h1 a2 h2 a3 h3 a4 h4 a5 h5 a6 h6 hc x w b s ss = k6_pay5 x w b ss := by
  unfold out6_B_5
  rw [View.read_writes_eq_canon _ _ _ (cover6_B_5 c i a1 h1 a2 h2 a3 h3 a4 h4 a5 h5 a6 h6 hc x w b s ss)]
  unfold kernelRun6_B
  dsimp only
  sl_unfold_words
  rw [View.canon_unit_zero offsets_zero]
  simp only [View.readAt_eq_ld, h1.read_unread, h2.read_unread, h3.read_unread, h5.read_unread, h6.read_unread,
    View.ld_unit_zero (S := S5000x128) offsets_zero, View.ld_unit_zero (S := S128x256) offsets_zero,
    View.ld_unit_zero (S := S1x256) offsets_zero]

end Cert.KernelStats.R6

end
-- ==== Proof.Stats6Points.lean ====
/-
  The three output buffers of the dense layer with column statistics (128 inputs to 256 columns) after the body at each
  grid point, for any float instance, in terms of the point's input blocks:
    * the pre-activation buffer holds the pre-activation of the point's block of rows, at every point;
    * after the first point the column totals hold the zero row plus the block's column sums (likewise for squares);
    * after any other point they hold what the point before left plus the block's column sums (likewise for squares).
-/
import proofs.«134670_j14499809591810_1_alg».proof.Proof.Stats6Pieces

noncomputable section

namespace Cert.KernelStats.R6

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- At every point the pre-activation buffer holds the pre-activation of the point's block. -/
theorem pre_at (c : Dev nD) (t : Fin cfg6.N) :
    (outsAt6 V c t.val t.isLt).1 = k6_pay3 (iblk6 V c 0 t) (iblk6 V c 1 t) (iblk6 V c 2 t) := by
  by_cases h0 : t.val % 20 = 0
  · rw [outsAt6_A V c t h0]
    dsimp only
    exact first_pre (F := F) c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t)
  · rw [outsAt6_B V c t h0]
    dsimp only
    exact next_pre (F := F) c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (outsAt6 V c (t.val - 1) (Nat.lt_of_le_of_lt (Nat.sub_le _ _) t.isLt)).2.1 (outsAt6 V c (t.val - 1) (Nat.lt_of_le_of_lt (Nat.sub_le _ _) t.isLt)).2.2

/-- After the first point the column totals are the zero row plus the block's column sums. -/
theorem sum_at_first (c : Dev nD) (t : Fin cfg6.N) (h0 : t.val % 20 = 0) :
    (outsAt6 V c t.val t.isLt).2.1 = k6_pay4 (iblk6 V c 0 t) (iblk6 V c 1 t) (iblk6 V c 2 t) k6_pay1 := by
  rw [outsAt6_A V c t h0]
  dsimp only
  exact first_sum (F := F) c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t)

/-- After the first point the totals of squares are the zero row plus the block's column sums of squares. -/
theorem sumsq_at_first (c : Dev nD) (t : Fin cfg6.N) (h0 : t.val % 20 = 0) :
    (outsAt6 V c t.val t.isLt).2.2 = k6_pay5 (iblk6 V c 0 t) (iblk6 V c 1 t) (iblk6 V c 2 t) k6_pay2 := by
  rw [outsAt6_A V c t h0]
  dsimp only
  exact first_sumsq (F := F) c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t)

/-- After any other point the column totals are those of the point before plus the block's column sums. -/
theorem sum_at_next (c : Dev nD) (t : Fin cfg6.N) (h0 : ¬t.val % 20 = 0) :
    (outsAt6 V c t.val t.isLt).2.1 = k6_pay4 (iblk6 V c 0 t) (iblk6 V c 1 t) (iblk6 V c 2 t) (outsAt6 V c (t.val - 1) (Nat.lt_of_le_of_lt (Nat.sub_le _ _) t.isLt)).2.1 := by
  rw [outsAt6_B V c t h0]
  dsimp only
  exact next_sum (F := F) c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (outsAt6 V c (t.val - 1) (Nat.lt_of_le_of_lt (Nat.sub_le _ _) t.isLt)).2.1 (outsAt6 V c (t.val - 1) (Nat.lt_of_le_of_lt (Nat.sub_le _ _) t.isLt)).2.2

/-- After any other point the totals of squares are those of the point before plus the block's column sums of squares. -/
theorem sumsq_at_next (c : Dev nD) (t : Fin cfg6.N) (h0 : ¬t.val % 20 = 0) :
    (outsAt6 V c t.val t.isLt).2.2 = k6_pay5 (iblk6 V c 0 t) (iblk6 V c 1 t) (iblk6 V c 2 t) (outsAt6 V c (t.val - 1) (Nat.lt_of_le_of_lt (Nat.sub_le _ _) t.isLt)).2.2 := by
  rw [outsAt6_B V c t h0]
  dsimp only
  exact next_sumsq (F := F) c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (outsAt6 V c (t.val - 1) (Nat.lt_of_le_of_lt (Nat.sub_le _ _) t.isLt)).2.1 (outsAt6 V c (t.val - 1) (Nat.lt_of_le_of_lt (Nat.sub_le _ _) t.isLt)).2.2

end Cert.KernelStats.R6

end
-- ==== Proof.Stats6Payload.lean ====
/-
  One grid point of the dense layer with column statistics, 128 inputs to 256 columns, at the ideal instance (floats are
  extended reals, every operation exact): what the body computes from a block of 5000 rows.

  With x the block's 5000×128 rows, w the 128×256 weights, b the 1×256 bias and acc a 1×256 running total:
    * the pre-activation block is y (r, q) = (∑ k, x (r, k) · w (k, q)) + b (0, q)  — the two roundings to bf16 are the
      identity on extended reals, the matrix unit's product into a zero accumulator is the plain sum over k, and the
      bias row is repeated down the rows;
    * the new column total is acc (0, q) + ∑ r, y (r, q);
    * the new column total of squares is acc (0, q) + ∑ r, y (r, q) · y (r, q).
  The zero the first point stores in both totals is the real number 0.
-/
import proofs.«134670_j14499809591810_1_alg».proof.Proof.Gen.KernelIdeal.Skeleton
import proofs.«134670_j14499809591810_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelStats.R6

open Idealize.ShloMosaic Idealize.ShloMosaic.ValueIdx
open Cert.KernelIdeal Cert.KernelIdeal.Gen

/-- The pre-activation of row `r`, column `q` of a block: the row's product with the weights' column, plus the bias. -/
def blockPre (x : Vec Ideal S5000x128 .f32) (w : Vec Ideal S128x256 .f32) (b : Vec Ideal S1x256 .f32)
    (r : Fin 5000) (q : Fin 256) : EReal :=
  (∑ k : Fin 128, x (ix2 r k) * w (ix2 k q)) + b (ix2 0 q)

/-- A 1×256 row repeated down 5000 rows reads, at (r, q), the row's entry q. -/
theorem rowBroadcast_apply (v : Vec Ideal S1x256 .f32) (h : S1x256.Broadcasts S5000x256) (r : Fin 5000) (q : Fin 256) :
    broadcastTo S5000x256 v h (ix2 r q) = v (ix2 0 q) :=
  broadcastTo_apply v h (ix2 r q) (ix2 0 q) fun a => by
    match a with
    | ⟨0, _⟩ => rfl
    | ⟨1, _⟩ => rfl

/-- A 256-vector viewed as a 1×256 row reads, at (0, q), the vector's entry q. -/
theorem rowCast_apply (v : Vec Ideal S256 .f32) (h : S256.ShapeCasts S1x256) (q : Fin 256) :
    shapeCast S1x256 v h (ix2 0 q) = v (ix1 q) := by
  refine (shapeCast_addUnit_apply ![256] v h (ix2 0 q)).trans (congrArg v ?_)
  funext a
  match a with
  | ⟨0, _⟩ => rfl

/-- The index of a column with row `k` put back is (k, q). -/
theorem lift_col (h : S5000x256.Reduces [0] S256) (q : Fin 256) (k : Fin (S5000x256.size 0)) :
    h.lift (ix1 q) k = ix2 (⟨k.val, k.isLt⟩ : Fin 5000) q := by
  funext c; apply Fin.ext
  fin_cases c <;> rfl

/-- The sum of a 5000×256 block down its rows, from the zero word, reads at column q the sum over the rows. -/
theorem colSum_apply (y : FVec Ideal S5000x256 .f32) (h : S5000x256.Reduces [0] S256) (hφ : FKind.Formats FTy.f32)
    (hacc : (0x00000000#32 : BitVec 32) = 0x00000000#32) (q : Fin 256) :
    multiReduction (F := Ideal) .add [0] S256 y 0x00000000#32 h hφ hacc (ix1 q) = ∑ r : Fin 5000, y (ix2 r q) := by
  refine (Ideal.multiReduction_add_single y 0x00000000#32 h hφ hacc (ix1 q)).trans ?_
  exact Finset.sum_congr rfl fun k _ => congrArg y (lift_col h q k)

/-- The pre-activation payload at (r, q). -/
theorem pay3_apply (x : Vec Ideal S5000x128 .f32) (w : Vec Ideal S128x256 .f32) (b : Vec Ideal S1x256 .f32)
    (r : Fin 5000) (q : Fin 256) : k6_pay3 (F := Ideal) x w b (ix2 r q) = blockPre x w b r q := by
  unfold k6_pay3 blockPre
  rw [shapeCast_self, shapeCast_self]
  refine (addf_apply _ _ (ix2 r q)).trans ?_
  refine congrArg₂ (· + ·) ?_ (rowBroadcast_apply b _ r q)
  exact Cert.LibPlainDot.matmul_plain_apply (M := 5000) (K := 128) (N := 256) none _ _ r q

/-- The column-total payload at (0, q): the running total plus the block's column sum. -/
theorem pay4_apply (x : Vec Ideal S5000x128 .f32) (w : Vec Ideal S128x256 .f32) (b acc : Vec Ideal S1x256 .f32) (q : Fin 256) :
    k6_pay4 (F := Ideal) x w b acc (ix2 0 q) = acc (ix2 0 q) + ∑ r : Fin 5000, blockPre x w b r q := by
  unfold k6_pay4
  rw [shapeCast_self]
  refine (addf_apply _ _ (ix2 0 q)).trans ?_
  refine congrArg (acc (ix2 0 q) + ·) ?_
  refine (rowCast_apply _ _ q).trans ?_
  refine (colSum_apply _ _ _ _ q).trans ?_
  exact Finset.sum_congr rfl fun r _ => pay3_apply x w b r q

/-- The column-total-of-squares payload at (0, q): the running total plus the block's column sum of squares. -/
theorem pay5_apply (x : Vec Ideal S5000x128 .f32) (w : Vec Ideal S128x256 .f32) (b acc : Vec Ideal S1x256 .f32) (q : Fin 256) :
    k6_pay5 (F := Ideal) x w b acc (ix2 0 q)
      = acc (ix2 0 q) + ∑ r : Fin 5000, blockPre x w b r q * blockPre x w b r q := by
  unfold k6_pay5
  rw [shapeCast_self]
  refine (addf_apply _ _ (ix2 0 q)).trans ?_
  refine congrArg (acc (ix2 0 q) + ·) ?_
  refine (rowCast_apply _ _ q).trans ?_
  refine (colSum_apply _ _ _ _ q).trans ?_
  refine Finset.sum_congr rfl fun r _ => ?_
  refine (mulf_apply _ _ (ix2 r q)).trans ?_
  rw [pay3_apply]

/-- The zero the first point stores in the column totals is the real number 0 … -/
theorem pay1_apply (j : S1x256.Idx) : k6_pay1 (F := Ideal) j = 0 := by
  unfold k6_pay1
  exact Ideal.ofBits_zero_f32

/-- … and so is the one it stores in the totals of squares. -/
theorem pay2_apply (j : S1x256.Idx) : k6_pay2 (F := Ideal) j = 0 := by
  unfold k6_pay2
  exact Ideal.ofBits_zero_f32

end Cert.KernelStats.R6

end
-- ==== Proof.Stats6Rows.lean ====
/-
  Sums over the 100000 rows cut into 20 consecutive blocks of 5000, in any commutative additive monoid (the extended
  reals among them: their addition is commutative and associative, so no finiteness is asked).

    * the sum over all rows is the sum, over the blocks t, of the sums over the rows r of block t, row 5000·t + r;
    * a running total over the blocks 0 … n is a sum over a range of naturals, a block past the last counting as zero;
      taken over all 20 blocks it is the sum over the blocks.
-/
import Mathlib.Algebra.BigOperators.Fin
import Mathlib.Algebra.BigOperators.Intervals
import Mathlib.Logic.Equiv.Fin.Basic

open scoped BigOperators

namespace Cert.KernelStats.Rows

variable {M : Type*} [AddCommMonoid M]

/-- Row `r` of block `t`: row 5000·t + r of the 100000. -/
def rowAt (t : Fin 20) (r : Fin 5000) : Fin 100000 := ⟨5000 * t.val + r.val, by omega⟩

@[simp] theorem rowAt_val (t : Fin 20) (r : Fin 5000) : (rowAt t r).val = 5000 * t.val + r.val := rfl

/-- The sum over all rows, block by block. -/
theorem sum_rows_eq_sum_blocks (f : Fin 100000 → M) : ∑ p : Fin 100000, f p = ∑ t : Fin 20, ∑ r : Fin 5000, f (rowAt t r) := by
  rw [← Equiv.sum_comp (finProdFinEquiv : Fin 20 × Fin 5000 ≃ Fin (20 * 5000)) f, Fintype.sum_prod_type]
  refine Finset.sum_congr rfl fun t _ => Finset.sum_congr rfl fun r _ => congrArg f (Fin.ext ?_)
  show r.val + 5000 * t.val = 5000 * t.val + r.val
  omega

/-- A family over the 20 blocks, continued by zero past the last block. -/
def blockOrZero (g : Fin 20 → M) (t : ℕ) : M := if h : t < 20 then g ⟨t, h⟩ else 0

theorem blockOrZero_of_lt (g : Fin 20 → M) (t : ℕ) (h : t < 20) : blockOrZero g t = g ⟨t, h⟩ := dif_pos h

/-- The running total over the blocks 0 … n. -/
def upTo (g : Fin 20 → M) (n : ℕ) : M := ∑ t ∈ Finset.range (n + 1), blockOrZero g t

/-- The running total after the first block is that block's term … -/
theorem upTo_zero (g : Fin 20 → M) : upTo g 0 = g ⟨0, by omega⟩ := by
  unfold upTo
  rw [Finset.sum_range_one]
  rfl

/-- … each further block adds its term … -/
theorem upTo_succ (g : Fin 20 → M) (n : ℕ) (h : n + 1 < 20) : upTo g (n + 1) = upTo g n + g ⟨n + 1, h⟩ := by
  unfold upTo
  rw [Finset.sum_range_succ _ (n + 1), blockOrZero_of_lt g (n + 1) h]

/-- … and after the last block the running total is the sum over all blocks. -/
theorem upTo_last (g : Fin 20 → M) : upTo g 19 = ∑ t : Fin 20, g t := by
  unfold upTo
  rw [Finset.sum_range]
  exact Finset.sum_congr rfl fun t _ => blockOrZero_of_lt g t.val t.isLt

end Cert.KernelStats.Rows
-- ==== Proof.Stats6Blocks.lean ====
/-
  Where the blocks of the dense layer with column statistics (128 inputs to 256 columns) sit in their arrays.

  The grid has 20 points; point t works on rows 5000·t … 5000·t + 4999.  The block of the 100000×128 input at point t
  is those rows (element (r, k) of the block is element (5000·t + r, k) of the array), and so is the block of the
  100000×256 pre-activation output; the weights, the bias and the two 1×256 column totals are one block each, the same
  at every point.  Every row of the pre-activation output lies in the block of point ⌊row / 5000⌋, and the column totals
  are written back once, after the last point.
-/
import proofs.«134670_j14499809591810_1_alg».proof.Proof.Gen.KernelIdeal.Points
import proofs.«134670_j14499809591810_1_alg».proof.Proof.Gen.KernelIdeal.Launch
import proofs.«134670_j14499809591810_1_alg».proof.Proof.Stats6Rows
import Idealize.ShloMosaic.Lib.Pipeline.Value
import Idealize.ShloMosaic.Lib.ValueIdx

noncomputable section

namespace Cert.KernelStats.R6

open Idealize.ShloMosaic Idealize.ShloMosaic.ValueIdx Idealize.ShloMosaic.TcCoe
open Cert.KernelIdeal Cert.KernelIdeal.Gen Cert.KernelStats.Rows

/-- The grid has 20 points. -/
theorem grid_points : cfg6.N = 20 := N_6

/-- A grid point as one of the 20 blocks of rows. -/
def pt (t : Fin cfg6.N) : Fin 20 := ⟨t.val, lt_of_lt_of_eq t.isLt grid_points⟩

@[simp] theorem pt_val (t : Fin cfg6.N) : (pt t).val = t.val := rfl

/-- The block indices of the six windows at every point, decided over the grid: the input rows and the pre-activation
    rows move with the point, everything else stays at block (0, 0). -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Element (r, k) of the input block at point t is element (5000·t + r, k) of the input array. -/
theorem emb_in (t : Fin cfg6.N) (r : Fin 5000) (k : Fin 128) :
    ((cfg6.win 0).blk t).view.emb (ix2 r k) = (ix2 (rowAt (pt t) r) k : S100000x128.Idx) := by
  obtain ⟨e0, e1, -⟩ := idx_facts t
  funext a; apply Fin.ext
  match a with
  | ⟨0, _⟩ => show win6_0.index t (0 : Fin 2) * 5000 + 1 * r.val = 5000 * t.val + r.val; rw [e0]; omega
  | ⟨1, _⟩ => show win6_0.index t (1 : Fin 2) * 128 + 1 * k.val = k.val; rw [e1]; omega

/-- The weights' one block is the weights. -/
theorem emb_w (t : Fin cfg6.N) (k : Fin 128) (q : Fin 256) :
    ((cfg6.win 1).blk t).view.emb (ix2 k q) = (ix2 k q : S128x256.Idx) := by
  obtain ⟨-, -, e0, e1, -⟩ := idx_facts t
  funext a; apply Fin.ext
  match a with
  | ⟨0, _⟩ => show win6_1.index t (0 : Fin 2) * 128 + 1 * k.val = k.val; rw [e0]; omega
  | ⟨1, _⟩ => show win6_1.index t (1 : Fin 2) * 256 + 1 * q.val = q.val; rw [e1]; omega

/-- The bias row's one block is the bias row. -/
theorem emb_b (t : Fin cfg6.N) (z : Fin 1) (q : Fin 256) :
    ((cfg6.win 2).blk t).view.emb (ix2 z q) = (ix2 z q : S1x256.Idx) := by
  obtain ⟨-, -, -, -, e0, e1, -⟩ := idx_facts t
  funext a; apply Fin.ext
  match a with
  | ⟨0, _⟩ => show win6_2.index t (0 : Fin 2) * 1 + 1 * z.val = z.val; rw [e0]; omega
  | ⟨1, _⟩ => show win6_2.index t (1 : Fin 2) * 256 + 1 * q.val = q.val; rw [e1]; omega

/-- Element (r, q) of the pre-activation block at point t is element (5000·t + r, q) of the pre-activation array. -/
theorem emb_pre (t : Fin cfg6.N) (r : Fin 5000) (q : Fin 256) :
    ((cfg6.win 3).blk t).view.emb (ix2 r q) = (ix2 (rowAt (pt t) r) q : S100000x256.Idx) := by
  obtain ⟨-, -, -, -, -, -, e0, e1, -⟩ := idx_facts t
  funext a; apply Fin.ext
  match a with
  | ⟨0, _⟩ => show win6_3.index t (0 : Fin 2) * 5000 + 1 * r.val = 5000 * t.val + r.val; rw [e0]; omega
  | ⟨1, _⟩ => show win6_3.index t (1 : Fin 2) * 256 + 1 * q.val = q.val; rw [e1]; omega

/-- The column totals' one block is the totals' row … -/
theorem emb_sum (t : Fin cfg6.N) (z : Fin 1) (q : Fin 256) :
    ((cfg6.win 4).blk t).view.emb (ix2 z q) = (ix2 z q : S1x256.Idx) := by
  obtain ⟨-, -, -, -, -, -, -, -, e0, e1, -⟩ := idx_facts t
  funext a; apply Fin.ext
  match a with
  | ⟨0, _⟩ => show win6_4.index t (0 : Fin 2) * 1 + 1 * z.val = z.val; rw [e0]; omega
  | ⟨1, _⟩ => show win6_4.index t (1 : Fin 2) * 256 + 1 * q.val = q.val; rw [e1]; omega

/-- … and likewise for the totals of squares. -/
theorem emb_sumsq (t : Fin cfg6.N) (z : Fin 1) (q : Fin 256) :
    ((cfg6.win 5).blk t).view.emb (ix2 z q) = (ix2 z q : S1x256.Idx) := by
  obtain ⟨-, -, -, -, -, -, -, -, -, -, e0, e1⟩ := idx_facts t
  funext a; apply Fin.ext
  match a with
  | ⟨0, _⟩ => show win6_5.index t (0 : Fin 2) * 1 + 1 * z.val = z.val; rw [e0]; omega
  | ⟨1, _⟩ => show win6_5.index t (1 : Fin 2) * 256 + 1 * q.val = q.val; rw [e1]; omega

/-- An index of the pre-activation array is in point t's block iff each coordinate is in the block's range. -/
theorem mem_blk_pre (t : Fin cfg6.N) (i : S100000x256.Idx) :
    i ∈ ((cfg6.win 3).blk t).view.set ↔ ∀ a : Fin 2, win6_3.index t a * S5000x256.size a ≤ (i a).val
      ∧ (i a).val < win6_3.index t a * S5000x256.size a + S5000x256.size a := by
  show i ∈ ((View.whole main_v83_0).slice (win6_3.rect t)).set ↔ _
  rw [View.set_slice_whole, Rect.mem_set_unit]
  exact Iff.rfl

/-- Every row of the pre-activation array lies in the block of the point ⌊row / 5000⌋, which is written back. -/
theorem cover_pre (i : S100000x256.Idx) :
    ∃ t : Fin cfg6.N, (cfg6.win 3).flush t = true ∧ i ∈ ((cfg6.win 3).blk t).view.set := by
  have hi0 : (i 0).val < 100000 := (i 0).isLt
  have hi1 : (i 1).val < 256 := (i 1).isLt
  have hlt : (i 0).val / 5000 < cfg6.N := by rw [grid_points]; omega
  obtain ⟨-, -, -, -, -, -, e0, e1, -⟩ := idx_facts ⟨(i 0).val / 5000, hlt⟩
  refine ⟨⟨(i 0).val / 5000, hlt⟩, flush6_3 _, ?_⟩
  rw [mem_blk_pre]
  intro a
  match a with
  | ⟨0, _⟩ =>
    show win6_3.index ⟨(i 0).val / 5000, hlt⟩ (0 : Fin 2) * 5000 ≤ (i 0).val
      ∧ (i 0).val < win6_3.index ⟨(i 0).val / 5000, hlt⟩ (0 : Fin 2) * 5000 + 5000
    rw [e0]; dsimp only; omega
  | ⟨1, _⟩ =>
    show win6_3.index ⟨(i 0).val / 5000, hlt⟩ (1 : Fin 2) * 256 ≤ (i 1).val
      ∧ (i 1).val < win6_3.index ⟨(i 0).val / 5000, hlt⟩ (1 : Fin 2) * 256 + 256
    rw [e1]; omega

/-- The last point. -/
def lastPt : Fin cfg6.N := ⟨19, by rw [grid_points]; omega⟩

/-- The column totals are written back at the last point only, … -/
theorem flush_sum_iff (t : Fin cfg6.N) : (cfg6.win 4).flush t = true ↔ t.val = 19 := by
  have ht : t.val < 20 := lt_of_lt_of_eq t.isLt grid_points
  rw [flush6_4 t]; omega

/-- … and so are the totals of squares. -/
theorem flush_sumsq_iff (t : Fin cfg6.N) : (cfg6.win 5).flush t = true ↔ t.val = 19 := by
  have ht : t.val < 20 := lt_of_lt_of_eq t.isLt grid_points
  rw [flush6_5 t]; omega

/-- The last point's block of the column totals is the whole row. -/
theorem cover_sum (i : S1x256.Idx) :
    ∃ t : Fin cfg6.N, (cfg6.win 4).flush t = true ∧ i ∈ ((cfg6.win 4).blk t).view.set := by
  have hi0 : (i 0).val < 1 := (i 0).isLt
  have hi1 : (i 1).val < 256 := (i 1).isLt
  obtain ⟨-, -, -, -, -, -, -, -, e0, e1, -⟩ := idx_facts lastPt
  refine ⟨lastPt, (flush_sum_iff lastPt).mpr rfl, ?_⟩
  show i ∈ ((View.whole main_v83_1).slice (win6_4.rect lastPt)).set
  rw [View.set_slice_whole, Rect.mem_set_unit]
  intro a
  match a with
  | ⟨0, _⟩ =>
    show win6_4.index lastPt (0 : Fin 2) * 1 ≤ (i 0).val ∧ (i 0).val < win6_4.index lastPt (0 : Fin 2) * 1 + 1
    rw [e0]; omega
  | ⟨1, _⟩ =>
    show win6_4.index lastPt (1 : Fin 2) * 256 ≤ (i 1).val ∧ (i 1).val < win6_4.index lastPt (1 : Fin 2) * 256 + 256
    rw [e1]; omega

/-- The last point's block of the totals of squares is the whole row. -/
theorem cover_sumsq (i : S1x256.Idx) :
    ∃ t : Fin cfg6.N, (cfg6.win 5).flush t = true ∧ i ∈ ((cfg6.win 5).blk t).view.set := by
  have hi0 : (i 0).val < 1 := (i 0).isLt
  have hi1 : (i 1).val < 256 := (i 1).isLt
  obtain ⟨-, -, -, -, -, -, -, -, -, -, e0, e1⟩ := idx_facts lastPt
  refine ⟨lastPt, (flush_sumsq_iff lastPt).mpr rfl, ?_⟩
  show i ∈ ((View.whole main_v83_2).slice (win6_5.rect lastPt)).set
  rw [View.set_slice_whole, Rect.mem_set_unit]
  intro a
  match a with
  | ⟨0, _⟩ =>
    show win6_5.index lastPt (0 : Fin 2) * 1 ≤ (i 0).val ∧ (i 0).val < win6_5.index lastPt (0 : Fin 2) * 1 + 1
    rw [e0]; omega
  | ⟨1, _⟩ =>
    show win6_5.index lastPt (1 : Fin 2) * 256 ≤ (i 1).val ∧ (i 1).val < win6_5.index lastPt (1 : Fin 2) * 256 + 256
    rw [e1]; omega

end Cert.KernelStats.R6

end
-- ==== Proof.Stats6Array.lean ====
/-
  The dense layer with column statistics, 128 inputs to 256 columns, over the whole grid, at the ideal instance (floats
  are extended reals, every operation exact): its three output arrays as functions of its three input arrays.

  With x the 100000×128 input, w the 128×256 weights and b the 1×256 bias as the region finds them, and
  y (p, q) = (∑ k, x (p, k) · w (k, q)) + b (0, q):
    * the pre-activation array ends holding y: point t writes back rows 5000·t … 5000·t + 4999 of it, and every row
      lies in one such block;
    * after point n the column totals hold, at column q, the sum of y (p, q) over the rows of the blocks 0 … n — by
      induction on the point: the first point adds its block's column sums to a zero row, every other point to what
      the point before left — so after the last point they hold ∑ p, y (p, q) over all 100000 rows (the blocks' sums
      re-associated into one sum: addition of extended reals is commutative and associative); they are written back
      once, after the last point;
    * likewise the totals of squares end holding ∑ p, y (p, q) · y (p, q).
-/
import proofs.«134670_j14499809591810_1_alg».proof.Proof.Stats6Points
import proofs.«134670_j14499809591810_1_alg».proof.Proof.Stats6Payload
import proofs.«134670_j14499809591810_1_alg».proof.Proof.Stats6Blocks

noncomputable section

open scoped BigOperators

namespace Cert.KernelStats.R6

open Idealize.ShloMosaic Idealize.ShloMosaic.ValueIdx Idealize.ShloMosaic.TcCoe Idealize.SL.Sem
open Idealize.ShloMosaic.Pipeline (Dat)
open Cert.KernelIdeal Cert.KernelIdeal.Gen Cert.KernelStats.Rows

variable (V : (c : Dev nD) → (b : Ref sig .tc) → Buf (Elt Ideal) ((c : Thread nD τ).loc b))

/-- The input array as the region finds it. -/
abbrev arrX (c : Dev nD) : S100000x128.Idx → EReal := V c (Pipeline.arrRef spec6 0)
/-- The weights as the region finds them. -/
abbrev arrW (c : Dev nD) : S128x256.Idx → EReal := V c (Pipeline.arrRef spec6 1)
/-- The bias row as the region finds it. -/
abbrev arrB (c : Dev nD) : S1x256.Idx → EReal := V c (Pipeline.arrRef spec6 2)

/-- The pre-activation of row p, column q: the row's product with the weights' column, plus the bias. -/
def preOf (x : S100000x128.Idx → EReal) (w : S128x256.Idx → EReal) (b : S1x256.Idx → EReal)
    (p : Fin 100000) (q : Fin 256) : EReal :=
  (∑ k : Fin 128, x (ix2 p k) * w (ix2 k q)) + b (ix2 0 q)

/-- The pre-activation array. -/
def preArr (c : Dev nD) : S100000x256.Idx → EReal := fun i => preOf (arrX V c) (arrW V c) (arrB V c) (i 0) (i 1)
/-- The column totals: at column q the sum of the pre-activations over all rows. -/
def sumArr (c : Dev nD) : S1x256.Idx → EReal := fun j => ∑ p : Fin 100000, preOf (arrX V c) (arrW V c) (arrB V c) p (j 1)
/-- The column totals of squares. -/
def sumsqArr (c : Dev nD) : S1x256.Idx → EReal :=
  fun j => ∑ p : Fin 100000, preOf (arrX V c) (arrW V c) (arrB V c) p (j 1) * preOf (arrX V c) (arrW V c) (arrB V c) p (j 1)

/-! ## The input blocks, read off the arrays -/

/-- Element (r, k) of the input block at point t is the input at row 5000·t + r. -/
theorem in_block_apply (c : Dev nD) (t : Fin cfg6.N) (r : Fin 5000) (k : Fin 128) :
    (iblk6 V c 0 t : Vec Ideal S5000x128 .f32) (ix2 r k) = arrX V c (ix2 (rowAt (pt t) r) k) := by
  unfold iblk6
  rw [View.read_apply]
  show arrX V c (((cfg6.win 0).blk t).view.emb (ix2 r k)) = _
  rw [emb_in]

/-- The weights' block is the weights. -/
theorem w_block_apply (c : Dev nD) (t : Fin cfg6.N) (k : Fin 128) (q : Fin 256) :
    (iblk6 V c 1 t : Vec Ideal S128x256 .f32) (ix2 k q) = arrW V c (ix2 k q) := by
  unfold iblk6
  rw [View.read_apply]
  show arrW V c (((cfg6.win 1).blk t).view.emb (ix2 k q)) = _
  rw [emb_w]

/-- The bias block is the bias row. -/
theorem b_block_apply (c : Dev nD) (t : Fin cfg6.N) (q : Fin 256) :
    (iblk6 V c 2 t : Vec Ideal S1x256 .f32) (ix2 0 q) = arrB V c (ix2 0 q) := by
  unfold iblk6
  rw [View.read_apply]
  show arrB V c (((cfg6.win 2).blk t).view.emb (ix2 0 q)) = _
  rw [emb_b]

/-- So the block's pre-activation at (r, q) is the array's at row 5000·t + r. -/
theorem blockPre_eq (c : Dev nD) (t : Fin cfg6.N) (r : Fin 5000) (q : Fin 256) :
    blockPre (iblk6 V c 0 t) (iblk6 V c 1 t) (iblk6 V c 2 t) r q
      = preOf (arrX V c) (arrW V c) (arrB V c) (rowAt (pt t) r) q := by
  unfold blockPre preOf
  exact congrArg₂ (· + ·)
    (Finset.sum_congr rfl fun k _ => congrArg₂ (· * ·) (in_block_apply V c t r k) (w_block_apply V c t k q))
    (b_block_apply V c t q)

/-! ## The pre-activation array -/

/-- What point t writes back is block t of the pre-activation array. -/
theorem flushed_pre (c : Dev nD) (t : Fin cfg6.N) (hf : (cfg6.win 3).flush t = true) :
    (dat6 V c).flushed 3 t = ((cfg6.win 3).blk t).view.read (Elt Ideal) (preArr V c) := by
  show (cfg6.win 3).cut (grid6.coords t) ((dat6 V c).after 3 t) = _
  rw [after6_3, pre_at]
  funext j
  obtain ⟨r, q, rfl⟩ : ∃ (r : Fin 5000) (q : Fin 256), j = ix2 r q := ⟨j 0, j 1, eq_ix2 j⟩
  show k6_pay3 (F := Ideal) (iblk6 V c 0 t) (iblk6 V c 1 t) (iblk6 V c 2 t) (ix2 r q)
    = preArr V c (((cfg6.win 3).blk t).view.emb (ix2 r q))
  rw [emb_pre]
  exact (pay3_apply (iblk6 V c 0 t) (iblk6 V c 1 t) (iblk6 V c 2 t) r q).trans (blockPre_eq V c t r q)

/-- The pre-activation array after the whole grid. -/
theorem pre_final (c : Dev nD) : (dat6 V c).arrAt 3 cfg6.N = preArr V c :=
  (dat6 V c).arrAt_eq_of_cover 3 (preArr V c) (flushed_pre V c) cover_pre

/-! ## The column totals -/

/-- After point n the column totals hold, at column q, the sum over the rows of the blocks 0 … n. -/
theorem sum_upTo (c : Dev nD) : ∀ (n : ℕ) (hn : n < cfg6.N) (q : Fin 256),
    (outsAt6 V c n hn).2.1 (ix2 0 q)
      = upTo (fun t => ∑ r : Fin 5000, preOf (arrX V c) (arrW V c) (arrB V c) (rowAt t r) q) n
  | 0, hn, q => by
    refine (congrFun (sum_at_first V c ⟨0, hn⟩ rfl) (ix2 0 q)).trans ?_
    refine (pay4_apply (iblk6 V c 0 ⟨0, hn⟩) (iblk6 V c 1 ⟨0, hn⟩) (iblk6 V c 2 ⟨0, hn⟩) (k6_pay1 (F := Ideal)) q).trans ?_
    rw [pay1_apply, zero_add, upTo_zero]
    exact Finset.sum_congr rfl fun r _ => blockPre_eq V c ⟨0, hn⟩ r q
  | n + 1, hn, q => by
    have hN : cfg6.N = 20 := grid_points
    have hB : ¬(⟨n + 1, hn⟩ : Fin cfg6.N).val % 20 = 0 := by dsimp only; omega
    refine (congrFun (sum_at_next V c ⟨n + 1, hn⟩ hB) (ix2 0 q)).trans ?_
    refine (pay4_apply (iblk6 V c 0 ⟨n + 1, hn⟩) (iblk6 V c 1 ⟨n + 1, hn⟩) (iblk6 V c 2 ⟨n + 1, hn⟩) _ q).trans ?_
    rw [upTo_succ _ n (by omega)]
    exact congrArg₂ (· + ·) (sum_upTo c n (Nat.lt_of_succ_lt hn) q)
      (Finset.sum_congr rfl fun r _ => blockPre_eq V c ⟨n + 1, hn⟩ r q)

/-- After the last point the column totals are the sums over all rows. -/
theorem sum_after_last (c : Dev nD) (t : Fin cfg6.N) (h19 : t.val = 19) :
    (outsAt6 V c t.val t.isLt).2.1 = sumArr V c := by
  funext j
  obtain ⟨z, q, rfl⟩ : ∃ (z : Fin 1) (q : Fin 256), j = ix2 z q := ⟨j 0, j 1, eq_ix2 j⟩
  obtain rfl : z = 0 := Subsingleton.elim _ _
  refine (sum_upTo V c t.val t.isLt q).trans ?_
  refine ((congrArg (upTo _) h19).trans (upTo_last _)).trans ?_
  exact (sum_rows_eq_sum_blocks fun p => preOf (arrX V c) (arrW V c) (arrB V c) p q).symm

/-- Any 1×256 row, read through the totals' one block, is the row itself. -/
theorem sum_block_read (t : Fin cfg6.N) (G : S1x256.Idx → EReal) :
    (cfg6.win 4).cut (grid6.coords t) G = ((cfg6.win 4).blk t).view.read (Elt Ideal) G := by
  funext j
  obtain ⟨z, q, rfl⟩ : ∃ (z : Fin 1) (q : Fin 256), j = ix2 z q := ⟨j 0, j 1, eq_ix2 j⟩
  show G (ix2 z q) = G (((cfg6.win 4).blk t).view.emb (ix2 z q))
  exact (congrArg G (emb_sum t z q)).symm

/-- What the last point writes back is the row of the sums over all rows. -/
theorem flushed_sum (c : Dev nD) (t : Fin cfg6.N) (hf : (cfg6.win 4).flush t = true) :
    (dat6 V c).flushed 4 t = ((cfg6.win 4).blk t).view.read (Elt Ideal) (sumArr V c) := by
  show (cfg6.win 4).cut (grid6.coords t) ((dat6 V c).after 4 t) = _
  rw [after6_4, sum_after_last V c t ((flush_sum_iff t).mp hf)]
  exact sum_block_read t (sumArr V c)

/-- The column totals after the whole grid. -/
theorem sum_final (c : Dev nD) : (dat6 V c).arrAt 4 cfg6.N = sumArr V c :=
  (dat6 V c).arrAt_eq_of_cover 4 (sumArr V c) (flushed_sum V c) cover_sum

/-! ## The column totals of squares -/

/-- After point n the totals of squares hold, at column q, the sum of squares over the rows of the blocks 0 … n. -/
theorem sumsq_upTo (c : Dev nD) : ∀ (n : ℕ) (hn : n < cfg6.N) (q : Fin 256),
    (outsAt6 V c n hn).2.2 (ix2 0 q)
      = upTo (fun t => ∑ r : Fin 5000, preOf (arrX V c) (arrW V c) (arrB V c) (rowAt t r) q
          * preOf (arrX V c) (arrW V c) (arrB V c) (rowAt t r) q) n
  | 0, hn, q => by
    refine (congrFun (sumsq_at_first V c ⟨0, hn⟩ rfl) (ix2 0 q)).trans ?_
    refine (pay5_apply (iblk6 V c 0 ⟨0, hn⟩) (iblk6 V c 1 ⟨0, hn⟩) (iblk6 V c 2 ⟨0, hn⟩) (k6_pay2 (F := Ideal)) q).trans ?_
    rw [pay2_apply, zero_add, upTo_zero]
    exact Finset.sum_congr rfl fun r _ => congrArg₂ (· * ·) (blockPre_eq V c ⟨0, hn⟩ r q) (blockPre_eq V c ⟨0, hn⟩ r q)
  | n + 1, hn, q => by
    have hN : cfg6.N = 20 := grid_points
    have hB : ¬(⟨n + 1, hn⟩ : Fin cfg6.N).val % 20 = 0 := by dsimp only; omega
    refine (congrFun (sumsq_at_next V c ⟨n + 1, hn⟩ hB) (ix2 0 q)).trans ?_
    refine (pay5_apply (iblk6 V c 0 ⟨n + 1, hn⟩) (iblk6 V c 1 ⟨n + 1, hn⟩) (iblk6 V c 2 ⟨n + 1, hn⟩) _ q).trans ?_
    rw [upTo_succ _ n (by omega)]
    exact congrArg₂ (· + ·) (sumsq_upTo c n (Nat.lt_of_succ_lt hn) q)
      (Finset.sum_congr rfl fun r _ =>
        congrArg₂ (· * ·) (blockPre_eq V c ⟨n + 1, hn⟩ r q) (blockPre_eq V c ⟨n + 1, hn⟩ r q))

/-- After the last point the totals of squares are the sums of squares over all rows. -/
theorem sumsq_after_last (c : Dev nD) (t : Fin cfg6.N) (h19 : t.val = 19) :
    (outsAt6 V c t.val t.isLt).2.2 = sumsqArr V c := by
  funext j
  obtain ⟨z, q, rfl⟩ : ∃ (z : Fin 1) (q : Fin 256), j = ix2 z q := ⟨j 0, j 1, eq_ix2 j⟩
  obtain rfl : z = 0 := Subsingleton.elim _ _
  refine (sumsq_upTo V c t.val t.isLt q).trans ?_
  refine ((congrArg (upTo _) h19).trans (upTo_last _)).trans ?_
  exact (sum_rows_eq_sum_blocks fun p =>
    preOf (arrX V c) (arrW V c) (arrB V c) p q * preOf (arrX V c) (arrW V c) (arrB V c) p q).symm

/-- Any 1×256 row, read through the one block of the totals of squares, is the row itself. -/
theorem sumsq_block_read (t : Fin cfg6.N) (G : S1x256.Idx → EReal) :
    (cfg6.win 5).cut (grid6.coords t) G = ((cfg6.win 5).blk t).view.read (Elt Ideal) G := by
  funext j
  obtain ⟨z, q, rfl⟩ : ∃ (z : Fin 1) (q : Fin 256), j = ix2 z q := ⟨j 0, j 1, eq_ix2 j⟩
  show G (ix2 z q) = G (((cfg6.win 5).blk t).view.emb (ix2 z q))
  exact (congrArg G (emb_sumsq t z q)).symm

/-- What the last point writes back is the row of the sums of squares over all rows. -/
theorem flushed_sumsq (c : Dev nD) (t : Fin cfg6.N) (hf : (cfg6.win 5).flush t = true) :
    (dat6 V c).flushed 5 t = ((cfg6.win 5).blk t).view.read (Elt Ideal) (sumsqArr V c) := by
  show (cfg6.win 5).cut (grid6.coords t) ((dat6 V c).after 5 t) = _
  rw [after6_5, sumsq_after_last V c t ((flush_sumsq_iff t).mp hf)]
  exact sumsq_block_read t (sumsqArr V c)

/-- The column totals of squares after the whole grid. -/
theorem sumsq_final (c : Dev nD) : (dat6 V c).arrAt 5 cfg6.N = sumsqArr V c :=
  (dat6 V c).arrAt_eq_of_cover 5 (sumsqArr V c) (flushed_sumsq V c) cover_sumsq

/-! ## The three arrays, spelled out over the input arrays -/

/-- The pre-activation as one function of the three input arrays, index by index. -/
def linPre (x : S100000x128.Idx → EReal) (w : S128x256.Idx → EReal) (b : S1x256.Idx → EReal) : S100000x256.Idx → EReal :=
  fun i => (∑ k : Fin 128, x (ix2 (i 0) k) * w (ix2 k (i 1))) + b (ix2 0 (i 1))

/-- After the whole grid the pre-activation array holds the pre-activation of the input arrays; -/
theorem pre_eq (c : Dev nD) :
    (dat6 V c).arrAt 3 cfg6.N = linPre (arrX V c) (arrW V c) (arrB V c) :=
  pre_final V c

/-- the column totals hold its sums down the 100000 rows; -/
theorem sum_eq (c : Dev nD) :
    (dat6 V c).arrAt 4 cfg6.N
      = fun j : S1x256.Idx => ∑ p : Fin 100000, linPre (arrX V c) (arrW V c) (arrB V c) (ix2 p (j 1)) :=
  sum_final V c

/-- and the totals of squares hold the sums of its squares down the rows. -/
theorem sumsq_eq (c : Dev nD) :
    (dat6 V c).arrAt 5 cfg6.N
      = fun j : S1x256.Idx => ∑ p : Fin 100000,
          linPre (arrX V c) (arrW V c) (arrB V c) (ix2 p (j 1)) * linPre (arrX V c) (arrW V c) (arrB V c) (ix2 p (j 1)) :=
  sumsq_final V c

/-! ## The same, with the column sums named, and all three read at a row and a column -/

/-- The sums of a 100000×256 array down its rows, as a 1×256 row. -/
def colSums (y : S100000x256.Idx → EReal) : S1x256.Idx → EReal := fun j => ∑ p : Fin 100000, y (ix2 p (j 1))

/-- The sums of the squares of a 100000×256 array down its rows, as a 1×256 row. -/
def colSumSqs (y : S100000x256.Idx → EReal) : S1x256.Idx → EReal :=
  fun j => ∑ p : Fin 100000, y (ix2 p (j 1)) * y (ix2 p (j 1))

theorem sum_eq_colSums (c : Dev nD) :
    (dat6 V c).arrAt 4 cfg6.N = colSums (linPre (arrX V c) (arrW V c) (arrB V c)) :=
  sum_final V c

theorem sumsq_eq_colSumSqs (c : Dev nD) :
    (dat6 V c).arrAt 5 cfg6.N = colSumSqs (linPre (arrX V c) (arrW V c) (arrB V c)) :=
  sumsq_final V c

/-- The pre-activation at row p, column q. -/
theorem linPre_ix2 (x : S100000x128.Idx → EReal) (w : S128x256.Idx → EReal) (b : S1x256.Idx → EReal)
    (p : Fin 100000) (q : Fin 256) :
    linPre x w b (ix2 p q) = (∑ k : Fin 128, x (ix2 p k) * w (ix2 k q)) + b (ix2 (0 : Fin 1) q) := rfl

/-- The column sums at column q. -/
theorem colSums_ix2 (y : S100000x256.Idx → EReal) (z : Fin 1) (q : Fin 256) :
    colSums y (ix2 z q) = ∑ p : Fin 100000, y (ix2 p q) := rfl

/-- The column sums of squares at column q. -/
theorem colSumSqs_ix2 (y : S100000x256.Idx → EReal) (z : Fin 1) (q : Fin 256) :
    colSumSqs y (ix2 z q) = ∑ p : Fin 100000, y (ix2 p q) * y (ix2 p q) := rfl

end Cert.KernelStats.R6

end
-- ==== Proof.Stats8Pieces.lean ====
/-
  What one grid point of the dense layer with column statistics (256 inputs to 128 columns) leaves in its three output
  buffers, for any float instance.

  At the first point the body stores zeros in the two 1×128 column totals, reads them back, and then — as at every
  other point, where it finds the running totals of the point before — stores the block's pre-activation, the total
  plus the block's column sums, and the total of squares plus the block's column sums of squares.  Each buffer is
  covered by its last store, so it holds that store's value:
    first point:   pre-activation of the block;  0-row + column sums;  0-row + column sums of squares;
    other points:  pre-activation of the block;  running total + column sums;  running total + sums of squares.
-/
import proofs.«134670_j14499809591810_1_alg».proof.Proof.Gen.KernelIdeal.Frame
import Idealize.ShloMosaic.Lib.Pipeline.Value
import Idealize.ShloMosaic.Lib.Tactic

noncomputable section

namespace Cert.KernelStats.R8

open Idealize.ShloMosaic Idealize.ShloMosaic.TcCoe Idealize.SL.Sem
open Cert.KernelIdeal Cert.KernelIdeal.Gen

variable {F : FTy → Type} [FloatOps F]

/-- Every block of this body is loaded and stored whole: at offsets (0, 0). -/
theorem offsets_zero : (![0, 0] : Fin 2 → Nat) = fun _ => 0 := funext fun a => by fin_cases a <;> rfl

/-- First point, pre-activation buffer: the block's pre-activation. -/
theorem first_pre (c : Dev nD) (i : grid8.Coords) (a1 : Memref sig .tc .vmem S5000x256 .f32) (h1 : a1.IsWhole) (a2 : Memref sig .tc .vmem S256x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond8_0 i) (x : Vec F S5000x256 .f32) (w : Vec F S256x128 .f32) (b : Vec F S1x128 .f32) :
    out8_A_3 c i a1 h1 a2 h2 a3 h3 a4 h4 a5 h5 a6 h6 hc x w b = k8_pay3 x w b := by
  unfold out8_A_3
  rw [View.read_writes_eq_canon _ _ _ (cover8_A_3 c i a1 h1 a2 h2 a3 h3 a4 h4 a5 h5 a6 h6 hc x w b)]
  unfold kernelRun8_A
  dsimp only
  sl_unfold_words
  rw [View.canon_unit_zero offsets_zero]
  simp only [View.readAt_eq_ld, h1.read_unread, h2.read_unread, h3.read_unread, h5.read_unread, h6.read_unread,
    View.ld_unit_zero (S := S5000x256) offsets_zero, View.ld_unit_zero (S := S256x128) offsets_zero,
    View.ld_unit_zero (S := S1x128) offsets_zero]

/-- First point, column totals: the zero row plus the block's column sums. -/
theorem first_sum (c : Dev nD) (i : grid8.Coords) (a1 : Memref sig .tc .vmem S5000x256 .f32) (h1 : a1.IsWhole) (a2 : Memref sig .tc .vmem S256x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond8_0 i) (x : Vec F S5000x256 .f32) (w : Vec F S256x128 .f32) (b : Vec F S1x128 .f32) :
    out8_A_4 c i a1 h1 a2 h2 a3 h3 a4 h4 a5 h5 a6 h6 hc x w b = k8_pay4 x w b k8_pay1 := by
  unfold out8_A_4
  rw [View.read_writes_eq_canon _ _ _ (cover8_A_4 c i a1 h1 a2 h2 a3 h3 a4 h4 a5 h5 a6 h6 hc x w b)]
  unfold kernelRun8_A
  dsimp only
  sl_unfold_words
  rw [View.canon_cons_unit_zero (S := S1x128) offsets_zero, View.readCov_unit_zero (S := S1x128) _ offsets_zero]
  simp only [View.readAt_eq_ld, h1.read_unread, h2.read_unread, h3.read_unread, h5.read_unread, h6.read_unread,
    View.ld_unit_zero (S := S5000x256) offsets_zero, View.ld_unit_zero (S := S256x128) offsets_zero,
    View.ld_unit_zero (S := S1x128) offsets_zero]

/-- First point, totals of squares: the zero row plus the block's column sums of squares. -/
theorem first_sumsq (c : Dev nD) (i : grid8.Coords) (a1 : Memref sig .tc .vmem S5000x256 .f32) (h1 : a1.IsWhole) (a2 : Memref sig .tc .vmem S256x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond8_0 i) (x : Vec F S5000x256 .f32) (w : Vec F S256x128 .f32) (b : Vec F S1x128 .f32) :
    out8_A_5 c i a1 h1 a2 h2 a3 h3 a4 h4 a5 h5 a6 h6 hc x w b = k8_pay5 x w b k8_pay2 := by
  unfold out8_A_5
  rw [View.read_writes_eq_canon _ _ _ (cover8_A_5 c i a1 h1 a2 h2 a3 h3 a4 h4 a5 h5 a6 h6 hc x w b)]
  unfold kernelRun8_A
  dsimp only
  sl_unfold_words
  rw [View.canon_cons_unit_zero (S := S1x128) offsets_zero, View.readCov_unit_zero (S := S1x128) _ offsets_zero]
  simp only [View.readAt_eq_ld, h1.read_unread, h2.read_unread, h3.read_unread, h5.read_unread, h6.read_unread,
    View.ld_unit_zero (S := S5000x256) offsets_zero, View.ld_unit_zero (S := S256x128) offsets_zero,
    View.ld_unit_zero (S := S1x128) offsets_zero]

/-- Another point, pre-activation buffer: the block's pre-activation. -/
theorem next_pre (c : Dev nD) (i : grid8.Coords) (a1 : Memref sig .tc .vmem S5000x256 .f32) (h1 : a1.IsWhole) (a2 : Memref sig .tc .vmem S256x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond8_0 i) (x : Vec F S5000x256 .f32) (w : Vec F S256x128 .f32) (b : Vec F S1x128 .f32) (s ss : Vec F S1x128 .f32) :
    out8_B_3 c i a1 h1 a2 h2 a3 h3 a4 h4 a5 h5 a6 h6 hc x w b s ss = k8_pay3 x w b := by
  unfold out8_B_3
  rw [View.read_writes_eq_canon _ _ _ (cover8_B_3 c i a1 h1 a2 h2 a3 h3 a4 h4 a5 h5 a6 h6 hc x w b s ss)]
  unfold kernelRun8_B
  dsimp only
  sl_unfold_words
  rw [View.canon_unit_zero offsets_zero]
  simp only [View.readAt_eq_ld, h1.read_unread, h2.read_unread, h3.read_unread, h5.read_unread, h6.read_unread,
    View.ld_unit_zero (S := S5000x256) offsets_zero, View.ld_unit_zero (S := S256x128) offsets_zero,
    View.ld_unit_zero (S := S1x128) offsets_zero]

/-- Another point, column totals: the running total plus the block's column sums. -/
theorem next_sum (c : Dev nD) (i : grid8.Coords) (a1 : Memref sig .tc .vmem S5000x256 .f32) (h1 : a1.IsWhole) (a2 : Memref sig .tc .vmem S256x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond8_0 i) (x : Vec F S5000x256 .f32) (w : Vec F S256x128 .f32) (b : Vec F S1x128 .f32) (s ss : Vec F S1x128 .f32) :
    out8_B_4 c i a1 h1 a2 h2 a3 h3 a4 h4 a5 h5 a6 h6 hc x w b s ss = k8_pay4 x w b s := by
  unfold out8_B_4
  rw [View.read_writes_eq_canon _ _ _ (cover8_B_4 c i a1 h1 a2 h2 a3 h3 a4 h4 a5 h5 a6 h6 hc x w b s ss)]
  unfold kernelRun8_B
  dsimp only
  sl_unfold_words
  rw [View.canon_unit_zero offsets_zero]
  simp only [View.readAt_eq_ld, h1.read_unread, h2.read_unread, h3.read_unread, h5.read_unread, h6.read_unread,
    View.ld_unit_zero (S := S5000x256) offsets_zero, View.ld_unit_zero (S := S256x128) offsets_zero,
    View.ld_unit_zero (S := S1x128) offsets_zero]

/-- Another point, totals of squares: the running total plus the block's column sums of squares. -/
theorem next_sumsq (c : Dev nD) (i : grid8.Coords) (a1 : Memref sig .tc .vmem S5000x256 .f32) (h1 : a1.IsWhole) (a2 : Memref sig .tc .vmem S256x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond8_0 i) (x : Vec F S5000x256 .f32) (w : Vec F S256x128 .f32) (b : Vec F S1x128 .f32) (s ss : Vec F S1x128 .f32) :
    out8_B_5 c i a1 h1 a2 h2 a3 h3 a4 h4 a5 h5 a6 h6 hc x w b s ss = k8_pay5 x w b ss := by
  unfold out8_B_5
  rw [View.read_writes_eq_canon _ _ _ (cover8_B_5 c i a1 h1 a2 h2 a3 h3 a4 h4 a5 h5 a6 h6 hc x w b s ss)]
  unfold kernelRun8_B
  dsimp only
  sl_unfold_words
  rw [View.canon_unit_zero offsets_zero]
  simp only [View.readAt_eq_ld, h1.read_unread, h2.read_unread, h3.read_unread, h5.read_unread, h6.read_unread,
    View.ld_unit_zero (S := S5000x256) offsets_zero, View.ld_unit_zero (S := S256x128) offsets_zero,
    View.ld_unit_zero (S := S1x128) offsets_zero]

end Cert.KernelStats.R8

end
-- ==== Proof.Stats8Points.lean ====
/-
  The three output buffers of the dense layer with column statistics (256 inputs to 128 columns) after the body at each
  grid point, for any float instance, in terms of the point's input blocks:
    * the pre-activation buffer holds the pre-activation of the point's block of rows, at every point;
    * after the first point the column totals hold the zero row plus the block's column sums (likewise for squares);
    * after any other point they hold what the point before left plus the block's column sums (likewise for squares).
-/
import proofs.«134670_j14499809591810_1_alg».proof.Proof.Stats8Pieces

noncomputable section

namespace Cert.KernelStats.R8

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- At every point the pre-activation buffer holds the pre-activation of the point's block. -/
theorem pre_at (c : Dev nD) (t : Fin cfg8.N) :
    (outsAt8 V c t.val t.isLt).1 = k8_pay3 (iblk8 V c 0 t) (iblk8 V c 1 t) (iblk8 V c 2 t) := by
  by_cases h0 : t.val % 20 = 0
  · rw [outsAt8_A V c t h0]
    dsimp only
    exact first_pre (F := F) c (grid8.coords t) (ms8_0 t) (hs8_0 t) (ms8_1 t) (hs8_1 t) (ms8_2 t) (hs8_2 t) (ms8_3 t) (hs8_3 t) (ms8_4 t) (hs8_4 t) (ms8_5 t) (hs8_5 t) ((hcond8_0 t).mpr h0) (iblk8 V c 0 t) (iblk8 V c 1 t) (iblk8 V c 2 t)
  · rw [outsAt8_B V c t h0]
    dsimp only
    exact next_pre (F := F) c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) (iblk8 V c 0 t) (iblk8 V c 1 t) (iblk8 V c 2 t) (outsAt8 V c (t.val - 1) (Nat.lt_of_le_of_lt (Nat.sub_le _ _) t.isLt)).2.1 (outsAt8 V c (t.val - 1) (Nat.lt_of_le_of_lt (Nat.sub_le _ _) t.isLt)).2.2

/-- After the first point the column totals are the zero row plus the block's column sums. -/
theorem sum_at_first (c : Dev nD) (t : Fin cfg8.N) (h0 : t.val % 20 = 0) :
    (outsAt8 V c t.val t.isLt).2.1 = k8_pay4 (iblk8 V c 0 t) (iblk8 V c 1 t) (iblk8 V c 2 t) k8_pay1 := by
  rw [outsAt8_A V c t h0]
  dsimp only
  exact first_sum (F := F) c (grid8.coords t) (ms8_0 t) (hs8_0 t) (ms8_1 t) (hs8_1 t) (ms8_2 t) (hs8_2 t) (ms8_3 t) (hs8_3 t) (ms8_4 t) (hs8_4 t) (ms8_5 t) (hs8_5 t) ((hcond8_0 t).mpr h0) (iblk8 V c 0 t) (iblk8 V c 1 t) (iblk8 V c 2 t)

/-- After the first point the totals of squares are the zero row plus the block's column sums of squares. -/
theorem sumsq_at_first (c : Dev nD) (t : Fin cfg8.N) (h0 : t.val % 20 = 0) :
    (outsAt8 V c t.val t.isLt).2.2 = k8_pay5 (iblk8 V c 0 t) (iblk8 V c 1 t) (iblk8 V c 2 t) k8_pay2 := by
  rw [outsAt8_A V c t h0]
  dsimp only
  exact first_sumsq (F := F) c (grid8.coords t) (ms8_0 t) (hs8_0 t) (ms8_1 t) (hs8_1 t) (ms8_2 t) (hs8_2 t) (ms8_3 t) (hs8_3 t) (ms8_4 t) (hs8_4 t) (ms8_5 t) (hs8_5 t) ((hcond8_0 t).mpr h0) (iblk8 V c 0 t) (iblk8 V c 1 t) (iblk8 V c 2 t)

/-- After any other point the column totals are those of the point before plus the block's column sums. -/
theorem sum_at_next (c : Dev nD) (t : Fin cfg8.N) (h0 : ¬t.val % 20 = 0) :
    (outsAt8 V c t.val t.isLt).2.1 = k8_pay4 (iblk8 V c 0 t) (iblk8 V c 1 t) (iblk8 V c 2 t) (outsAt8 V c (t.val - 1) (Nat.lt_of_le_of_lt (Nat.sub_le _ _) t.isLt)).2.1 := by
  rw [outsAt8_B V c t h0]
  dsimp only
  exact next_sum (F := F) c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) (iblk8 V c 0 t) (iblk8 V c 1 t) (iblk8 V c 2 t) (outsAt8 V c (t.val - 1) (Nat.lt_of_le_of_lt (Nat.sub_le _ _) t.isLt)).2.1 (outsAt8 V c (t.val - 1) (Nat.lt_of_le_of_lt (Nat.sub_le _ _) t.isLt)).2.2

/-- After any other point the totals of squares are those of the point before plus the block's column sums of squares. -/
theorem sumsq_at_next (c : Dev nD) (t : Fin cfg8.N) (h0 : ¬t.val % 20 = 0) :
    (outsAt8 V c t.val t.isLt).2.2 = k8_pay5 (iblk8 V c 0 t) (iblk8 V c 1 t) (iblk8 V c 2 t) (outsAt8 V c (t.val - 1) (Nat.lt_of_le_of_lt (Nat.sub_le _ _) t.isLt)).2.2 := by
  rw [outsAt8_B V c t h0]
  dsimp only
  exact next_sumsq (F := F) c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) (iblk8 V c 0 t) (iblk8 V c 1 t) (iblk8 V c 2 t) (outsAt8 V c (t.val - 1) (Nat.lt_of_le_of_lt (Nat.sub_le _ _) t.isLt)).2.1 (outsAt8 V c (t.val - 1) (Nat.lt_of_le_of_lt (Nat.sub_le _ _) t.isLt)).2.2

end Cert.KernelStats.R8

end
-- ==== Proof.Stats8Payload.lean ====
/-
  One grid point of the dense layer with column statistics, 256 inputs to 128 columns, at the ideal instance (floats are
  extended reals, every operation exact): what the body computes from a block of 5000 rows.

  With x the block's 5000×256 rows, w the 256×128 weights, b the 1×128 bias and acc a 1×128 running total:
    * the pre-activation block is y (r, q) = (∑ k, x (r, k) · w (k, q)) + b (0, q)  — the two roundings to bf16 are the
      identity on extended reals, the matrix unit's product into a zero accumulator is the plain sum over k, and the
      bias row is repeated down the rows;
    * the new column total is acc (0, q) + ∑ r, y (r, q);
    * the new column total of squares is acc (0, q) + ∑ r, y (r, q) · y (r, q).
  The zero the first point stores in both totals is the real number 0.
-/
import proofs.«134670_j14499809591810_1_alg».proof.Proof.Gen.KernelIdeal.Skeleton
import proofs.«134670_j14499809591810_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelStats.R8

open Idealize.ShloMosaic Idealize.ShloMosaic.ValueIdx
open Cert.KernelIdeal Cert.KernelIdeal.Gen

/-- The pre-activation of row `r`, column `q` of a block: the row's product with the weights' column, plus the bias. -/
def blockPre (x : Vec Ideal S5000x256 .f32) (w : Vec Ideal S256x128 .f32) (b : Vec Ideal S1x128 .f32)
    (r : Fin 5000) (q : Fin 128) : EReal :=
  (∑ k : Fin 256, x (ix2 r k) * w (ix2 k q)) + b (ix2 0 q)

/-- A 1×128 row repeated down 5000 rows reads, at (r, q), the row's entry q. -/
theorem rowBroadcast_apply (v : Vec Ideal S1x128 .f32) (h : S1x128.Broadcasts S5000x128) (r : Fin 5000) (q : Fin 128) :
    broadcastTo S5000x128 v h (ix2 r q) = v (ix2 0 q) :=
  broadcastTo_apply v h (ix2 r q) (ix2 0 q) fun a => by
    match a with
    | ⟨0, _⟩ => rfl
    | ⟨1, _⟩ => rfl

/-- A 128-vector viewed as a 1×128 row reads, at (0, q), the vector's entry q. -/
theorem rowCast_apply (v : Vec Ideal S128 .f32) (h : S128.ShapeCasts S1x128) (q : Fin 128) :
    shapeCast S1x128 v h (ix2 0 q) = v (ix1 q) := by
  refine (shapeCast_addUnit_apply ![128] v h (ix2 0 q)).trans (congrArg v ?_)
  funext a
  match a with
  | ⟨0, _⟩ => rfl

/-- The index of a column with row `k` put back is (k, q). -/
theorem lift_col (h : S5000x128.Reduces [0] S128) (q : Fin 128) (k : Fin (S5000x128.size 0)) :
    h.lift (ix1 q) k = ix2 (⟨k.val, k.isLt⟩ : Fin 5000) q := by
  funext c; apply Fin.ext
  fin_cases c <;> rfl

/-- The sum of a 5000×128 block down its rows, from the zero word, reads at column q the sum over the rows. -/
theorem colSum_apply (y : FVec Ideal S5000x128 .f32) (h : S5000x128.Reduces [0] S128) (hφ : FKind.Formats FTy.f32)
    (hacc : (0x00000000#32 : BitVec 32) = 0x00000000#32) (q : Fin 128) :
    multiReduction (F := Ideal) .add [0] S128 y 0x00000000#32 h hφ hacc (ix1 q) = ∑ r : Fin 5000, y (ix2 r q) := by
  refine (Ideal.multiReduction_add_single y 0x00000000#32 h hφ hacc (ix1 q)).trans ?_
  exact Finset.sum_congr rfl fun k _ => congrArg y (lift_col h q k)

/-- The pre-activation payload at (r, q). -/
theorem pay3_apply (x : Vec Ideal S5000x256 .f32) (w : Vec Ideal S256x128 .f32) (b : Vec Ideal S1x128 .f32)
    (r : Fin 5000) (q : Fin 128) : k8_pay3 (F := Ideal) x w b (ix2 r q) = blockPre x w b r q := by
  unfold k8_pay3 blockPre
  rw [shapeCast_self, shapeCast_self]
  refine (addf_apply _ _ (ix2 r q)).trans ?_
  refine congrArg₂ (· + ·) ?_ (rowBroadcast_apply b _ r q)
  exact Cert.LibPlainDot.matmul_plain_apply (M := 5000) (K := 256) (N := 128) none _ _ r q

/-- The column-total payload at (0, q): the running total plus the block's column sum. -/
theorem pay4_apply (x : Vec Ideal S5000x256 .f32) (w : Vec Ideal S256x128 .f32) (b acc : Vec Ideal S1x128 .f32) (q : Fin 128) :
    k8_pay4 (F := Ideal) x w b acc (ix2 0 q) = acc (ix2 0 q) + ∑ r : Fin 5000, blockPre x w b r q := by
  unfold k8_pay4
  rw [shapeCast_self]
  refine (addf_apply _ _ (ix2 0 q)).trans ?_
  refine congrArg (acc (ix2 0 q) + ·) ?_
  refine (rowCast_apply _ _ q).trans ?_
  refine (colSum_apply _ _ _ _ q).trans ?_
  exact Finset.sum_congr rfl fun r _ => pay3_apply x w b r q

/-- The column-total-of-squares payload at (0, q): the running total plus the block's column sum of squares. -/
theorem pay5_apply (x : Vec Ideal S5000x256 .f32) (w : Vec Ideal S256x128 .f32) (b acc : Vec Ideal S1x128 .f32) (q : Fin 128) :
    k8_pay5 (F := Ideal) x w b acc (ix2 0 q)
      = acc (ix2 0 q) + ∑ r : Fin 5000, blockPre x w b r q * blockPre x w b r q := by
  unfold k8_pay5
  rw [shapeCast_self]
  refine (addf_apply _ _ (ix2 0 q)).trans ?_
  refine congrArg (acc (ix2 0 q) + ·) ?_
  refine (rowCast_apply _ _ q).trans ?_
  refine (colSum_apply _ _ _ _ q).trans ?_
  refine Finset.sum_congr rfl fun r _ => ?_
  refine (mulf_apply _ _ (ix2 r q)).trans ?_
  rw [pay3_apply]

/-- The zero the first point stores in the column totals is the real number 0 … -/
theorem pay1_apply (j : S1x128.Idx) : k8_pay1 (F := Ideal) j = 0 := by
  unfold k8_pay1
  exact Ideal.ofBits_zero_f32

/-- … and so is the one it stores in the totals of squares. -/
theorem pay2_apply (j : S1x128.Idx) : k8_pay2 (F := Ideal) j = 0 := by
  unfold k8_pay2
  exact Ideal.ofBits_zero_f32

end Cert.KernelStats.R8

end
-- ==== Proof.Stats8Blocks.lean ====
/-
  Where the blocks of the dense layer with column statistics (256 inputs to 128 columns) sit in their arrays.

  The grid has 20 points; point t works on rows 5000·t … 5000·t + 4999.  The block of the 100000×256 input at point t
  is those rows (element (r, k) of the block is element (5000·t + r, k) of the array), and so is the block of the
  100000×128 pre-activation output; the weights, the bias and the two 1×128 column totals are one block each, the same
  at every point.  Every row of the pre-activation output lies in the block of point ⌊row / 5000⌋, and the column totals
  are written back once, after the last point.
-/
import proofs.«134670_j14499809591810_1_alg».proof.Proof.Gen.KernelIdeal.Points
import proofs.«134670_j14499809591810_1_alg».proof.Proof.Gen.KernelIdeal.Launch
import proofs.«134670_j14499809591810_1_alg».proof.Proof.Stats6Rows
import Idealize.ShloMosaic.Lib.Pipeline.Value
import Idealize.ShloMosaic.Lib.ValueIdx

noncomputable section

namespace Cert.KernelStats.R8

open Idealize.ShloMosaic Idealize.ShloMosaic.ValueIdx Idealize.ShloMosaic.TcCoe
open Cert.KernelIdeal Cert.KernelIdeal.Gen Cert.KernelStats.Rows

/-- The grid has 20 points. -/
theorem grid_points : cfg8.N = 20 := N_8

/-- A grid point as one of the 20 blocks of rows. -/
def pt (t : Fin cfg8.N) : Fin 20 := ⟨t.val, lt_of_lt_of_eq t.isLt grid_points⟩

@[simp] theorem pt_val (t : Fin cfg8.N) : (pt t).val = t.val := rfl

/-- The block indices of the six windows at every point, decided over the grid: the input rows and the pre-activation
    rows move with the point, everything else stays at block (0, 0). -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

/-- Element (r, k) of the input block at point t is element (5000·t + r, k) of the input array. -/
theorem emb_in (t : Fin cfg8.N) (r : Fin 5000) (k : Fin 256) :
    ((cfg8.win 0).blk t).view.emb (ix2 r k) = (ix2 (rowAt (pt t) r) k : S100000x256.Idx) := by
  obtain ⟨e0, e1, -⟩ := idx_facts t
  funext a; apply Fin.ext
  match a with
  | ⟨0, _⟩ => show win8_0.index t (0 : Fin 2) * 5000 + 1 * r.val = 5000 * t.val + r.val; rw [e0]; omega
  | ⟨1, _⟩ => show win8_0.index t (1 : Fin 2) * 256 + 1 * k.val = k.val; rw [e1]; omega

/-- The weights' one block is the weights. -/
theorem emb_w (t : Fin cfg8.N) (k : Fin 256) (q : Fin 128) :
    ((cfg8.win 1).blk t).view.emb (ix2 k q) = (ix2 k q : S256x128.Idx) := by
  obtain ⟨-, -, e0, e1, -⟩ := idx_facts t
  funext a; apply Fin.ext
  match a with
  | ⟨0, _⟩ => show win8_1.index t (0 : Fin 2) * 256 + 1 * k.val = k.val; rw [e0]; omega
  | ⟨1, _⟩ => show win8_1.index t (1 : Fin 2) * 128 + 1 * q.val = q.val; rw [e1]; omega

/-- The bias row's one block is the bias row. -/
theorem emb_b (t : Fin cfg8.N) (z : Fin 1) (q : Fin 128) :
    ((cfg8.win 2).blk t).view.emb (ix2 z q) = (ix2 z q : S1x128.Idx) := by
  obtain ⟨-, -, -, -, e0, e1, -⟩ := idx_facts t
  funext a; apply Fin.ext
  match a with
  | ⟨0, _⟩ => show win8_2.index t (0 : Fin 2) * 1 + 1 * z.val = z.val; rw [e0]; omega
  | ⟨1, _⟩ => show win8_2.index t (1 : Fin 2) * 128 + 1 * q.val = q.val; rw [e1]; omega

/-- Element (r, q) of the pre-activation block at point t is element (5000·t + r, q) of the pre-activation array. -/
theorem emb_pre (t : Fin cfg8.N) (r : Fin 5000) (q : Fin 128) :
    ((cfg8.win 3).blk t).view.emb (ix2 r q) = (ix2 (rowAt (pt t) r) q : S100000x128.Idx) := by
  obtain ⟨-, -, -, -, -, -, e0, e1, -⟩ := idx_facts t
  funext a; apply Fin.ext
  match a with
  | ⟨0, _⟩ => show win8_3.index t (0 : Fin 2) * 5000 + 1 * r.val = 5000 * t.val + r.val; rw [e0]; omega
  | ⟨1, _⟩ => show win8_3.index t (1 : Fin 2) * 128 + 1 * q.val = q.val; rw [e1]; omega

/-- The column totals' one block is the totals' row … -/
theorem emb_sum (t : Fin cfg8.N) (z : Fin 1) (q : Fin 128) :
    ((cfg8.win 4).blk t).view.emb (ix2 z q) = (ix2 z q : S1x128.Idx) := by
  obtain ⟨-, -, -, -, -, -, -, -, e0, e1, -⟩ := idx_facts t
  funext a; apply Fin.ext
  match a with
  | ⟨0, _⟩ => show win8_4.index t (0 : Fin 2) * 1 + 1 * z.val = z.val; rw [e0]; omega
  | ⟨1, _⟩ => show win8_4.index t (1 : Fin 2) * 128 + 1 * q.val = q.val; rw [e1]; omega

/-- … and likewise for the totals of squares. -/
theorem emb_sumsq (t : Fin cfg8.N) (z : Fin 1) (q : Fin 128) :
    ((cfg8.win 5).blk t).view.emb (ix2 z q) = (ix2 z q : S1x128.Idx) := by
  obtain ⟨-, -, -, -, -, -, -, -, -, -, e0, e1⟩ := idx_facts t
  funext a; apply Fin.ext
  match a with
  | ⟨0, _⟩ => show win8_5.index t (0 : Fin 2) * 1 + 1 * z.val = z.val; rw [e0]; omega
  | ⟨1, _⟩ => show win8_5.index t (1 : Fin 2) * 128 + 1 * q.val = q.val; rw [e1]; omega

/-- An index of the pre-activation array is in point t's block iff each coordinate is in the block's range. -/
theorem mem_blk_pre (t : Fin cfg8.N) (i : S100000x128.Idx) :
    i ∈ ((cfg8.win 3).blk t).view.set ↔ ∀ a : Fin 2, win8_3.index t a * S5000x128.size a ≤ (i a).val
      ∧ (i a).val < win8_3.index t a * S5000x128.size a + S5000x128.size a := by
  show i ∈ ((View.whole main_v94_0).slice (win8_3.rect t)).set ↔ _
  rw [View.set_slice_whole, Rect.mem_set_unit]
  exact Iff.rfl

/-- Every row of the pre-activation array lies in the block of the point ⌊row / 5000⌋, which is written back. -/
theorem cover_pre (i : S100000x128.Idx) :
    ∃ t : Fin cfg8.N, (cfg8.win 3).flush t = true ∧ i ∈ ((cfg8.win 3).blk t).view.set := by
  have hi0 : (i 0).val < 100000 := (i 0).isLt
  have hi1 : (i 1).val < 128 := (i 1).isLt
  have hlt : (i 0).val / 5000 < cfg8.N := by rw [grid_points]; omega
  obtain ⟨-, -, -, -, -, -, e0, e1, -⟩ := idx_facts ⟨(i 0).val / 5000, hlt⟩
  refine ⟨⟨(i 0).val / 5000, hlt⟩, flush8_3 _, ?_⟩
  rw [mem_blk_pre]
  intro a
  match a with
  | ⟨0, _⟩ =>
    show win8_3.index ⟨(i 0).val / 5000, hlt⟩ (0 : Fin 2) * 5000 ≤ (i 0).val
      ∧ (i 0).val < win8_3.index ⟨(i 0).val / 5000, hlt⟩ (0 : Fin 2) * 5000 + 5000
    rw [e0]; dsimp only; omega
  | ⟨1, _⟩ =>
    show win8_3.index ⟨(i 0).val / 5000, hlt⟩ (1 : Fin 2) * 128 ≤ (i 1).val
      ∧ (i 1).val < win8_3.index ⟨(i 0).val / 5000, hlt⟩ (1 : Fin 2) * 128 + 128
    rw [e1]; omega

/-- The last point. -/
def lastPt : Fin cfg8.N := ⟨19, by rw [grid_points]; omega⟩

/-- The column totals are written back at the last point only, … -/
theorem flush_sum_iff (t : Fin cfg8.N) : (cfg8.win 4).flush t = true ↔ t.val = 19 := by
  have ht : t.val < 20 := lt_of_lt_of_eq t.isLt grid_points
  rw [flush8_4 t]; omega

/-- … and so are the totals of squares. -/
theorem flush_sumsq_iff (t : Fin cfg8.N) : (cfg8.win 5).flush t = true ↔ t.val = 19 := by
  have ht : t.val < 20 := lt_of_lt_of_eq t.isLt grid_points
  rw [flush8_5 t]; omega

/-- The last point's block of the column totals is the whole row. -/
theorem cover_sum (i : S1x128.Idx) :
    ∃ t : Fin cfg8.N, (cfg8.win 4).flush t = true ∧ i ∈ ((cfg8.win 4).blk t).view.set := by
  have hi0 : (i 0).val < 1 := (i 0).isLt
  have hi1 : (i 1).val < 128 := (i 1).isLt
  obtain ⟨-, -, -, -, -, -, -, -, e0, e1, -⟩ := idx_facts lastPt
  refine ⟨lastPt, (flush_sum_iff lastPt).mpr rfl, ?_⟩
  show i ∈ ((View.whole main_v94_1).slice (win8_4.rect lastPt)).set
  rw [View.set_slice_whole, Rect.mem_set_unit]
  intro a
  match a with
  | ⟨0, _⟩ =>
    show win8_4.index lastPt (0 : Fin 2) * 1 ≤ (i 0).val ∧ (i 0).val < win8_4.index lastPt (0 : Fin 2) * 1 + 1
    rw [e0]; omega
  | ⟨1, _⟩ =>
    show win8_4.index lastPt (1 : Fin 2) * 128 ≤ (i 1).val ∧ (i 1).val < win8_4.index lastPt (1 : Fin 2) * 128 + 128
    rw [e1]; omega

/-- The last point's block of the totals of squares is the whole row. -/
theorem cover_sumsq (i : S1x128.Idx) :
    ∃ t : Fin cfg8.N, (cfg8.win 5).flush t = true ∧ i ∈ ((cfg8.win 5).blk t).view.set := by
  have hi0 : (i 0).val < 1 := (i 0).isLt
  have hi1 : (i 1).val < 128 := (i 1).isLt
  obtain ⟨-, -, -, -, -, -, -, -, -, -, e0, e1⟩ := idx_facts lastPt
  refine ⟨lastPt, (flush_sumsq_iff lastPt).mpr rfl, ?_⟩
  show i ∈ ((View.whole main_v94_2).slice (win8_5.rect lastPt)).set
  rw [View.set_slice_whole, Rect.mem_set_unit]
  intro a
  match a with
  | ⟨0, _⟩ =>
    show win8_5.index lastPt (0 : Fin 2) * 1 ≤ (i 0).val ∧ (i 0).val < win8_5.index lastPt (0 : Fin 2) * 1 + 1
    rw [e0]; omega
  | ⟨1, _⟩ =>
    show win8_5.index lastPt (1 : Fin 2) * 128 ≤ (i 1).val ∧ (i 1).val < win8_5.index lastPt (1 : Fin 2) * 128 + 128
    rw [e1]; omega

end Cert.KernelStats.R8

end
-- ==== Proof.Stats8Array.lean ====
/-
  The dense layer with column statistics, 256 inputs to 128 columns, over the whole grid, at the ideal instance (floats
  are extended reals, every operation exact): its three output arrays as functions of its three input arrays.

  With x the 100000×256 input, w the 256×128 weights and b the 1×128 bias as the region finds them, and
  y (p, q) = (∑ k, x (p, k) · w (k, q)) + b (0, q):
    * the pre-activation array ends holding y: point t writes back rows 5000·t … 5000·t + 4999 of it, and every row
      lies in one such block;
    * after point n the column totals hold, at column q, the sum of y (p, q) over the rows of the blocks 0 … n — by
      induction on the point: the first point adds its block's column sums to a zero row, every other point to what
      the point before left — so after the last point they hold ∑ p, y (p, q) over all 100000 rows (the blocks' sums
      re-associated into one sum: addition of extended reals is commutative and associative); they are written back
      once, after the last point;
    * likewise the totals of squares end holding ∑ p, y (p, q) · y (p, q).
-/
import proofs.«134670_j14499809591810_1_alg».proof.Proof.Stats8Points
import proofs.«134670_j14499809591810_1_alg».proof.Proof.Stats8Payload
import proofs.«134670_j14499809591810_1_alg».proof.Proof.Stats8Blocks

noncomputable section

open scoped BigOperators

namespace Cert.KernelStats.R8

open Idealize.ShloMosaic Idealize.ShloMosaic.ValueIdx Idealize.ShloMosaic.TcCoe Idealize.SL.Sem
open Idealize.ShloMosaic.Pipeline (Dat)
open Cert.KernelIdeal Cert.KernelIdeal.Gen Cert.KernelStats.Rows

variable (V : (c : Dev nD) → (b : Ref sig .tc) → Buf (Elt Ideal) ((c : Thread nD τ).loc b))

/-- The input array as the region finds it. -/
abbrev arrX (c : Dev nD) : S100000x256.Idx → EReal := V c (Pipeline.arrRef spec8 0)
/-- The weights as the region finds them. -/
abbrev arrW (c : Dev nD) : S256x128.Idx → EReal := V c (Pipeline.arrRef spec8 1)
/-- The bias row as the region finds it. -/
abbrev arrB (c : Dev nD) : S1x128.Idx → EReal := V c (Pipeline.arrRef spec8 2)

/-- The pre-activation of row p, column q: the row's product with the weights' column, plus the bias. -/
def preOf (x : S100000x256.Idx → EReal) (w : S256x128.Idx → EReal) (b : S1x128.Idx → EReal)
    (p : Fin 100000) (q : Fin 128) : EReal :=
  (∑ k : Fin 256, x (ix2 p k) * w (ix2 k q)) + b (ix2 0 q)

/-- The pre-activation array. -/
def preArr (c : Dev nD) : S100000x128.Idx → EReal := fun i => preOf (arrX V c) (arrW V c) (arrB V c) (i 0) (i 1)
/-- The column totals: at column q the sum of the pre-activations over all rows. -/
def sumArr (c : Dev nD) : S1x128.Idx → EReal := fun j => ∑ p : Fin 100000, preOf (arrX V c) (arrW V c) (arrB V c) p (j 1)
/-- The column totals of squares. -/
def sumsqArr (c : Dev nD) : S1x128.Idx → EReal :=
  fun j => ∑ p : Fin 100000, preOf (arrX V c) (arrW V c) (arrB V c) p (j 1) * preOf (arrX V c) (arrW V c) (arrB V c) p (j 1)

/-! ## The input blocks, read off the arrays -/

/-- Element (r, k) of the input block at point t is the input at row 5000·t + r. -/
theorem in_block_apply (c : Dev nD) (t : Fin cfg8.N) (r : Fin 5000) (k : Fin 256) :
    (iblk8 V c 0 t : Vec Ideal S5000x256 .f32) (ix2 r k) = arrX V c (ix2 (rowAt (pt t) r) k) := by
  unfold iblk8
  rw [View.read_apply]
  show arrX V c (((cfg8.win 0).blk t).view.emb (ix2 r k)) = _
  rw [emb_in]

/-- The weights' block is the weights. -/
theorem w_block_apply (c : Dev nD) (t : Fin cfg8.N) (k : Fin 256) (q : Fin 128) :
    (iblk8 V c 1 t : Vec Ideal S256x128 .f32) (ix2 k q) = arrW V c (ix2 k q) := by
  unfold iblk8
  rw [View.read_apply]
  show arrW V c (((cfg8.win 1).blk t).view.emb (ix2 k q)) = _
  rw [emb_w]

/-- The bias block is the bias row. -/
theorem b_block_apply (c : Dev nD) (t : Fin cfg8.N) (q : Fin 128) :
    (iblk8 V c 2 t : Vec Ideal S1x128 .f32) (ix2 0 q) = arrB V c (ix2 0 q) := by
  unfold iblk8
  rw [View.read_apply]
  show arrB V c (((cfg8.win 2).blk t).view.emb (ix2 0 q)) = _
  rw [emb_b]

/-- So the block's pre-activation at (r, q) is the array's at row 5000·t + r. -/
theorem blockPre_eq (c : Dev nD) (t : Fin cfg8.N) (r : Fin 5000) (q : Fin 128) :
    blockPre (iblk8 V c 0 t) (iblk8 V c 1 t) (iblk8 V c 2 t) r q
      = preOf (arrX V c) (arrW V c) (arrB V c) (rowAt (pt t) r) q := by
  unfold blockPre preOf
  exact congrArg₂ (· + ·)
    (Finset.sum_congr rfl fun k _ => congrArg₂ (· * ·) (in_block_apply V c t r k) (w_block_apply V c t k q))
    (b_block_apply V c t q)

/-! ## The pre-activation array -/

/-- What point t writes back is block t of the pre-activation array. -/
theorem flushed_pre (c : Dev nD) (t : Fin cfg8.N) (hf : (cfg8.win 3).flush t = true) :
    (dat8 V c).flushed 3 t = ((cfg8.win 3).blk t).view.read (Elt Ideal) (preArr V c) := by
  show (cfg8.win 3).cut (grid8.coords t) ((dat8 V c).after 3 t) = _
  rw [after8_3, pre_at]
  funext j
  obtain ⟨r, q, rfl⟩ : ∃ (r : Fin 5000) (q : Fin 128), j = ix2 r q := ⟨j 0, j 1, eq_ix2 j⟩
  show k8_pay3 (F := Ideal) (iblk8 V c 0 t) (iblk8 V c 1 t) (iblk8 V c 2 t) (ix2 r q)
    = preArr V c (((cfg8.win 3).blk t).view.emb (ix2 r q))
  rw [emb_pre]
  exact (pay3_apply (iblk8 V c 0 t) (iblk8 V c 1 t) (iblk8 V c 2 t) r q).trans (blockPre_eq V c t r q)

/-- The pre-activation array after the whole grid. -/
theorem pre_final (c : Dev nD) : (dat8 V c).arrAt 3 cfg8.N = preArr V c :=
  (dat8 V c).arrAt_eq_of_cover 3 (preArr V c) (flushed_pre V c) cover_pre

/-! ## The column totals -/

/-- After point n the column totals hold, at column q, the sum over the rows of the blocks 0 … n. -/
theorem sum_upTo (c : Dev nD) : ∀ (n : ℕ) (hn : n < cfg8.N) (q : Fin 128),
    (outsAt8 V c n hn).2.1 (ix2 0 q)
      = upTo (fun t => ∑ r : Fin 5000, preOf (arrX V c) (arrW V c) (arrB V c) (rowAt t r) q) n
  | 0, hn, q => by
    refine (congrFun (sum_at_first V c ⟨0, hn⟩ rfl) (ix2 0 q)).trans ?_
    refine (pay4_apply (iblk8 V c 0 ⟨0, hn⟩) (iblk8 V c 1 ⟨0, hn⟩) (iblk8 V c 2 ⟨0, hn⟩) (k8_pay1 (F := Ideal)) q).trans ?_
    rw [pay1_apply, zero_add, upTo_zero]
    exact Finset.sum_congr rfl fun r _ => blockPre_eq V c ⟨0, hn⟩ r q
  | n + 1, hn, q => by
    have hN : cfg8.N = 20 := grid_points
    have hB : ¬(⟨n + 1, hn⟩ : Fin cfg8.N).val % 20 = 0 := by dsimp only; omega
    refine (congrFun (sum_at_next V c ⟨n + 1, hn⟩ hB) (ix2 0 q)).trans ?_
    refine (pay4_apply (iblk8 V c 0 ⟨n + 1, hn⟩) (iblk8 V c 1 ⟨n + 1, hn⟩) (iblk8 V c 2 ⟨n + 1, hn⟩) _ q).trans ?_
    rw [upTo_succ _ n (by omega)]
    exact congrArg₂ (· + ·) (sum_upTo c n (Nat.lt_of_succ_lt hn) q)
      (Finset.sum_congr rfl fun r _ => blockPre_eq V c ⟨n + 1, hn⟩ r q)

/-- After the last point the column totals are the sums over all rows. -/
theorem sum_after_last (c : Dev nD) (t : Fin cfg8.N) (h19 : t.val = 19) :
    (outsAt8 V c t.val t.isLt).2.1 = sumArr V c := by
  funext j
  obtain ⟨z, q, rfl⟩ : ∃ (z : Fin 1) (q : Fin 128), j = ix2 z q := ⟨j 0, j 1, eq_ix2 j⟩
  obtain rfl : z = 0 := Subsingleton.elim _ _
  refine (sum_upTo V c t.val t.isLt q).trans ?_
  refine ((congrArg (upTo _) h19).trans (upTo_last _)).trans ?_
  exact (sum_rows_eq_sum_blocks fun p => preOf (arrX V c) (arrW V c) (arrB V c) p q).symm

/-- Any 1×128 row, read through the totals' one block, is the row itself. -/
theorem sum_block_read (t : Fin cfg8.N) (G : S1x128.Idx → EReal) :
    (cfg8.win 4).cut (grid8.coords t) G = ((cfg8.win 4).blk t).view.read (Elt Ideal) G := by
  funext j
  obtain ⟨z, q, rfl⟩ : ∃ (z : Fin 1) (q : Fin 128), j = ix2 z q := ⟨j 0, j 1, eq_ix2 j⟩
  show G (ix2 z q) = G (((cfg8.win 4).blk t).view.emb (ix2 z q))
  exact (congrArg G (emb_sum t z q)).symm

/-- What the last point writes back is the row of the sums over all rows. -/
theorem flushed_sum (c : Dev nD) (t : Fin cfg8.N) (hf : (cfg8.win 4).flush t = true) :
    (dat8 V c).flushed 4 t = ((cfg8.win 4).blk t).view.read (Elt Ideal) (sumArr V c) := by
  show (cfg8.win 4).cut (grid8.coords t) ((dat8 V c).after 4 t) = _
  rw [after8_4, sum_after_last V c t ((flush_sum_iff t).mp hf)]
  exact sum_block_read t (sumArr V c)

/-- The column totals after the whole grid. -/
theorem sum_final (c : Dev nD) : (dat8 V c).arrAt 4 cfg8.N = sumArr V c :=
  (dat8 V c).arrAt_eq_of_cover 4 (sumArr V c) (flushed_sum V c) cover_sum

/-! ## The column totals of squares -/

/-- After point n the totals of squares hold, at column q, the sum of squares over the rows of the blocks 0 … n. -/
theorem sumsq_upTo (c : Dev nD) : ∀ (n : ℕ) (hn : n < cfg8.N) (q : Fin 128),
    (outsAt8 V c n hn).2.2 (ix2 0 q)
      = upTo (fun t => ∑ r : Fin 5000, preOf (arrX V c) (arrW V c) (arrB V c) (rowAt t r) q
          * preOf (arrX V c) (arrW V c) (arrB V c) (rowAt t r) q) n
  | 0, hn, q => by
    refine (congrFun (sumsq_at_first V c ⟨0, hn⟩ rfl) (ix2 0 q)).trans ?_
    refine (pay5_apply (iblk8 V c 0 ⟨0, hn⟩) (iblk8 V c 1 ⟨0, hn⟩) (iblk8 V c 2 ⟨0, hn⟩) (k8_pay2 (F := Ideal)) q).trans ?_
    rw [pay2_apply, zero_add, upTo_zero]
    exact Finset.sum_congr rfl fun r _ => congrArg₂ (· * ·) (blockPre_eq V c ⟨0, hn⟩ r q) (blockPre_eq V c ⟨0, hn⟩ r q)
  | n + 1, hn, q => by
    have hN : cfg8.N = 20 := grid_points
    have hB : ¬(⟨n + 1, hn⟩ : Fin cfg8.N).val % 20 = 0 := by dsimp only; omega
    refine (congrFun (sumsq_at_next V c ⟨n + 1, hn⟩ hB) (ix2 0 q)).trans ?_
    refine (pay5_apply (iblk8 V c 0 ⟨n + 1, hn⟩) (iblk8 V c 1 ⟨n + 1, hn⟩) (iblk8 V c 2 ⟨n + 1, hn⟩) _ q).trans ?_
    rw [upTo_succ _ n (by omega)]
    exact congrArg₂ (· + ·) (sumsq_upTo c n (Nat.lt_of_succ_lt hn) q)
      (Finset.sum_congr rfl fun r _ =>
        congrArg₂ (· * ·) (blockPre_eq V c ⟨n + 1, hn⟩ r q) (blockPre_eq V c ⟨n + 1, hn⟩ r q))

/-- After the last point the totals of squares are the sums of squares over all rows. -/
theorem sumsq_after_last (c : Dev nD) (t : Fin cfg8.N) (h19 : t.val = 19) :
    (outsAt8 V c t.val t.isLt).2.2 = sumsqArr V c := by
  funext j
  obtain ⟨z, q, rfl⟩ : ∃ (z : Fin 1) (q : Fin 128), j = ix2 z q := ⟨j 0, j 1, eq_ix2 j⟩
  obtain rfl : z = 0 := Subsingleton.elim _ _
  refine (sumsq_upTo V c t.val t.isLt q).trans ?_
  refine ((congrArg (upTo _) h19).trans (upTo_last _)).trans ?_
  exact (sum_rows_eq_sum_blocks fun p =>
    preOf (arrX V c) (arrW V c) (arrB V c) p q * preOf (arrX V c) (arrW V c) (arrB V c) p q).symm

/-- Any 1×128 row, read through the one block of the totals of squares, is the row itself. -/
theorem sumsq_block_read (t : Fin cfg8.N) (G : S1x128.Idx → EReal) :
    (cfg8.win 5).cut (grid8.coords t) G = ((cfg8.win 5).blk t).view.read (Elt Ideal) G := by
  funext j
  obtain ⟨z, q, rfl⟩ : ∃ (z : Fin 1) (q : Fin 128), j = ix2 z q := ⟨j 0, j 1, eq_ix2 j⟩
  show G (ix2 z q) = G (((cfg8.win 5).blk t).view.emb (ix2 z q))
  exact (congrArg G (emb_sumsq t z q)).symm

/-- What the last point writes back is the row of the sums of squares over all rows. -/
theorem flushed_sumsq (c : Dev nD) (t : Fin cfg8.N) (hf : (cfg8.win 5).flush t = true) :
    (dat8 V c).flushed 5 t = ((cfg8.win 5).blk t).view.read (Elt Ideal) (sumsqArr V c) := by
  show (cfg8.win 5).cut (grid8.coords t) ((dat8 V c).after 5 t) = _
  rw [after8_5, sumsq_after_last V c t ((flush_sumsq_iff t).mp hf)]
  exact sumsq_block_read t (sumsqArr V c)

/-- The column totals of squares after the whole grid. -/
theorem sumsq_final (c : Dev nD) : (dat8 V c).arrAt 5 cfg8.N = sumsqArr V c :=
  (dat8 V c).arrAt_eq_of_cover 5 (sumsqArr V c) (flushed_sumsq V c) cover_sumsq

/-! ## The three arrays, spelled out over the input arrays -/

/-- The pre-activation as one function of the three input arrays, index by index. -/
def linPre (x : S100000x256.Idx → EReal) (w : S256x128.Idx → EReal) (b : S1x128.Idx → EReal) : S100000x128.Idx → EReal :=
  fun i => (∑ k : Fin 256, x (ix2 (i 0) k) * w (ix2 k (i 1))) + b (ix2 0 (i 1))

/-- After the whole grid the pre-activation array holds the pre-activation of the input arrays; -/
theorem pre_eq (c : Dev nD) :
    (dat8 V c).arrAt 3 cfg8.N = linPre (arrX V c) (arrW V c) (arrB V c) :=
  pre_final V c

/-- the column totals hold its sums down the 100000 rows; -/
theorem sum_eq (c : Dev nD) :
    (dat8 V c).arrAt 4 cfg8.N
      = fun j : S1x128.Idx => ∑ p : Fin 100000, linPre (arrX V c) (arrW V c) (arrB V c) (ix2 p (j 1)) :=
  sum_final V c

/-- and the totals of squares hold the sums of its squares down the rows. -/
theorem sumsq_eq (c : Dev nD) :
    (dat8 V c).arrAt 5 cfg8.N
      = fun j : S1x128.Idx => ∑ p : Fin 100000,
          linPre (arrX V c) (arrW V c) (arrB V c) (ix2 p (j 1)) * linPre (arrX V c) (arrW V c) (arrB V c) (ix2 p (j 1)) :=
  sumsq_final V c

/-! ## The same, with the column sums named, and all three read at a row and a column -/

/-- The sums of a 100000×128 array down its rows, as a 1×128 row. -/
def colSums (y : S100000x128.Idx → EReal) : S1x128.Idx → EReal := fun j => ∑ p : Fin 100000, y (ix2 p (j 1))

/-- The sums of the squares of a 100000×128 array down its rows, as a 1×128 row. -/
def colSumSqs (y : S100000x128.Idx → EReal) : S1x128.Idx → EReal :=
  fun j => ∑ p : Fin 100000, y (ix2 p (j 1)) * y (ix2 p (j 1))

theorem sum_eq_colSums (c : Dev nD) :
    (dat8 V c).arrAt 4 cfg8.N = colSums (linPre (arrX V c) (arrW V c) (arrB V c)) :=
  sum_final V c

theorem sumsq_eq_colSumSqs (c : Dev nD) :
    (dat8 V c).arrAt 5 cfg8.N = colSumSqs (linPre (arrX V c) (arrW V c) (arrB V c)) :=
  sumsq_final V c

/-- The pre-activation at row p, column q. -/
theorem linPre_ix2 (x : S100000x256.Idx → EReal) (w : S256x128.Idx → EReal) (b : S1x128.Idx → EReal)
    (p : Fin 100000) (q : Fin 128) :
    linPre x w b (ix2 p q) = (∑ k : Fin 256, x (ix2 p k) * w (ix2 k q)) + b (ix2 (0 : Fin 1) q) := rfl

/-- The column sums at column q. -/
theorem colSums_ix2 (y : S100000x128.Idx → EReal) (z : Fin 1) (q : Fin 128) :
    colSums y (ix2 z q) = ∑ p : Fin 100000, y (ix2 p q) := rfl

/-- The column sums of squares at column q. -/
theorem colSumSqs_ix2 (y : S100000x128.Idx → EReal) (z : Fin 1) (q : Fin 128) :
    colSumSqs y (ix2 z q) = ∑ p : Fin 100000, y (ix2 p q) * y (ix2 p q) := rfl

end Cert.KernelStats.R8

end
-- ==== Proof.KernelDense.lean ====
/-
  The kernel's two dense layers read as the specification's.

  A dense layer's moments region finds the activation of the layer below, the weight matrix and the bias laid out as
  one row; it leaves the layer's pre-activation, (∑ k, x (p, k) · w (k, q)) + b (q) at (p, q), and that
  pre-activation's column sums and column sums of squares over the nodes.  Read at (p, q) these are the
  specification's dense pre-activation and its two moments, so the normalise region that follows leaves the
  specification's dense layer with the variance taken from one pass of moments.
-/
import proofs.«134670_j14499809591810_1_alg».proof.Proof.Gen.KernelIdeal.Frame
import proofs.«134670_j14499809591810_1_alg».proof.Proof.GcnSpec
import proofs.«134670_j14499809591810_1_alg».proof.Proof.KernelFold
import proofs.«134670_j14499809591810_1_alg».proof.Proof.StageForms
import proofs.«134670_j14499809591810_1_alg».proof.Proof.KernelLayers
import proofs.«134670_j14499809591810_1_alg».proof.Proof.Stats6Array
import proofs.«134670_j14499809591810_1_alg».proof.Proof.Stats8Array
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators

namespace Cert.KernelIdeal.Stages

open Cert.KernelIdeal Cert.KernelIdeal.Gen Cert.KernelIdeal.Fold
open Idealize.ShloMosaic Idealize.ShloMosaic.TcCoe Idealize.ShloMosaic.ValueIdx Idealize.SL.Sem Idealize.ShloMosaic.StableHlo
open Cert.StageForms Cert.GcnSpec

variable (m : (ℓ : Loc nD τ sig) → Buf (Elt Ideal) ℓ) (ρ : Dev nD → PrngReg)

/-! ## Dense layer 3: 128 inputs to 256 columns -/

/-- The bias row this layer's moments region finds, read at a column: the bias argument laid out as one row. -/
theorem denseBias3_read (c : Dev nD) (q : Fin 256) :
    (W12 m ρ c (Proc.devRef .tc main_v82) : S1x256.Idx → EReal) (ix2 (0 : Fin 1) q)
      = (m ((c : Thread nD τ).loc main_arg11) : S256.Idx → EReal) (ix1 q) := by
  have e : (W12 m ρ c (Proc.devRef .tc main_v82) : S1x256.Idx → EReal)
      = shapeCast S1x256 (W11 m ρ c (Proc.devRef .tc main_arg11)) shapeCasts_S256_S1x256 := by
    show StableHlo.after hostOps6 _ (Proc.devRef .tc main_v82) = _
    after_results
    rfl
  rw [e, back11_arg11 m ρ c]
  exact shapeCast_a_1a_apply _ _ (0 : Fin 1) q

/-- The moments region's three arrays, as functions of the arrays it finds: the pre-activation, … -/
theorem dense3_pre (c : Dev nD) :
    (W13 m ρ c (Proc.devRef .tc main_v83_0) : S100000x256.Idx → EReal) = Cert.KernelStats.R6.linPre (Cert.KernelStats.R6.arrX (V12 m ρ) c) (Cert.KernelStats.R6.arrW (V12 m ρ) c) (Cert.KernelStats.R6.arrB (V12 m ρ) c) :=
  (W13_arr m ρ c 3).trans (Cert.KernelStats.R6.pre_eq (V12 m ρ) c)
/-- … its column sums … -/
theorem dense3_sum (c : Dev nD) :
    (W13 m ρ c (Proc.devRef .tc main_v83_1) : S1x256.Idx → EReal) = Cert.KernelStats.R6.colSums (Cert.KernelStats.R6.linPre (Cert.KernelStats.R6.arrX (V12 m ρ) c) (Cert.KernelStats.R6.arrW (V12 m ρ) c) (Cert.KernelStats.R6.arrB (V12 m ρ) c)) :=
  (W13_arr m ρ c 4).trans (Cert.KernelStats.R6.sum_eq_colSums (V12 m ρ) c)
/-- … and the column sums of its squares. -/
theorem dense3_sumsq (c : Dev nD) :
    (W13 m ρ c (Proc.devRef .tc main_v83_2) : S1x256.Idx → EReal) = Cert.KernelStats.R6.colSumSqs (Cert.KernelStats.R6.linPre (Cert.KernelStats.R6.arrX (V12 m ρ) c) (Cert.KernelStats.R6.arrW (V12 m ρ) c) (Cert.KernelStats.R6.arrB (V12 m ρ) c)) :=
  (W13_arr m ρ c 5).trans (Cert.KernelStats.R6.sumsq_eq_colSumSqs (V12 m ρ) c)

/-- The pre-activation this layer's moments region leaves, as the specification's dense pre-activation of the layer
    below, the weight argument and the bias argument. -/
theorem densePre3_read (c : Dev nD) (p : Fin 100000) (q : Fin 256) :
    (W13 m ρ c (Proc.devRef .tc main_v83_0) : S100000x256.Idx → EReal) (ix2 p q)
      = Cert.GcnSpec.linPre (matOf (W11 m ρ c (Proc.devRef .tc main_v81) : S100000x128.Idx → EReal)) (fun k q => (m ((c : Thread nD τ).loc main_arg10) : S128x256.Idx → EReal) (ix2 k q)) (fun q => (m ((c : Thread nD τ).loc main_arg11) : S256.Idx → EReal) (ix1 q)) p q := by
  rw [dense3_pre m ρ c]
  show Cert.KernelStats.R6.linPre (W12 m ρ c (Proc.devRef .tc main_v81)) (W12 m ρ c (Proc.devRef .tc main_arg10))
      (W12 m ρ c (Proc.devRef .tc main_v82)) (ix2 p q) = _
  rw [Cert.KernelStats.R6.linPre_ix2, back12_v81 m ρ c, back12_arg10 m ρ c, denseBias3_read m ρ c q]
  rfl

/-- The column sums this layer's moments region leaves are the sums of that pre-activation over the nodes. -/
theorem denseSum3_read (c : Dev nD) (Y : Mat 256)
    (hY : ∀ p q, (W13 m ρ c (Proc.devRef .tc main_v83_0) : S100000x256.Idx → EReal) (ix2 p q) = Y p q) (q : Fin 256) :
    (W13 m ρ c (Proc.devRef .tc main_v83_1) : S1x256.Idx → EReal) (ix2 (0 : Fin 1) q) = ∑ p, Y p q := by
  rw [dense3_sum m ρ c, Cert.KernelStats.R6.colSums_ix2]
  show @Eq EReal _ _
  refine Finset.sum_congr rfl fun p _ => ?_
  rw [← dense3_pre m ρ c]
  exact hY p q

/-- The column sums of squares this layer's moments region leaves. -/
theorem denseSumSq3_read (c : Dev nD) (Y : Mat 256)
    (hY : ∀ p q, (W13 m ρ c (Proc.devRef .tc main_v83_0) : S100000x256.Idx → EReal) (ix2 p q) = Y p q) (q : Fin 256) :
    (W13 m ρ c (Proc.devRef .tc main_v83_2) : S1x256.Idx → EReal) (ix2 (0 : Fin 1) q) = ∑ p, Y p q * Y p q := by
  rw [dense3_sumsq m ρ c, Cert.KernelStats.R6.colSumSqs_ix2]
  show @Eq EReal _ _
  refine Finset.sum_congr rfl fun p _ => ?_
  rw [← dense3_pre m ρ c]
  rw [hY p q]

/-- The layer's output: the specification's dense layer, with the variance from one pass of moments, of the layer
    below and the layer's weight, bias, scale and shift arguments. -/
theorem dense3_out (c : Dev nD) (p : Fin 100000) (q : Fin 256) :
    (W15 m ρ c (Proc.devRef .tc main_v92) : S100000x256.Idx → EReal) (ix2 p q)
      = Cert.GcnSpec.denseLayer Cert.GcnSpec.varOnePass (matOf (W11 m ρ c (Proc.devRef .tc main_v81) : S100000x128.Idx → EReal)) (fun k q => (m ((c : Thread nD τ).loc main_arg10) : S128x256.Idx → EReal) (ix2 k q)) (fun q => (m ((c : Thread nD τ).loc main_arg11) : S256.Idx → EReal) (ix1 q)) (fun q => (m ((c : Thread nD τ).loc main_arg12) : S256.Idx → EReal) (ix1 q)) (fun q => (m ((c : Thread nD τ).loc main_arg13) : S256.Idx → EReal) (ix1 q)) p q :=
  Cert.KernelIdeal.Layers.normLayer3 m ρ c (Cert.GcnSpec.linPre (matOf (W11 m ρ c (Proc.devRef .tc main_v81) : S100000x128.Idx → EReal)) (fun k q => (m ((c : Thread nD τ).loc main_arg10) : S128x256.Idx → EReal) (ix2 k q)) (fun q => (m ((c : Thread nD τ).loc main_arg11) : S256.Idx → EReal) (ix1 q)))
    (densePre3_read m ρ c)
    (denseSum3_read m ρ c _ (densePre3_read m ρ c))
    (denseSumSq3_read m ρ c _ (densePre3_read m ρ c)) p q

/-! ## Dense layer 4: 256 inputs to 128 columns -/

/-- The bias row this layer's moments region finds, read at a column: the bias argument laid out as one row. -/
theorem denseBias4_read (c : Dev nD) (q : Fin 128) :
    (W16 m ρ c (Proc.devRef .tc main_v93) : S1x128.Idx → EReal) (ix2 (0 : Fin 1) q)
      = (m ((c : Thread nD τ).loc main_arg15) : S128.Idx → EReal) (ix1 q) := by
  have e : (W16 m ρ c (Proc.devRef .tc main_v93) : S1x128.Idx → EReal)
      = shapeCast S1x128 (W15 m ρ c (Proc.devRef .tc main_arg15)) shapeCasts_S128_S1x128 := by
    show StableHlo.after hostOps8 _ (Proc.devRef .tc main_v93) = _
    after_results
    rfl
  rw [e, back15_arg15 m ρ c]
  exact shapeCast_a_1a_apply _ _ (0 : Fin 1) q

/-- The moments region's three arrays, as functions of the arrays it finds: the pre-activation, … -/
theorem dense4_pre (c : Dev nD) :
    (W17 m ρ c (Proc.devRef .tc main_v94_0) : S100000x128.Idx → EReal) = Cert.KernelStats.R8.linPre (Cert.KernelStats.R8.arrX (V16 m ρ) c) (Cert.KernelStats.R8.arrW (V16 m ρ) c) (Cert.KernelStats.R8.arrB (V16 m ρ) c) :=
  (W17_arr m ρ c 3).trans (Cert.KernelStats.R8.pre_eq (V16 m ρ) c)
/-- … its column sums … -/
theorem dense4_sum (c : Dev nD) :
    (W17 m ρ c (Proc.devRef .tc main_v94_1) : S1x128.Idx → EReal) = Cert.KernelStats.R8.colSums (Cert.KernelStats.R8.linPre (Cert.KernelStats.R8.arrX (V16 m ρ) c) (Cert.KernelStats.R8.arrW (V16 m ρ) c) (Cert.KernelStats.R8.arrB (V16 m ρ) c)) :=
  (W17_arr m ρ c 4).trans (Cert.KernelStats.R8.sum_eq_colSums (V16 m ρ) c)
/-- … and the column sums of its squares. -/
theorem dense4_sumsq (c : Dev nD) :
    (W17 m ρ c (Proc.devRef .tc main_v94_2) : S1x128.Idx → EReal) = Cert.KernelStats.R8.colSumSqs (Cert.KernelStats.R8.linPre (Cert.KernelStats.R8.arrX (V16 m ρ) c) (Cert.KernelStats.R8.arrW (V16 m ρ) c) (Cert.KernelStats.R8.arrB (V16 m ρ) c)) :=
  (W17_arr m ρ c 5).trans (Cert.KernelStats.R8.sumsq_eq_colSumSqs (V16 m ρ) c)

/-- The pre-activation this layer's moments region leaves, as the specification's dense pre-activation of the layer
    below, the weight argument and the bias argument. -/
theorem densePre4_read (c : Dev nD) (p : Fin 100000) (q : Fin 128) :
    (W17 m ρ c (Proc.devRef .tc main_v94_0) : S100000x128.Idx → EReal) (ix2 p q)
      = Cert.GcnSpec.linPre (matOf (W15 m ρ c (Proc.devRef .tc main_v92) : S100000x256.Idx → EReal)) (fun k q => (m ((c : Thread nD τ).loc main_arg14) : S256x128.Idx → EReal) (ix2 k q)) (fun q => (m ((c : Thread nD τ).loc main_arg15) : S128.Idx → EReal) (ix1 q)) p q := by
  rw [dense4_pre m ρ c]
  show Cert.KernelStats.R8.linPre (W16 m ρ c (Proc.devRef .tc main_v92)) (W16 m ρ c (Proc.devRef .tc main_arg14))
      (W16 m ρ c (Proc.devRef .tc main_v93)) (ix2 p q) = _
  rw [Cert.KernelStats.R8.linPre_ix2, back16_v92 m ρ c, back16_arg14 m ρ c, denseBias4_read m ρ c q]
  rfl

/-- The column sums this layer's moments region leaves are the sums of that pre-activation over the nodes. -/
theorem denseSum4_read (c : Dev nD) (Y : Mat 128)
    (hY : ∀ p q, (W17 m ρ c (Proc.devRef .tc main_v94_0) : S100000x128.Idx → EReal) (ix2 p q) = Y p q) (q : Fin 128) :
    (W17 m ρ c (Proc.devRef .tc main_v94_1) : S1x128.Idx → EReal) (ix2 (0 : Fin 1) q) = ∑ p, Y p q := by
  rw [dense4_sum m ρ c, Cert.KernelStats.R8.colSums_ix2]
  show @Eq EReal _ _
  refine Finset.sum_congr rfl fun p _ => ?_
  rw [← dense4_pre m ρ c]
  exact hY p q

/-- The column sums of squares this layer's moments region leaves. -/
theorem denseSumSq4_read (c : Dev nD) (Y : Mat 128)
    (hY : ∀ p q, (W17 m ρ c (Proc.devRef .tc main_v94_0) : S100000x128.Idx → EReal) (ix2 p q) = Y p q) (q : Fin 128) :
    (W17 m ρ c (Proc.devRef .tc main_v94_2) : S1x128.Idx → EReal) (ix2 (0 : Fin 1) q) = ∑ p, Y p q * Y p q := by
  rw [dense4_sumsq m ρ c, Cert.KernelStats.R8.colSumSqs_ix2]
  show @Eq EReal _ _
  refine Finset.sum_congr rfl fun p _ => ?_
  rw [← dense4_pre m ρ c]
  rw [hY p q]

/-- The layer's output: the specification's dense layer, with the variance from one pass of moments, of the layer
    below and the layer's weight, bias, scale and shift arguments. -/
theorem dense4_out (c : Dev nD) (p : Fin 100000) (q : Fin 128) :
    (W19 m ρ c (Proc.devRef .tc main_v103) : S100000x128.Idx → EReal) (ix2 p q)
      = Cert.GcnSpec.denseLayer Cert.GcnSpec.varOnePass (matOf (W15 m ρ c (Proc.devRef .tc main_v92) : S100000x256.Idx → EReal)) (fun k q => (m ((c : Thread nD τ).loc main_arg14) : S256x128.Idx → EReal) (ix2 k q)) (fun q => (m ((c : Thread nD τ).loc main_arg15) : S128.Idx → EReal) (ix1 q)) (fun q => (m ((c : Thread nD τ).loc main_arg16) : S128.Idx → EReal) (ix1 q)) (fun q => (m ((c : Thread nD τ).loc main_arg17) : S128.Idx → EReal) (ix1 q)) p q :=
  Cert.KernelIdeal.Layers.normLayer4 m ρ c (Cert.GcnSpec.linPre (matOf (W15 m ρ c (Proc.devRef .tc main_v92) : S100000x256.Idx → EReal)) (fun k q => (m ((c : Thread nD τ).loc main_arg14) : S256x128.Idx → EReal) (ix2 k q)) (fun q => (m ((c : Thread nD τ).loc main_arg15) : S128.Idx → EReal) (ix1 q)))
    (densePre4_read m ρ c)
    (denseSum4_read m ρ c _ (densePre4_read m ρ c))
    (denseSumSq4_read m ρ c _ (densePre4_read m ρ c)) p q

end Cert.KernelIdeal.Stages

end
-- ==== Proof.KernelChain.lean ====
/-
  The kernel's result, read as the specification's network with the one-pass variance.

  The first convolution layer takes the node features; each later layer takes the activation the layer before it left;
  the head takes the last activation.  Every stage was read at its own segment boundary; here they are chained: the
  result's entry p is the network of the twenty arguments at p, the neighbourhood sum and the squared inverse root
  degrees being those the kernel's host operations compute from the edge list.
-/
import proofs.«134670_j14499809591810_1_alg».proof.Proof.Gen.KernelIdeal.Frame
import proofs.«134670_j14499809591810_1_alg».proof.Proof.KernelFold
import proofs.«134670_j14499809591810_1_alg».proof.Proof.StageForms
import proofs.«134670_j14499809591810_1_alg».proof.Proof.KernelGraph
import proofs.«134670_j14499809591810_1_alg».proof.Proof.KernelStages
import proofs.«134670_j14499809591810_1_alg».proof.Proof.KernelConv
import proofs.«134670_j14499809591810_1_alg».proof.Proof.KernelLayers
import proofs.«134670_j14499809591810_1_alg».proof.Proof.KernelDense
import Idealize.ShloMosaic.Lib.ValueIdx
import Idealize.ShloMosaic.Lib.ValueLayout

set_option maxRecDepth 16384

noncomputable section

open scoped BigOperators

namespace Cert.KernelIdeal.Stages

open Cert.KernelIdeal Cert.KernelIdeal.Gen Cert.KernelIdeal.Fold Cert.KernelIdeal.RegionValue
open Idealize.ShloMosaic Idealize.ShloMosaic.TcCoe Idealize.ShloMosaic.ValueIdx Idealize.SL.Sem Idealize.ShloMosaic.StableHlo
open Cert.StageForms Cert.GcnSpec Cert.KernelIdeal.Layers

variable (m : (ℓ : Loc nD τ sig) → Buf (Elt Ideal) ℓ) (ρ : Dev nD → PrngReg)

/-- A whole product read as a matrix is the specification's product of the operands' matrices. -/
theorem product0_mat (a : S100000x128.Idx → EReal) (w : S128x128.Idx → EReal) :
    matOf (product0 a w) = mm (matOf a) (fun k q => w (ix2 k q)) := rfl
theorem product3_mat (a : S100000x128.Idx → EReal) (w : S128x128.Idx → EReal) :
    matOf (product3 a w) = mm (matOf a) (fun k q => w (ix2 k q)) := rfl

/-- The first convolution layer's activation, as region 2 leaves it. -/
theorem conv1_out (c : Dev nD) (p : Fin 100000) (q : Fin 128) :
    (W6 m ρ c (Proc.devRef .tc main_v57) : S100000x128.Idx → EReal) (ix2 p q)
      = convLayer varOnePass (aggOfK (m ((c : Thread nD τ).loc main_arg1))) (d2K (m ((c : Thread nD τ).loc main_arg1)))
          (fun p q => (m ((c : Thread nD τ).loc main_arg0) : S100000x128.Idx → EReal) (ix2 p q))
          (fun k q => (m ((c : Thread nD τ).loc main_arg2) : S128x128.Idx → EReal) (ix2 k q))
          (fun q => (m ((c : Thread nD τ).loc main_arg3) : S128.Idx → EReal) (ix1 q))
          (fun q => (m ((c : Thread nD τ).loc main_arg4) : S128.Idx → EReal) (ix1 q))
          (fun q => (m ((c : Thread nD τ).loc main_arg5) : S128.Idx → EReal) (ix1 q)) p q := by
  have hH : matOf (W2 m ρ c (Proc.devRef .tc main_v34) : S100000x128.Idx → EReal)
      = mm (fun p q => (m ((c : Thread nD τ).loc main_arg0) : S100000x128.Idx → EReal) (ix2 p q))
          (fun k q => (m ((c : Thread nD τ).loc main_arg2) : S128x128.Idx → EReal) (ix2 k q)) := by
    rw [firstProduct m ρ c]; rfl
  unfold convLayer
  rw [← hH]
  exact normLayer1 m ρ c _ (convPre1_read m ρ c) (convSum1_read m ρ c _ (convPre1_read m ρ c))
    (convSumSq1_read m ρ c _ (convPre1_read m ρ c)) p q

/-- The second convolution layer's activation, as region 5 leaves it, from the first layer's. -/
theorem conv2_out (c : Dev nD) (p : Fin 100000) (q : Fin 128) :
    (W11 m ρ c (Proc.devRef .tc main_v81) : S100000x128.Idx → EReal) (ix2 p q)
      = convLayer varOnePass (aggOfK (m ((c : Thread nD τ).loc main_arg1))) (d2K (m ((c : Thread nD τ).loc main_arg1)))
          (matOf (W6 m ρ c (Proc.devRef .tc main_v57) : S100000x128.Idx → EReal))
          (fun k q => (m ((c : Thread nD τ).loc main_arg6) : S128x128.Idx → EReal) (ix2 k q))
          (fun q => (m ((c : Thread nD τ).loc main_arg7) : S128.Idx → EReal) (ix1 q))
          (fun q => (m ((c : Thread nD τ).loc main_arg8) : S128.Idx → EReal) (ix1 q))
          (fun q => (m ((c : Thread nD τ).loc main_arg9) : S128.Idx → EReal) (ix1 q)) p q := by
  have hH : matOf (W7 m ρ c (Proc.devRef .tc main_v58) : S100000x128.Idx → EReal)
      = mm (matOf (W6 m ρ c (Proc.devRef .tc main_v57) : S100000x128.Idx → EReal))
          (fun k q => (m ((c : Thread nD τ).loc main_arg6) : S128x128.Idx → EReal) (ix2 k q)) := by
    rw [secondProduct m ρ c]; rfl
  unfold convLayer
  rw [← hH]
  exact normLayer2 m ρ c _ (convPre2_read m ρ c) (convSum2_read m ρ c _ (convPre2_read m ρ c))
    (convSumSq2_read m ρ c _ (convPre2_read m ρ c)) p q

/-- The output bias recast as a 1 × 1 matrix, read at its one entry. -/
theorem headBias_read (c : Dev nD) (q : Fin 1) :
    (W20 m ρ c (Proc.devRef .tc main_v104) : S1x1.Idx → EReal) (ix2 (0 : Fin 1) q)
      = (m ((c : Thread nD τ).loc main_arg19) : S1.Idx → EReal) (ix1 q) := by
  have e : (W20 m ρ c (Proc.devRef .tc main_v104) : S1x1.Idx → EReal)
      = shapeCast S1x1 (W19 m ρ c (Proc.devRef .tc main_arg19)) shapeCasts_S1_S1x1 := by
    show StableHlo.after hostOps10 _ (Proc.devRef .tc main_v104) = _
    after_results
    rfl
  rw [e, back19_arg19 m ρ c]
  exact shapeCast_a_1a_apply _ _ (0 : Fin 1) q

/-- The head of whole arrays at node p is the specification's head of their matrices. -/
theorem headOut_mat (x : S100000x128.Idx → EReal) (w : S128x1.Idx → EReal) (b : S1x1.Idx → EReal) (p : Fin 100000) :
    headOut x w b (ix2 p (0 : Fin 1)) = head (matOf x) (fun k q => w (ix2 k q)) (fun q => b (ix2 (0 : Fin 1) q)) p := rfl

/-- The result at node p: the head of the last activation. -/
theorem head_out (c : Dev nD) (p : Fin 100000) :
    (W21 m ρ c (Proc.devRef .tc main_v105) : S100000x1.Idx → EReal) (ix2 p (0 : Fin 1))
      = head (matOf (W19 m ρ c (Proc.devRef .tc main_v103) : S100000x128.Idx → EReal))
          (fun k q => (m ((c : Thread nD τ).loc main_arg18) : S128x1.Idx → EReal) (ix2 k q))
          (fun q => (m ((c : Thread nD τ).loc main_arg19) : S1.Idx → EReal) (ix1 q)) p := by
  refine (congrFun (headStage m ρ c) (ix2 p (0 : Fin 1))).trans ?_
  refine (headOut_mat _ _ _ p).trans ?_
  have hb : (fun q : Fin 1 => (W20 m ρ c (Proc.devRef .tc main_v104) : S1x1.Idx → EReal) (ix2 (0 : Fin 1) q))
      = fun q : Fin 1 => (m ((c : Thread nD τ).loc main_arg19) : S1.Idx → EReal) (ix1 q) := funext (headBias_read m ρ c)
  rw [hb]

/-- THE KERNEL'S RESULT at node p is the network, with the one-pass variance, of the twenty arguments. -/
theorem kernel_result (c : Dev nD) (p : Fin 100000) :
    (W21 m ρ c (Proc.devRef .tc main_v105) : S100000x1.Idx → EReal) (ix2 p (0 : Fin 1))
      = net (fun y => varOnePass y) (aggOfK (m ((c : Thread nD τ).loc main_arg1))) (d2K (m ((c : Thread nD τ).loc main_arg1)))
          (fun p q => (m ((c : Thread nD τ).loc main_arg0) : S100000x128.Idx → EReal) (ix2 p q))
          (fun k q => (m ((c : Thread nD τ).loc main_arg2) : S128x128.Idx → EReal) (ix2 k q))
          (fun q => (m ((c : Thread nD τ).loc main_arg3) : S128.Idx → EReal) (ix1 q))
          (fun q => (m ((c : Thread nD τ).loc main_arg4) : S128.Idx → EReal) (ix1 q))
          (fun q => (m ((c : Thread nD τ).loc main_arg5) : S128.Idx → EReal) (ix1 q))
          (fun k q => (m ((c : Thread nD τ).loc main_arg6) : S128x128.Idx → EReal) (ix2 k q))
          (fun q => (m ((c : Thread nD τ).loc main_arg7) : S128.Idx → EReal) (ix1 q))
          (fun q => (m ((c : Thread nD τ).loc main_arg8) : S128.Idx → EReal) (ix1 q))
          (fun q => (m ((c : Thread nD τ).loc main_arg9) : S128.Idx → EReal) (ix1 q))
          (fun k q => (m ((c : Thread nD τ).loc main_arg10) : S128x256.Idx → EReal) (ix2 k q))
          (fun q => (m ((c : Thread nD τ).loc main_arg11) : S256.Idx → EReal) (ix1 q))
          (fun q => (m ((c : Thread nD τ).loc main_arg12) : S256.Idx → EReal) (ix1 q))
          (fun q => (m ((c : Thread nD τ).loc main_arg13) : S256.Idx → EReal) (ix1 q))
          (fun k q => (m ((c : Thread nD τ).loc main_arg14) : S256x128.Idx → EReal) (ix2 k q))
          (fun q => (m ((c : Thread nD τ).loc main_arg15) : S128.Idx → EReal) (ix1 q))
          (fun q => (m ((c : Thread nD τ).loc main_arg16) : S128.Idx → EReal) (ix1 q))
          (fun q => (m ((c : Thread nD τ).loc main_arg17) : S128.Idx → EReal) (ix1 q))
          (fun k q => (m ((c : Thread nD τ).loc main_arg18) : S128x1.Idx → EReal) (ix2 k q))
          (fun q => (m ((c : Thread nD τ).loc main_arg19) : S1.Idx → EReal) (ix1 q)) p := by
  have h1 := funext fun p => funext fun q => conv1_out m ρ c p q
  have h2 := funext fun p => funext fun q => conv2_out m ρ c p q
  have h3 := funext fun p => funext fun q => dense3_out m ρ c p q
  have h4 := funext fun p => funext fun q => dense4_out m ρ c p q
  refine (head_out m ρ c p).trans ?_
  unfold net
  rw [show matOf (W19 m ρ c (Proc.devRef .tc main_v103) : S100000x128.Idx → EReal) = _ from h4,
    show matOf (W15 m ρ c (Proc.devRef .tc main_v92) : S100000x256.Idx → EReal) = _ from h3,
    show matOf (W11 m ρ c (Proc.devRef .tc main_v81) : S100000x128.Idx → EReal) = _ from h2,
    show matOf (W6 m ρ c (Proc.devRef .tc main_v57) : S100000x128.Idx → EReal) = _ from h1]

end Cert.KernelIdeal.Stages

end
-- ==== Proof.RefRunValue.lean ====
/-
  The reference program's result as the last of its stages.

  The program is a straight line of 278 operations, each writing one buffer from at most three buffers written before
  it, and its run ends with the result buffer at the fold of the operations over the launch memory.  Folding the line
  out, each operation's result at its own buffer is its function of what the earlier operations left in the buffers it
  reads, and every other buffer is as it was; so the fold at the result buffer is the composition of the operations
  that lead to it, applied to the launch contents of the twenty arguments — and that composition is, operation by
  operation, the chain of stages that ends in the last one.
-/
import proofs.«134670_j14499809591810_1_alg».proof.Proof.RefReadPatched
import proofs.«134670_j14499809591810_1_alg».proof.Proof.RefRunPatched
import Idealize.ShloMosaic.Lib.StableHlo.Run

noncomputable section

namespace Cert.RefRunValue

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

set_option maxRecDepth 65536 in
set_option maxHeartbeats 2000000000 in
/-- The run's result is the last stage of the reference, read as a function of the twenty arguments' launch contents. -/
theorem result_is_stage (m : (ℓ : Loc nD τ sig) → Buf (Elt F) ℓ) (c : Dev nD) :
    Cert.ReferenceIdeal.Value.res_main_v223 m c = val_main_v223 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  unfold Cert.ReferenceIdeal.Value.res_main_v223
  after_results_simp
  rfl

end Cert.RefRunValue

end
-- ==== Proof.RefReadStages.lean ====
/-
  The plain program's intermediate arrays, named as matrices over the nodes, and its graph operator.

  The plain program computes, in order: a graph convolution's pre-activation and its normalised, clamped activation,
  twice; a dense layer's pre-activation and activation, twice; the head. Each of these arrays is named here as a
  function of a row and a column, so that every later statement is an equation between such functions.

  The graph part is kept whole. The squared inverse root degree of a node is the square of the program's reciprocal
  square root of (the number of edges ending at the node, plus one). The neighbourhood sum of a feature matrix h is the
  program's scatter-add, into a zero array and along the edges' end nodes, of the rows of h gathered at the edges' start
  nodes, each times the edge's weight (the product of the two end points' inverse root degrees); h enters as the
  array whose entry at an index is h at the index's two coordinates.
-/
import proofs.«134670_j14499809591810_1_alg».proof.Proof.RefReadPatched
import proofs.«134670_j14499809591810_1_alg».proof.Proof.GcnSpec

noncomputable section

open scoped BigOperators

namespace Cert.RefRead

open Cert.ReferenceIdeal Cert.ReferenceIdeal.Read Cert.GcnSpec Idealize.ShloMosaic Idealize.ShloMosaic.ValueIdx

/-- An array of rank two as a function of its two coordinates. -/
abbrev matOf {K C : Nat} (w : (⟨2, ![K, C]⟩ : Shape).Idx → EReal) : Fin K → Fin C → EReal := fun k q => w (ix2 k q)

/-- An array of rank one as a function of its coordinate. -/
abbrev vecOf {C : Nat} (b : (⟨1, ![C]⟩ : Shape).Idx → EReal) : Fin C → EReal := fun q => b (ix1 q)

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x256, .f32⟩ : BufTy).Contents (Elt Ideal)) (x11 x12 x13 : (⟨S256, .f32⟩ : BufTy).Contents (Elt Ideal))
  (x14 : (⟨S256x128, .f32⟩ : BufTy).Contents (Elt Ideal)) (x15 x16 x17 : (⟨S128, .f32⟩ : BufTy).Contents (Elt Ideal))
  (x18 : (⟨S128x1, .f32⟩ : BufTy).Contents (Elt Ideal)) (x19 : (⟨S1, .f32⟩ : BufTy).Contents (Elt Ideal))

/-- The squared inverse root degree of every node: the program's reciprocal square root of the in-degree plus one,
    times itself. -/
def d2Ref : Fin Rows → EReal :=
  fun p => val_main_v16 (F := Ideal) x1 (ix1 p) * val_main_v16 (F := Ideal) x1 (ix1 p)

/-- The neighbourhood sum of a feature matrix: gather its rows at the edges' start nodes, scale each by the edge's
    weight, scatter-add along the edges' end nodes into zeros. -/
def aggOfRef (h : Mat 128) : Mat 128 :=
  fun p q => Host.scatterAdd (F := Ideal) (φ := .f32) scatter_S100000x128_S1600000x1_S1600000x128_1_0_0_1 (val_main_v42 (F := Ideal))
    (val_main_v43 (F := Ideal) x1)
    (mulf (F := Ideal) (φ := .f32) (Host.gather gather_S100000x128_S1600000x1_S1600000x128_1_0_n_n_0_1_1128
        (fun i : S100000x128.Idx => h (i 0) (i 1)) (val_main_v38 (F := Ideal) x1))
      (val_main_v40 (F := Ideal) x1)) (ix2 p q)

/-- The first convolution's pre-activation. -/
def pre1 : Mat 128 := fun p q => val_main_v52 (F := Ideal) x0 x1 x2 x3 (ix2 p q)
/-- The first convolution's activation. -/
def act1 : Mat 128 := fun p q => val_main_v78 (F := Ideal) x0 x1 x2 x3 x4 x5 (ix2 p q)
/-- The second convolution's pre-activation. -/
def pre2 : Mat 128 := fun p q => val_main_v127 (F := Ideal) x0 x1 x2 x3 x4 x5 x6 x7 (ix2 p q)
/-- The second convolution's activation. -/
def act2 : Mat 128 := fun p q => val_main_v153 (F := Ideal) x0 x1 x2 x3 x4 x5 x6 x7 x8 x9 (ix2 p q)
/-- The first dense layer's pre-activation. -/
def pre3 : Mat 256 := fun p q => val_main_v157 (F := Ideal) x0 x1 x2 x3 x4 x5 x6 x7 x8 x9 x10 x11 (ix2 p q)
/-- The first dense layer's activation. -/
def act3 : Mat 256 := fun p q => val_main_v183 (F := Ideal) x0 x1 x2 x3 x4 x5 x6 x7 x8 x9 x10 x11 x12 x13 (ix2 p q)
/-- The second dense layer's pre-activation. -/
def pre4 : Mat 128 := fun p q => val_main_v187 (F := Ideal) x0 x1 x2 x3 x4 x5 x6 x7 x8 x9 x10 x11 x12 x13 x14 x15 (ix2 p q)
/-- The second dense layer's activation. -/
def act4 : Mat 128 :=
  fun p q => val_main_v213 (F := Ideal) x0 x1 x2 x3 x4 x5 x6 x7 x8 x9 x10 x11 x12 x13 x14 x15 x16 x17 (ix2 p q)

end

end Cert.RefRead

end
-- ==== Proof.RefReadForms.lean ====
/-
  The column normalisation and the logistic head as a plain program spells them, set beside the specification.

  A plain program normalises a column in these steps, each an exact operation on the extended reals: the column's sum
  (the zero float word plus the sum over the rows) divided by the row count is the mean; the mean of the squared
  deviations from it is the variance; an entry minus the mean, times the reciprocal square root of the variance plus a
  small word, times a scale, plus a shift, clamped below at the zero word. With the zero word read as the number zero
  this is, term for term, the specification's normalisation with the centred variance. The head is spelt as one divided
  by one plus the exponential of the negated entry, the ones being the float word 1.0: that is the logistic function.
-/
import proofs.«134670_j14499809591810_1_alg».proof.Proof.GcnSpec
import Idealize.ShloMosaic.PureOps.Ideal.Laws

noncomputable section

open scoped BigOperators

namespace Cert.RefRead

open Idealize.ShloMosaic Cert.GcnSpec

/-- The float word 0.0. -/
abbrev zeroWord : EReal := Ideal.ofBits .f32 0x00000000#32

/-- The float word 1.0. -/
abbrev oneWord : EReal := Ideal.ofBits .f32 0x3F800000#32

/-- The float word 0.0 is the number zero. -/
theorem zeroWord_eq : zeroWord = 0 := Ideal.ofBits_zero_f32

/-- The float word 1.0 is the number one. -/
theorem oneWord_eq : oneWord = 1 := by
  simp [Ideal.ofBits, Ideal.ieee, -EReal.coe_mul]; norm_num

variable {C : Nat}

/-- A column's mean as a plain program takes it: the zero word plus the column's sum, divided by the row count. -/
def meanSpelt (y : Mat C) (q : Fin C) : EReal := Ideal.div (zeroWord + ∑ k : Fin 100000, y k q) nodesWord

/-- The spelt mean is the specification's column mean. -/
theorem meanSpelt_eq (y : Mat C) (q : Fin C) : meanSpelt y q = colMean y q := by
  unfold meanSpelt colMean
  rw [zeroWord_eq, zero_add]

/-- A column's variance as a plain program takes it: the zero word plus the sum of the squared deviations from the
    spelt mean, divided by the row count. -/
def varSpelt (y : Mat C) (q : Fin C) : EReal :=
  Ideal.div (zeroWord + ∑ k : Fin 100000, (y k q - meanSpelt y q) * (y k q - meanSpelt y q)) nodesWord

/-- The spelt variance is the specification's centred variance. -/
theorem varSpelt_eq (y : Mat C) (q : Fin C) : varSpelt y q = varCentred y q := by
  unfold varSpelt varCentred
  rw [zeroWord_eq, zero_add, meanSpelt_eq]

/-- The normalised, scaled, shifted and clamped entry as a plain program spells it is the specification's
    normalisation with the centred variance. -/
theorem normRelu_spelt (y : Mat C) (g be : Fin C → EReal) (p : Fin 100000) (q : Fin C) :
    max ((y p q - meanSpelt y q) * Ideal.rsqrt (varSpelt y q + epsWord) * g q + be q) zeroWord
      = normRelu (varCentred y) y g be p q := by
  rw [meanSpelt_eq, varSpelt_eq, zeroWord_eq]
  rfl

/-- One divided by one plus the exponential of the negated entry, the ones being float words, is the logistic
    function. -/
theorem logistic_spelt (z : EReal) : Ideal.div oneWord (oneWord + Ideal.exp (-z)) = Ideal.logistic z := by
  rw [oneWord_eq]
  rfl

end Cert.RefRead

end
-- ==== Proof.RefReadConv1.lean ====
/-
  The first graph convolution of the plain program is the specification's convolution layer with the centred
  variance, over the plain program's own graph operator.

  The feature product at (p, q) is the sum over k of the input at (p, k) times the weight at (k, q). The
  pre-activation adds three things: the neighbourhood sum of the feature product (the scatter-add, kept whole: it is
  the graph operator applied to the feature product as an array), the feature product times the node's squared
  inverse root degree (a column of degrees broadcast along the rows), and the bias at the entry's column. The
  activation is the column normalisation of that pre-activation as a plain program spells it.
-/
import proofs.«134670_j14499809591810_1_alg».proof.Proof.RefReadStages
import proofs.«134670_j14499809591810_1_alg».proof.Proof.RefReadForms

noncomputable section

open scoped BigOperators

namespace Cert.RefRead

open Cert.ReferenceIdeal Cert.ReferenceIdeal.Read Cert.GcnSpec Idealize.ShloMosaic Idealize.ShloMosaic.ValueIdx

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x256, .f32⟩ : BufTy).Contents (Elt Ideal)) (x11 x12 x13 : (⟨S256, .f32⟩ : BufTy).Contents (Elt Ideal))
  (x14 : (⟨S256x128, .f32⟩ : BufTy).Contents (Elt Ideal)) (x15 x16 x17 : (⟨S128, .f32⟩ : BufTy).Contents (Elt Ideal))
  (x18 : (⟨S128x1, .f32⟩ : BufTy).Contents (Elt Ideal)) (x19 : (⟨S1, .f32⟩ : BufTy).Contents (Elt Ideal))

/-- The feature product at (p, q) is the matrix product of the input with the weights. -/
theorem dot1_apply (p : Fin 100000) (q : Fin 128) :
    val_main_v4 (F := Ideal) x0 x2 (ix2 p q) = mm (matOf x0) (matOf x2) p q := by
  have el : ∀ k : Fin 128, lidx_main_v4 (ix2 p q) k = ix2 p k := fun k =>
    funext fun a => Fin.ext (by match a with | ⟨0, _⟩ => rfl | ⟨1, _⟩ => rfl)
  have er : ∀ k : Fin 128, ridx_main_v4 (ix2 p q) k = ix2 k q := fun k =>
    funext fun a => Fin.ext (by match a with | ⟨0, _⟩ => rfl | ⟨1, _⟩ => rfl)
  simp (config := { implicitDefEqProofs := false }) only
    [mm, matOf, val_main_v4_apply, el, er]

/-- The feature product as an array is the matrix product read at an index's two coordinates. -/
theorem dot1_eq :
    val_main_v4 (F := Ideal) x0 x2 = fun i : S100000x128.Idx => mm (matOf x0) (matOf x2) (i 0) (i 1) := by
  funext i
  obtain ⟨p, q, rfl⟩ : ∃ (p : Fin 100000) (q : Fin 128), i = ix2 p q := ⟨i 0, i 1, eq_ix2 i⟩
  exact dot1_apply x0 x2 p q

/-- The program's scatter-add is the graph operator applied to the feature product. -/
theorem agg1_eq :
    (fun p q => val_main_v44 (F := Ideal) x0 x1 x2 (ix2 p q)) = aggOfRef x1 (mm (matOf x0) (matOf x2)) := by
  unfold aggOfRef val_main_v44 val_main_v41 val_main_v39
  rw [dot1_eq]

/-- The pre-activation is the specification's: neighbourhood sum, plus the node's own row times its squared inverse
    root degree, plus the bias. -/
theorem pre1_eq :
    pre1 x0 x1 x2 x3
      = convPre (aggOfRef x1 (mm (matOf x0) (matOf x2))) (mm (matOf x0) (matOf x2)) (d2Ref x1) (vecOf x3) := by
  rw [← agg1_eq]
  funext p q
  have ed : idx_main_v46 (idx_main_v47 (ix2 p q)) = ix1 p := funext fun a => Fin.ext (by match a with | ⟨0, _⟩ => rfl)
  have eb : idx_main_v50 (idx_main_v51 (ix2 p q)) = ix1 q := funext fun a => Fin.ext (by match a with | ⟨0, _⟩ => rfl)
  simp (config := { implicitDefEqProofs := false }) only
    [pre1, convPre, d2Ref, vecOf, val_main_v52_apply, val_main_v51_apply, val_main_v50_apply, val_main_v49_apply,
    val_main_v48_apply, val_main_v47_apply, val_main_v46_apply, val_main_v45_apply, Ideal.addf_def, Ideal.mulf_def,
    dot1_apply, ed, eb]

/-- The activation is the pre-activation normalised by column with the centred variance, scaled, shifted, clamped. -/
theorem act1_eq :
    act1 x0 x1 x2 x3 x4 x5
      = normRelu (varCentred (pre1 x0 x1 x2 x3)) (pre1 x0 x1 x2 x3) (vecOf x4) (vecOf x5) := by
  funext p q
  refine Eq.trans ?_ (normRelu_spelt (pre1 x0 x1 x2 x3) (vecOf x4) (vecOf x5) p q)
  -- the rows of the squared deviations' column sum, at the entry's column
  have e1 : ∀ k : Fin 100000, idx_main_v60 (idx_main_v69 (idx_main_v70 (ix2 p q))) k = ix2 k q := fun k =>
    funext fun a => Fin.ext (by match a with | ⟨0, _⟩ => rfl | ⟨1, _⟩ => rfl)
  -- the rows of the mean's column sum, read from any row of the entry's column
  have e2 : ∀ (r k : Fin 100000), idx_main_v53 (idx_main_v56 (idx_main_v57 (ix2 r q))) k = ix2 k q :=
    fun r k => funext fun a => Fin.ext (by match a with | ⟨0, _⟩ => rfl | ⟨1, _⟩ => rfl)
  have e3 : ∀ k : Fin 100000, idx_main_v53 (idx_main_v63 (idx_main_v64 (ix2 p q))) k = ix2 k q := fun k =>
    funext fun a => Fin.ext (by match a with | ⟨0, _⟩ => rfl | ⟨1, _⟩ => rfl)
  -- the scale and the shift at the entry's column
  have e4 : idx_main_v72 (idx_main_v73 (ix2 p q)) = ix1 q := funext fun a => Fin.ext (by match a with | ⟨0, _⟩ => rfl)
  have e5 : idx_main_v75 (idx_main_v76 (ix2 p q)) = ix1 q := funext fun a => Fin.ext (by match a with | ⟨0, _⟩ => rfl)
  simp (config := { implicitDefEqProofs := false }) only
    [act1, pre1, meanSpelt, varSpelt, zeroWord, nodesWord, epsWord, vecOf,
    val_main_v78_apply, val_main_call0_v0_apply, val_main_call0_cst_apply, val_main_v77_apply, val_main_v76_apply,
    val_main_v75_apply, val_main_v74_apply, val_main_v73_apply, val_main_v72_apply, val_main_v71_apply,
    val_main_v70_apply, val_main_v69_apply, val_main_v68_apply, val_main_v67_apply, val_main_v66_apply,
    val_main_cst_14_apply, val_main_v65_apply, val_main_v64_apply, val_main_v63_apply, val_main_v62_apply,
    val_main_v61_apply, val_main_cst_13_apply, val_main_v60_apply, val_main_cst_12_apply, val_main_v59_apply,
    val_main_v58_apply, val_main_v57_apply, val_main_v56_apply, val_main_v55_apply, val_main_v54_apply,
    val_main_cst_11_apply, val_main_v53_apply, val_main_cst_10_apply,
    Ideal.ofBits_def, Ideal.addf_def, Ideal.subf_def, Ideal.mulf_def, Ideal.maximumf_def, Ideal.hostDivf_def,
    Ideal.hostUnary_rsqrt_def, e1, e2, e3, e4, e5]

/-- The first graph convolution of the plain program is the specification's, with the centred variance. -/
theorem act1_layer :
    act1 x0 x1 x2 x3 x4 x5
      = convLayer (fun y => varCentred y) (aggOfRef x1) (d2Ref x1) (matOf x0) (matOf x2) (vecOf x3) (vecOf x4)
          (vecOf x5) := by
  rw [act1_eq, pre1_eq]
  rfl

end

end Cert.RefRead

end
-- ==== Proof.RefReadConv2.lean ====
/-
  The second graph convolution of the plain program is the specification's convolution layer with the centred
  variance, over the same graph operator and the same degrees as the first.

  The plain program recomputes, for this layer, the in-degrees, their reciprocal square roots, the edge weights and
  the wrapped start and end nodes of the edges. Each recomputed array is the same composition of the same operations on
  the same edge list as in the first layer, so it is the first layer's array; nothing of a gather or a scatter-add is
  read at an index. The rest is as in the first layer, with the first layer's activation as the input.
-/
import proofs.«134670_j14499809591810_1_alg».proof.Proof.RefReadStages
import proofs.«134670_j14499809591810_1_alg».proof.Proof.RefReadForms

noncomputable section

open scoped BigOperators

namespace Cert.RefRead

open Cert.ReferenceIdeal Cert.ReferenceIdeal.Read Cert.GcnSpec Idealize.ShloMosaic Idealize.ShloMosaic.ValueIdx

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x256, .f32⟩ : BufTy).Contents (Elt Ideal)) (x11 x12 x13 : (⟨S256, .f32⟩ : BufTy).Contents (Elt Ideal))
  (x14 : (⟨S256x128, .f32⟩ : BufTy).Contents (Elt Ideal)) (x15 x16 x17 : (⟨S128, .f32⟩ : BufTy).Contents (Elt Ideal))
  (x18 : (⟨S128x1, .f32⟩ : BufTy).Contents (Elt Ideal)) (x19 : (⟨S1, .f32⟩ : BufTy).Contents (Elt Ideal))

/-- The recomputed inverse root degrees are the first layer's. -/
theorem deg2_eq : val_main_v91 (F := Ideal) x1 = val_main_v16 (F := Ideal) x1 := rfl

/-- The recomputed zero array is the first layer's. -/
theorem zeros2_eq : val_main_v117 (F := Ideal) = val_main_v42 (F := Ideal) := rfl

/-- The recomputed column of end nodes is the first layer's. -/
theorem dst2_eq : val_main_v118 (F := Ideal) x1 = val_main_v43 (F := Ideal) x1 := rfl

/-- The recomputed column of wrapped start nodes is the first layer's. -/
theorem src2_eq : val_main_v113 (F := Ideal) x1 = val_main_v38 (F := Ideal) x1 := rfl

/-- The recomputed edge weights, broadcast along the columns, are the first layer's. -/
theorem wts2_eq : val_main_v115 (F := Ideal) x1 = val_main_v40 (F := Ideal) x1 := rfl

/-- The feature product at (p, q) is the matrix product of the first activation with the weights. -/
theorem dot2_apply (p : Fin 100000) (q : Fin 128) :
    val_main_v79 (F := Ideal) x0 x1 x2 x3 x4 x5 x6 (ix2 p q) = mm (act1 x0 x1 x2 x3 x4 x5) (matOf x6) p q := by
  have el : ∀ k : Fin 128, lidx_main_v79 (ix2 p q) k = ix2 p k := fun k =>
    funext fun a => Fin.ext (by match a with | ⟨0, _⟩ => rfl | ⟨1, _⟩ => rfl)
  have er : ∀ k : Fin 128, ridx_main_v79 (ix2 p q) k = ix2 k q := fun k =>
    funext fun a => Fin.ext (by match a with | ⟨0, _⟩ => rfl | ⟨1, _⟩ => rfl)
  simp (config := { implicitDefEqProofs := false }) only
    [mm, act1, matOf, val_main_v79_apply, el, er]

/-- The feature product as an array is the matrix product read at an index's two coordinates. -/
theorem dot2_eq :
    val_main_v79 (F := Ideal) x0 x1 x2 x3 x4 x5 x6
      = fun i : S100000x128.Idx => mm (act1 x0 x1 x2 x3 x4 x5) (matOf x6) (i 0) (i 1) := by
  funext i
  obtain ⟨p, q, rfl⟩ : ∃ (p : Fin 100000) (q : Fin 128), i = ix2 p q := ⟨i 0, i 1, eq_ix2 i⟩
  exact dot2_apply x0 x1 x2 x3 x4 x5 x6 p q

/-- The program's scatter-add is the graph operator applied to the feature product. -/
theorem agg2_eq :
    (fun p q => val_main_v119 (F := Ideal) x0 x1 x2 x3 x4 x5 x6 (ix2 p q))
      = aggOfRef x1 (mm (act1 x0 x1 x2 x3 x4 x5) (matOf x6)) := by
  unfold aggOfRef val_main_v119 val_main_v116 val_main_v114
  rw [dot2_eq, zeros2_eq, dst2_eq, src2_eq, wts2_eq]

/-- The pre-activation is the specification's: neighbourhood sum, plus the node's own row times its squared inverse
    root degree, plus the bias. -/
theorem pre2_eq :
    pre2 x0 x1 x2 x3 x4 x5 x6 x7
      = convPre (aggOfRef x1 (mm (act1 x0 x1 x2 x3 x4 x5) (matOf x6))) (mm (act1 x0 x1 x2 x3 x4 x5) (matOf x6))
          (d2Ref x1) (vecOf x7) := by
  rw [← agg2_eq]
  funext p q
  have ed : idx_main_v121 (idx_main_v122 (ix2 p q)) = ix1 p := funext fun a => Fin.ext (by match a with | ⟨0, _⟩ => rfl)
  have eb : idx_main_v125 (idx_main_v126 (ix2 p q)) = ix1 q := funext fun a => Fin.ext (by match a with | ⟨0, _⟩ => rfl)
  have hd : val_main_v91 (F := Ideal) x1 (ix1 p) = val_main_v16 (F := Ideal) x1 (ix1 p) := congrFun (deg2_eq x1) (ix1 p)
  simp (config := { implicitDefEqProofs := false }) only
    [pre2, convPre, d2Ref, vecOf, val_main_v127_apply, val_main_v126_apply, val_main_v125_apply,
    val_main_v124_apply, val_main_v123_apply, val_main_v122_apply, val_main_v121_apply, val_main_v120_apply,
    Ideal.addf_def, Ideal.mulf_def, dot2_apply, ed, eb, hd]

/-- The activation is the pre-activation normalised by column with the centred variance, scaled, shifted, clamped. -/
theorem act2_eq :
    act2 x0 x1 x2 x3 x4 x5 x6 x7 x8 x9
      = normRelu (varCentred (pre2 x0 x1 x2 x3 x4 x5 x6 x7)) (pre2 x0 x1 x2 x3 x4 x5 x6 x7) (vecOf x8) (vecOf x9) := by
  funext p q
  refine Eq.trans ?_ (normRelu_spelt (pre2 x0 x1 x2 x3 x4 x5 x6 x7) (vecOf x8) (vecOf x9) p q)
  -- the rows of the squared deviations' column sum, at the entry's column
  have e1 : ∀ k : Fin 100000, idx_main_v135 (idx_main_v144 (idx_main_v145 (ix2 p q))) k = ix2 k q := fun k =>
    funext fun a => Fin.ext (by match a with | ⟨0, _⟩ => rfl | ⟨1, _⟩ => rfl)
  -- the rows of the mean's column sum, read from any row of the entry's column
  have e2 : ∀ (r k : Fin 100000), idx_main_v128 (idx_main_v131 (idx_main_v132 (ix2 r q))) k = ix2 k q :=
    fun r k => funext fun a => Fin.ext (by match a with | ⟨0, _⟩ => rfl | ⟨1, _⟩ => rfl)
  have e3 : ∀ k : Fin 100000, idx_main_v128 (idx_main_v138 (idx_main_v139 (ix2 p q))) k = ix2 k q := fun k =>
    funext fun a => Fin.ext (by match a with | ⟨0, _⟩ => rfl | ⟨1, _⟩ => rfl)
  -- the scale and the shift at the entry's column
  have e4 : idx_main_v147 (idx_main_v148 (ix2 p q)) = ix1 q := funext fun a => Fin.ext (by match a with | ⟨0, _⟩ => rfl)
  have e5 : idx_main_v150 (idx_main_v151 (ix2 p q)) = ix1 q := funext fun a => Fin.ext (by match a with | ⟨0, _⟩ => rfl)
  simp (config := { implicitDefEqProofs := false }) only
    [act2, pre2, meanSpelt, varSpelt, zeroWord, nodesWord, epsWord, vecOf,
    val_main_v153_apply, val_main_call1_v0_apply, val_main_call1_cst_apply, val_main_v152_apply, val_main_v151_apply,
    val_main_v150_apply, val_main_v149_apply, val_main_v148_apply, val_main_v147_apply, val_main_v146_apply,
    val_main_v145_apply, val_main_v144_apply, val_main_v143_apply, val_main_v142_apply, val_main_v141_apply,
    val_main_cst_31_apply, val_main_v140_apply, val_main_v139_apply, val_main_v138_apply, val_main_v137_apply,
    val_main_v136_apply, val_main_cst_30_apply, val_main_v135_apply, val_main_cst_29_apply, val_main_v134_apply,
    val_main_v133_apply, val_main_v132_apply, val_main_v131_apply, val_main_v130_apply, val_main_v129_apply,
    val_main_cst_28_apply, val_main_v128_apply, val_main_cst_27_apply,
    Ideal.ofBits_def, Ideal.addf_def, Ideal.subf_def, Ideal.mulf_def, Ideal.maximumf_def, Ideal.hostDivf_def,
    Ideal.hostUnary_rsqrt_def, e1, e2, e3, e4, e5]

/-- The second graph convolution of the plain program is the specification's, with the centred variance. -/
theorem act2_layer :
    act2 x0 x1 x2 x3 x4 x5 x6 x7 x8 x9
      = convLayer (fun y => varCentred y) (aggOfRef x1) (d2Ref x1) (act1 x0 x1 x2 x3 x4 x5) (matOf x6) (vecOf x7)
          (vecOf x8) (vecOf x9) := by
  rw [act2_eq, pre2_eq]
  rfl

end

end Cert.RefRead

end
-- ==== Proof.RefReadDense3.lean ====
/-
  The first dense layer of the plain program is the specification's dense layer with the centred variance.

  Its pre-activation at (p, q) is the sum over k of the previous activation at (p, k) times the weight at (k, q), plus
  the bias at q. Its activation is the column normalisation of that pre-activation as a plain program spells it:
  every broadcast of a per-column quantity reads that quantity at the entry's column, every column sum runs over the
  rows at the entry's column.
-/
import proofs.«134670_j14499809591810_1_alg».proof.Proof.RefReadStages
import proofs.«134670_j14499809591810_1_alg».proof.Proof.RefReadForms

noncomputable section

open scoped BigOperators

namespace Cert.RefRead

open Cert.ReferenceIdeal Cert.ReferenceIdeal.Read Cert.GcnSpec Idealize.ShloMosaic Idealize.ShloMosaic.ValueIdx

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x256, .f32⟩ : BufTy).Contents (Elt Ideal)) (x11 x12 x13 : (⟨S256, .f32⟩ : BufTy).Contents (Elt Ideal))
  (x14 : (⟨S256x128, .f32⟩ : BufTy).Contents (Elt Ideal)) (x15 x16 x17 : (⟨S128, .f32⟩ : BufTy).Contents (Elt Ideal))
  (x18 : (⟨S128x1, .f32⟩ : BufTy).Contents (Elt Ideal)) (x19 : (⟨S1, .f32⟩ : BufTy).Contents (Elt Ideal))

/-- The pre-activation is the matrix product of the previous activation with the weights, plus the bias. -/
theorem pre3_eq :
    pre3 x0 x1 x2 x3 x4 x5 x6 x7 x8 x9 x10 x11
      = linPre (act2 x0 x1 x2 x3 x4 x5 x6 x7 x8 x9) (matOf x10) (vecOf x11) := by
  funext p q
  have el : ∀ k : Fin 128, lidx_main_v154 (ix2 p q) k = ix2 p k := fun k =>
    funext fun a => Fin.ext (by match a with | ⟨0, _⟩ => rfl | ⟨1, _⟩ => rfl)
  have er : ∀ k : Fin 128, ridx_main_v154 (ix2 p q) k = ix2 k q := fun k =>
    funext fun a => Fin.ext (by match a with | ⟨0, _⟩ => rfl | ⟨1, _⟩ => rfl)
  have eb : idx_main_v155 (idx_main_v156 (ix2 p q)) = ix1 q := funext fun a => Fin.ext (by match a with | ⟨0, _⟩ => rfl)
  simp (config := { implicitDefEqProofs := false }) only
    [pre3, linPre, mm, act2, matOf, vecOf, val_main_v157_apply, val_main_v156_apply, val_main_v155_apply,
    val_main_v154_apply, Ideal.addf_def, el, er, eb]

/-- The activation is the pre-activation normalised by column with the centred variance, scaled, shifted, clamped. -/
theorem act3_eq :
    act3 x0 x1 x2 x3 x4 x5 x6 x7 x8 x9 x10 x11 x12 x13
      = normRelu (varCentred (pre3 x0 x1 x2 x3 x4 x5 x6 x7 x8 x9 x10 x11)) (pre3 x0 x1 x2 x3 x4 x5 x6 x7 x8 x9 x10 x11)
          (vecOf x12) (vecOf x13) := by
  funext p q
  refine Eq.trans ?_ (normRelu_spelt (pre3 x0 x1 x2 x3 x4 x5 x6 x7 x8 x9 x10 x11) (vecOf x12) (vecOf x13) p q)
  -- the rows of the squared deviations' column sum, at the entry's column
  have e1 : ∀ k : Fin 100000, idx_main_v165 (idx_main_v174 (idx_main_v175 (ix2 p q))) k = ix2 k q := fun k =>
    funext fun a => Fin.ext (by match a with | ⟨0, _⟩ => rfl | ⟨1, _⟩ => rfl)
  -- the rows of the mean's column sum, read from any row of the entry's column
  have e2 : ∀ (r k : Fin 100000), idx_main_v158 (idx_main_v161 (idx_main_v162 (ix2 r q))) k = ix2 k q :=
    fun r k => funext fun a => Fin.ext (by match a with | ⟨0, _⟩ => rfl | ⟨1, _⟩ => rfl)
  have e3 : ∀ k : Fin 100000, idx_main_v158 (idx_main_v168 (idx_main_v169 (ix2 p q))) k = ix2 k q := fun k =>
    funext fun a => Fin.ext (by match a with | ⟨0, _⟩ => rfl | ⟨1, _⟩ => rfl)
  -- the scale and the shift at the entry's column
  have e4 : idx_main_v177 (idx_main_v178 (ix2 p q)) = ix1 q := funext fun a => Fin.ext (by match a with | ⟨0, _⟩ => rfl)
  have e5 : idx_main_v180 (idx_main_v181 (ix2 p q)) = ix1 q := funext fun a => Fin.ext (by match a with | ⟨0, _⟩ => rfl)
  simp (config := { implicitDefEqProofs := false }) only
    [act3, pre3, meanSpelt, varSpelt, zeroWord, nodesWord, epsWord, vecOf,
    val_main_v183_apply, val_main_call2_v0_apply, val_main_call2_cst_apply, val_main_v182_apply, val_main_v181_apply,
    val_main_v180_apply, val_main_v179_apply, val_main_v178_apply, val_main_v177_apply, val_main_v176_apply,
    val_main_v175_apply, val_main_v174_apply, val_main_v173_apply, val_main_v172_apply, val_main_v171_apply,
    val_main_cst_36_apply, val_main_v170_apply, val_main_v169_apply, val_main_v168_apply, val_main_v167_apply,
    val_main_v166_apply, val_main_cst_35_apply, val_main_v165_apply, val_main_cst_34_apply, val_main_v164_apply,
    val_main_v163_apply, val_main_v162_apply, val_main_v161_apply, val_main_v160_apply, val_main_v159_apply,
    val_main_cst_33_apply, val_main_v158_apply, val_main_cst_32_apply,
    Ideal.ofBits_def, Ideal.addf_def, Ideal.subf_def, Ideal.mulf_def, Ideal.maximumf_def, Ideal.hostDivf_def,
    Ideal.hostUnary_rsqrt_def, e1, e2, e3, e4, e5]

/-- The first dense layer of the plain program is the specification's, with the centred variance. -/
theorem act3_layer :
    act3 x0 x1 x2 x3 x4 x5 x6 x7 x8 x9 x10 x11 x12 x13
      = denseLayer (fun y => varCentred y) (act2 x0 x1 x2 x3 x4 x5 x6 x7 x8 x9) (matOf x10) (vecOf x11) (vecOf x12)
          (vecOf x13) := by
  rw [act3_eq, pre3_eq]
  rfl

end

end Cert.RefRead

end
-- ==== Proof.RefReadDense4.lean ====
/-
  The second dense layer of the plain program is the specification's dense layer with the centred variance.

  Its pre-activation at (p, q) is the sum over the 256 columns k of the previous activation at (p, k) times the weight
  at (k, q), plus the bias at q. Its activation is the column normalisation of that pre-activation as a plain program
  spells it: every broadcast of a per-column quantity reads that quantity at the entry's column, every column sum runs
  over the rows at the entry's column.
-/
import proofs.«134670_j14499809591810_1_alg».proof.Proof.RefReadStages
import proofs.«134670_j14499809591810_1_alg».proof.Proof.RefReadForms

noncomputable section

open scoped BigOperators

namespace Cert.RefRead

open Cert.ReferenceIdeal Cert.ReferenceIdeal.Read Cert.GcnSpec Idealize.ShloMosaic Idealize.ShloMosaic.ValueIdx

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x256, .f32⟩ : BufTy).Contents (Elt Ideal)) (x11 x12 x13 : (⟨S256, .f32⟩ : BufTy).Contents (Elt Ideal))
  (x14 : (⟨S256x128, .f32⟩ : BufTy).Contents (Elt Ideal)) (x15 x16 x17 : (⟨S128, .f32⟩ : BufTy).Contents (Elt Ideal))
  (x18 : (⟨S128x1, .f32⟩ : BufTy).Contents (Elt Ideal)) (x19 : (⟨S1, .f32⟩ : BufTy).Contents (Elt Ideal))

/-- The pre-activation is the matrix product of the previous activation with the weights, plus the bias. -/
theorem pre4_eq :
    pre4 x0 x1 x2 x3 x4 x5 x6 x7 x8 x9 x10 x11 x12 x13 x14 x15
      = linPre (act3 x0 x1 x2 x3 x4 x5 x6 x7 x8 x9 x10 x11 x12 x13) (matOf x14) (vecOf x15) := by
  funext p q
  have el : ∀ k : Fin 256, lidx_main_v184 (ix2 p q) k = ix2 p k := fun k =>
    funext fun a => Fin.ext (by match a with | ⟨0, _⟩ => rfl | ⟨1, _⟩ => rfl)
  have er : ∀ k : Fin 256, ridx_main_v184 (ix2 p q) k = ix2 k q := fun k =>
    funext fun a => Fin.ext (by match a with | ⟨0, _⟩ => rfl | ⟨1, _⟩ => rfl)
  have eb : idx_main_v185 (idx_main_v186 (ix2 p q)) = ix1 q := funext fun a => Fin.ext (by match a with | ⟨0, _⟩ => rfl)
  simp (config := { implicitDefEqProofs := false }) only
    [pre4, linPre, mm, act3, matOf, vecOf, val_main_v187_apply, val_main_v186_apply, val_main_v185_apply,
    val_main_v184_apply, Ideal.addf_def, el, er, eb]

/-- The activation is the pre-activation normalised by column with the centred variance, scaled, shifted, clamped. -/
theorem act4_eq :
    act4 x0 x1 x2 x3 x4 x5 x6 x7 x8 x9 x10 x11 x12 x13 x14 x15 x16 x17
      = normRelu (varCentred (pre4 x0 x1 x2 x3 x4 x5 x6 x7 x8 x9 x10 x11 x12 x13 x14 x15))
          (pre4 x0 x1 x2 x3 x4 x5 x6 x7 x8 x9 x10 x11 x12 x13 x14 x15) (vecOf x16) (vecOf x17) := by
  funext p q
  refine Eq.trans ?_
    (normRelu_spelt (pre4 x0 x1 x2 x3 x4 x5 x6 x7 x8 x9 x10 x11 x12 x13 x14 x15) (vecOf x16) (vecOf x17) p q)
  -- the rows of the squared deviations' column sum, at the entry's column
  have e1 : ∀ k : Fin 100000, idx_main_v195 (idx_main_v204 (idx_main_v205 (ix2 p q))) k = ix2 k q := fun k =>
    funext fun a => Fin.ext (by match a with | ⟨0, _⟩ => rfl | ⟨1, _⟩ => rfl)
  -- the rows of the mean's column sum, read from any row of the entry's column
  have e2 : ∀ (r k : Fin 100000), idx_main_v188 (idx_main_v191 (idx_main_v192 (ix2 r q))) k = ix2 k q :=
    fun r k => funext fun a => Fin.ext (by match a with | ⟨0, _⟩ => rfl | ⟨1, _⟩ => rfl)
  have e3 : ∀ k : Fin 100000, idx_main_v188 (idx_main_v198 (idx_main_v199 (ix2 p q))) k = ix2 k q := fun k =>
    funext fun a => Fin.ext (by match a with | ⟨0, _⟩ => rfl | ⟨1, _⟩ => rfl)
  -- the scale and the shift at the entry's column
  have e4 : idx_main_v207 (idx_main_v208 (ix2 p q)) = ix1 q := funext fun a => Fin.ext (by match a with | ⟨0, _⟩ => rfl)
  have e5 : idx_main_v210 (idx_main_v211 (ix2 p q)) = ix1 q := funext fun a => Fin.ext (by match a with | ⟨0, _⟩ => rfl)
  simp (config := { implicitDefEqProofs := false }) only
    [act4, pre4, meanSpelt, varSpelt, zeroWord, nodesWord, epsWord, vecOf,
    val_main_v213_apply, val_main_call3_v0_apply, val_main_call3_cst_apply, val_main_v212_apply, val_main_v211_apply,
    val_main_v210_apply, val_main_v209_apply, val_main_v208_apply, val_main_v207_apply, val_main_v206_apply,
    val_main_v205_apply, val_main_v204_apply, val_main_v203_apply, val_main_v202_apply, val_main_v201_apply,
    val_main_cst_41_apply, val_main_v200_apply, val_main_v199_apply, val_main_v198_apply, val_main_v197_apply,
    val_main_v196_apply, val_main_cst_40_apply, val_main_v195_apply, val_main_cst_39_apply, val_main_v194_apply,
    val_main_v193_apply, val_main_v192_apply, val_main_v191_apply, val_main_v190_apply, val_main_v189_apply,
    val_main_cst_38_apply, val_main_v188_apply, val_main_cst_37_apply,
    Ideal.ofBits_def, Ideal.addf_def, Ideal.subf_def, Ideal.mulf_def, Ideal.maximumf_def, Ideal.hostDivf_def,
    Ideal.hostUnary_rsqrt_def, e1, e2, e3, e4, e5]

/-- The second dense layer of the plain program is the specification's, with the centred variance. -/
theorem act4_layer :
    act4 x0 x1 x2 x3 x4 x5 x6 x7 x8 x9 x10 x11 x12 x13 x14 x15 x16 x17
      = denseLayer (fun y => varCentred y) (act3 x0 x1 x2 x3 x4 x5 x6 x7 x8 x9 x10 x11 x12 x13) (matOf x14) (vecOf x15)
          (vecOf x16) (vecOf x17) := by
  rw [act4_eq, pre4_eq]
  rfl

end

end Cert.RefRead

end
-- ==== Proof.RefRead.lean ====
/-
  The plain program's result is the specification's network with the centred variance.

  The head reads, at node p, the sum over k of the last activation at (p, k) times the weight at (k, 0), plus the
  bias, and passes it through one divided by one plus the exponential of the negation: the logistic function. The four
  layers below it are the specification's layers, each over the previous one's activation; composing them gives the
  whole network as a function of the twenty arguments, the graph operator and the degrees being the plain program's
  own, taken from its edge list.
-/
import proofs.«134670_j14499809591810_1_alg».proof.Proof.RefReadConv1
import proofs.«134670_j14499809591810_1_alg».proof.Proof.RefReadConv2
import proofs.«134670_j14499809591810_1_alg».proof.Proof.RefReadDense3
import proofs.«134670_j14499809591810_1_alg».proof.Proof.RefReadDense4

noncomputable section

open scoped BigOperators

namespace Cert.RefRead

open Cert.ReferenceIdeal Cert.ReferenceIdeal.Read Cert.GcnSpec Idealize.ShloMosaic Idealize.ShloMosaic.ValueIdx

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x256, .f32⟩ : BufTy).Contents (Elt Ideal)) (x11 x12 x13 : (⟨S256, .f32⟩ : BufTy).Contents (Elt Ideal))
  (x14 : (⟨S256x128, .f32⟩ : BufTy).Contents (Elt Ideal)) (x15 x16 x17 : (⟨S128, .f32⟩ : BufTy).Contents (Elt Ideal))
  (x18 : (⟨S128x1, .f32⟩ : BufTy).Contents (Elt Ideal)) (x19 : (⟨S1, .f32⟩ : BufTy).Contents (Elt Ideal))

/-- The result at node p is the specification's head over the last activation. -/
theorem head_eq (p : Fin 100000) :
    val_main_v223 (F := Ideal) x0 x1 x2 x3 x4 x5 x6 x7 x8 x9 x10 x11 x12 x13 x14 x15 x16 x17 x18 x19 (ix2 p 0)
      = head (act4 x0 x1 x2 x3 x4 x5 x6 x7 x8 x9 x10 x11 x12 x13 x14 x15 x16 x17) (matOf x18) (vecOf x19) p := by
  have el : ∀ k : Fin 128, lidx_main_v214 (ix2 p 0) k = ix2 p k := fun k =>
    funext fun a => Fin.ext (by match a with | ⟨0, _⟩ => rfl | ⟨1, _⟩ => rfl)
  have er : ∀ k : Fin 128, ridx_main_v214 (ix2 p 0) k = ix2 k 0 := fun k =>
    funext fun a => Fin.ext (by match a with | ⟨0, _⟩ => rfl | ⟨1, _⟩ => rfl)
  have eb : idx_main_v215 (idx_main_v216 (ix2 p 0)) = ix1 0 := funext fun a => Fin.ext (by match a with | ⟨0, _⟩ => rfl)
  unfold head
  rw [← logistic_spelt]
  simp (config := { implicitDefEqProofs := false }) only
    [mm, act4, matOf, vecOf, oneWord, val_main_v223_apply, val_main_v222_apply, val_main_cst_43_apply,
    val_main_v221_apply, val_main_v220_apply, val_main_cst_42_apply, val_main_v219_apply, val_main_v218_apply,
    val_main_v217_apply, val_main_v216_apply, val_main_v215_apply, val_main_v214_apply, Ideal.ofBits_def,
    Ideal.hostDivf_def, Ideal.addf_def, Ideal.hostUnary_exp_def, Ideal.hostNegf_def, Ideal.negf_def, el, er, eb]

/-- The plain program's result at node p is the network with the centred variance, over the plain program's graph
    operator and degrees. -/
theorem ref_result (p : Fin 100000) :
    val_main_v223 (F := Ideal) x0 x1 x2 x3 x4 x5 x6 x7 x8 x9 x10 x11 x12 x13 x14 x15 x16 x17 x18 x19 (ix2 p 0)
      = net (fun y => varCentred y) (aggOfRef x1) (d2Ref x1) (fun p q => x0 (ix2 p q))
          (fun k q => x2 (ix2 k q)) (fun q => x3 (ix1 q)) (fun q => x4 (ix1 q)) (fun q => x5 (ix1 q))
          (fun k q => x6 (ix2 k q)) (fun q => x7 (ix1 q)) (fun q => x8 (ix1 q)) (fun q => x9 (ix1 q))
          (fun k q => x10 (ix2 k q)) (fun q => x11 (ix1 q)) (fun q => x12 (ix1 q)) (fun q => x13 (ix1 q))
          (fun k q => x14 (ix2 k q)) (fun q => x15 (ix1 q)) (fun q => x16 (ix1 q)) (fun q => x17 (ix1 q))
          (fun k q => x18 (ix2 k q)) (fun q => x19 (ix1 q)) p := by
  rw [head_eq, act4_layer, act3_layer, act2_layer, act1_layer]
  rfl

/-- The same at every index of the result array: its second coordinate is the one column, its first the node. -/
theorem ref_result_at (i : S100000x1.Idx) :
    val_main_v223 (F := Ideal) x0 x1 x2 x3 x4 x5 x6 x7 x8 x9 x10 x11 x12 x13 x14 x15 x16 x17 x18 x19 i
      = net (fun y => varCentred y) (aggOfRef x1) (d2Ref x1) (fun p q => x0 (ix2 p q))
          (fun k q => x2 (ix2 k q)) (fun q => x3 (ix1 q)) (fun q => x4 (ix1 q)) (fun q => x5 (ix1 q))
          (fun k q => x6 (ix2 k q)) (fun q => x7 (ix1 q)) (fun q => x8 (ix1 q)) (fun q => x9 (ix1 q))
          (fun k q => x10 (ix2 k q)) (fun q => x11 (ix1 q)) (fun q => x12 (ix1 q)) (fun q => x13 (ix1 q))
          (fun k q => x14 (ix2 k q)) (fun q => x15 (ix1 q)) (fun q => x16 (ix1 q)) (fun q => x17 (ix1 q))
          (fun k q => x18 (ix2 k q)) (fun q => x19 (ix1 q)) (i 0) := by
  obtain ⟨p, z, rfl⟩ : ∃ (p : Fin 100000) (z : Fin 1), i = ix2 p z := ⟨i 0, i 1, eq_ix2 i⟩
  obtain rfl : z = 0 := Subsingleton.elim z 0
  exact ref_result x0 x1 x2 x3 x4 x5 x6 x7 x8 x9 x10 x11 x12 x13 x14 x15 x16 x17 x18 x19 p

end

end Cert.RefRead

end
-- ==== Proof.LibRealEntries.lean ====
/-
  Real entries in the extended reals: general facts, free of any program.

  An extended real is REAL when it is the image of a real number (neither infinity).  Real numbers are closed under
  sums and products, so:
    * a host gather of an array of real numbers holds real numbers (each entry of the result IS an entry of the
      operand, at the operand index the start indices select);
    * a host scatter-add into an array of real numbers, of updates that are real numbers, holds real numbers (each
      entry is the operand's entry plus the finite sum of the updates that land on it);
    * an entry whose flag "|a i| < +infinity" is 1 is real (|x| = max x (−x), and max x (−x) < ⊤ excludes both ends).
-/
import Idealize.ShloMosaic.PureOps.Ideal
import Idealize.ShloMosaic.Lib.ValueIdx

noncomputable section

open scoped BigOperators

namespace Idealize.ShloMosaic.RealEntries

open Idealize.ShloMosaic

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is real. -/
theorem IsReal.sum {ι : Type} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The float word +0.0 denotes a real number. -/
theorem zero_word_real : IsReal (Ideal.ofBits .f32 0x00000000#32) := by
  have h : Ideal.ofBits .f32 0x00000000#32 = 0 := by simp [Ideal.ofBits, Ideal.ieee]
  rw [h]; exact IsReal.zero

/-- A host gather of an array of real numbers holds real numbers: every entry is an entry of the operand. -/
theorem gather_real {s si t : Shape} {w : Nat} (d : GatherDims s si t) (x : s.Idx → EReal) (idx : IVec si w)
    (hx : ∀ i, IsReal (x i)) (j : t.Idx) : IsReal (Host.gather d x idx j) := hx _

/-- A host scatter-add of real updates into an array of real numbers holds real numbers: each entry is the operand's
    plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  have e : Host.scatterAdd d x idx upd i = Ideal.hostScatterAdd d x idx upd i := rfl
  rw [e]; unfold Ideal.hostScatterAdd
  exact (hx i).add (IsReal.sum _ _ fun j _ => hu j)

/-- The float word of +infinity denotes the top of the extended reals. -/
theorem top_word : Ideal.ofBits .f32 0x7F800000#32 = ⊤ := by simp [Ideal.ofBits, Ideal.ieee]

/-- An extended real whose absolute value is below the top is a real number. -/
theorem real_of_abs_lt_top {x : EReal} (h : max x (-x) < ⊤) : IsReal x := by
  induction x using EReal.rec with
  | bot => simp at h
  | top => simp at h
  | coe r => exact ⟨r, rfl⟩

/-- An entry whose flag "|a i| < +infinity" is 1 is a real number. -/
theorem real_of_flag {s : Shape} (a B : FVec Ideal s .f32) (hB : ∀ i, B i = Ideal.ofBits .f32 0x7F800000#32) (i : s.Idx)
    (e : cmpf .olt (Host.absf a) B i = 1#1) : IsReal (a i) := by
  have e' : Ideal.cmp .olt (max (a i) (-(a i))) (B i) = 1#1 := e
  rw [hB i, top_word] at e'
  unfold Ideal.cmp at e'
  refine real_of_abs_lt_top ?_
  by_contra hlt
  simp [hlt] at e'

end Idealize.ShloMosaic.RealEntries

end
-- ==== Proof.LibMoments.lean ====
/-
  The variance from one pass of moments is the centred variance.

  For real numbers y over a nonempty finite index set of N elements, with S = Σ y and m = S / N,

      (Σ y²) · N⁻¹ − (S · N⁻¹)²  =  (Σ (y − m)²) / N   ≥ 0,

  so clamping the left side from below at 0 changes nothing. (Over the reals only: with an infinite
  entry the left side is no longer defined as a difference.)
-/
import Mathlib

namespace Cert.LibMoments

variable {ι : Type*} [Fintype ι]

/-- The centred squares summed: Σ (y − m)² = Σ y² − 2 m Σ y + N m², for any real m. -/
theorem sum_sq_centered (y : ι → ℝ) (m : ℝ) :
    ∑ i, (y i - m) * (y i - m)
      = ∑ i, y i * y i - 2 * m * ∑ i, y i + (Fintype.card ι : ℝ) * (m * m) := by
  have h : ∀ i, (y i - m) * (y i - m) = y i * y i - 2 * m * y i + m * m := fun i => by ring
  simp only [h, Finset.sum_add_distrib, Finset.sum_sub_distrib, ← Finset.mul_sum, Finset.sum_const,
    Finset.card_univ, nsmul_eq_mul]
  ring

/-- Mean of squares minus squared mean (both means taken by multiplying with N⁻¹) is the mean of the
    centred squares (taken by dividing by N, the mean inside by dividing too). -/
theorem var_forms (y : ι → ℝ) (hN : 0 < Fintype.card ι) :
    (∑ i, y i * y i) * (Fintype.card ι : ℝ)⁻¹
        - ((∑ i, y i) * (Fintype.card ι : ℝ)⁻¹) * ((∑ i, y i) * (Fintype.card ι : ℝ)⁻¹)
      = (∑ i, (y i - (∑ j, y j) / (Fintype.card ι : ℝ)) * (y i - (∑ j, y j) / (Fintype.card ι : ℝ)))
          / (Fintype.card ι : ℝ) := by
  have hN' : (Fintype.card ι : ℝ) ≠ 0 := by exact_mod_cast hN.ne'
  rw [sum_sq_centered]
  field_simp
  ring

/-- The one-pass form is nonnegative. -/
theorem var_nonneg (y : ι → ℝ) (hN : 0 < Fintype.card ι) :
    0 ≤ (∑ i, y i * y i) * (Fintype.card ι : ℝ)⁻¹
        - ((∑ i, y i) * (Fintype.card ι : ℝ)⁻¹) * ((∑ i, y i) * (Fintype.card ι : ℝ)⁻¹) := by
  rw [var_forms y hN]
  exact div_nonneg (Finset.sum_nonneg fun i _ => mul_self_nonneg _) (Nat.cast_nonneg _)

/-- Clamping the one-pass form at 0 from below gives the centred form. -/
theorem max_var_forms (y : ι → ℝ) (hN : 0 < Fintype.card ι) :
    max ((∑ i, y i * y i) * (Fintype.card ι : ℝ)⁻¹
        - ((∑ i, y i) * (Fintype.card ι : ℝ)⁻¹) * ((∑ i, y i) * (Fintype.card ι : ℝ)⁻¹)) 0
      = (∑ i, (y i - (∑ j, y j) / (Fintype.card ι : ℝ)) * (y i - (∑ j, y j) / (Fintype.card ι : ℝ)))
          / (Fintype.card ι : ℝ) := by
  rw [max_eq_left (var_nonneg y hN), var_forms y hN]

end Cert.LibMoments
-- ==== Proof.LibRealOps.lean ====
/-
  Real entries in the extended reals, continued: differences, maxima, exponentials, quotients by a nonzero real
  number, the reciprocal square root of a positive real number; the coercion of a finite real sum; and the
  variance law for real entries.

  The variance law: for entries y that are all real numbers, over N > 0 indices, with c the real 1/N,

      max ((Σ y²) · c − (Σ y · c)², 0)  =  (Σ (y − (Σ y)/N)²) / N

  on the extended reals, the quotients being exact divisions by the real number N. The left side is the
  one-pass form (moments, clamped at 0); the right side is the centred form. With an infinite entry the
  law fails, so the hypothesis is needed.
-/
import proofs.«134670_j14499809591810_1_alg».proof.Proof.LibRealEntries
import proofs.«134670_j14499809591810_1_alg».proof.Proof.LibMoments

noncomputable section

open scoped BigOperators

namespace Idealize.ShloMosaic.RealEntries

open Idealize.ShloMosaic

theorem IsReal.coe (r : ℝ) : IsReal (r : EReal) := ⟨r, rfl⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

/-- The coercion of a maximum of real numbers is the maximum of the coercions. -/
theorem coe_max (a b : ℝ) : ((Max.max a b : ℝ) : EReal) = Max.max (a : EReal) (b : EReal) :=
  EReal.coe_strictMono.monotone.map_max

theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The exponential of a real number is a real number. -/
theorem IsReal.exp {x : EReal} (hx : IsReal x) : IsReal (Ideal.exp x) := by
  obtain ⟨a, rfl⟩ := hx; exact ⟨Real.exp a, rfl⟩

/-- A real number divided by a nonzero real number is a real number. -/
theorem IsReal.div_coe {x : EReal} (hx : IsReal x) {y : ℝ} (hy : y ≠ 0) : IsReal (Ideal.div x (y : EReal)) := by
  rw [Ideal.div_coe hy]; exact hx.mul (IsReal.coe _)

/-- The reciprocal square root of a positive real number is a real number. -/
theorem IsReal.rsqrt_pos {r : ℝ} (hr : 0 < r) : IsReal (Ideal.rsqrt (r : EReal)) := by
  rw [Ideal.rsqrt_coe, if_neg (not_lt.2 hr.le), if_neg hr.ne']; exact IsReal.coe _

/-- The coercion of a finite sum of real numbers is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The variance law on the extended reals, for real entries: the one-pass form clamped at 0 is the centred form. -/
theorem max_var_forms_ereal {ι : Type*} [Fintype ι] (y : ι → EReal) (hy : ∀ i, IsReal (y i))
    (hN : 0 < Fintype.card ι) :
    max ((∑ i, y i * y i) * ((1 / (Fintype.card ι : ℝ) : ℝ) : EReal)
          - ((∑ i, y i) * ((1 / (Fintype.card ι : ℝ) : ℝ) : EReal)) * ((∑ i, y i) * ((1 / (Fintype.card ι : ℝ) : ℝ) : EReal))) 0
      = Ideal.div (∑ i, (y i - Ideal.div (∑ j, y j) ((Fintype.card ι : ℝ) : EReal))
                      * (y i - Ideal.div (∑ j, y j) ((Fintype.card ι : ℝ) : EReal)))
          ((Fintype.card ι : ℝ) : EReal) := by
  have hN' : (Fintype.card ι : ℝ) ≠ 0 := by exact_mod_cast hN.ne'
  choose r hr using hy
  have e : y = fun i => (r i : EReal) := funext hr
  rw [e]
  simp only [Ideal.div_coe hN', ← EReal.coe_mul, ← coe_sum, ← EReal.coe_sub]
  rw [← EReal.coe_zero, ← coe_max, EReal.coe_eq_coe_iff]
  have h := Cert.LibMoments.max_var_forms r hN
  simp only [one_div]
  simp only [div_eq_mul_inv] at h
  exact h

end Idealize.ShloMosaic.RealEntries

end
-- ==== Proof.GcnAlgebra.lean ====
/-
  The two ways of taking a column's variance agree on real entries, and hence so do the two networks.

  Write n = 100000 for the number of rows.  For a matrix y whose entries are all real numbers, with column sums
  S = Σ y and means m = S / n, the one-pass form (Σ y²)/n − m² and the centred form (Σ (y − m)²)/n are the same real
  number, and that number is ≥ 0.  The divisor word denotes the real number 100000 and the word added to a variance
  denotes a positive real number, so variance plus that word is a positive real and its reciprocal square root is real.

  Real numbers are closed under every operation a layer uses (finite sums, products, differences, maxima, division by
  the nonzero real n, the reciprocal square root of a positive real), so a layer taken with the centred variance maps
  real operands to a real matrix, provided the neighbourhood-sum operator maps real matrices to real matrices.  Each
  layer's pre-activation is therefore real, the two variances of it agree, and the layers agree; rewriting the network
  from the inside out, the two networks agree.
-/
import proofs.«134670_j14499809591810_1_alg».proof.Proof.GcnSpec
import proofs.«134670_j14499809591810_1_alg».proof.Proof.LibRealEntries
import proofs.«134670_j14499809591810_1_alg».proof.Proof.LibMoments
import proofs.«134670_j14499809591810_1_alg».proof.Proof.LibRealOps

noncomputable section

open scoped BigOperators

namespace Cert.GcnSpec

open Idealize.ShloMosaic Idealize.ShloMosaic.RealEntries

/-! ### The two float words -/

/-- The divisor word denotes the real number 100000 = (2²³ + 4411392) · 2⁻⁷. -/
theorem nodesWord_eq : nodesWord = ((100000 : ℝ) : EReal) := by
  show Ideal.ofBits .f32 0x47C35000#32 = ((100000 : ℝ) : EReal)
  simp [Ideal.ofBits, Ideal.ieee, -EReal.coe_mul]; norm_num

/-- The word added to a variance denotes a positive real number, 10995116 · 2⁻⁴⁰. -/
theorem epsWord_eq : ∃ e : ℝ, 0 < e ∧ epsWord = ((e : ℝ) : EReal) := by
  refine ⟨10995116 * (2 : ℝ) ^ (-40 : ℤ), by positivity, ?_⟩
  show Ideal.ofBits .f32 0x3727C5AC#32 = _
  simp [Ideal.ofBits, Ideal.ieee, -EReal.coe_mul]

theorem nodes_ne_zero : (100000 : ℝ) ≠ 0 := by norm_num

/-! ### The variance of a real column -/

/-- A matrix of real entries is the coercion of a real matrix. -/
theorem exists_real_matrix {C : Nat} (y : Mat C) (hy : ∀ p q, IsReal (y p q)) :
    ∃ r : Fin Rows → Fin C → ℝ, y = fun p q => ((r p q : ℝ) : EReal) := by
  choose r hr using hy
  exact ⟨r, funext fun p => funext fun q => hr p q⟩

/-- On real entries the one-pass variance is the centred variance. -/
theorem var_agree {C : Nat} (y : Mat C) (hy : ∀ p q, IsReal (y p q)) : varOnePass y = varCentred y := by
  obtain ⟨r, rfl⟩ := exists_real_matrix y hy
  funext q
  simp only [varOnePass, varCentred, colMean, nodesWord_eq, Ideal.div_coe nodes_ne_zero, ← EReal.coe_mul, ← coe_sum,
    ← EReal.coe_sub]
  rw [EReal.coe_eq_coe_iff]
  have h := Cert.LibMoments.var_forms (fun p : Fin 100000 => r p q) (by simp)
  simp only [Fintype.card_fin, Nat.cast_ofNat, div_eq_mul_inv] at h
  simp only [one_div]
  exact h

/-- The centred variance of a real column is a real number ≥ 0. -/
theorem varCentred_nonneg_real {C : Nat} (y : Mat C) (hy : ∀ p q, IsReal (y p q)) (q : Fin C) :
    ∃ v : ℝ, 0 ≤ v ∧ varCentred y q = ((v : ℝ) : EReal) := by
  obtain ⟨r, rfl⟩ := exists_real_matrix y hy
  simp only [varCentred, colMean, nodesWord_eq, Ideal.div_coe nodes_ne_zero, ← EReal.coe_mul, ← coe_sum,
    ← EReal.coe_sub]
  refine ⟨_, ?_, rfl⟩
  exact mul_nonneg (Finset.sum_nonneg fun p _ => mul_self_nonneg _) (by norm_num)

/-- The reciprocal square root of (centred variance + the added word) of a real column is real. -/
theorem rsqrt_varCentred_real {C : Nat} (y : Mat C) (hy : ∀ p q, IsReal (y p q)) (q : Fin C) :
    IsReal (Ideal.rsqrt (varCentred y q + epsWord)) := by
  obtain ⟨v, hv, ev⟩ := varCentred_nonneg_real y hy q
  obtain ⟨e, he, ee⟩ := epsWord_eq
  rw [ev, ee, ← EReal.coe_add]
  exact IsReal.rsqrt_pos (by linarith)

/-! ### Real entries through each stage -/

variable {K C : Nat}

theorem mm_real (x : Mat K) (w : Fin K → Fin C → EReal) (hx : ∀ p k, IsReal (x p k)) (hw : ∀ k q, IsReal (w k q)) :
    ∀ p q, IsReal (mm x w p q) :=
  fun p q => IsReal.sum _ _ fun k _ => (hx p k).mul (hw k q)

theorem convPre_real (agg h : Mat C) (d2 : Fin Rows → EReal) (b : Fin C → EReal)
    (hagg : ∀ p q, IsReal (agg p q)) (hh : ∀ p q, IsReal (h p q)) (hd2 : ∀ p, IsReal (d2 p))
    (hb : ∀ q, IsReal (b q)) : ∀ p q, IsReal (convPre agg h d2 b p q) :=
  fun p q => ((hagg p q).add ((hh p q).mul (hd2 p))).add (hb q)

theorem linPre_real (x : Mat K) (w : Fin K → Fin C → EReal) (b : Fin C → EReal)
    (hx : ∀ p k, IsReal (x p k)) (hw : ∀ k q, IsReal (w k q)) (hb : ∀ q, IsReal (b q)) :
    ∀ p q, IsReal (linPre x w b p q) :=
  fun p q => (mm_real x w hx hw p q).add (hb q)

theorem colMean_real (y : Mat C) (hy : ∀ p q, IsReal (y p q)) : ∀ q, IsReal (colMean y q) := by
  intro q
  unfold colMean
  rw [nodesWord_eq]
  exact (IsReal.sum _ _ fun p _ => hy p q).div_coe nodes_ne_zero

/-- Normalising a real matrix by a variance whose shifted reciprocal square root is real gives a real matrix. -/
theorem normRelu_real (var : Fin C → EReal) (y : Mat C) (g be : Fin C → EReal)
    (hv : ∀ q, IsReal (Ideal.rsqrt (var q + epsWord))) (hy : ∀ p q, IsReal (y p q))
    (hg : ∀ q, IsReal (g q)) (hbe : ∀ q, IsReal (be q)) : ∀ p q, IsReal (normRelu var y g be p q) := by
  intro p q
  unfold normRelu
  exact IsReal.max (((((hy p q).sub (colMean_real y hy q)).mul (hv q)).mul (hg q)).add (hbe q)) IsReal.zero

/-- The pre-activation of a graph convolution on real operands is real. -/
theorem convPre_mm_real (aggOf : Mat C → Mat C)
    (hagg : ∀ m : Mat C, (∀ p q, IsReal (m p q)) → ∀ p q, IsReal (aggOf m p q))
    (d2 : Fin Rows → EReal) (x : Mat K) (w : Fin K → Fin C → EReal) (b : Fin C → EReal)
    (hd2 : ∀ p, IsReal (d2 p)) (hx : ∀ p k, IsReal (x p k)) (hw : ∀ k q, IsReal (w k q)) (hb : ∀ q, IsReal (b q)) :
    ∀ p q, IsReal (convPre (aggOf (mm x w)) (mm x w) d2 b p q) :=
  convPre_real _ _ d2 b (hagg _ (mm_real x w hx hw)) (mm_real x w hx hw) hd2 hb

/-- A graph-convolution layer with the centred variance maps real operands to a real matrix. -/
theorem convLayer_centred_real (aggOf : Mat C → Mat C)
    (hagg : ∀ m : Mat C, (∀ p q, IsReal (m p q)) → ∀ p q, IsReal (aggOf m p q))
    (d2 : Fin Rows → EReal) (x : Mat K) (w : Fin K → Fin C → EReal) (b g be : Fin C → EReal)
    (hd2 : ∀ p, IsReal (d2 p)) (hx : ∀ p k, IsReal (x p k)) (hw : ∀ k q, IsReal (w k q)) (hb : ∀ q, IsReal (b q))
    (hg : ∀ q, IsReal (g q)) (hbe : ∀ q, IsReal (be q)) :
    ∀ p q, IsReal (convLayer varCentred aggOf d2 x w b g be p q) := by
  have hy := convPre_mm_real aggOf hagg d2 x w b hd2 hx hw hb
  unfold convLayer
  exact normRelu_real _ _ g be (rsqrt_varCentred_real _ hy) hy hg hbe

/-- A dense layer with the centred variance maps real operands to a real matrix. -/
theorem denseLayer_centred_real (x : Mat K) (w : Fin K → Fin C → EReal) (b g be : Fin C → EReal)
    (hx : ∀ p k, IsReal (x p k)) (hw : ∀ k q, IsReal (w k q)) (hb : ∀ q, IsReal (b q))
    (hg : ∀ q, IsReal (g q)) (hbe : ∀ q, IsReal (be q)) :
    ∀ p q, IsReal (denseLayer varCentred x w b g be p q) := by
  have hy := linPre_real x w b hx hw hb
  unfold denseLayer
  exact normRelu_real _ _ g be (rsqrt_varCentred_real _ hy) hy hg hbe

/-! ### The layers and the network agree -/

/-- On real operands a graph-convolution layer is the same with either variance. -/
theorem convLayer_agree (aggOf : Mat C → Mat C)
    (hagg : ∀ m : Mat C, (∀ p q, IsReal (m p q)) → ∀ p q, IsReal (aggOf m p q))
    (d2 : Fin Rows → EReal) (x : Mat K) (w : Fin K → Fin C → EReal) (b g be : Fin C → EReal)
    (hd2 : ∀ p, IsReal (d2 p)) (hx : ∀ p k, IsReal (x p k)) (hw : ∀ k q, IsReal (w k q)) (hb : ∀ q, IsReal (b q)) :
    convLayer varOnePass aggOf d2 x w b g be = convLayer varCentred aggOf d2 x w b g be := by
  unfold convLayer
  rw [var_agree _ (convPre_mm_real aggOf hagg d2 x w b hd2 hx hw hb)]

/-- On real operands a dense layer is the same with either variance. -/
theorem denseLayer_agree (x : Mat K) (w : Fin K → Fin C → EReal) (b g be : Fin C → EReal)
    (hx : ∀ p k, IsReal (x p k)) (hw : ∀ k q, IsReal (w k q)) (hb : ∀ q, IsReal (b q)) :
    denseLayer varOnePass x w b g be = denseLayer varCentred x w b g be := by
  unfold denseLayer
  rw [var_agree _ (linPre_real x w b hx hw hb)]

/-- On real operands the network is the same with either variance: each layer's input is the previous layer in its
    centred form, which is real. -/
theorem net_agree (aggOf : Mat 128 → Mat 128)
    (hagg : ∀ m : Mat 128, (∀ p q, IsReal (m p q)) → ∀ p q, IsReal (aggOf m p q))
    (d2 : Fin Rows → EReal) (x : Mat 128)
    (wg1 : Fin 128 → Fin 128 → EReal) (bg1 g1 be1 : Fin 128 → EReal)
    (wg2 : Fin 128 → Fin 128 → EReal) (bg2 g2 be2 : Fin 128 → EReal)
    (wm1 : Fin 128 → Fin 256 → EReal) (bm1 g3 be3 : Fin 256 → EReal)
    (wm2 : Fin 256 → Fin 128 → EReal) (bm2 g4 be4 : Fin 128 → EReal)
    (wo : Fin 128 → Fin 1 → EReal) (bo : Fin 1 → EReal)
    (hd2 : ∀ p, IsReal (d2 p)) (hx : ∀ p k, IsReal (x p k))
    (hwg1 : ∀ k q, IsReal (wg1 k q)) (hbg1 : ∀ q, IsReal (bg1 q)) (hg1 : ∀ q, IsReal (g1 q)) (hbe1 : ∀ q, IsReal (be1 q))
    (hwg2 : ∀ k q, IsReal (wg2 k q)) (hbg2 : ∀ q, IsReal (bg2 q)) (hg2 : ∀ q, IsReal (g2 q)) (hbe2 : ∀ q, IsReal (be2 q))
    (hwm1 : ∀ k q, IsReal (wm1 k q)) (hbm1 : ∀ q, IsReal (bm1 q)) (hg3 : ∀ q, IsReal (g3 q)) (hbe3 : ∀ q, IsReal (be3 q))
    (hwm2 : ∀ k q, IsReal (wm2 k q)) (hbm2 : ∀ q, IsReal (bm2 q)) :
    net (fun y => varOnePass y) aggOf d2 x wg1 bg1 g1 be1 wg2 bg2 g2 be2 wm1 bm1 g3 be3 wm2 bm2 g4 be4 wo bo
      = net (fun y => varCentred y) aggOf d2 x wg1 bg1 g1 be1 wg2 bg2 g2 be2 wm1 bm1 g3 be3 wm2 bm2 g4 be4 wo bo := by
  have r1 := convLayer_centred_real aggOf hagg d2 x wg1 bg1 g1 be1 hd2 hx hwg1 hbg1 hg1 hbe1
  have h1 := convLayer_agree aggOf hagg d2 x wg1 bg1 g1 be1 hd2 hx hwg1 hbg1
  have r2 := convLayer_centred_real aggOf hagg d2 _ wg2 bg2 g2 be2 hd2 r1 hwg2 hbg2 hg2 hbe2
  have h2 := convLayer_agree aggOf hagg d2 _ wg2 bg2 g2 be2 hd2 r1 hwg2 hbg2
  have r3 := denseLayer_centred_real _ wm1 bm1 g3 be3 r2 hwm1 hbm1 hg3 hbe3
  have h3 := denseLayer_agree _ wm1 bm1 g3 be3 r2 hwm1 hbm1
  have h4 := denseLayer_agree _ wm2 bm2 g4 be4 r3 hwm2 hbm2
  show head (denseLayer varOnePass (denseLayer varOnePass (convLayer varOnePass aggOf d2
      (convLayer varOnePass aggOf d2 x wg1 bg1 g1 be1) wg2 bg2 g2 be2) wm1 bm1 g3 be3) wm2 bm2 g4 be4) wo bo
    = head (denseLayer varCentred (denseLayer varCentred (convLayer varCentred aggOf d2
      (convLayer varCentred aggOf d2 x wg1 bg1 g1 be1) wg2 bg2 g2 be2) wm1 bm1 g3 be3) wm2 bm2 g4 be4) wo bo
  rw [h1, h2, h3, h4]

end Cert.GcnSpec

end
-- ==== Proof.LibSegment.lean ====
/-
  General lemmas for a graph layer with a per-node scale, at the ideal instance (floats are extended reals, every
  operation exact).  A row gather and a vector gather read at an index (the start index read signed and clamped); the
  row scatter's landing rule (the start index read signed, not clamped, dropped outside); a nonnegative real factor
  moves inside a finite sum of extended reals; and with these, the layer theorem: scaling the gathered rows before
  the scatter-add and the sums after it by the per-node scale is the same as scaling every edge's row by the product
  of the scales of its two ends.  Last, the scale itself: an inverse square root selected where the degree is
  positive, zero elsewhere, is a nonnegative real.
-/
import Idealize.ShloMosaic.Lib.ValueIdx
import Idealize.ShloMosaic.Lib.Pipeline.Value
import Idealize.ShloMosaic.PureOps.Ideal
import Idealize.ShloMosaic.PureOps.Ideal.Laws
import Mathlib.Data.EReal.Operations

noncomputable section

open scoped BigOperators

namespace Cert.LibSegment

open Idealize.ShloMosaic Idealize.ShloMosaic.ValueIdx

/-! ## The three dimension-number records -/

/-- Row gather: operand `[N, C]`, start indices `[E, 1]`, result `[E, C]`; result row `e` is the operand's row at the
    start index `idx[e, 0]`.  The conditions `wf` are decided on a program's literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Vector gather: operand `[N]`, start indices `[E, 1]`, result `[E]`; result element `e` is the operand's element at
    the start index `idx[e, 0]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, C]`, scatter indices `[E, 1]`, updates `[E, C]`; update row `e` goes to the operand's row
    `idx[e, 0]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

section Gather
variable {α : Type}

/-- THE ROW GATHER READ AT `(e, c)`: the operand at row `idx[e, 0]` (read signed, clamped into `[0, N − 1]`) and
    column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e 0)).toInt.toNat (N - 1), by omega⟩ c) := by
  unfold Host.gather
  congr 1
  funext a
  refine Fin.ext ?_
  show (rowGather N E C wf).start (ix2 e c) idx a + (rowGather N E C wf).batchCoord (ix2 e c) a
      + (rowGather N E C wf).offCoord (ix2 e c) a = _
  rw [GatherDims.batchCoord_eq_zero _ _ _ List.not_mem_nil]
  match a with
  | ⟨0, _⟩ =>
    -- the row axis: collapsed, so no offset; the start index, clamped
    rw [GatherDims.offCoord_eq_zero _ _ _
      (fun h => ((GatherDims.mem_sKept _ _).mp h).1 (List.mem_singleton.mpr rfl))]
    simp only [Nat.add_zero]
    unfold GatherDims.start
    rw [dif_pos (show (⟨0, Nat.zero_lt_two⟩ : Fin 2) ∈ (rowGather N E C wf).startIndexMap from
      List.mem_singleton.mpr rfl)]
    have hsi : (rowGather N E C wf).siIdx (ix2 e c)
        ⟨List.idxOf (⟨0, Nat.zero_lt_two⟩ : Fin 2) (rowGather N E C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not in the start index map, so start 0; the offset is the result's column
    unfold GatherDims.start
    rw [dif_neg (by simp)]
    unfold GatherDims.offCoord
    have hk : (⟨1, Nat.one_lt_two⟩ : Fin 2) ∈ (rowGather N E C wf).sKept := by
      rw [GatherDims.mem_sKept]; simp
    rw [dif_pos hk, Nat.add_zero, Nat.zero_add]
    rfl

/-- THE VECTOR GATHER READ AT `e`: the operand at `idx[e, 0]`, read signed and clamped into `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Where an update row lands -/

section Scatter

/-- The row scatter's start on the row axis for update index `(e, c)`: the scatter index `idx[e, 0]`, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx ⟨0, Nat.zero_lt_two⟩ = (idx (ix2 e 0)).toInt := by
  unfold ScatterDims.start
  rw [dif_pos (show (⟨0, Nat.zero_lt_two⟩ : Fin 2) ∈ (rowScatter N E C wf).scatterDimsToOperandDims from
    List.mem_singleton.mpr rfl)]
  have hsi : (rowScatter N E C wf).siIdx (ix2 e c)
      ⟨List.idxOf (⟨0, Nat.zero_lt_two⟩ : Fin 2) (rowScatter N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … its window coordinate on the row axis is `0` (the axis is an inserted one) … -/
theorem rowScatter_window0 {N E C : Nat}
    (wf : ScatterDims.WF ⟨2, ![N, C]⟩ ⟨2, ![E, 1]⟩ ⟨2, ![E, C]⟩ [1] [0] [0] 1) (e : Fin E) (c : Fin C) :
    (rowScatter N E C wf).window (ix2 e c) ⟨0, Nat.zero_lt_two⟩ = 0 := by
  unfold ScatterDims.window
  rw [dif_neg (by simp [ScatterDims.sKept, Shape.kept])]

/-- … its start on the column axis is `0` (the scatter index does not name that axis) … -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx ⟨1, Nat.one_lt_two⟩ = 0 := by
  unfold ScatterDims.start
  rw [dif_neg (by simp)]

/-- … and its window coordinate on the column axis is the update's column. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatter N E C wf).window (ix2 e c) ⟨1, Nat.one_lt_two⟩ = c.val := by
  unfold ScatterDims.window
  have hk : (⟨1, Nat.one_lt_two⟩ : Fin 2) ∈ (rowScatter N E C wf).sKept := by
    simp [ScatterDims.sKept, Shape.kept]
  rw [dif_pos hk]
  rfl

/-- WHERE AN UPDATE LANDS: update element `(e, c)` of the row scatter lands on operand element `(v, c')` exactly when
    the scatter index `idx[e, 0]`, read signed and not clamped, is `v` and the columns agree. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c c' : Fin C) (v : Fin N) :
    (rowScatter N E C wf).resultIdx? (ix2 e c) idx = some (ix2 v c')
      ↔ (idx (ix2 e 0)).toInt = (v.val : Int) ∧ c = c' := by
  have hs0 := rowScatter_start0 wf idx e c
  have hw0 := rowScatter_window0 wf e c
  have hs1 := rowScatter_start1 wf idx e c
  have hw1 := rowScatter_window1 wf e c
  unfold ScatterDims.resultIdx?
  constructor
  · intro h
    split at h
    · rename_i hin
      have hf := Option.some.inj h
      have h0 := congrArg (fun f => (f ⟨0, Nat.zero_lt_two⟩).val) hf
      have h1 := congrArg (fun f => (f ⟨1, Nat.one_lt_two⟩).val) hf
      have hin0 := (hin ⟨0, Nat.zero_lt_two⟩).1
      simp only [hs0, hw0, hs1, hw1] at h0 h1 hin0
      change ((idx (ix2 e 0)).toInt + ((0 : Nat) : Int)).toNat = v.val at h0
      change (0 + (c.val : Int)).toNat = c'.val at h1
      refine ⟨by omega, Fin.ext (by omega)⟩
    · exact absurd h (by simp)
  · rintro ⟨hv, rfl⟩
    have hin : ∀ a : Fin 2, 0 ≤ (rowScatter N E C wf).start (ix2 e c) idx a + (rowScatter N E C wf).window (ix2 e c) a ∧
        (rowScatter N E C wf).start (ix2 e c) idx a + (rowScatter N E C wf).window (ix2 e c) a
          < ((⟨2, ![N, C]⟩ : Shape).size a : Nat) := by
      intro a
      match a with
      | ⟨0, _⟩ =>
        rw [hs0, hw0, hv]
        have := v.isLt
        change 0 ≤ (v.val : Int) + ((0 : Nat) : Int) ∧ (v.val : Int) + ((0 : Nat) : Int) < (N : Int)
        omega
      | ⟨1, _⟩ =>
        rw [hs1, hw1]
        have := c.isLt
        change 0 ≤ (0 : Int) + (c.val : Int) ∧ (0 : Int) + (c.val : Int) < (C : Int)
        omega
    rw [dif_pos hin]
    congr 1
    funext a
    refine Fin.ext ?_
    match a with
    | ⟨0, _⟩ =>
      change ((rowScatter N E C wf).start (ix2 e c) idx ⟨0, Nat.zero_lt_two⟩
        + ((rowScatter N E C wf).window (ix2 e c) ⟨0, Nat.zero_lt_two⟩ : Nat)).toNat = v.val
      rw [hs0, hw0, hv]; omega
    | ⟨1, _⟩ =>
      change ((rowScatter N E C wf).start (ix2 e c) idx ⟨1, Nat.one_lt_two⟩
        + ((rowScatter N E C wf).window (ix2 e c) ⟨1, Nat.one_lt_two⟩ : Nat)).toNat = c.val
      rw [hs1, hw1]; omega

end Scatter

/-! ## A nonnegative real factor and a finite sum of extended reals -/

section Sum

/-- A NONNEGATIVE REAL FACTOR MOVES INSIDE A FINITE SUM of extended reals: `r · Σ f = Σ r · f` for `0 ≤ r` real. No
    term need be finite: multiplication by a nonnegative finite factor distributes over every sum of two extended
    reals. -/
theorem mul_sum_of_nonneg {ι : Type*} (r : ℝ) (hr : 0 ≤ r) (s : Finset ι) (f : ι → EReal) :
    (r : EReal) * ∑ j ∈ s, f j = ∑ j ∈ s, (r : EReal) * f j := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

end Sum

/-! ## Two broadcasts read at an index -/

section Broadcast
variable {α : Type}

/-- A vector `[n]` broadcast to a column `[n, 1]`, read at `(a, 0)`: the vector's element `a`. -/
theorem colBroadcast_apply {n : Nat}
    (h : (⟨1, ![n]⟩ : Shape).BroadcastsInDim ⟨2, ![n, 1]⟩ (![0] : Fin 1 → Fin 2))
    (x : (⟨1, ![n]⟩ : Shape).Idx → α) (a : Fin n) (z : Fin 1) :
    broadcastInDim ⟨2, ![n, 1]⟩ ![0] h x (ix2 a z) = x (ix1 a) := by
  refine broadcastInDim_apply _ h x _ _ ?_
  intro b
  obtain rfl : b = 0 := Subsingleton.elim _ _
  show a.val = if n = 1 then 0 else a.val
  have := a.isLt
  split <;> omega

/-- A column `[n, 1]` broadcast along rows to `[n, m]`, read at `(a, b)`: the column's element `(a, 0)`. -/
theorem rowBroadcast_apply {n m : Nat}
    (h : (⟨2, ![n, 1]⟩ : Shape).BroadcastsInDim ⟨2, ![n, m]⟩ (![0, 1] : Fin 2 → Fin 2))
    (x : (⟨2, ![n, 1]⟩ : Shape).Idx → α) (a : Fin n) (b : Fin m) :
    broadcastInDim ⟨2, ![n, m]⟩ ![0, 1] h x (ix2 a b) = x (ix2 a 0) := by
  refine broadcastInDim_apply _ h x _ _ ?_
  intro d
  match d with
  | ⟨0, _⟩ =>
    show a.val = if n = 1 then 0 else a.val
    have := a.isLt
    split <;> omega
  | ⟨1, _⟩ => rfl

/-- The two together: a vector `[n]` broadcast to `[n, m]` through a column, read at `(a, b)`, is its element `a`. -/
theorem vecBroadcast_apply {n m : Nat}
    (h1 : (⟨1, ![n]⟩ : Shape).BroadcastsInDim ⟨2, ![n, 1]⟩ (![0] : Fin 1 → Fin 2))
    (h2 : (⟨2, ![n, 1]⟩ : Shape).BroadcastsInDim ⟨2, ![n, m]⟩ (![0, 1] : Fin 2 → Fin 2))
    (x : (⟨1, ![n]⟩ : Shape).Idx → α) (a : Fin n) (b : Fin m) :
    broadcastInDim ⟨2, ![n, m]⟩ ![0, 1] h2 (broadcastInDim ⟨2, ![n, 1]⟩ ![0] h1 x) (ix2 a b) = x (ix1 a) := by
  rw [rowBroadcast_apply, colBroadcast_apply]

end Broadcast

/-! ## Normalizing an index -/

section Normalize

/-- NORMALIZING AN INDEX, `x < 0 ? x + n : x` with the comparison signed, leaves a nonnegative one alone. -/
theorem normalize_of_nonneg {s : Shape} (x zeros n : IVec s 32) (hz : ∀ i, zeros i = 0#32) (i : s.Idx)
    (h : 0 ≤ (x i).toInt) : select (cmpi .slt x zeros) (addi x n) x i = x i := by
  show Scalar.select (IntOp.cmpi .slt (x i) (zeros i)) (addi x n i) (x i) = x i
  have hc : IntOp.cmpi .slt (x i) (zeros i) = 0#1 := by
    have hlt : (x i).slt 0#32 = false := by
      rw [BitVec.slt, decide_eq_false_iff_not, BitVec.toInt_zero]; exact not_lt.mpr h
    rw [hz]; unfold IntOp.cmpi; simp only [hlt]; rfl
  rw [hc, select_zero]

/-- The same with the zero and the addend the broadcast integer scalars `0` and `k`, as a program writes
    `v < 0 ? v + k : v` over an index vector: a nonnegative index is left alone, whatever `k` is. -/
theorem normalize_const_of_nonneg {E : Nat} (v : IVec ⟨1, ![E]⟩ 32) (k : BitVec 32)
    (h0 : (⟨0, ![]⟩ : Shape).BroadcastsInDim ⟨1, ![E]⟩ (![] : Fin 0 → Fin 1))
    (e : (⟨1, ![E]⟩ : Shape).Idx) (h : 0 ≤ (v e).toInt) :
    select (cmpi .slt v (broadcastInDim ⟨1, ![E]⟩ ![] h0 (constantI ⟨0, ![]⟩ 32 0#32)))
      (addi v (broadcastInDim ⟨1, ![E]⟩ ![] h0 (constantI ⟨0, ![]⟩ 32 k))) v e = v e :=
  normalize_of_nonneg v _ _ (fun _ => rfl) e h

end Normalize

/-! ## The layer: a per-node scale before and after the scatter-add, or per edge -/

section Layer

/-- THE LAYER THEOREM.  `H : [N, C]` node features, `D : [N]` a per-node scale that is everywhere a nonnegative real,
    `src'`, `dst`, `dst'` : `[E]` edge ends, `dst'` agreeing with `dst` wherever `dst` is nonnegative.  Scaling the rows
    of `H` by `D`, gathering the source rows, scatter-adding them at `dst` onto `Z` and scaling the result's rows by
    `D` again, is scatter-adding, onto the scaled `Z`, the gathered rows of `H` each scaled by the product of `D` at the
    edge's two ends (both read through the clamping gather, the second at `dst'`).  For an update that lands on row
    `v` the scatter index is `v` itself, `0 ≤ v < N`, so `dst'` is `dst` there and the clamp leaves it alone: the second
    factor is `D v`, the common nonnegative real factor, which moves inside the sum. -/
theorem layer_eq {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2)) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (Host.gather (rowGather N E C wfg)
            (mulf (F := Ideal) (φ := .f32) H
              (broadcastInDim ⟨2, ![N, C]⟩ ![0, 1] h2 (broadcastInDim ⟨2, ![N, 1]⟩ ![0] h1 D)))
            (broadcastInDim ⟨2, ![E, 1]⟩ ![0] hi src')))
      = Host.scatterAdd (F := Ideal) (φ := .f32) (rowScatter N E C wfs)
          (mulf (F := Ideal) (φ := .f32)
            (broadcastInDim ⟨2, ![N, C]⟩ ![0, 1] h2 (broadcastInDim ⟨2, ![N, 1]⟩ ![0] h1 D)) Z)
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) := by
  funext i
  obtain ⟨v, c, rfl⟩ : ∃ (v : Fin N) (c : Fin C), i = ix2 v c := ⟨i 0, i 1, eq_ix2 i⟩
  obtain ⟨r, hr, hDv⟩ := hD (ix1 v)
  simp only [mulf_apply, Host.scatterAdd, Ideal.hostScatterAdd_def, Ideal.hostScatterAdd]
  rw [vecBroadcast_apply h1 h2 D v c, hDv, EReal.left_distrib_of_nonneg_of_ne_top (EReal.coe_nonneg.mpr hr) (EReal.coe_ne_top r),
    mul_sum_of_nonneg r hr]
  congr 1
  refine Finset.sum_congr rfl ?_
  intro j hj
  obtain ⟨e, c', rfl⟩ : ∃ (e : Fin E) (c' : Fin C), j = ix2 e c' := ⟨j 0, j 1, eq_ix2 j⟩
  obtain ⟨hl, rfl⟩ := (rowScatter_lands wfs _ e c' c v).mp (Finset.mem_filter.mp hj).2
  -- the update lands on row `v`: the scatter index is `v`, so `dst'` is `dst` here and the clamp leaves it alone
  rw [colBroadcast_apply hi dst e 0] at hl
  have hd' : dst' (ix1 e) = dst (ix1 e) := hdst _ (by rw [hl]; exact Int.natCast_nonneg _)
  have hb : broadcastInDim ⟨2, ![E, 1]⟩ ![0] hi dst' (ix2 e 0) = dst (ix1 e) :=
    (colBroadcast_apply hi dst' e 0).trans hd'
  have hg' : ∀ h, (⟨min (broadcastInDim ⟨2, ![E, 1]⟩ ![0] hi dst' (ix2 e 0)).toInt.toNat (N - 1), h⟩ : Fin N) = v :=
    fun h => Fin.ext (by
      show min (broadcastInDim ⟨2, ![E, 1]⟩ ![0] hi dst' (ix2 e 0)).toInt.toNat (N - 1) = v.val
      rw [hb, hl]; have := v.isLt; omega)
  rw [rowGather_apply hN wfg _ _ e c', rowGather_apply hN wfg H _ e c', vecBroadcast_apply hi' he2 _ e c',
    mulf_apply, mulf_apply, vecGather_apply hN wfv D _ e, vecGather_apply hN wfv D _ e,
    vecBroadcast_apply h1 h2 D _ c', hg', hDv]
  -- `r · (h · d) = h · (d · r)`
  rw [mul_left_comm, mul_comm (r : EReal)]

/-- The layer theorem with the scaled features narrowed to `bf16` before the gather and the gathered rows widened
    back to `f32` after it: on extended reals both format changes are the identity, so this is `layer_eq`. -/
theorem layer_eq_conv {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2))
    (hlt : FTy.bf16.bits < FTy.f32.bits) (hlt' : FTy.bf16.bits < FTy.f32.bits) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (extf (F := Ideal) .f32
            (Host.gather (rowGather N E C wfg)
              (truncf (F := Ideal) .bf16
                (mulf (F := Ideal) (φ := .f32) H
                  (broadcastInDim ⟨2, ![N, C]⟩ ![0, 1] h2 (broadcastInDim ⟨2, ![N, 1]⟩ ![0] h1 D))) hlt)
              (broadcastInDim ⟨2, ![E, 1]⟩ ![0] hi src')) hlt'))
      = Host.scatterAdd (F := Ideal) (φ := .f32) (rowScatter N E C wfs)
          (mulf (F := Ideal) (φ := .f32)
            (broadcastInDim ⟨2, ![N, C]⟩ ![0, 1] h2 (broadcastInDim ⟨2, ![N, 1]⟩ ![0] h1 D)) Z)
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) :=
  layer_eq hN wfg wfv wfs H Z D hD src' dst dst' hdst h1 h2 hi hi' he2

/-- A product with an array of zeros is that array: `x · 0 = 0` for every extended real `x`, the infinities included. -/
theorem mulf_zeros {s : Shape} {φ : FTy} (A Z : s.Idx → EReal) (hZ : ∀ i, Z i = 0) :
    mulf (F := Ideal) (φ := φ) A Z = Z := by
  funext i
  rw [mulf_apply, hZ i, mul_zero]

/-- The layer theorem (with the format changes around the gather) over an operand of zeros: the same operand on both
    sides. -/
theorem layer_eq_conv_zero {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (hZ : ∀ i, Z i = 0) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2))
    (hlt : FTy.bf16.bits < FTy.f32.bits) (hlt' : FTy.bf16.bits < FTy.f32.bits) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (extf (F := Ideal) .f32
            (Host.gather (rowGather N E C wfg)
              (truncf (F := Ideal) .bf16
                (mulf (F := Ideal) (φ := .f32) H
                  (broadcastInDim ⟨2, ![N, C]⟩ ![0, 1] h2 (broadcastInDim ⟨2, ![N, 1]⟩ ![0] h1 D))) hlt)
              (broadcastInDim ⟨2, ![E, 1]⟩ ![0] hi src')) hlt'))
      = Host.scatterAdd (F := Ideal) (φ := .f32) (rowScatter N E C wfs) Z
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) := by
  rw [layer_eq_conv hN wfg wfv wfs H Z D hD src' dst dst' hdst h1 h2 hi hi' he2 hlt hlt', mulf_zeros _ Z hZ]

end Layer

/-! ## The scale: an inverse square root where the degree is positive, zero elsewhere -/

section Scale

/-- The inverse square root of a positive extended real is a nonnegative real (`0` at `⊤`, `(√x)⁻¹` at a real `x`). -/
theorem rsqrt_nonneg_of_pos (d : EReal) (hd : 0 < d) : ∃ r : ℝ, 0 ≤ r ∧ Ideal.rsqrt d = (r : EReal) := by
  induction d using EReal.rec with
  | bot => exact absurd hd (not_lt_bot)
  | top => exact ⟨0, le_refl 0, by rw [Ideal.rsqrt_top]; rfl⟩
  | coe x =>
    have hx : 0 < x := EReal.coe_pos.mp hd
    refine ⟨(Real.sqrt x)⁻¹, inv_nonneg.mpr (Real.sqrt_nonneg x), ?_⟩
    rw [Ideal.rsqrt_coe, if_neg (not_lt.mpr hx.le), if_neg (ne_of_gt hx)]

/-- ONE ELEMENT OF THE SCALE: the inverse square root of `d` selected where `d > 0`, a zero elsewhere, is a nonnegative
    real — for every extended real `d`, the infinities and the negative reals included. -/
theorem dinv_nonneg (d z0 z : EReal) (hz0 : z0 = 0) (hz : z = 0) :
    ∃ r : ℝ, 0 ≤ r ∧ Scalar.select (Scalar.cmpf (F := Ideal) (φ := .f32) .ogt d z0) (Ideal.rsqrt d) z = (r : EReal) := by
  subst hz0 hz
  by_cases hd : (0 : EReal) < d
  · obtain ⟨r, hr, he⟩ := rsqrt_nonneg_of_pos d hd
    refine ⟨r, hr, ?_⟩
    have hc : Scalar.cmpf (F := Ideal) (φ := .f32) .ogt d 0 = 1#1 := by
      rw [Ideal.scalar_cmpf_def]; unfold Ideal.cmp; simp [hd]
    rw [hc, select_one, he]
  · refine ⟨0, le_refl 0, ?_⟩
    have hc : Scalar.cmpf (F := Ideal) (φ := .f32) .ogt d 0 = 0#1 := by
      rw [Ideal.scalar_cmpf_def]; unfold Ideal.cmp; simp [hd]
    rw [hc, select_zero]; rfl

/-- THE SCALE IS A NONNEGATIVE REAL EVERYWHERE: `select (deg > 0) (rsqrt deg) 0` over any shape. -/
theorem dinv_nonneg_vec {s : Shape} (deg zeros zeros' : s.Idx → EReal)
    (hz : ∀ i, zeros i = 0) (hz' : ∀ i, zeros' i = 0) (i : s.Idx) :
    ∃ r : ℝ, 0 ≤ r ∧ select (cmpf (F := Ideal) (φ := .f32) .ogt deg zeros)
      (Host.rsqrt (F := Ideal) (φ := .f32) deg) zeros' i = (r : EReal) :=
  dinv_nonneg (deg i) (zeros i) (zeros' i) (hz i) (hz' i)

/-- The `f32` zero scalar broadcast to any shape reads `0` everywhere. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) :=
  Ideal.ofBits_zero_f32

/-- The scale with its two zero arrays the broadcast `f32` zero scalar, as a program writes
    `where(deg > 0, rsqrt(deg), 0)`. -/
theorem dinv_nonneg_zeros {s : Shape} (deg : s.Idx → EReal)
    (h h' : (⟨0, ![]⟩ : Shape).BroadcastsInDim s (![] : Fin 0 → Fin s.rank)) (i : s.Idx) :
    ∃ r : ℝ, 0 ≤ r ∧ select
      (cmpf (F := Ideal) (φ := .f32) .ogt deg (broadcastInDim s ![] h (constant (F := Ideal) ⟨0, ![]⟩ .f32 0x00000000#32)))
      (Host.rsqrt (F := Ideal) (φ := .f32) deg)
      (broadcastInDim s ![] h' (constant (F := Ideal) ⟨0, ![]⟩ .f32 0x00000000#32)) i = (r : EReal) :=
  dinv_nonneg_vec deg _ _ (zeros_apply h) (zeros_apply h') i

/-- The same with the second zero scalar passed through an identity conversion before its broadcast. -/
theorem dinv_nonneg_where {s : Shape} (deg : s.Idx → EReal)
    (h h' : (⟨0, ![]⟩ : Shape).BroadcastsInDim s (![] : Fin 0 → Fin s.rank)) (i : s.Idx) :
    ∃ r : ℝ, 0 ≤ r ∧ select
      (cmpf (F := Ideal) (φ := .f32) .ogt deg (broadcastInDim s ![] h (constant (F := Ideal) ⟨0, ![]⟩ .f32 0x00000000#32)))
      (Host.rsqrt (F := Ideal) (φ := .f32) deg)
      (broadcastInDim s ![] h' (id (constant (F := Ideal) ⟨0, ![]⟩ .f32 0x00000000#32))) i = (r : EReal) :=
  dinv_nonneg_zeros deg h h' i

end Scale

end Cert.LibSegment

end
-- ==== Proof.LibDegree.lean ====
/-
  General lemmas about counting the edges that arrive at a node, at the ideal instance (floats are extended reals,
  every operation exact), free of any program.

  A mean over incoming edges divides a node's sum by the number of edges that arrive at it (or by one where none
  does).  Two programs may count those edges differently: a scatter-add of a FLAT array of ones `[E]` into `[N]`, or a
  scatter-add of a COLUMN of ones `[E, 1]` into `[N, 1]`; and they may divide by the count, or multiply by its
  reciprocal.  Here:
    * where an update of the flat scatter lands (its start index read signed, not clamped, dropped outside);
    * the flat and the column scatter-add of the same two constants (one for every operand entry, one for every
      update) agree, node by node: the updates that land on node `v` are, in both, the edges whose index is `v`;
    * a scatter-add of ones into zeros holds a natural number at every entry;
    * for a natural number `n`, `max n 1` is a nonzero real, so multiplying by `1 / max n 1` is dividing by
      `max n 1`, on every extended real.
-/
import Idealize.ShloMosaic.Lib.ValueIdx
import Idealize.ShloMosaic.PureOps.Ideal
import Mathlib.Data.EReal.Operations
import proofs.«134670_j14499809591810_1_alg».proof.Proof.LibSegment

noncomputable section

open scoped BigOperators

namespace Cert.LibDegree

open Idealize.ShloMosaic Idealize.ShloMosaic.ValueIdx Cert.LibSegment

/-! ## The flat scatter -/

/-- Flat scatter: operand `[N]`, scatter indices `[E, 1]`, updates `[E]`; update `e` goes to the operand's entry
    `idx[e, 0]`.  There is no window axis: the operand's one axis is an inserted one. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The flat scatter's start for update `e`: the scatter index `idx[e, 0]`, read signed. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx ⟨0, Nat.one_pos⟩ = (idx (ix2 e 0)).toInt := by
  unfold ScatterDims.start
  rw [dif_pos (show (⟨0, Nat.one_pos⟩ : Fin 1) ∈ (vecScatter N E wf).scatterDimsToOperandDims from
    List.mem_singleton.mpr rfl)]
  have hsi : (vecScatter N E wf).siIdx (ix1 e)
      ⟨List.idxOf (⟨0, Nat.one_pos⟩ : Fin 1) (vecScatter N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is `0`: the operand's one axis is inserted. -/
theorem vecScatter_window0 {N E : Nat}
    (wf : ScatterDims.WF ⟨1, ![N]⟩ ⟨2, ![E, 1]⟩ ⟨1, ![E]⟩ [] [0] [0] 1) (e : Fin E) :
    (vecScatter N E wf).window (ix1 e) ⟨0, Nat.one_pos⟩ = 0 := by
  unfold ScatterDims.window
  rw [dif_neg (by simp [ScatterDims.sKept, Shape.kept])]

/-- WHERE AN UPDATE LANDS: update `e` of the flat scatter lands on operand entry `v` exactly when the scatter index
    `idx[e, 0]`, read signed and not clamped, is `v`. -/
theorem vecScatter_lands {N E w : Nat}
    (wf : ScatterDims.WF ⟨1, ![N]⟩ ⟨2, ![E, 1]⟩ ⟨1, ![E]⟩ [] [0] [0] 1)
    (idx : IVec ⟨2, ![E, 1]⟩ w) (e : Fin E) (v : Fin N) :
    (vecScatter N E wf).resultIdx? (ix1 e) idx = some (ix1 v) ↔ (idx (ix2 e 0)).toInt = (v.val : Int) := by
  have hs0 := vecScatter_start0 wf idx e
  have hw0 := vecScatter_window0 wf e
  unfold ScatterDims.resultIdx?
  constructor
  · intro h
    split at h
    · have hf := Option.some.inj h
      have h0 := congrArg (fun f => (f ⟨0, Nat.one_pos⟩).val) hf
      simp only [hs0, hw0] at h0
      rename_i hin
      have hin0 := (hin ⟨0, Nat.one_pos⟩).1
      simp only [hs0, hw0] at hin0
      change ((idx (ix2 e 0)).toInt + ((0 : Nat) : Int)).toNat = v.val at h0
      omega
    · exact absurd h (by simp)
  · intro hv
    have hin : ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Nat) := by
      intro a
      match a with
      | ⟨0, _⟩ =>
        rw [hs0, hw0, hv]
        have := v.isLt
        change 0 ≤ (v.val : Int) + ((0 : Nat) : Int) ∧ (v.val : Int) + ((0 : Nat) : Int) < (N : Int)
        omega
    rw [dif_pos hin]
    congr 1
    funext a
    refine Fin.ext ?_
    match a with
    | ⟨0, _⟩ =>
      change ((vecScatter N E wf).start (ix1 e) idx ⟨0, Nat.one_pos⟩
        + ((vecScatter N E wf).window (ix1 e) ⟨0, Nat.one_pos⟩ : Nat)).toNat = v.val
      rw [hs0, hw0, hv]; omega

/-! ## The flat count is the column count -/

/-- A scatter-add of one constant `u` per update into one constant `z` per entry gives node `v` the same value whether
    the updates are a flat array `[E]` scattered into `[N]` or a column `[E, 1]` scattered into `[N, 1]`: in both the
    updates that land on `v` are the edges whose index, read signed, is `v`. -/
theorem flat_eq_column {N E w : Nat}
    (wfV : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (idx : IVec ⟨2, ![E, 1]⟩ w) (z u : EReal) (v : Fin N) :
    Ideal.hostScatterAdd (vecScatter N E wfV) (fun _ => z) idx (fun _ => u) (ix1 v)
      = Ideal.hostScatterAdd (rowScatter N E 1 wfR) (fun _ => z) idx (fun _ => u) (ix2 v 0) := by
  unfold Ideal.hostScatterAdd
  refine congrArg (z + ·) ?_
  refine Finset.sum_nbij' (fun j => ix2 (j 0) 0) (fun k => ix1 (k 0)) ?_ ?_ ?_ ?_ ?_
  · intro j hj
    rw [Finset.mem_filter] at hj ⊢
    refine ⟨Finset.mem_univ _, ?_⟩
    have hj' := hj.2
    rw [eq_ix1 j] at hj'
    exact (rowScatter_lands wfR idx (j 0) 0 0 v).2 ⟨(vecScatter_lands wfV idx (j 0) v).1 hj', rfl⟩
  · intro k hk
    rw [Finset.mem_filter] at hk ⊢
    refine ⟨Finset.mem_univ _, ?_⟩
    have hk' := hk.2
    rw [eq_ix2 k] at hk'
    have h1 := ((rowScatter_lands wfR idx (k 0) (k 1) 0 v).1 hk').1
    exact (vecScatter_lands wfV idx (k 0) v).2 h1
  · intro j _
    exact (eq_ix1 j).symm
  · intro k _
    funext a
    refine Fin.ext ?_
    match a with
    | ⟨0, _⟩ => rfl
    | ⟨1, _⟩ =>
      show (0 : Nat) = (k ⟨1, Nat.one_lt_two⟩).val
      have h : (k ⟨1, Nat.one_lt_two⟩).val < 1 := (k ⟨1, Nat.one_lt_two⟩).isLt
      omega
  · intro j _
    rfl

/-! ## A count is a natural number -/

/-- Adding the extended real one to itself `n` times gives the real number `n`. -/
theorem nsmul_one (n : ℕ) : n • (1 : EReal) = ((n : ℝ) : EReal) := by
  induction n with
  | zero => simp
  | succ k ih => rw [succ_nsmul, ih, Nat.cast_succ, EReal.coe_add, EReal.coe_one]

/-- Zero plus a sum of ones over a finite set is the set's number of elements. -/
theorem zero_add_sum_ones {ι : Type*} (S : Finset ι) :
    (0 : EReal) + ∑ _j ∈ S, (1 : EReal) = ((S.card : ℝ) : EReal) := by
  rw [zero_add, Finset.sum_const, nsmul_one]

/-- A scatter-add of ones into zeros holds, at every entry, a natural number: the number of updates that land there. -/
theorem count_nat {s si su : Shape} (d : ScatterDims s si su) {w : Nat} (idx : IVec si w) (i : s.Idx) :
    ∃ n : ℕ, Ideal.hostScatterAdd d (fun _ => (0 : EReal)) idx (fun _ => (1 : EReal)) i = ((n : ℝ) : EReal) := by
  unfold Ideal.hostScatterAdd
  exact ⟨_, zero_add_sum_ones _⟩

/-! ## Multiplying by the reciprocal of a count is dividing by it -/

/-- For a natural number `n`, the larger of `n` and one is a nonzero real number, so on every extended real `a` the
    product with its reciprocal is the quotient by it. -/
theorem mul_recip_eq_div (a : EReal) (n : ℕ) :
    a * Ideal.div 1 (max ((n : ℝ) : EReal) 1) = Ideal.div a (max ((n : ℝ) : EReal) 1) := by
  have hmax : max ((n : ℝ) : EReal) 1 = ((max (n : ℝ) 1 : ℝ) : EReal) := by
    rw [← EReal.coe_one]
    exact (EReal.coe_strictMono.monotone.map_max (a := (n : ℝ)) (b := 1)).symm
  have hne : (max (n : ℝ) 1 : ℝ) ≠ 0 := by
    have : (1 : ℝ) ≤ max (n : ℝ) 1 := le_max_right _ _
    exact ne_of_gt (lt_of_lt_of_le one_pos this)
  rw [hmax, Ideal.div_coe hne, Ideal.div_coe hne, one_mul]

end Cert.LibDegree

end
-- ==== Proof.GraphReal.lean ====
/-
  The graph quantities of the plain program are real numbers.

  The in-degree array is a scatter-add of ones into zeros, so each of its entries is a natural number n, the number
  of edges that end at the node.  Adding the float word 1.0, which denotes the number one, gives the real number
  n + 1 > 0, whose reciprocal square root is a real number.  Hence every node's inverse root degree is real, and so is
  its square.

  An edge's weight is the product of the inverse root degrees gathered at its two ends: a gather reads entries of its
  operand, so the weight is real.  The neighbourhood sum of a real matrix h is a scatter-add, into zeros, of the gathered
  rows of h each times the edge's weight: the updates are products of real numbers, and a scatter-add of real updates
  into real entries is an entry plus a finite sum of updates, so every entry of the neighbourhood sum is real.

  Each fact is first stated for arrays of any shape and then read off at the program's arrays.
-/
import proofs.«134670_j14499809591810_1_alg».proof.Proof.RefReadStages
import proofs.«134670_j14499809591810_1_alg».proof.Proof.LibRealEntries
import proofs.«134670_j14499809591810_1_alg».proof.Proof.LibRealOps
import proofs.«134670_j14499809591810_1_alg».proof.Proof.LibDegree

noncomputable section

open scoped BigOperators

namespace Cert.GraphReal

open Cert.ReferenceIdeal Cert.ReferenceIdeal.Read Cert.GcnSpec Cert.RefRead Idealize.ShloMosaic
  Idealize.ShloMosaic.ValueIdx Idealize.ShloMosaic.RealEntries

/-! ### For arrays of any shape -/

section General

variable {s si su : Shape} {w : Nat} (d : ScatterDims s si su) (idx : IVec si w)
  (z o : FVec Ideal s .f32) (u : FVec Ideal su .f32)

/-- A scatter-add of ones into zeros, plus one, is n + 1 for a natural number n, at every entry. -/
theorem count_succ (hz : ∀ i, z i = (0 : EReal)) (hu : ∀ j, u j = (1 : EReal)) (ho : ∀ i, o i = (1 : EReal))
    (i : s.Idx) : ∃ n : ℕ, addf (Host.scatterAdd d z idx u) o i = (((n : ℝ) + 1 : ℝ) : EReal) := by
  have hz' : z = fun _ => (0 : EReal) := funext hz
  have hu' : u = fun _ => (1 : EReal) := funext hu
  obtain ⟨n, hn⟩ := Cert.LibDegree.count_nat d idx i
  refine ⟨n, ?_⟩
  have hc : Host.scatterAdd d z idx u i = ((n : ℝ) : EReal) := by
    show Ideal.hostScatterAdd d z idx u i = _
    rw [hz', hu']
    exact hn
  rw [addf_apply, hc, ho, EReal.coe_add, EReal.coe_one]

/-- The reciprocal square root of (a scatter-add of ones into zeros, plus one) is a real number at every entry. -/
theorem rsqrt_count_succ_real (hz : ∀ i, z i = (0 : EReal)) (hu : ∀ j, u j = (1 : EReal))
    (ho : ∀ i, o i = (1 : EReal)) (i : s.Idx) :
    IsReal (Host.rsqrt (addf (Host.scatterAdd d z idx u) o) i) := by
  obtain ⟨n, hn⟩ := count_succ d idx z o u hz hu ho i
  show IsReal (Ideal.rsqrt (addf (Host.scatterAdd d z idx u) o i))
  rw [hn]
  exact IsReal.rsqrt_pos (by positivity)

variable {t ti tu : Shape} {w' : Nat}

/-- The product of two gathers of an array of real numbers holds real numbers. -/
theorem gathered_product_real (g : GatherDims t ti tu) (D : t.Idx → EReal) (hD : ∀ i, IsReal (D i))
    (i1 i2 : IVec ti w') (j : tu.Idx) :
    IsReal (mulf (F := Ideal) (φ := .f32) (Host.gather g D i1) (Host.gather g D i2) j) := by
  rw [mulf_apply]
  exact (gather_real g D i1 hD j).mul (gather_real g D i2 hD j)

/-- A scatter-add, into real entries, of gathered real entries times real weights holds real numbers. -/
theorem scatter_gathered_real (dg : GatherDims t ti tu) (ds : ScatterDims t ti tu)
    (Z : FVec Ideal t .f32) (hZ : ∀ i, IsReal (Z i)) (ig is : IVec ti w') (H : t.Idx → EReal)
    (hH : ∀ i, IsReal (H i)) (W : FVec Ideal tu .f32) (hW : ∀ j, IsReal (W j)) (i : t.Idx) :
    IsReal (Host.scatterAdd (F := Ideal) ds Z is (mulf (Host.gather dg H ig) W) i) := by
  refine scatterAdd_real _ _ _ _ hZ (fun j => ?_) _
  rw [mulf_apply]
  exact (gather_real _ _ _ hH j).mul (hW j)

end General

/-! ### The program's constant arrays -/

/-- The float word 1.0 denotes the number one. -/
theorem one_word : Ideal.ofBits .f32 0x3F800000#32 = (1 : EReal) := by
  simp [Ideal.ofBits, Ideal.ieee, -EReal.coe_mul]; norm_num

/-- The degree scatter's operand is zero everywhere. -/
theorem zeros_nodes (i : S100000.Idx) : val_main_v5 (F := Ideal) i = (0 : EReal) := by
  rw [val_main_v5_apply, val_main_cst_apply]
  exact Ideal.ofBits_zero_f32

/-- The degree scatter's updates are one everywhere. -/
theorem ones_edges (j : S1600000.Idx) : val_main_v12 (F := Ideal) j = (1 : EReal) := by
  rw [val_main_v12_apply, val_main_cst_1_apply]
  exact one_word

/-- The array added to the in-degrees is one everywhere. -/
theorem ones_nodes (i : S100000.Idx) : val_main_v14 (F := Ideal) i = (1 : EReal) := by
  rw [val_main_v14_apply, val_main_cst_2_apply]
  exact one_word

/-- The neighbourhood scatter's operand is real (zero) everywhere. -/
theorem zeros_matrix_real (i : S100000x128.Idx) : IsReal (val_main_v42 (F := Ideal) i) := by
  rw [val_main_v42_apply, val_main_cst_9_apply]
  exact zero_word_real

section
variable (x1 : (⟨S2x1600000, .i32⟩ : BufTy).Contents (Elt Ideal))

/-! ### The inverse root degree -/

/-- The in-degree plus one is the real number n + 1 for a natural number n. -/
theorem degree_succ (i : S100000.Idx) : ∃ n : ℕ, val_main_v15 (F := Ideal) x1 i = (((n : ℝ) + 1 : ℝ) : EReal) := by
  unfold val_main_v15 val_main_v13
  exact count_succ _ _ _ _ _ zeros_nodes ones_edges ones_nodes i

/-- Every node's inverse root degree is a real number. -/
theorem invRootDegree_real (i : S100000.Idx) : IsReal (val_main_v16 (F := Ideal) x1 i) := by
  unfold val_main_v16 val_main_v15 val_main_v13
  exact rsqrt_count_succ_real _ _ _ _ _ zeros_nodes ones_edges ones_nodes i

/-- Every node's squared inverse root degree is a real number. -/
theorem d2Ref_real : ∀ p, IsReal (d2Ref x1 p) := by
  intro p
  unfold d2Ref
  exact (invRootDegree_real x1 (ix1 p)).mul (invRootDegree_real x1 (ix1 p))

/-! ### The neighbourhood sum -/

/-- Every edge's weight, the product of the inverse root degrees at its two ends, is a real number. -/
theorem edgeWeight_real (j : S1600000x128.Idx) : IsReal (val_main_v40 (F := Ideal) x1 j) := by
  rw [val_main_v40_apply, val_main_v32_apply]
  unfold val_main_v31 val_main_v23 val_main_v30
  exact gathered_product_real _ _ (invRootDegree_real x1) _ _ _

/-- The neighbourhood sum of a matrix of real numbers is a matrix of real numbers. -/
theorem aggOfRef_real : ∀ h : Mat 128, (∀ p q, IsReal (h p q)) → ∀ p q, IsReal (aggOfRef x1 h p q) := by
  intro h hh p q
  unfold aggOfRef
  exact scatter_gathered_real _ _ _ zeros_matrix_real _ _ _ (fun i => hh (i 0) (i 1)) _ (edgeWeight_real x1) _

end

end Cert.GraphReal

end
-- ==== Proof.GraphAgree.lean ====
/-
  The two programs compute the same graph quantities from the edge list.

  Both programs take, from the 2 × E edge list, the source and destination node of every edge, wrap a node index
  below zero by the node count, count the edges that land on a node and add one, take the reciprocal square root, and
  weigh an edge by the product of the inverse roots at its two ends; both sum, into each destination node's row, the
  source node's row times the edge's weight. They spell these with the same operations in the same order, on
  shapes that are the same literals and with gather and scatter dimension numbers that are the same records, so every
  quantity of one program is the other's by unfolding names alone: no gather and no scatter-add is ever read at an
  index. The squared inverse root degree is held by one program as a one-column matrix and by the other as a vector;
  the one-column matrix reads, at (p, 0), the vector at p.
-/
import proofs.«134670_j14499809591810_1_alg».proof.Proof.RefReadStages
import proofs.«134670_j14499809591810_1_alg».proof.Proof.KernelConv

noncomputable section

open scoped BigOperators

namespace Cert.GraphAgree

open Cert.KernelIdeal.Stages Cert.ReferenceIdeal.Read Cert.RefRead Cert.GcnSpec
open Idealize.ShloMosaic Idealize.ShloMosaic.ValueIdx

variable (ei : Cert.KernelIdeal.S2x1600000.Idx → BitVec 32)

/-- The destination nodes are the same row of the edge list. -/
theorem dst_agree : dstOf ei = val_main_v3 (F := Ideal) ei := rfl

/-- The source nodes are the same row of the edge list. -/
theorem src_agree : srcOf ei = val_main_v1 (F := Ideal) ei := rfl

/-- The wrapped destination nodes that index the degree count. -/
theorem wrappedDst_count : wrapped (dstOf ei) = val_main_v11 (F := Ideal) ei := rfl

/-- The wrapped source nodes at which an edge's first inverse root is gathered. -/
theorem wrappedSrc_weight : wrapped (srcOf ei) = val_main_v22 (F := Ideal) ei := rfl

/-- The wrapped destination nodes at which an edge's second inverse root is gathered. -/
theorem wrappedDst_weight : wrapped (dstOf ei) = val_main_v29 (F := Ideal) ei := rfl

/-- The wrapped source nodes at which the feature rows are gathered. -/
theorem wrappedSrc_rows : wrapped (srcOf ei) = val_main_v38 (F := Ideal) ei := rfl

/-- The inverse root degrees are the same: the reciprocal square root of the same count plus one. -/
theorem invRoot_agree : invRootDegree ei = val_main_v16 (F := Ideal) ei := rfl

/-- The edge weights are the same products of the same gathered inverse roots. -/
theorem edgeWeight_agree : edgeWeightColumn ei = val_main_v32 (F := Ideal) ei := rfl

/-- The neighbourhood sum of a feature array is the same scatter-add of the same scaled gathered rows. -/
theorem neighbourSum_agree (h : Cert.KernelIdeal.S100000x128.Idx → EReal) :
    neighbourSum ei h
      = Host.scatterAdd (F := Ideal) (φ := .f32) Cert.ReferenceIdeal.scatter_S100000x128_S1600000x1_S1600000x128_1_0_0_1
          (val_main_v42 (F := Ideal)) (val_main_v43 (F := Ideal) ei)
          (mulf (F := Ideal) (φ := .f32)
            (Host.gather Cert.ReferenceIdeal.gather_S100000x128_S1600000x1_S1600000x128_1_0_n_n_0_1_1128 h
              (val_main_v38 (F := Ideal) ei))
            (val_main_v40 (F := Ideal) ei)) := rfl

/-- The two programs' neighbourhood-sum operators on matrices are the same. -/
theorem aggOf_agree : aggOfK ei = aggOfRef ei := by
  funext H p q
  unfold aggOfK aggOfRef
  rw [neighbourSum_agree]

/-- The two programs' squared inverse root degrees are the same. -/
theorem d2_agree : d2K ei = d2Ref ei := by
  funext p
  unfold d2K d2Ref sqInvRootColumn
  refine (Cert.StageForms.shapeCast_a_a1_apply _ _ p (0 : Fin 1)).trans ?_
  rw [invRoot_agree]
  exact mulf_apply (φ := .f32) (val_main_v16 (F := Ideal) ei) (val_main_v16 (F := Ideal) ei) (ix1 p)

end Cert.GraphAgree

end
-- ==== Proof.FiniteInputs.lean ====
/-
  Under the precondition every float input holds real numbers.

  The precondition is a conjunction, over the nineteen float arguments, of "every entry's absolute value is below
  +infinity": each conjunct is a reduction by "and", over all axes and from the constant 1, of the flags
  |a i| < +infinity, and the conjunction of the nineteen results is 1.  A conjunction that is 1 has every conjunct 1; a
  reduction by "and" over all axes that is 1 met only flags that are 1; and an extended real whose absolute value is
  below +infinity is a real number.  So every entry of every float argument is a real number.
-/
import proofs.«134670_j14499809591810_1_alg».proof.Pre_finite_inputs
import Idealize.ShloMosaic.Lib.ReduceAll
import proofs.«134670_j14499809591810_1_alg».proof.Proof.LibRealEntries

noncomputable section

namespace Cert.FiniteInputs

open Idealize.ShloMosaic Idealize.ShloMosaic.RealEntries Cert.Pre_finite_inputs

/-- The shape of a scalar has a single index. -/
instance subsingleton_scalar_idx : Subsingleton S_.Idx := ⟨fun a b => funext fun d => d.elim0⟩

/-- One conjunct read back: when the reduction by "and", over all axes, of the flags |a i| < +infinity is 1, every
    entry of a is a real number. -/
theorem real_of_all_flags {s : Shape} {axes : List (Fin s.rank)} (a : FVec Ideal s .f32)
    (bc : S_.BroadcastsInDim s (![] : Fin 0 → Fin s.rank)) (red : s.ReducesTo axes S_) (hu : 0 < S_.numel)
    (e : Host.reduce IntOp.andi (cmpf .olt (Host.absf a) (broadcastInDim s ![] bc (constant S_ .f32 0x7F800000#32)))
          (constantI S_ 1 1#1) red hu ValueIdx.ix0 = 1#1) : ∀ i, IsReal (a i) := fun i =>
  real_of_flag a _ (fun _ => rfl) i (Host.reduce_andi_all _ _ red hu ValueIdx.ix0 e i)

variable [Facts]
  (a0 : FVec Ideal S100000x128 .f32)
  (a1 : IVec S2x1600000 32)
  (a2 : FVec Ideal S128x128 .f32)
  (a3 : FVec Ideal S128 .f32)
  (a4 : FVec Ideal S128 .f32)
  (a5 : FVec Ideal S128 .f32)
  (a6 : FVec Ideal S128x128 .f32)
  (a7 : FVec Ideal S128 .f32)
  (a8 : FVec Ideal S128 .f32)
  (a9 : FVec Ideal S128 .f32)
  (a10 : FVec Ideal S128x256 .f32)
  (a11 : FVec Ideal S256 .f32)
  (a12 : FVec Ideal S256 .f32)
  (a13 : FVec Ideal S256 .f32)
  (a14 : FVec Ideal S256x128 .f32)
  (a15 : FVec Ideal S128 .f32)
  (a16 : FVec Ideal S128 .f32)
  (a17 : FVec Ideal S128 .f32)
  (a18 : FVec Ideal S128x1 .f32)
  (a19 : FVec Ideal S1 .f32)
  (h : fn (F := Ideal) a0 a1 a2 a3 a4 a5 a6 a7 a8 a9 a10 a11 a12 a13 a14 a15 a16 a17 a18 a19 = fun _ => 1#1)

include h

/-- Under the precondition every entry of each of the nineteen float arguments (all but argument 1, the integer edge
    list) is a real number. -/
theorem inputs_real :
    (∀ i, IsReal (a0 i)) ∧
      (∀ i, IsReal (a2 i)) ∧
      (∀ i, IsReal (a3 i)) ∧
      (∀ i, IsReal (a4 i)) ∧
      (∀ i, IsReal (a5 i)) ∧
      (∀ i, IsReal (a6 i)) ∧
      (∀ i, IsReal (a7 i)) ∧
      (∀ i, IsReal (a8 i)) ∧
      (∀ i, IsReal (a9 i)) ∧
      (∀ i, IsReal (a10 i)) ∧
      (∀ i, IsReal (a11 i)) ∧
      (∀ i, IsReal (a12 i)) ∧
      (∀ i, IsReal (a13 i)) ∧
      (∀ i, IsReal (a14 i)) ∧
      (∀ i, IsReal (a15 i)) ∧
      (∀ i, IsReal (a16 i)) ∧
      (∀ i, IsReal (a17 i)) ∧
      (∀ i, IsReal (a18 i)) ∧
      (∀ i, IsReal (a19 i)) := by
  have h0 := congrFun h ValueIdx.ix0
  dsimp only [fn, fn_part1, fn_part2, fn_part3, fn_part4, fn_part5] at h0
  simp only [Idealize.ShloMosaic.andi, IntOp.andi_eq_one] at h0
  obtain ⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩ := h0
  exact ⟨real_of_all_flags _ _ _ _ h0,
    real_of_all_flags _ _ _ _ h2,
    real_of_all_flags _ _ _ _ h3,
    real_of_all_flags _ _ _ _ h4,
    real_of_all_flags _ _ _ _ h5,
    real_of_all_flags _ _ _ _ h6,
    real_of_all_flags _ _ _ _ h7,
    real_of_all_flags _ _ _ _ h8,
    real_of_all_flags _ _ _ _ h9,
    real_of_all_flags _ _ _ _ h10,
    real_of_all_flags _ _ _ _ h11,
    real_of_all_flags _ _ _ _ h12,
    real_of_all_flags _ _ _ _ h13,
    real_of_all_flags _ _ _ _ h14,
    real_of_all_flags _ _ _ _ h15,
    real_of_all_flags _ _ _ _ h16,
    real_of_all_flags _ _ _ _ h17,
    real_of_all_flags _ _ _ _ h18,
    real_of_all_flags _ _ _ _ h19⟩

/-- Under the precondition every entry of argument 0 is a real number. -/
theorem real_arg0 : ∀ i, IsReal (a0 i) := (inputs_real a0 a1 a2 a3 a4 a5 a6 a7 a8 a9 a10 a11 a12 a13 a14 a15 a16 a17 a18 a19 h).1

/-- Under the precondition every entry of argument 2 is a real number. -/
theorem real_arg2 : ∀ i, IsReal (a2 i) := (inputs_real a0 a1 a2 a3 a4 a5 a6 a7 a8 a9 a10 a11 a12 a13 a14 a15 a16 a17 a18 a19 h).2.1

/-- Under the precondition every entry of argument 3 is a real number. -/
theorem real_arg3 : ∀ i, IsReal (a3 i) := (inputs_real a0 a1 a2 a3 a4 a5 a6 a7 a8 a9 a10 a11 a12 a13 a14 a15 a16 a17 a18 a19 h).2.2.1

/-- Under the precondition every entry of argument 4 is a real number. -/
theorem real_arg4 : ∀ i, IsReal (a4 i) := (inputs_real a0 a1 a2 a3 a4 a5 a6 a7 a8 a9 a10 a11 a12 a13 a14 a15 a16 a17 a18 a19 h).2.2.2.1

/-- Under the precondition every entry of argument 5 is a real number. -/
theorem real_arg5 : ∀ i, IsReal (a5 i) := (inputs_real a0 a1 a2 a3 a4 a5 a6 a7 a8 a9 a10 a11 a12 a13 a14 a15 a16 a17 a18 a19 h).2.2.2.2.1

/-- Under the precondition every entry of argument 6 is a real number. -/
theorem real_arg6 : ∀ i, IsReal (a6 i) := (inputs_real a0 a1 a2 a3 a4 a5 a6 a7 a8 a9 a10 a11 a12 a13 a14 a15 a16 a17 a18 a19 h).2.2.2.2.2.1

/-- Under the precondition every entry of argument 7 is a real number. -/
theorem real_arg7 : ∀ i, IsReal (a7 i) := (inputs_real a0 a1 a2 a3 a4 a5 a6 a7 a8 a9 a10 a11 a12 a13 a14 a15 a16 a17 a18 a19 h).2.2.2.2.2.2.1

/-- Under the precondition every entry of argument 8 is a real number. -/
theorem real_arg8 : ∀ i, IsReal (a8 i) := (inputs_real a0 a1 a2 a3 a4 a5 a6 a7 a8 a9 a10 a11 a12 a13 a14 a15 a16 a17 a18 a19 h).2.2.2.2.2.2.2.1

/-- Under the precondition every entry of argument 9 is a real number. -/
theorem real_arg9 : ∀ i, IsReal (a9 i) := (inputs_real a0 a1 a2 a3 a4 a5 a6 a7 a8 a9 a10 a11 a12 a13 a14 a15 a16 a17 a18 a19 h).2.2.2.2.2.2.2.2.1

/-- Under the precondition every entry of argument 10 is a real number. -/
theorem real_arg10 : ∀ i, IsReal (a10 i) := (inputs_real a0 a1 a2 a3 a4 a5 a6 a7 a8 a9 a10 a11 a12 a13 a14 a15 a16 a17 a18 a19 h).2.2.2.2.2.2.2.2.2.1

/-- Under the precondition every entry of argument 11 is a real number. -/
theorem real_arg11 : ∀ i, IsReal (a11 i) := (inputs_real a0 a1 a2 a3 a4 a5 a6 a7 a8 a9 a10 a11 a12 a13 a14 a15 a16 a17 a18 a19 h).2.2.2.2.2.2.2.2.2.2.1

/-- Under the precondition every entry of argument 12 is a real number. -/
theorem real_arg12 : ∀ i, IsReal (a12 i) := (inputs_real a0 a1 a2 a3 a4 a5 a6 a7 a8 a9 a10 a11 a12 a13 a14 a15 a16 a17 a18 a19 h).2.2.2.2.2.2.2.2.2.2.2.1

/-- Under the precondition every entry of argument 13 is a real number. -/
theorem real_arg13 : ∀ i, IsReal (a13 i) := (inputs_real a0 a1 a2 a3 a4 a5 a6 a7 a8 a9 a10 a11 a12 a13 a14 a15 a16 a17 a18 a19 h).2.2.2.2.2.2.2.2.2.2.2.2.1

/-- Under the precondition every entry of argument 14 is a real number. -/
theorem real_arg14 : ∀ i, IsReal (a14 i) := (inputs_real a0 a1 a2 a3 a4 a5 a6 a7 a8 a9 a10 a11 a12 a13 a14 a15 a16 a17 a18 a19 h).2.2.2.2.2.2.2.2.2.2.2.2.2.1

/-- Under the precondition every entry of argument 15 is a real number. -/
theorem real_arg15 : ∀ i, IsReal (a15 i) := (inputs_real a0 a1 a2 a3 a4 a5 a6 a7 a8 a9 a10 a11 a12 a13 a14 a15 a16 a17 a18 a19 h).2.2.2.2.2.2.2.2.2.2.2.2.2.2.1

/-- Under the precondition every entry of argument 16 is a real number. -/
theorem real_arg16 : ∀ i, IsReal (a16 i) := (inputs_real a0 a1 a2 a3 a4 a5 a6 a7 a8 a9 a10 a11 a12 a13 a14 a15 a16 a17 a18 a19 h).2.2.2.2.2.2.2.2.2.2.2.2.2.2.2.1

/-- Under the precondition every entry of argument 17 is a real number. -/
theorem real_arg17 : ∀ i, IsReal (a17 i) := (inputs_real a0 a1 a2 a3 a4 a5 a6 a7 a8 a9 a10 a11 a12 a13 a14 a15 a16 a17 a18 a19 h).2.2.2.2.2.2.2.2.2.2.2.2.2.2.2.2.1

/-- Under the precondition every entry of argument 18 is a real number. -/
theorem real_arg18 : ∀ i, IsReal (a18 i) := (inputs_real a0 a1 a2 a3 a4 a5 a6 a7 a8 a9 a10 a11 a12 a13 a14 a15 a16 a17 a18 a19 h).2.2.2.2.2.2.2.2.2.2.2.2.2.2.2.2.2.1

/-- Under the precondition every entry of argument 19 is a real number. -/
theorem real_arg19 : ∀ i, IsReal (a19 i) := (inputs_real a0 a1 a2 a3 a4 a5 a6 a7 a8 a9 a10 a11 a12 a13 a14 a15 a16 a17 a18 a19 h).2.2.2.2.2.2.2.2.2.2.2.2.2.2.2.2.2.2

end Cert.FiniteInputs

end
-- ==== Proof.lean ====
/-
  The certificate of a two-layer graph-convolution classifier: the Pallas kernel against its plain reference.

  Both programs compute, on 100000 nodes, two graph-convolution layers and two dense layers, each followed by a
  normalisation of every column by its mean and variance over the nodes, a scale, a shift and a clamp at zero, and then
  a one-column dense head through the logistic function.  The kernel runs the dense arithmetic in eleven pipelined
  regions over blocks of 5000 rows (matrix products, the pre-activation with its two column moments accumulated over
  the grid, the normalisation, the head) and leaves the gathers and scatter-adds of the graph part to the same host
  operations the reference uses.  On the extended reals the two programs differ in one place: the kernel takes a
  column's variance from one pass of moments, (Σ y²)/n − ((Σ y)/n)², the reference centred, (Σ (y − mean)²)/n.  The two
  agree when every entry is a real number; the precondition makes every float input finite, and every later stage keeps
  real entries (a degree is a count plus one, so its inverse root is a positive real; a variance plus ε is a positive
  real).  So the results are equal entry by entry.

  The three frames are the generated frame runs (the reference's with its result dropped); the idealisation's ledger is
  empty; the value claim chains, for the kernel, each region's closed form through the program's segments to the
  specification's network with the one-pass variance, and, for the reference, the host operations read one at a time
  to the same network with the centred variance.
-/
import proofs.«134670_j14499809591810_1_alg».proof.Defs
import proofs.«134670_j14499809591810_1_alg».proof.Proof.Gen.Kernel
import proofs.«134670_j14499809591810_1_alg».proof.Proof.Gen.Kernel.Skeleton
import proofs.«134670_j14499809591810_1_alg».proof.Proof.Gen.Kernel.Launch
import proofs.«134670_j14499809591810_1_alg».proof.Proof.Gen.Kernel.Points
import proofs.«134670_j14499809591810_1_alg».proof.Proof.Gen.Kernel.Frame
import proofs.«134670_j14499809591810_1_alg».proof.Proof.Gen.KernelIdeal
import proofs.«134670_j14499809591810_1_alg».proof.Proof.Gen.KernelIdeal.Skeleton
import proofs.«134670_j14499809591810_1_alg».proof.Proof.Gen.KernelIdeal.Launch
import proofs.«134670_j14499809591810_1_alg».proof.Proof.Gen.KernelIdeal.Points
import proofs.«134670_j14499809591810_1_alg».proof.Proof.Gen.KernelIdeal.Frame
import proofs.«134670_j14499809591810_1_alg».proof.Proof.Gen.ReferenceIdeal
import proofs.«134670_j14499809591810_1_alg».proof.Proof.Gen.Pre_finite_inputs
import proofs.«134670_j14499809591810_1_alg».proof.Proof.KernelRun
import proofs.«134670_j14499809591810_1_alg».proof.Proof.KernelChain
import proofs.«134670_j14499809591810_1_alg».proof.Proof.RefRunPatched
import proofs.«134670_j14499809591810_1_alg».proof.Proof.RefRunValue
import proofs.«134670_j14499809591810_1_alg».proof.Proof.RefRead
import proofs.«134670_j14499809591810_1_alg».proof.Proof.GcnAlgebra
import proofs.«134670_j14499809591810_1_alg».proof.Proof.GraphReal
import proofs.«134670_j14499809591810_1_alg».proof.Proof.GraphAgree
import proofs.«134670_j14499809591810_1_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

/-- Every index of a one-column matrix is a row with column zero. -/
theorem column_index (i : (⟨2, ![100000, 1]⟩ : Shape).Idx) :
    i = ValueIdx.ix2 (n0 := 100000) (n1 := 1) (i 0) (0 : Fin 1) := by
  funext a
  match a with
  | ⟨0, _⟩ => rfl
  | ⟨1, _⟩ => exact Fin.ext (by have h : (i 1).val < 1 := (i 1).isLt; show (i 1).val = 0; omega)

set_option maxHeartbeats 4000000 in
/-- From memories that agree on the twenty arguments, finite on the kernel's side, the reference's result is the
    kernel's: entry by entry both are the network of the arguments, the reference with the centred variance, the kernel
    with the one-pass variance, and the two variances agree on real entries. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) = fun _ => 1#1)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.Value.res_main_v223 m' c = Cert.KernelIdeal.Gen.W21 m ρ c (Proc.devRef .tc Cert.KernelIdeal.main_v105) := by
  obtain ⟨e0, e1, e2, e3, e4, e5, e6, e7, e8, e9, e10, e11, e12, e13, e14, e15, e16, e17, e18, e19⟩ := hagree
  rw [Cert.RefRunValue.result_is_stage m' c, e0, e1, e2, e3, e4, e5, e6, e7, e8, e9, e10, e11, e12, e13, e14, e15, e16, e17, e18, e19]
  funext i
  refine (Cert.RefRead.ref_result_at _ _ _ _ _ _ _ _ _ _ _ _ _ _ _ _ _ _ _ _ i).trans ?_
  refine Eq.trans ?_ ((congrArg (fun j : (⟨2, ![100000, 1]⟩ : Shape).Idx => (Cert.KernelIdeal.Gen.W21 m ρ c (Proc.devRef .tc Cert.KernelIdeal.main_v105) : (⟨2, ![100000, 1]⟩ : Shape).Idx → EReal) j)
    (column_index i)).trans (Cert.KernelIdeal.Stages.kernel_result m ρ c (i 0))).symm
  rw [Cert.GraphAgree.aggOf_agree, Cert.GraphAgree.d2_agree]
  exact (congrFun (Cert.GcnSpec.net_agree _ (Cert.GraphReal.aggOfRef_real _) _ _ _ _ _ _ _ _ _ _ _ _ _ _ _ _ _ _ _ _
    (Cert.GraphReal.d2Ref_real _)
    (fun a b => Cert.FiniteInputs.real_arg0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix2 a b))
    (fun a b => Cert.FiniteInputs.real_arg2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix2 a b))
    (fun a => Cert.FiniteInputs.real_arg3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix1 a))
    (fun a => Cert.FiniteInputs.real_arg4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix1 a))
    (fun a => Cert.FiniteInputs.real_arg5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix1 a))
    (fun a b => Cert.FiniteInputs.real_arg6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix2 a b))
    (fun a => Cert.FiniteInputs.real_arg7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix1 a))
    (fun a => Cert.FiniteInputs.real_arg8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix1 a))
    (fun a => Cert.FiniteInputs.real_arg9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix1 a))
    (fun a b => Cert.FiniteInputs.real_arg10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix2 a b))
    (fun a => Cert.FiniteInputs.real_arg11 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix1 a))
    (fun a => Cert.FiniteInputs.real_arg12 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix1 a))
    (fun a => Cert.FiniteInputs.real_arg13 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix1 a))
    (fun a b => Cert.FiniteInputs.real_arg14 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix2 a b))
    (fun a => Cert.FiniteInputs.real_arg15 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (Idealize.ShloMosaic.ValueIdx.ix1 a))) (i 0)).symm

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing: its ledger is empty. -/
theorem preserves : Cert.preserves_Kernel_KernelIdeal := trivial

theorem algebraic : Cert.algebraic_KernelIdeal_ReferenceIdeal := by
  intro m ρ m' ρ' hpre hagree
  refine ⟨fun c => Cert.KernelIdeal.Gen.W21 m ρ c (Proc.devRef .tc Cert.KernelIdeal.main_v105), Cert.KernelIdeal.RunNamed.run_named (F := Ideal) m ρ, ?_⟩
  exact (θ_run Cert.ReferenceIdeal.defs _ _).mono (fun _ h c => ⟨(h c).1.trans (result_eq m ρ m' c (hpre c) (hagree c)), (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
